-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v94)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v94) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v119) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg12 : FVec F S128x64 .f32) (main_arg13 : FVec F S128x64 .f32) (main_arg14 : FVec F S64 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x64 .f32 := Host.absf main_arg12
  let main_cst_20 : FVec F S_ .f32 := constant S_ .f32 0x7F800000#32
  let main_v55 : FVec F S128x64 .f32 := broadcastInDim S128x64 ![] bcast_S_S128x64 main_cst_20
  let main_v56 : IVec S128x64 1 := cmpf .olt main_v54 main_v55
  let main_c_21 : IVec S_ 1 := constantI S_ 1 1#1
  let main_v57 : IVec S_ 1 := (fun x v => Host.reduce IntOp.andi x v reducesTo_S128x64_S_d0_1 h_S_) main_v56 main_c_21
  let main_v58 : IVec S_ 1 := andi main_v53 main_v57
  let main_v59 : FVec F S128x64 .f32 := Host.absf main_arg13
  let main_cst_22 : FVec F S_ .f32 := constant S_ .f32 0x7F800000#32
  let main_v60 : FVec F S128x64 .f32 := broadcastInDim S128x64 ![] bcast_S_S128x64 main_cst_22
  let main_v61 : IVec S128x64 1 := cmpf .olt main_v59 main_v60
  let main_c_23 : IVec S_ 1 := constantI S_ 1 1#1
  let main_v62 : IVec S_ 1 := (fun x v => Host.reduce IntOp.andi x v reducesTo_S128x64_S_d0_1 h_S_) main_v61 main_c_23
  let main_v63 : IVec S_ 1 := andi main_v58 main_v62
  let main_v64 : FVec F S64 .f32 := Host.absf main_arg14
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_v63 main_v67

def fn_part2 {F : FTy → Type} [FloatOps F] (main_arg8 : FVec F S128x128 .f32) (main_arg9 : FVec F S128 .f32) (main_arg10 : FVec F S128 .f32) (main_arg11 : FVec F S128 .f32) (main_arg12 : FVec F S128x64 .f32) (main_arg13 : FVec F S128x64 .f32) (main_arg14 : FVec F S64 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg12 main_arg13 main_arg14 main_v48 main_v49 main_v50

def fn_part1 {F : FTy → Type} [FloatOps F] (main_arg5 : FVec F S128 .f32) (main_arg6 : FVec F S128 .f32) (main_arg7 : FVec F S128x128 .f32) (main_arg8 : FVec F S128x128 .f32) (main_arg9 : FVec F S128 .f32) (main_arg10 : FVec F S128 .f32) (main_arg11 : FVec F S128 .f32) (main_arg12 : FVec F S128x64 .f32) (main_arg13 : FVec F S128x64 .f32) (main_arg14 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_arg11 main_arg12 main_arg13 main_arg14 main_v33

def fn {F : FTy → Type} [FloatOps F] (main_arg0 : FVec F S100000x128 .f32) (main_arg1 : IVec S2x1600000 32) (main_arg2 : FVec F S128x128 .f32) (main_arg3 : FVec F S128x128 .f32) (main_arg4 : FVec F S128 .f32) (main_arg5 : FVec F S128 .f32) (main_arg6 : FVec F S128 .f32) (main_arg7 : FVec F S128x128 .f32) (main_arg8 : FVec F S128x128 .f32) (main_arg9 : FVec F S128 .f32) (main_arg10 : FVec F S128 .f32) (main_arg11 : FVec F S128 .f32) (main_arg12 : FVec F S128x64 .f32) (main_arg13 : FVec F S128x64 .f32) (main_arg14 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_arg13 main_arg14 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S20x1x128 : Shape := ⟨3, ![20, 1, 128]⟩
abbrev S5000x128 : Shape := ⟨2, ![5000, 128]⟩
abbrev S1x1x128 : Shape := ⟨3, ![1, 1, 128]⟩
abbrev S1x64 : Shape := ⟨2, ![1, 64]⟩
abbrev S100000x64 : Shape := ⟨2, ![100000, 64]⟩
abbrev S5000x64 : Shape := ⟨2, ![5000, 64]⟩
abbrev S5000 : Shape := ⟨1, ![5000]⟩
abbrev S5000x1 : Shape := ⟨2, ![5000, 1]⟩

abbrev nBuf : Space → Nat
  | .hbm => 139
  | .vmem => 47
  | .smem => 0
  | _ => 0

abbrev hbmTy0_0 (i : Nat) : BufTy := match i % 128 with
  | 0 => ⟨S100000x128, .f32⟩
  | 1 => ⟨S2x1600000, .i32⟩
  | 2 => ⟨S128x128, .f32⟩
  | 3 => ⟨S128x128, .f32⟩
  | 4 => ⟨S128, .f32⟩
  | 5 => ⟨S128, .f32⟩
  | 6 => ⟨S128, .f32⟩
  | 7 => ⟨S128x128, .f32⟩
  | 8 => ⟨S128x128, .f32⟩
  | 9 => ⟨S128, .f32⟩
  | 10 => ⟨S128, .f32⟩
  | 11 => ⟨S128, .f32⟩
  | 12 => ⟨S128x64, .f32⟩
  | 13 => ⟨S128x64, .f32⟩
  | 14 => ⟨S64, .f32⟩
  | 15 => ⟨S1x1600000, .i32⟩
  | 16 => ⟨S1600000, .i32⟩
  | 17 => ⟨S1x1600000, .i32⟩
  | 18 => ⟨S1600000, .i32⟩
  | 19 => ⟨S_, .f32⟩
  | 20 => ⟨S1600000, .f32⟩
  | 21 => ⟨S_, .f32⟩
  | 22 => ⟨S100000, .f32⟩
  | 23 => ⟨S1600000x1, .i32⟩
  | 24 => ⟨S100000, .f32⟩
  | 25 => ⟨S_, .f32⟩
  | 26 => ⟨S100000, .f32⟩
  | 27 => ⟨S100000, .f32⟩
  | 28 => ⟨S_, .f32⟩
  | 29 => ⟨S100000, .f32⟩
  | 30 => ⟨S100000, .f32⟩
  | 31 => ⟨S100000x1, .f32⟩
  | 32 => ⟨S_, .i32⟩
  | 33 => ⟨S1600000, .i32⟩
  | 34 => ⟨S1600000, .i1⟩
  | 35 => ⟨S_, .i32⟩
  | 36 => ⟨S1600000, .i32⟩
  | 37 => ⟨S1600000, .i32⟩
  | 38 => ⟨S1600000, .i32⟩
  | 39 => ⟨S1600000x1, .i32⟩
  | 40 => ⟨S1600000x128, .f32⟩
  | 41 => ⟨S_, .f32⟩
  | 42 => ⟨S100000x128, .f32⟩
  | 43 => ⟨S1600000x1, .i32⟩
  | 44 => ⟨S100000x128, .f32⟩
  | 45 => ⟨S100000x128, .f32⟩
  | 46 => ⟨S100000x128, .f32⟩
  | 47 => ⟨S1x128, .f32⟩
  | 48 => ⟨S100000x128, .f32⟩
  | 49 => ⟨S20x1x128, .f32⟩
  | 50 => ⟨S20x1x128, .f32⟩
  | 51 => ⟨S_, .f32⟩
  | 52 => ⟨S1x128, .f32⟩
  | 53 => ⟨S_, .f32⟩
  | 54 => ⟨S1x128, .f32⟩
  | 55 => ⟨S_, .f32⟩
  | 56 => ⟨S1x128, .f32⟩
  | 57 => ⟨S1x128, .f32⟩
  | 58 => ⟨S_, .f32⟩
  | 59 => ⟨S1x128, .f32⟩
  | 60 => ⟨S1x128, .f32⟩
  | 61 => ⟨S1x128, .f32⟩
  | 62 => ⟨S1x128, .f32⟩
  | 63 => ⟨S_, .f32⟩
  | 64 => ⟨S1x128, .f32⟩
  | 65 => ⟨S1x128, .f32⟩
  | 66 => ⟨S_, .f32⟩
  | 67 => ⟨S1x128, .f32⟩
  | 68 => ⟨S1x128, .f32⟩
  | 69 => ⟨S1x128, .f32⟩
  | 70 => ⟨S1x128, .f32⟩
  | 71 => ⟨S1x128, .f32⟩
  | 72 => ⟨S1x128, .f32⟩
  | 73 => ⟨S1x128, .f32⟩
  | 74 => ⟨S1x128, .f32⟩
  | 75 => ⟨S100000x128, .bf16⟩
  | 76 => ⟨S_, .i32⟩
  | 77 => ⟨S1600000, .i32⟩
  | 78 => ⟨S1600000, .i1⟩
  | 79 => ⟨S_, .i32⟩
  | 80 => ⟨S1600000, .i32⟩
  | 81 => ⟨S1600000, .i32⟩
  | 82 => ⟨S1600000, .i32⟩
  | 83 => ⟨S1600000x1, .i32⟩
  | 84 => ⟨S1600000x128, .bf16⟩
  | 85 => ⟨S1600000x128, .f32⟩
  | 86 => ⟨S_, .f32⟩
  | 87 => ⟨S100000x128, .f32⟩
  | 88 => ⟨S1600000x1, .i32⟩
  | 89 => ⟨S100000x128, .f32⟩
  | 90 => ⟨S100000x128, .f32⟩
  | 91 => ⟨S100000x128, .f32⟩
  | 92 => ⟨S1x128, .f32⟩
  | 93 => ⟨S100000x128, .f32⟩
  | 94 => ⟨S20x1x128, .f32⟩
  | 95 => ⟨S20x1x128, .f32⟩
  | 96 => ⟨S_, .f32⟩
  | 97 => ⟨S1x128, .f32⟩
  | 98 => ⟨S_, .f32⟩
  | 99 => ⟨S1x128, .f32⟩
  | 100 => ⟨S_, .f32⟩
  | 101 => ⟨S1x128, .f32⟩
  | 102 => ⟨S1x128, .f32⟩
  | 103 => ⟨S_, .f32⟩
  | 104 => ⟨S1x128, .f32⟩
  | 105 => ⟨S1x128, .f32⟩
  | 106 => ⟨S1x128, .f32⟩
  | 107 => ⟨S1x128, .f32⟩
  | 108 => ⟨S_, .f32⟩
  | 109 => ⟨S1x128, .f32⟩
  | 110 => ⟨S1x128, .f32⟩
  | 111 => ⟨S_, .f32⟩
  | 112 => ⟨S1x128, .f32⟩
  | 113 => ⟨S1x128, .f32⟩
  | 114 => ⟨S1x128, .f32⟩
  | 115 => ⟨S1x128, .f32⟩
  | 116 => ⟨S1x128, .f32⟩
  | 117 => ⟨S1x128, .f32⟩
  | 118 => ⟨S1x128, .f32⟩
  | 119 => ⟨S1x128, .f32⟩
  | 120 => ⟨S100000x128, .bf16⟩
  | 121 => ⟨S_, .i32⟩
  | 122 => ⟨S1600000, .i32⟩
  | 123 => ⟨S1600000, .i1⟩
  | 124 => ⟨S_, .i32⟩
  | 125 => ⟨S1600000, .i32⟩
  | 126 => ⟨S1600000, .i32⟩
  | 127 => ⟨S1600000, .i32⟩
  | _ => ⟨S100000x128, .f32⟩

abbrev hbmTy0_1 (i : Nat) : BufTy := match i % 128 with
  | 0 => ⟨S1600000x1, .i32⟩
  | 1 => ⟨S1600000x128, .bf16⟩
  | 2 => ⟨S1600000x128, .f32⟩
  | 3 => ⟨S_, .f32⟩
  | 4 => ⟨S100000x128, .f32⟩
  | 5 => ⟨S1600000x1, .i32⟩
  | 6 => ⟨S100000x128, .f32⟩
  | 7 => ⟨S100000x128, .f32⟩
  | 8 => ⟨S100000x128, .f32⟩
  | 9 => ⟨S1x64, .f32⟩
  | 10 => ⟨S100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | .local _ .vmem, ⟨9, _⟩ => ⟨S1x1x128, .f32⟩
  | .local _ .vmem, ⟨10, _⟩ => ⟨S1x1x128, .f32⟩
  | .local _ .vmem, ⟨11, _⟩ => ⟨S1x1x128, .f32⟩
  | .local _ .vmem, ⟨12, _⟩ => ⟨S1x1x128, .f32⟩
  | .local _ .vmem, ⟨13, _⟩ => ⟨S5000x128, .f32⟩
  | .local _ .vmem, ⟨14, _⟩ => ⟨S5000x128, .f32⟩
  | .local _ .vmem, ⟨15, _⟩ => ⟨S1x128, .f32⟩
  | .local _ .vmem, ⟨16, _⟩ => ⟨S1x128, .f32⟩
  | .local _ .vmem, ⟨17, _⟩ => ⟨S5000x128, .bf16⟩
  | .local _ .vmem, ⟨18, _⟩ => ⟨S5000x128, .bf16⟩
  | .local _ .vmem, ⟨19, _⟩ => ⟨S5000x128, .bf16⟩
  | .local _ .vmem, ⟨20, _⟩ => ⟨S5000x128, .bf16⟩
  | .local _ .vmem, ⟨21, _⟩ => ⟨S5000x128, .f32⟩
  | .local _ .vmem, ⟨22, _⟩ => ⟨S5000x128, .f32⟩
  | .local _ .vmem, ⟨23, _⟩ => ⟨S128x128, .f32⟩
  | .local _ .vmem, ⟨24, _⟩ => ⟨S128x128, .f32⟩
  | .local _ .vmem, ⟨25, _⟩ => ⟨S1x128, .f32⟩
  | .local _ .vmem, ⟨26, _⟩ => ⟨S5000x128, .f32⟩
  | .local _ .vmem, ⟨27, _⟩ => ⟨S5000x128, .f32⟩
  | .local _ .vmem, ⟨28, _⟩ => ⟨S1x1x128, .f32⟩
  | .local _ .vmem, ⟨29, _⟩ => ⟨S1x1x128, .f32⟩
  | .local _ .vmem, ⟨30, _⟩ => ⟨S1x1x128, .f32⟩
  | .local _ .vmem, ⟨31, _⟩ => ⟨S1x1x128, .f32⟩
  | .local _ .vmem, ⟨32, _⟩ => ⟨S5000x128, .f32⟩
  | .local _ .vmem, ⟨33, _⟩ => ⟨S5000x128, .f32⟩
  | .local _ .vmem, ⟨34, _⟩ => ⟨S1x128, .f32⟩
  | .local _ .vmem, ⟨35, _⟩ => ⟨S1x128, .f32⟩
  | .local _ .vmem, ⟨36, _⟩ => ⟨S5000x128, .bf16⟩
  | .local _ .vmem, ⟨37, _⟩ => ⟨S5000x128, .bf16⟩
  | .local _ .vmem, ⟨38, _⟩ => ⟨S5000x128, .bf16⟩
  | .local _ .vmem, ⟨39, _⟩ => ⟨S5000x128, .bf16⟩
  | .local _ .vmem, ⟨40, _⟩ => ⟨S5000x128, .f32⟩
  | .local _ .vmem, ⟨41, _⟩ => ⟨S5000x128, .f32⟩
  | .local _ .vmem, ⟨42, _⟩ => ⟨S128x64, .f32⟩
  | .local _ .vmem, ⟨43, _⟩ => ⟨S128x64, .f32⟩
  | .local _ .vmem, ⟨44, _⟩ => ⟨S1x64, .f32⟩
  | .local _ .vmem, ⟨45, _⟩ => ⟨S5000x64, .f32⟩
  | .local _ .vmem, ⟨46, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | _, _ => false

abbrev semScoped : Fin 0 → Bool
  | ⟨_, h⟩ => absurd h (Nat.not_lt_zero _)

abbrev dmaSemScoped : Fin 47 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | _ => false

abbrev sig : RefSig :=
  ofTc nBuf bufTy 0 47 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst : Ref sig .tc := ⟨.hbm, 19, rfl⟩
abbrev main_v4 : Ref sig .tc := ⟨.hbm, 20, rfl⟩
abbrev main_cst_0 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_cst_1 : Ref sig .tc := ⟨.hbm, 25, rfl⟩
abbrev main_v8 : Ref sig .tc := ⟨.hbm, 26, rfl⟩
abbrev main_v9 : Ref sig .tc := ⟨.hbm, 27, rfl⟩
abbrev main_cst_2 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_c : Ref sig .tc := ⟨.hbm, 32, rfl⟩
abbrev main_v13 : Ref sig .tc := ⟨.hbm, 33, rfl⟩
abbrev main_v14 : Ref sig .tc := ⟨.hbm, 34, rfl⟩
abbrev main_c_3 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_cst_4 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26_0 : Ref sig .tc := ⟨.hbm, 48, rfl⟩
abbrev main_v26_1 : Ref sig .tc := ⟨.hbm, 49, rfl⟩
abbrev main_v26_2 : Ref sig .tc := ⟨.hbm, 50, rfl⟩
abbrev main_cst_5 : Ref sig .tc := ⟨.hbm, 51, rfl⟩
abbrev main_v27 : Ref sig .tc := ⟨.hbm, 52, rfl⟩
abbrev main_cst_6 : Ref sig .tc := ⟨.hbm, 53, rfl⟩
abbrev main_v28 : Ref sig .tc := ⟨.hbm, 54, rfl⟩
abbrev main_cst_7 : Ref sig .tc := ⟨.hbm, 55, rfl⟩
abbrev main_v29 : Ref sig .tc := ⟨.hbm, 56, rfl⟩
abbrev main_v30 : Ref sig .tc := ⟨.hbm, 57, rfl⟩
abbrev main_cst_8 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_cst_9 : Ref sig .tc := ⟨.hbm, 63, rfl⟩
abbrev main_v35 : Ref sig .tc := ⟨.hbm, 64, rfl⟩
abbrev main_v36 : Ref sig .tc := ⟨.hbm, 65, rfl⟩
abbrev main_cst_10 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_c_11 : Ref sig .tc := ⟨.hbm, 76, rfl⟩
abbrev main_v46 : Ref sig .tc := ⟨.hbm, 77, rfl⟩
abbrev main_v47 : Ref sig .tc := ⟨.hbm, 78, rfl⟩
abbrev main_c_12 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_cst_13 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60_0 : Ref sig .tc := ⟨.hbm, 93, rfl⟩
abbrev main_v60_1 : Ref sig .tc := ⟨.hbm, 94, rfl⟩
abbrev main_v60_2 : Ref sig .tc := ⟨.hbm, 95, rfl⟩
abbrev main_cst_14 : Ref sig .tc := ⟨.hbm, 96, rfl⟩
abbrev main_v61 : Ref sig .tc := ⟨.hbm, 97, rfl⟩
abbrev main_cst_15 : Ref sig .tc := ⟨.hbm, 98, rfl⟩
abbrev main_v62 : Ref sig .tc := ⟨.hbm, 99, rfl⟩
abbrev main_cst_16 : Ref sig .tc := ⟨.hbm, 100, rfl⟩
abbrev main_v63 : Ref sig .tc := ⟨.hbm, 101, rfl⟩
abbrev main_v64 : Ref sig .tc := ⟨.hbm, 102, rfl⟩
abbrev main_cst_17 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_cst_18 : Ref sig .tc := ⟨.hbm, 108, rfl⟩
abbrev main_v69 : Ref sig .tc := ⟨.hbm, 109, rfl⟩
abbrev main_v70 : Ref sig .tc := ⟨.hbm, 110, rfl⟩
abbrev main_cst_19 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_c_20 : Ref sig .tc := ⟨.hbm, 121, rfl⟩
abbrev main_v80 : Ref sig .tc := ⟨.hbm, 122, rfl⟩
abbrev main_v81 : Ref sig .tc := ⟨.hbm, 123, rfl⟩
abbrev main_c_21 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_cst_22 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg3_1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg1_1 : Ref sig .tc := ⟨.vmem, 22, rfl⟩
abbrev cc2_stg2_0 : Ref sig .tc := ⟨.vmem, 23, rfl⟩
abbrev cc2_stg3_0 : Ref sig .tc := ⟨.vmem, 24, rfl⟩
abbrev cc2_stg4_0 : Ref sig .tc := ⟨.vmem, 25, rfl⟩
abbrev cc2_stg5_0 : Ref sig .tc := ⟨.vmem, 26, rfl⟩
abbrev cc2_stg5_1 : Ref sig .tc := ⟨.vmem, 27, rfl⟩
abbrev cc2_stg6_0 : Ref sig .tc := ⟨.vmem, 28, rfl⟩
abbrev cc2_stg6_1 : Ref sig .tc := ⟨.vmem, 29, rfl⟩
abbrev cc2_stg7_0 : Ref sig .tc := ⟨.vmem, 30, rfl⟩
abbrev cc2_stg7_1 : Ref sig .tc := ⟨.vmem, 31, rfl⟩
abbrev cc3_stg0_0 : Ref sig .tc := ⟨.vmem, 32, rfl⟩
abbrev cc3_stg0_1 : Ref sig .tc := ⟨.vmem, 33, rfl⟩
abbrev cc3_stg1_0 : Ref sig .tc := ⟨.vmem, 34, rfl⟩
abbrev cc3_stg2_0 : Ref sig .tc := ⟨.vmem, 35, rfl⟩
abbrev cc3_stg3_0 : Ref sig .tc := ⟨.vmem, 36, rfl⟩
abbrev cc3_stg3_1 : Ref sig .tc := ⟨.vmem, 37, rfl⟩
abbrev cc4_stg0_0 : Ref sig .tc := ⟨.vmem, 38, rfl⟩
abbrev cc4_stg0_1 : Ref sig .tc := ⟨.vmem, 39, rfl⟩
abbrev cc4_stg1_0 : Ref sig .tc := ⟨.vmem, 40, rfl⟩
abbrev cc4_stg1_1 : Ref sig .tc := ⟨.vmem, 41, rfl⟩
abbrev cc4_stg2_0 : Ref sig .tc := ⟨.vmem, 42, rfl⟩
abbrev cc4_stg3_0 : Ref sig .tc := ⟨.vmem, 43, rfl⟩
abbrev cc4_stg4_0 : Ref sig .tc := ⟨.vmem, 44, rfl⟩
abbrev cc4_stg5_0 : Ref sig .tc := ⟨.vmem, 45, rfl⟩
abbrev cc4_stg5_1 : Ref sig .tc := ⟨.vmem, 46, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc1_sem0_0 : DmaSem sig := 13
abbrev cc1_sem0_1 : DmaSem sig := 14
abbrev cc1_sem1_0 : DmaSem sig := 15
abbrev cc1_sem2_0 : DmaSem sig := 16
abbrev cc1_sem3_0 : DmaSem sig := 17
abbrev cc1_sem3_1 : DmaSem sig := 18
abbrev cc2_sem0_0 : DmaSem sig := 19
abbrev cc2_sem0_1 : DmaSem sig := 20
abbrev cc2_sem1_0 : DmaSem sig := 21
abbrev cc2_sem1_1 : DmaSem sig := 22
abbrev cc2_sem2_0 : DmaSem sig := 23
abbrev cc2_sem3_0 : DmaSem sig := 24
abbrev cc2_sem4_0 : DmaSem sig := 25
abbrev cc2_sem5_0 : DmaSem sig := 26
abbrev cc2_sem5_1 : DmaSem sig := 27
abbrev cc2_sem6_0 : DmaSem sig := 28
abbrev cc2_sem6_1 : DmaSem sig := 29
abbrev cc2_sem7_0 : DmaSem sig := 30
abbrev cc2_sem7_1 : DmaSem sig := 31
abbrev cc3_sem0_0 : DmaSem sig := 32
abbrev cc3_sem0_1 : DmaSem sig := 33
abbrev cc3_sem1_0 : DmaSem sig := 34
abbrev cc3_sem2_0 : DmaSem sig := 35
abbrev cc3_sem3_0 : DmaSem sig := 36
abbrev cc3_sem3_1 : DmaSem sig := 37
abbrev cc4_sem0_0 : DmaSem sig := 38
abbrev cc4_sem0_1 : DmaSem sig := 39
abbrev cc4_sem1_0 : DmaSem sig := 40
abbrev cc4_sem1_1 : DmaSem sig := 41
abbrev cc4_sem2_0 : DmaSem sig := 42
abbrev cc4_sem3_0 : DmaSem sig := 43
abbrev cc4_sem4_0 : DmaSem sig := 44
abbrev cc4_sem5_0 : DmaSem sig := 45
abbrev cc4_sem5_1 : DmaSem sig := 46

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_7 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S5000x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S1x1x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S1x1x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x128 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S5000x64 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  reduces_S5000x128_S128 : S5000x128.Reduces [0] S128
  shapeCasts_S1x128_S1x1x128 : S1x128.ShapeCasts S1x1x128
  inb_S1x1x128_S1x1x128_0_0_0 : ∀ a, (![0, 0, 0] : Fin 3 → Nat) a + S1x1x128.size a ≤ S1x1x128.size a
  h_S1x1x128 : 0 < S1x1x128.numel
  reducesTo_S20x1x128_S1x128_d0 : S20x1x128.ReducesTo [0] S1x128
  h_S_ : 0 < S_.numel
  bcast_S_S1x128 : S_.BroadcastsInDim S1x128 (![] : Fin 0 → Fin S1x128.rank)
  packedbf16_S5000x128_S5000x128_0_0 : (Rect.unit (s := S5000x128) ![0, 0] S5000x128.size inb_S5000x128_S5000x128_0_0).PackedRows (EltTy.packing .bf16)
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  reduces_S5000x64_S5000 : S5000x64.Reduces [1] S5000
  shapeCasts_S5000_S5000x1 : S5000.ShapeCasts S5000x1
  broadcasts_S5000x1_S5000x64 : S5000x1.Broadcasts S5000x64
  inb_S5000x64_S5000x64_0_0 : ∀ a, (![0, 0] : Fin 2 → Nat) a + S5000x64.size a ≤ S5000x64.size a
  h_S5000x64 : 0 < S5000x64.numel
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x128.size a ≤ S20x1x128.size a
  hwx0_6 : ∀ i : grid0.Coords, EltTy.bits .f32 = 32 ∨ (Rect.block (s := S20x1x128) S1x1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1x128.size a ≤ S20x1x128.size a
  hwx0_7 : ∀ i : grid0.Coords, EltTy.bits .f32 = 32 ∨ (Rect.block (s := S20x1x128) S1x1x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S100000x128.size a
  hwx1_3 : ∀ i : grid1.Coords, EltTy.bits .bf16 = 32 ∨ (Rect.block (s := S100000x128) S5000x128.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .bf16 = 32 ∨ (Rect.block (s := S100000x128) S5000x128.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S100000x128.size a
  hwx2_5 : ∀ i : grid2.Coords, EltTy.bits .f32 = 32 ∨ (Rect.block (s := S100000x128) S5000x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S1x1x128.size a ≤ S20x1x128.size a
  hwx2_6 : ∀ i : grid2.Coords, EltTy.bits .f32 = 32 ∨ (Rect.block (s := S20x1x128) S1x1x128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S1x1x128.size a ≤ S20x1x128.size a
  hwx2_7 : ∀ i : grid2.Coords, EltTy.bits .f32 = 32 ∨ (Rect.block (s := S20x1x128) S1x1x128.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S100000x128.size a
  hwx3_3 : ∀ i : grid3.Coords, EltTy.bits .bf16 = 32 ∨ (Rect.block (s := S100000x128) S5000x128.size (cc3_transform_3 i) (hinb3_3 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .bf16 = 32 ∨ (Rect.block (s := S100000x128) S5000x128.size (cc4_transform_0 i) (hinb4_0 i)).WholeWords (EltTy.packing .bf16)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S100000x128.size a
  hwx4_1 : ∀ i : grid4.Coords, EltTy.bits .f32 = 32 ∨ (Rect.block (s := S100000x128) S5000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x64.size a ≤ S128x64.size a
  hwx4_2 : ∀ i : grid4.Coords, EltTy.bits .f32 = 32 ∨ (Rect.block (s := S128x64) S128x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x64.size a ≤ S128x64.size a
  hwx4_3 : ∀ i : grid4.Coords, EltTy.bits .f32 = 32 ∨ (Rect.block (s := S128x64) S128x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x64.size a ≤ S1x64.size a
  hwx4_4 : ∀ i : grid4.Coords, EltTy.bits .f32 = 32 ∨ (Rect.block (s := S1x64) S1x64.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S5000x64.size a ≤ S100000x64.size a
  hwx4_5 : ∀ i : grid4.Coords, EltTy.bits .f32 = 32 ∨ (Rect.block (s := S100000x64) S5000x64.size (cc4_transform_5 i) (hinb4_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v24) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v25) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26_0) S5000x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v26_1) S1x1x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v26_2) S1x1x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v26_0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v41) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v44) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v45) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v58) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg8) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v59) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v60_0) S5000x128.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v60_1) S1x1x128.size cc2_transform_6 reads2_6 true false 2 stage2_6 sem2_6
    hrank2 hreads2_6 hinb2_6 nbuf2_6 (Memref.isWhole_whole _) hwx2_6 hstage2_6

abbrev win2_7 : Pipeline.Window sig grid2 :=
  Pipeline.Window.ofSpec (Memref.whole main_v60_2) S1x1x128.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v60_0) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v75) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v78) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v79) S5000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v79) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v92) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg12) S128x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg13) S128x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v93) S1x64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v94) S5000x64.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S100000x64 : Shape := ⟨2, ![100000, 64]⟩
abbrev S1x64 : Shape := ⟨2, ![1, 64]⟩

abbrev nBuf : Space → Nat
  | .hbm => 221
  | .vmem => 0
  | .smem => 0
  | _ => 0

abbrev hbmTy0_0 (i : Nat) : BufTy := match i % 128 with
  | 0 => ⟨S100000x128, .f32⟩
  | 1 => ⟨S2x1600000, .i32⟩
  | 2 => ⟨S128x128, .f32⟩
  | 3 => ⟨S128x128, .f32⟩
  | 4 => ⟨S128, .f32⟩
  | 5 => ⟨S128, .f32⟩
  | 6 => ⟨S128, .f32⟩
  | 7 => ⟨S128x128, .f32⟩
  | 8 => ⟨S128x128, .f32⟩
  | 9 => ⟨S128, .f32⟩
  | 10 => ⟨S128, .f32⟩
  | 11 => ⟨S128, .f32⟩
  | 12 => ⟨S128x64, .f32⟩
  | 13 => ⟨S128x64, .f32⟩
  | 14 => ⟨S64, .f32⟩
  | 15 => ⟨S1x1600000, .i32⟩
  | 16 => ⟨S1600000, .i32⟩
  | 17 => ⟨S1x1600000, .i32⟩
  | 18 => ⟨S1600000, .i32⟩
  | 19 => ⟨S_, .f32⟩
  | 20 => ⟨S1600000, .f32⟩
  | 21 => ⟨S_, .f32⟩
  | 22 => ⟨S100000, .f32⟩
  | 23 => ⟨S1600000x1, .i32⟩
  | 24 => ⟨S100000, .f32⟩
  | 25 => ⟨S_, .i32⟩
  | 26 => ⟨S1600000, .i32⟩
  | 27 => ⟨S1600000, .i1⟩
  | 28 => ⟨S_, .i32⟩
  | 29 => ⟨S1600000, .i32⟩
  | 30 => ⟨S1600000, .i32⟩
  | 31 => ⟨S1600000, .i32⟩
  | 32 => ⟨S1600000x1, .i32⟩
  | 33 => ⟨S1600000x128, .f32⟩
  | 34 => ⟨S_, .f32⟩
  | 35 => ⟨S100000x128, .f32⟩
  | 36 => ⟨S1600000x1, .i32⟩
  | 37 => ⟨S100000x128, .f32⟩
  | 38 => ⟨S_, .f32⟩
  | 39 => ⟨S100000, .f32⟩
  | 40 => ⟨S100000, .f32⟩
  | 41 => ⟨S100000x1, .f32⟩
  | 42 => ⟨S100000x128, .f32⟩
  | 43 => ⟨S100000x128, .f32⟩
  | 44 => ⟨S100000x128, .f32⟩
  | 45 => ⟨S100000x128, .f32⟩
  | 46 => ⟨S100000x128, .f32⟩
  | 47 => ⟨S1x128, .f32⟩
  | 48 => ⟨S100000x128, .f32⟩
  | 49 => ⟨S100000x128, .f32⟩
  | 50 => ⟨S_, .f32⟩
  | 51 => ⟨S128, .f32⟩
  | 52 => ⟨S_, .f32⟩
  | 53 => ⟨S128, .f32⟩
  | 54 => ⟨S128, .f32⟩
  | 55 => ⟨S_, .i32⟩
  | 56 => ⟨S_, .f32⟩
  | 57 => ⟨S128, .f32⟩
  | 58 => ⟨S1x128, .f32⟩
  | 59 => ⟨S_, .f32⟩
  | 60 => ⟨S1x128, .f32⟩
  | 61 => ⟨S1x128, .f32⟩
  | 62 => ⟨S100000x128, .f32⟩
  | 63 => ⟨S100000x128, .f32⟩
  | 64 => ⟨S100000x128, .f32⟩
  | 65 => ⟨S_, .f32⟩
  | 66 => ⟨S_, .f32⟩
  | 67 => ⟨S_, .f32⟩
  | 68 => ⟨S_, .f32⟩
  | 69 => ⟨S128, .f32⟩
  | 70 => ⟨S128, .f32⟩
  | 71 => ⟨S128, .f32⟩
  | 72 => ⟨S_, .f32⟩
  | 73 => ⟨S_, .i1⟩
  | 74 => ⟨S_, .f32⟩
  | 75 => ⟨S_, .f32⟩
  | 76 => ⟨S128, .f32⟩
  | 77 => ⟨S128, .f32⟩
  | 78 => ⟨S1x128, .f32⟩
  | 79 => ⟨S100000x128, .f32⟩
  | 80 => ⟨S100000x128, .f32⟩
  | 81 => ⟨S_, .f32⟩
  | 82 => ⟨S128, .f32⟩
  | 83 => ⟨S128, .f32⟩
  | 84 => ⟨S128, .f32⟩
  | 85 => ⟨S1x128, .f32⟩
  | 86 => ⟨S100000x128, .f32⟩
  | 87 => ⟨S100000x128, .f32⟩
  | 88 => ⟨S1x128, .f32⟩
  | 89 => ⟨S100000x128, .f32⟩
  | 90 => ⟨S100000x128, .f32⟩
  | 91 => ⟨S1x128, .f32⟩
  | 92 => ⟨S100000x128, .f32⟩
  | 93 => ⟨S100000x128, .f32⟩
  | 94 => ⟨S_, .f32⟩
  | 95 => ⟨S100000x128, .f32⟩
  | 96 => ⟨S100000x128, .f32⟩
  | 97 => ⟨S_, .f32⟩
  | 98 => ⟨S1600000, .f32⟩
  | 99 => ⟨S_, .f32⟩
  | 100 => ⟨S100000, .f32⟩
  | 101 => ⟨S1600000x1, .i32⟩
  | 102 => ⟨S100000, .f32⟩
  | 103 => ⟨S_, .i32⟩
  | 104 => ⟨S1600000, .i32⟩
  | 105 => ⟨S1600000, .i1⟩
  | 106 => ⟨S_, .i32⟩
  | 107 => ⟨S1600000, .i32⟩
  | 108 => ⟨S1600000, .i32⟩
  | 109 => ⟨S1600000, .i32⟩
  | 110 => ⟨S1600000x1, .i32⟩
  | 111 => ⟨S1600000x128, .f32⟩
  | 112 => ⟨S_, .f32⟩
  | 113 => ⟨S100000x128, .f32⟩
  | 114 => ⟨S1600000x1, .i32⟩
  | 115 => ⟨S100000x128, .f32⟩
  | 116 => ⟨S_, .f32⟩
  | 117 => ⟨S100000, .f32⟩
  | 118 => ⟨S100000, .f32⟩
  | 119 => ⟨S100000x1, .f32⟩
  | 120 => ⟨S100000x128, .f32⟩
  | 121 => ⟨S100000x128, .f32⟩
  | 122 => ⟨S100000x128, .f32⟩
  | 123 => ⟨S100000x128, .f32⟩
  | 124 => ⟨S100000x128, .f32⟩
  | 125 => ⟨S1x128, .f32⟩
  | 126 => ⟨S100000x128, .f32⟩
  | 127 => ⟨S100000x128, .f32⟩
  | _ => ⟨S100000x128, .f32⟩

abbrev hbmTy0_1 (i : Nat) : BufTy := match i % 128 with
  | 0 => ⟨S_, .f32⟩
  | 1 => ⟨S128, .f32⟩
  | 2 => ⟨S_, .f32⟩
  | 3 => ⟨S128, .f32⟩
  | 4 => ⟨S128, .f32⟩
  | 5 => ⟨S_, .i32⟩
  | 6 => ⟨S_, .f32⟩
  | 7 => ⟨S128, .f32⟩
  | 8 => ⟨S1x128, .f32⟩
  | 9 => ⟨S_, .f32⟩
  | 10 => ⟨S1x128, .f32⟩
  | 11 => ⟨S1x128, .f32⟩
  | 12 => ⟨S100000x128, .f32⟩
  | 13 => ⟨S100000x128, .f32⟩
  | 14 => ⟨S100000x128, .f32⟩
  | 15 => ⟨S_, .f32⟩
  | 16 => ⟨S_, .f32⟩
  | 17 => ⟨S_, .f32⟩
  | 18 => ⟨S_, .f32⟩
  | 19 => ⟨S128, .f32⟩
  | 20 => ⟨S128, .f32⟩
  | 21 => ⟨S128, .f32⟩
  | 22 => ⟨S_, .f32⟩
  | 23 => ⟨S_, .i1⟩
  | 24 => ⟨S_, .f32⟩
  | 25 => ⟨S_, .f32⟩
  | 26 => ⟨S128, .f32⟩
  | 27 => ⟨S128, .f32⟩
  | 28 => ⟨S1x128, .f32⟩
  | 29 => ⟨S100000x128, .f32⟩
  | 30 => ⟨S100000x128, .f32⟩
  | 31 => ⟨S_, .f32⟩
  | 32 => ⟨S128, .f32⟩
  | 33 => ⟨S128, .f32⟩
  | 34 => ⟨S128, .f32⟩
  | 35 => ⟨S1x128, .f32⟩
  | 36 => ⟨S100000x128, .f32⟩
  | 37 => ⟨S100000x128, .f32⟩
  | 38 => ⟨S1x128, .f32⟩
  | 39 => ⟨S100000x128, .f32⟩
  | 40 => ⟨S100000x128, .f32⟩
  | 41 => ⟨S1x128, .f32⟩
  | 42 => ⟨S100000x128, .f32⟩
  | 43 => ⟨S100000x128, .f32⟩
  | 44 => ⟨S_, .f32⟩
  | 45 => ⟨S100000x128, .f32⟩
  | 46 => ⟨S100000x128, .f32⟩
  | 47 => ⟨S_, .f32⟩
  | 48 => ⟨S1600000, .f32⟩
  | 49 => ⟨S_, .f32⟩
  | 50 => ⟨S100000, .f32⟩
  | 51 => ⟨S1600000x1, .i32⟩
  | 52 => ⟨S100000, .f32⟩
  | 53 => ⟨S_, .i32⟩
  | 54 => ⟨S1600000, .i32⟩
  | 55 => ⟨S1600000, .i1⟩
  | 56 => ⟨S_, .i32⟩
  | 57 => ⟨S1600000, .i32⟩
  | 58 => ⟨S1600000, .i32⟩
  | 59 => ⟨S1600000, .i32⟩
  | 60 => ⟨S1600000x1, .i32⟩
  | 61 => ⟨S1600000x128, .f32⟩
  | 62 => ⟨S_, .f32⟩
  | 63 => ⟨S100000x128, .f32⟩
  | 64 => ⟨S1600000x1, .i32⟩
  | 65 => ⟨S100000x128, .f32⟩
  | 66 => ⟨S_, .f32⟩
  | 67 => ⟨S100000, .f32⟩
  | 68 => ⟨S100000, .f32⟩
  | 69 => ⟨S100000x1, .f32⟩
  | 70 => ⟨S100000x128, .f32⟩
  | 71 => ⟨S100000x128, .f32⟩
  | 72 => ⟨S100000x64, .f32⟩
  | 73 => ⟨S100000x64, .f32⟩
  | 74 => ⟨S100000x64, .f32⟩
  | 75 => ⟨S1x64, .f32⟩
  | 76 => ⟨S100000x64, .f32⟩
  | 77 => ⟨S100000x64, .f32⟩
  | 78 => ⟨S_, .f32⟩
  | 79 => ⟨S100000, .f32⟩
  | 80 => ⟨S_, .f32⟩
  | 81 => ⟨S100000, .f32⟩
  | 82 => ⟨S100000, .f32⟩
  | 83 => ⟨S100000x1, .f32⟩
  | 84 => ⟨S100000x64, .f32⟩
  | 85 => ⟨S100000x64, .f32⟩
  | 86 => ⟨S100000x64, .f32⟩
  | 87 => ⟨S_, .f32⟩
  | 88 => ⟨S100000, .f32⟩
  | 89 => ⟨S100000x1, .f32⟩
  | 90 => ⟨S100000x1, .f32⟩
  | 91 => ⟨S100000x64, .f32⟩
  | 92 => ⟨S100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst : Ref sig .tc := ⟨.hbm, 19, rfl⟩
abbrev main_v4 : Ref sig .tc := ⟨.hbm, 20, rfl⟩
abbrev main_cst_0 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_c : Ref sig .tc := ⟨.hbm, 25, rfl⟩
abbrev main_v8 : Ref sig .tc := ⟨.hbm, 26, rfl⟩
abbrev main_v9 : Ref sig .tc := ⟨.hbm, 27, rfl⟩
abbrev main_c_1 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_cst_2 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_cst_3 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_cst_4 : Ref sig .tc := ⟨.hbm, 50, rfl⟩
abbrev main_v29 : Ref sig .tc := ⟨.hbm, 51, rfl⟩
abbrev main_cst_5 : Ref sig .tc := ⟨.hbm, 52, rfl⟩
abbrev main_v30 : Ref sig .tc := ⟨.hbm, 53, rfl⟩
abbrev main_v31 : Ref sig .tc := ⟨.hbm, 54, rfl⟩
abbrev main_c_6 : Ref sig .tc := ⟨.hbm, 55, rfl⟩
abbrev main_call0_cst : Ref sig .tc := ⟨.hbm, 56, rfl⟩
abbrev main_call0_v0 : Ref sig .tc := ⟨.hbm, 57, rfl⟩
abbrev main_call0_v1 : Ref sig .tc := ⟨.hbm, 58, rfl⟩
abbrev main_call0_cst_0 : Ref sig .tc := ⟨.hbm, 59, rfl⟩
abbrev main_call0_v2 : Ref sig .tc := ⟨.hbm, 60, rfl⟩
abbrev main_call0_v3 : Ref sig .tc := ⟨.hbm, 61, rfl⟩
abbrev main_call0_v4 : Ref sig .tc := ⟨.hbm, 62, rfl⟩
abbrev main_call0_v5 : Ref sig .tc := ⟨.hbm, 63, rfl⟩
abbrev main_call0_v6 : Ref sig .tc := ⟨.hbm, 64, rfl⟩
abbrev main_call0_v7 : Ref sig .tc := ⟨.hbm, 65, rfl⟩
abbrev main_call0_cst_1 : Ref sig .tc := ⟨.hbm, 66, rfl⟩
abbrev main_call0_v8 : Ref sig .tc := ⟨.hbm, 67, rfl⟩
abbrev main_call0_cst_2 : Ref sig .tc := ⟨.hbm, 68, rfl⟩
abbrev main_call0_v9 : Ref sig .tc := ⟨.hbm, 69, rfl⟩
abbrev main_call0_v10 : Ref sig .tc := ⟨.hbm, 70, rfl⟩
abbrev main_call0_v11 : Ref sig .tc := ⟨.hbm, 71, rfl⟩
abbrev main_call0_cst_3 : Ref sig .tc := ⟨.hbm, 72, rfl⟩
abbrev main_call0_v12 : Ref sig .tc := ⟨.hbm, 73, rfl⟩
abbrev main_call0_cst_4 : Ref sig .tc := ⟨.hbm, 74, rfl⟩
abbrev main_call0_call0_v0 : Ref sig .tc := ⟨.hbm, 75, rfl⟩
abbrev main_call0_call0_v1 : Ref sig .tc := ⟨.hbm, 76, rfl⟩
abbrev main_v32 : Ref sig .tc := ⟨.hbm, 77, rfl⟩
abbrev main_v33 : Ref sig .tc := ⟨.hbm, 78, rfl⟩
abbrev main_v34 : Ref sig .tc := ⟨.hbm, 79, rfl⟩
abbrev main_v35 : Ref sig .tc := ⟨.hbm, 80, rfl⟩
abbrev main_cst_7 : Ref sig .tc := ⟨.hbm, 81, rfl⟩
abbrev main_v36 : Ref sig .tc := ⟨.hbm, 82, rfl⟩
abbrev main_v37 : Ref sig .tc := ⟨.hbm, 83, rfl⟩
abbrev main_v38 : Ref sig .tc := ⟨.hbm, 84, rfl⟩
abbrev main_v39 : Ref sig .tc := ⟨.hbm, 85, rfl⟩
abbrev main_v40 : Ref sig .tc := ⟨.hbm, 86, rfl⟩
abbrev main_v41 : Ref sig .tc := ⟨.hbm, 87, rfl⟩
abbrev main_v42 : Ref sig .tc := ⟨.hbm, 88, rfl⟩
abbrev main_v43 : Ref sig .tc := ⟨.hbm, 89, rfl⟩
abbrev main_v44 : Ref sig .tc := ⟨.hbm, 90, rfl⟩
abbrev main_v45 : Ref sig .tc := ⟨.hbm, 91, rfl⟩
abbrev main_v46 : Ref sig .tc := ⟨.hbm, 92, rfl⟩
abbrev main_v47 : Ref sig .tc := ⟨.hbm, 93, rfl⟩
abbrev main_call1_cst : Ref sig .tc := ⟨.hbm, 94, rfl⟩
abbrev main_call1_v0 : Ref sig .tc := ⟨.hbm, 95, rfl⟩
abbrev main_v48 : Ref sig .tc := ⟨.hbm, 96, rfl⟩
abbrev main_cst_8 : Ref sig .tc := ⟨.hbm, 97, rfl⟩
abbrev main_v49 : Ref sig .tc := ⟨.hbm, 98, rfl⟩
abbrev main_cst_9 : Ref sig .tc := ⟨.hbm, 99, rfl⟩
abbrev main_v50 : Ref sig .tc := ⟨.hbm, 100, rfl⟩
abbrev main_v51 : Ref sig .tc := ⟨.hbm, 101, rfl⟩
abbrev main_v52 : Ref sig .tc := ⟨.hbm, 102, rfl⟩
abbrev main_c_10 : Ref sig .tc := ⟨.hbm, 103, rfl⟩
abbrev main_v53 : Ref sig .tc := ⟨.hbm, 104, rfl⟩
abbrev main_v54 : Ref sig .tc := ⟨.hbm, 105, rfl⟩
abbrev main_c_11 : Ref sig .tc := ⟨.hbm, 106, rfl⟩
abbrev main_v55 : Ref sig .tc := ⟨.hbm, 107, rfl⟩
abbrev main_v56 : Ref sig .tc := ⟨.hbm, 108, rfl⟩
abbrev main_v57 : Ref sig .tc := ⟨.hbm, 109, rfl⟩
abbrev main_v58 : Ref sig .tc := ⟨.hbm, 110, rfl⟩
abbrev main_v59 : Ref sig .tc := ⟨.hbm, 111, rfl⟩
abbrev main_cst_12 : Ref sig .tc := ⟨.hbm, 112, rfl⟩
abbrev main_v60 : Ref sig .tc := ⟨.hbm, 113, rfl⟩
abbrev main_v61 : Ref sig .tc := ⟨.hbm, 114, rfl⟩
abbrev main_v62 : Ref sig .tc := ⟨.hbm, 115, rfl⟩
abbrev main_cst_13 : Ref sig .tc := ⟨.hbm, 116, rfl⟩
abbrev main_v63 : Ref sig .tc := ⟨.hbm, 117, rfl⟩
abbrev main_v64 : Ref sig .tc := ⟨.hbm, 118, rfl⟩
abbrev main_v65 : Ref sig .tc := ⟨.hbm, 119, rfl⟩
abbrev main_v66 : Ref sig .tc := ⟨.hbm, 120, rfl⟩
abbrev main_v67 : Ref sig .tc := ⟨.hbm, 121, rfl⟩
abbrev main_v68 : Ref sig .tc := ⟨.hbm, 122, rfl⟩
abbrev main_v69 : Ref sig .tc := ⟨.hbm, 123, rfl⟩
abbrev main_v70 : Ref sig .tc := ⟨.hbm, 124, rfl⟩
abbrev main_v71 : Ref sig .tc := ⟨.hbm, 125, rfl⟩
abbrev main_v72 : Ref sig .tc := ⟨.hbm, 126, rfl⟩
abbrev main_v73 : Ref sig .tc := ⟨.hbm, 127, rfl⟩
abbrev main_cst_14 : Ref sig .tc := ⟨.hbm, 128, rfl⟩
abbrev main_v74 : Ref sig .tc := ⟨.hbm, 129, rfl⟩
abbrev main_cst_15 : Ref sig .tc := ⟨.hbm, 130, rfl⟩
abbrev main_v75 : Ref sig .tc := ⟨.hbm, 131, rfl⟩
abbrev main_v76 : Ref sig .tc := ⟨.hbm, 132, rfl⟩
abbrev main_c_16 : Ref sig .tc := ⟨.hbm, 133, rfl⟩
abbrev main_call2_cst : Ref sig .tc := ⟨.hbm, 134, rfl⟩
abbrev main_call2_v0 : Ref sig .tc := ⟨.hbm, 135, rfl⟩
abbrev main_call2_v1 : Ref sig .tc := ⟨.hbm, 136, rfl⟩
abbrev main_call2_cst_0 : Ref sig .tc := ⟨.hbm, 137, rfl⟩
abbrev main_call2_v2 : Ref sig .tc := ⟨.hbm, 138, rfl⟩
abbrev main_call2_v3 : Ref sig .tc := ⟨.hbm, 139, rfl⟩
abbrev main_call2_v4 : Ref sig .tc := ⟨.hbm, 140, rfl⟩
abbrev main_call2_v5 : Ref sig .tc := ⟨.hbm, 141, rfl⟩
abbrev main_call2_v6 : Ref sig .tc := ⟨.hbm, 142, rfl⟩
abbrev main_call2_v7 : Ref sig .tc := ⟨.hbm, 143, rfl⟩
abbrev main_call2_cst_1 : Ref sig .tc := ⟨.hbm, 144, rfl⟩
abbrev main_call2_v8 : Ref sig .tc := ⟨.hbm, 145, rfl⟩
abbrev main_call2_cst_2 : Ref sig .tc := ⟨.hbm, 146, rfl⟩
abbrev main_call2_v9 : Ref sig .tc := ⟨.hbm, 147, rfl⟩
abbrev main_call2_v10 : Ref sig .tc := ⟨.hbm, 148, rfl⟩
abbrev main_call2_v11 : Ref sig .tc := ⟨.hbm, 149, rfl⟩
abbrev main_call2_cst_3 : Ref sig .tc := ⟨.hbm, 150, rfl⟩
abbrev main_call2_v12 : Ref sig .tc := ⟨.hbm, 151, rfl⟩
abbrev main_call2_cst_4 : Ref sig .tc := ⟨.hbm, 152, rfl⟩
abbrev main_call2_call0_v0 : Ref sig .tc := ⟨.hbm, 153, rfl⟩
abbrev main_call2_call0_v1 : Ref sig .tc := ⟨.hbm, 154, rfl⟩
abbrev main_v77 : Ref sig .tc := ⟨.hbm, 155, rfl⟩
abbrev main_v78 : Ref sig .tc := ⟨.hbm, 156, rfl⟩
abbrev main_v79 : Ref sig .tc := ⟨.hbm, 157, rfl⟩
abbrev main_v80 : Ref sig .tc := ⟨.hbm, 158, rfl⟩
abbrev main_cst_17 : Ref sig .tc := ⟨.hbm, 159, rfl⟩
abbrev main_v81 : Ref sig .tc := ⟨.hbm, 160, rfl⟩
abbrev main_v82 : Ref sig .tc := ⟨.hbm, 161, rfl⟩
abbrev main_v83 : Ref sig .tc := ⟨.hbm, 162, rfl⟩
abbrev main_v84 : Ref sig .tc := ⟨.hbm, 163, rfl⟩
abbrev main_v85 : Ref sig .tc := ⟨.hbm, 164, rfl⟩
abbrev main_v86 : Ref sig .tc := ⟨.hbm, 165, rfl⟩
abbrev main_v87 : Ref sig .tc := ⟨.hbm, 166, rfl⟩
abbrev main_v88 : Ref sig .tc := ⟨.hbm, 167, rfl⟩
abbrev main_v89 : Ref sig .tc := ⟨.hbm, 168, rfl⟩
abbrev main_v90 : Ref sig .tc := ⟨.hbm, 169, rfl⟩
abbrev main_v91 : Ref sig .tc := ⟨.hbm, 170, rfl⟩
abbrev main_v92 : Ref sig .tc := ⟨.hbm, 171, rfl⟩
abbrev main_call3_cst : Ref sig .tc := ⟨.hbm, 172, rfl⟩
abbrev main_call3_v0 : Ref sig .tc := ⟨.hbm, 173, rfl⟩
abbrev main_v93 : Ref sig .tc := ⟨.hbm, 174, rfl⟩
abbrev main_cst_18 : Ref sig .tc := ⟨.hbm, 175, rfl⟩
abbrev main_v94 : Ref sig .tc := ⟨.hbm, 176, rfl⟩
abbrev main_cst_19 : Ref sig .tc := ⟨.hbm, 177, rfl⟩
abbrev main_v95 : Ref sig .tc := ⟨.hbm, 178, rfl⟩
abbrev main_v96 : Ref sig .tc := ⟨.hbm, 179, rfl⟩
abbrev main_v97 : Ref sig .tc := ⟨.hbm, 180, rfl⟩
abbrev main_c_20 : Ref sig .tc := ⟨.hbm, 181, rfl⟩
abbrev main_v98 : Ref sig .tc := ⟨.hbm, 182, rfl⟩
abbrev main_v99 : Ref sig .tc := ⟨.hbm, 183, rfl⟩
abbrev main_c_21 : Ref sig .tc := ⟨.hbm, 184, rfl⟩
abbrev main_v100 : Ref sig .tc := ⟨.hbm, 185, rfl⟩
abbrev main_v101 : Ref sig .tc := ⟨.hbm, 186, rfl⟩
abbrev main_v102 : Ref sig .tc := ⟨.hbm, 187, rfl⟩
abbrev main_v103 : Ref sig .tc := ⟨.hbm, 188, rfl⟩
abbrev main_v104 : Ref sig .tc := ⟨.hbm, 189, rfl⟩
abbrev main_cst_22 : Ref sig .tc := ⟨.hbm, 190, rfl⟩
abbrev main_v105 : Ref sig .tc := ⟨.hbm, 191, rfl⟩
abbrev main_v106 : Ref sig .tc := ⟨.hbm, 192, rfl⟩
abbrev main_v107 : Ref sig .tc := ⟨.hbm, 193, rfl⟩
abbrev main_cst_23 : Ref sig .tc := ⟨.hbm, 194, rfl⟩
abbrev main_v108 : Ref sig .tc := ⟨.hbm, 195, rfl⟩
abbrev main_v109 : Ref sig .tc := ⟨.hbm, 196, rfl⟩
abbrev main_v110 : Ref sig .tc := ⟨.hbm, 197, rfl⟩
abbrev main_v111 : Ref sig .tc := ⟨.hbm, 198, rfl⟩
abbrev main_v112 : Ref sig .tc := ⟨.hbm, 199, rfl⟩
abbrev main_v113 : Ref sig .tc := ⟨.hbm, 200, rfl⟩
abbrev main_v114 : Ref sig .tc := ⟨.hbm, 201, rfl⟩
abbrev main_v115 : Ref sig .tc := ⟨.hbm, 202, rfl⟩
abbrev main_v116 : Ref sig .tc := ⟨.hbm, 203, rfl⟩
abbrev main_v117 : Ref sig .tc := ⟨.hbm, 204, rfl⟩
abbrev main_v118 : Ref sig .tc := ⟨.hbm, 205, rfl⟩
abbrev main_call4_cst : Ref sig .tc := ⟨.hbm, 206, rfl⟩
abbrev main_call4_v0 : Ref sig .tc := ⟨.hbm, 207, rfl⟩
abbrev main_call4_cst_0 : Ref sig .tc := ⟨.hbm, 208, rfl⟩
abbrev main_call4_v1 : Ref sig .tc := ⟨.hbm, 209, rfl⟩
abbrev main_call4_v2 : Ref sig .tc := ⟨.hbm, 210, rfl⟩
abbrev main_call4_v3 : Ref sig .tc := ⟨.hbm, 211, rfl⟩
abbrev main_call4_v4 : Ref sig .tc := ⟨.hbm, 212, rfl⟩
abbrev main_call4_v5 : Ref sig .tc := ⟨.hbm, 213, rfl⟩
abbrev main_call4_v6 : Ref sig .tc := ⟨.hbm, 214, rfl⟩
abbrev main_call4_cst_1 : Ref sig .tc := ⟨.hbm, 215, rfl⟩
abbrev main_call4_v7 : Ref sig .tc := ⟨.hbm, 216, rfl⟩
abbrev main_call4_v8 : Ref sig .tc := ⟨.hbm, 217, rfl⟩
abbrev main_call4_v9 : Ref sig .tc := ⟨.hbm, 218, rfl⟩
abbrev main_call4_v10 : Ref sig .tc := ⟨.hbm, 219, rfl⟩
abbrev main_v119 : Ref sig .tc := ⟨.hbm, 220, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S100000_d1 : S100000x64.ReducesTo [1] S100000
  bcast_S100000x1_S100000x64_0_1 : S100000x1.BroadcastsInDim S100000x64 (![0, 1] : Fin 2 → Fin S100000x64.rank)
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.Spec.lean ====
/-
  The mathematics both programs compute, written once over plain index functions, with no program in sight.

  A graph network of three SAGE convolutions over 100000 nodes: a convolution is
  `x · W_self + agg(x) · W_neigh + b`, where `agg` averages a node's in-neighbours (it is a PARAMETER here: both
  programs apply the same gather and scatter-add, and this file never opens them). The first two convolutions are
  followed by a batch normalisation over the 100000 rows and a ReLU; the third by a row-wise log-softmax.

  The batch normalisation is written twice, in the two arrangements the programs use:
  * the tiled arrangement (`layerK`): column sums of `h` and of `h²` taken tile by tile (20 tiles of 5000 rows) and then
    over the tiles, `var = max (E[h²] - E[h]², 0)`, and the affine form `h · scale + shift` with
    `scale = γ · rsqrt (var + ε)`, `shift = β - mean · scale`;
  * the textbook arrangement (`layerR`): `mean = Σ h / n`, `var = Σ (h - mean)² / n`,
    `((h - mean) · rsqrt (var + ε)) · γ + β`.
  On finite inputs the two agree (Proof/Law.lean).
-/
import Idealize.ShloMosaic.PureOps.Ideal
import Idealize.ShloMosaic.Lib.ValueIdx

noncomputable section

open scoped BigOperators
open Idealize.ShloMosaic Idealize.ShloMosaic.ValueIdx

namespace Cert.GNN

/-- Arrays of rank 1, 2, 3 at the ideal instance: extended reals indexed by the literal shape's indices. -/
abbrev A1 (a : ℕ) := (⟨1, ![a]⟩ : Shape).Idx → EReal
abbrev A2 (a b : ℕ) := (⟨2, ![a, b]⟩ : Shape).Idx → EReal
abbrev A3 (a b c : ℕ) := (⟨3, ![a, b, c]⟩ : Shape).Idx → EReal

/-- The number of rows, as the programs write it: the f32 word of 100000. -/
def nN : EReal := Ideal.ofBits .f32 0x47C35000#32
/-- The variance guard ε, as the programs write it: the f32 word nearest 1e-5. -/
def eps : EReal := Ideal.ofBits .f32 0x3727C5AC#32
/-- The f32 word of -∞, from which a row maximum is folded. -/
def negInf : EReal := Ideal.ofBits .f32 0xFF800000#32

/-- Row `r` of tile `t`: row `5000 t + r` of the array. -/
def rowOf (t : Fin 20) (r : Fin 5000) : Fin 100000 := ⟨5000 * t.val + r.val, by omega⟩

/-- A vector as a one-row matrix. -/
def row {C : ℕ} (b : A1 C) : A2 1 C := fun j => b (ix1 (j 1))

/-- One convolution at row `i`, column `c`: `(Σₖ x[i,k]·ws[k,c] + Σₖ a[i,k]·wn[k,c]) + b[0,c]`. -/
def convAt {C : ℕ} (x a : A2 100000 128) (ws wn : A2 128 C) (b : A2 1 C) (i : Fin 100000) (c : Fin C) : EReal :=
  ((∑ k : Fin 128, x (ix2 i k) * ws (ix2 k c)) + (∑ k : Fin 128, a (ix2 i k) * wn (ix2 k c))) + b (ix2 0 c)

/-- One convolution, the bias a one-row matrix. -/
def conv {C : ℕ} (x a : A2 100000 128) (ws wn : A2 128 C) (b : A2 1 C) : A2 100000 C :=
  fun j => convAt x a ws wn b (j 0) (j 1)

/-! ## The tiled arrangement of the normalisation -/

/-- Column sums of one tile: entry `(t, 0, c)` is `Σ_r h[5000 t + r, c]`. -/
def tileSum (h : A2 100000 128) : A3 20 1 128 := fun j => ∑ r : Fin 5000, h (ix2 (rowOf (j 0) r) (j 2))

/-- Column sums of squares of one tile. -/
def tileSumSq (h : A2 100000 128) : A3 20 1 128 :=
  fun j => ∑ r : Fin 5000, h (ix2 (rowOf (j 0) r) (j 2)) * h (ix2 (rowOf (j 0) r) (j 2))

/-- The tiles' partial sums added up. -/
def colK (s : A3 20 1 128) (c : Fin 128) : EReal := ∑ t : Fin 20, s (ix3 t 0 c)

def meanK (s : A3 20 1 128) (c : Fin 128) : EReal := Ideal.div (colK s c) nN

/-- `max (E[h²] - E[h]², 0)`. -/
def varK (s q : A3 20 1 128) (c : Fin 128) : EReal :=
  max (Ideal.div (colK q c) nN - meanK s c * meanK s c) 0

/-- `γ · rsqrt (var + ε)`, a one-row matrix. -/
def scaleK (s q : A3 20 1 128) (g : A1 128) : A2 1 128 :=
  fun j => g (ix1 (j 1)) * Ideal.rsqrt (varK s q (j 1) + eps)

/-- `β - mean · scale`, a one-row matrix. -/
def shiftK (s q : A3 20 1 128) (g be : A1 128) : A2 1 128 :=
  fun j => be (ix1 (j 1)) - meanK s (j 1) * scaleK s q g (ix2 0 (j 1))

/-- `max (h · scale + shift, 0)`, scale and shift one-row matrices. -/
def bnrelu (h : A2 100000 128) (sc sh : A2 1 128) : A2 100000 128 :=
  fun j => max (h j * sc (ix2 0 (j 1)) + sh (ix2 0 (j 1))) 0

/-- A layer in the tiled arrangement. -/
def layerK (ag : A2 100000 128 → A2 100000 128) (x : A2 100000 128) (ws wn : A2 128 128) (b g be : A1 128) :
    A2 100000 128 :=
  bnrelu (conv x (ag x) ws wn (row b))
    (scaleK (tileSum (conv x (ag x) ws wn (row b))) (tileSumSq (conv x (ag x) ws wn (row b))) g)
    (shiftK (tileSum (conv x (ag x) ws wn (row b))) (tileSumSq (conv x (ag x) ws wn (row b))) g be)

/-! ## The textbook arrangement -/

def meanR (h : A2 100000 128) (c : Fin 128) : EReal := Ideal.div (∑ i : Fin 100000, h (ix2 i c)) nN

def varR (h : A2 100000 128) (c : Fin 128) : EReal :=
  Ideal.div (∑ i : Fin 100000, (h (ix2 i c) - meanR h c) * (h (ix2 i c) - meanR h c)) nN

/-- `max (((h - mean) · rsqrt (var + ε)) · γ + β, 0)`. -/
def bnR (h : A2 100000 128) (g be : A1 128) : A2 100000 128 :=
  fun j => max (((h j - meanR h (j 1)) * Ideal.rsqrt (varR h (j 1) + eps)) * g (ix1 (j 1)) + be (ix1 (j 1))) 0

/-- A layer in the textbook arrangement. -/
def layerR (ag : A2 100000 128 → A2 100000 128) (x : A2 100000 128) (ws wn : A2 128 128) (b g be : A1 128) :
    A2 100000 128 :=
  bnR (conv x (ag x) ws wn (row b)) g be

/-! ## The log-softmax of a row of 64 -/

/-- A row's maximum, folded from -∞. -/
def rowMax (f : Fin 64 → EReal) : EReal := (Finset.univ : Finset (Fin 64)).fold max negInf f

/-- `z - log Σ exp z` with `z = h - max h` along the row. -/
def lsmAt (h : A2 100000 64) (i : Fin 100000) (c : Fin 64) : EReal :=
  (h (ix2 i c) - rowMax (fun c' => h (ix2 i c')))
    - Ideal.log (∑ c'' : Fin 64, Ideal.exp (h (ix2 i c'') - rowMax (fun c' => h (ix2 i c'))))

def lsm (h : A2 100000 64) : A2 100000 64 := fun j => lsmAt h (j 0) (j 1)

/-! ## The whole network, in each arrangement -/

def outK (ag : A2 100000 128 → A2 100000 128) (x : A2 100000 128)
    (w0s w0n : A2 128 128) (b0 g0 be0 : A1 128) (w1s w1n : A2 128 128) (b1 g1 be1 : A1 128)
    (w2s w2n : A2 128 64) (b2 : A1 64) : A2 100000 64 :=
  lsm (conv (layerK ag (layerK ag x w0s w0n b0 g0 be0) w1s w1n b1 g1 be1)
    (ag (layerK ag (layerK ag x w0s w0n b0 g0 be0) w1s w1n b1 g1 be1)) w2s w2n (row b2))

def outR (ag : A2 100000 128 → A2 100000 128) (x : A2 100000 128)
    (w0s w0n : A2 128 128) (b0 g0 be0 : A1 128) (w1s w1n : A2 128 128) (b1 g1 be1 : A1 128)
    (w2s w2n : A2 128 64) (b2 : A1 64) : A2 100000 64 :=
  lsm (conv (layerR ag (layerR ag x w0s w0n b0 g0 be0) w1s w1n b1 g1 be1)
    (ag (layerR ag (layerR ag x w0s w0n b0 g0 be0) w1s w1n b1 g1 be1)) w2s w2n (row b2))

end Cert.GNN

end
-- ==== Proof.AggK.lean ====
/-
  The neighbour aggregation as the host code of the kernel's program computes it, as one function of the edge
  list and of the node features, written with the program's own operations.

  The edge list `ei` is a 2 × 1600000 table of 32-bit integers: row 0 holds each edge's source node, row 1 its
  destination node. A negative source index is counted from the end (`src + 100000`); the gather
  then clamps what it reads into the table. The in-degree of a node is the number of edges that end in it, obtained
  by scatter-adding a one per edge into a zero vector at the destinations; `dinv = 1 / max (deg, 1)` as a column.
  The aggregation of features `h` is the mean over a node's incoming edges of the source's feature row: the rows
  `h[src e]` gathered edge by edge, scatter-added into a zero matrix at row `dst e`, and each row scaled by `dinv`.

  The three layers of the network apply this same function to three different feature matrices; the index
  normalisation, the destinations and `dinv` depend on the edge list only and are named separately.
-/
import proofs.«110434_j36318243455158_2_alg».proof.KernelIdeal
import proofs.«110434_j36318243455158_2_alg».proof.Proof.Spec

noncomputable section

namespace Cert.KernelIdeal.KValue

open Idealize.ShloMosaic

variable [Facts₀]
open Facts₀

/-- The edge list: two rows of 1600000 node numbers. -/
abbrev EdgeTab : Type := (⟨S2x1600000, .i32⟩ : BufTy).Contents (Elt Ideal)
/-- One node number per edge. -/
abbrev EdgeVec : Type := (⟨S1600000, .i32⟩ : BufTy).Contents (Elt Ideal)
/-- One node number per edge, as a column of index vectors of length one. -/
abbrev EdgeCol : Type := (⟨S1600000x1, .i32⟩ : BufTy).Contents (Elt Ideal)

/-- Row 0 of the edge list, flattened: each edge's source as stored. -/
def srcRaw (ei : EdgeTab) : EdgeVec :=
  shapeCast S1600000 (extractStridedSlice S1x1600000 ![0, 0] ei slices_S2x1600000_S1x1600000_0_0)
    shapeCasts_S1x1600000_S1600000

/-- Row 1 of the edge list, flattened: each edge's destination. -/
def dstRaw (ei : EdgeTab) : EdgeVec :=
  shapeCast S1600000 (extractStridedSlice S1x1600000 ![1, 0] ei slices_S2x1600000_S1x1600000_1_0)
    shapeCasts_S1x1600000_S1600000

/-- The sources with a negative index counted from the end: `src < 0 ? src + 100000 : src`. -/
def srcN (ei : EdgeTab) : EdgeVec :=
  select (cmpi .slt (srcRaw ei) (broadcastInDim S1600000 ![] bcast_S_S1600000 (constantI S_ 32 0#32)))
    (addi (srcRaw ei) (broadcastInDim S1600000 ![] bcast_S_S1600000 (constantI S_ 32 100000#32)))
    (srcRaw ei)

/-- The normalised sources as the gather's start indices. -/
def srcB (ei : EdgeTab) : EdgeCol :=
  broadcastInDim S1600000x1 ![0] bcast_S1600000_S1600000x1_0 (srcN ei)

/-- The destinations as the scatters' indices. -/
def dstB (ei : EdgeTab) : EdgeCol :=
  broadcastInDim S1600000x1 ![0] bcast_S1600000_S1600000x1_0 (dstRaw ei)

/-- The in-degrees: a one per edge added at the edge's destination, from zero. -/
def deg (ei : EdgeTab) : (⟨S100000, .f32⟩ : BufTy).Contents (Elt Ideal) :=
  Host.scatterAdd (F := Ideal) scatter_S100000_S1600000x1_S1600000_n_0_0_1
    (broadcastInDim S100000 ![] bcast_S_S100000 (constant (F := Ideal) S_ .f32 0x00000000#32))
    (dstB ei)
    (broadcastInDim S1600000 ![] bcast_S_S1600000 (constant (F := Ideal) S_ .f32 0x3F800000#32))

/-- `1 / max (deg, 1)`, as a column. -/
def dinv (ei : EdgeTab) : (⟨S100000x1, .f32⟩ : BufTy).Contents (Elt Ideal) :=
  shapeCast S100000x1
    (Host.divf (F := Ideal) (broadcastInDim S100000 ![] bcast_S_S100000 (constant (F := Ideal) S_ .f32 0x3F800000#32))
      (maximumf (F := Ideal) (deg ei)
        (broadcastInDim S100000 ![] bcast_S_S100000 (constant (F := Ideal) S_ .f32 0x3F800000#32))))
    shapeCasts_S100000_S100000x1

/-- The mean of the in-neighbours' feature rows: gather the sources' rows, scatter-add them at the destinations
    from zero, scale each row by `dinv`. -/
def aggK (ei : EdgeTab) (h : Cert.GNN.A2 100000 128) : Cert.GNN.A2 100000 128 :=
  mulf (F := Ideal) (φ := .f32)
    (Host.scatterAdd (F := Ideal) scatter_S100000x128_S1600000x1_S1600000x128_1_0_0_1
      (broadcastInDim S100000x128 ![] bcast_S_S100000x128 (constant (F := Ideal) S_ .f32 0x00000000#32))
      (dstB ei)
      (Host.gather gather_S100000x128_S1600000x1_S1600000x128_1_0_n_n_0_1_1128 h (srcB ei)))
    (broadcastInDim S100000x128 ![0, 1] bcast_S100000x1_S100000x128_0_1 (dinv ei))

end Cert.KernelIdeal.KValue

end
-- ==== Proof.KRunNamed.lean ====
/-
  The run of the kernel's program at the ideal instance, with the result named.

  From any launch memory with zero counters, every weakly fair execution of the program's entry function on the
  TensorCores terminates without a fault, and in every final state
  * the result buffer (the value the last region writes, `main_v94`) holds what the fold of the program's segments
    leaves there: the contents `W10` at the exit of the fifth region, read at that buffer;
  * each of the fifteen argument arrays holds what it held at launch.

  The fold `W10` is the composition, from the launch memory, of the host stretches' results and of what each
  region's write-backs leave in its output arrays; the modules that follow read it stretch by stretch and region by
  region. The run itself is the launch theorem for a chain of host stretches and regions, whose final thread state
  holds every unscoped buffer at `W10`: the post below reads sixteen of those buffers off it.
-/
import proofs.«110434_j36318243455158_2_alg».proof.Proof.Gen.KernelIdeal.Frame
import Idealize.ShloMosaic.PureOps.Ideal

set_option maxRecDepth 16384

noncomputable section

namespace Cert.KernelIdeal.KValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

local notation "𝕄" => MT nD τ sig Unit (Elt Ideal) ℕ (UR sig nD τ) ℕ

variable (m : (ℓ : Loc nD τ sig) → Buf (Elt Ideal) ℓ) (ρ : Dev nD → PrngReg)

-- the launch theorem's implicit arguments are found by unifying its conclusion with this one, which takes unfolding
-- plain definitions in a metavariable's type
set_option backward.isDefEq.respectTransparency.types false in
/-- Every weakly fair execution terminates, nothing faulting, with the result buffer at the fold's contents and
    the argument arrays as launched. -/
theorem run_named : θ_run (defs (F := Ideal)) (onTc (τ := τ) (main (F := Ideal))) ⟨m, fun _ => 0, ρ⟩ (fun r => ∀ c : Dev nD,
      r.2.mem ((c.tc : Thread nD τ).loc main_v94) = Gen.W10 m ρ c (Proc.devRef .tc main_v94)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v94 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c),
       (h c _ (mem_uc main_arg10 (by decide))).trans (W10_main_arg10 m ρ c),
       (h c _ (mem_uc main_arg11 (by decide))).trans (W10_main_arg11 m ρ c),
       (h c _ (mem_uc main_arg12 (by decide))).trans (W10_main_arg12 m ρ c),
       (h c _ (mem_uc main_arg13 (by decide))).trans (W10_main_arg13 m ρ c),
       (h c _ (mem_uc main_arg14 (by decide))).trans (W10_main_arg14 m ρ c)⟩)

end Cert.KernelIdeal.KValue

end
-- ==== Proof.AggFrom.lean ====
/-
  The aggregation as the second and third layers' host code spells it, and that it is the same function.

  Before the second and the third convolution the program repeats the index normalisation on the stored sources,
  gathers rows of the previous layer's output (an array the program types as 16-bit floats and converts to 32-bit
  ones before the scatter-add; on extended reals the conversion does nothing), scatter-adds them at the stored
  destinations and scales by the stored inverse degrees. `aggFrom` is that composition as a function of the four
  buffers it reads; at the stored sources, destinations and inverse degrees of an edge list it is `aggK`.
-/
import proofs.«110434_j36318243455158_2_alg».proof.Proof.AggK

noncomputable section

namespace Cert.KernelIdeal.KValue

open Idealize.ShloMosaic

variable [Facts₀]
open Facts₀

/-- Gather the rows of `h` at the normalised sources, read them as 32-bit floats, scatter-add them at the
    destinations from zero, scale each row by the inverse degree. -/
def aggFrom (src dst : EdgeVec) (dv : (⟨S100000x1, .f32⟩ : BufTy).Contents (Elt Ideal))
    (h : (⟨S100000x128, .bf16⟩ : BufTy).Contents (Elt Ideal)) : Cert.GNN.A2 100000 128 :=
  mulf (F := Ideal) (φ := .f32)
    (Host.scatterAdd (F := Ideal) scatter_S100000x128_S1600000x1_S1600000x128_1_0_0_1
      (broadcastInDim S100000x128 ![] bcast_S_S100000x128 (constant (F := Ideal) S_ .f32 0x00000000#32))
      (broadcastInDim S1600000x1 ![0] bcast_S1600000_S1600000x1_0 dst)
      (extf (F := Ideal) .f32
        (Host.gather gather_S100000x128_S1600000x1_S1600000x128_1_0_n_n_0_1_1128 h
          (broadcastInDim S1600000x1 ![0] bcast_S1600000_S1600000x1_0
            (select (cmpi .slt src (broadcastInDim S1600000 ![] bcast_S_S1600000 (constantI S_ 32 0#32)))
              (addi src (broadcastInDim S1600000 ![] bcast_S_S1600000 (constantI S_ 32 100000#32)))
              src)))
        bitsLt_bf16_f32))
    (broadcastInDim S100000x128 ![0, 1] bcast_S100000x1_S100000x128_0_1 dv)

/-- On extended reals a change of float format is the identity. -/
theorem extf_bf16_f32 {s : Shape} (x : FVec Ideal s .bf16) (h : FTy.bits .bf16 < FTy.bits .f32) :
    extf (F := Ideal) .f32 x h = x := rfl

/-- At the stored sources, destinations and inverse degrees of an edge list, `aggFrom` is `aggK`. -/
theorem aggFrom_eq (ei : EdgeTab) (h : Cert.GNN.A2 100000 128) :
    aggFrom (srcRaw ei) (dstRaw ei) (dinv ei) h = aggK ei h := by
  unfold aggFrom
  rw [extf_bf16_f32]
  rfl

end Cert.KernelIdeal.KValue

end
-- ==== Proof.HostAgg0.lean ====
/-
  The host operations before the first convolution, read at the buffers that convolution takes.

  Before the first region the program computes, from the edge list (argument 1) and the node features (argument 0),
  the mean of every node's in-neighbours' feature rows, and turns the first bias vector (argument 4) into a one-row
  matrix. Read at the buffer the region takes as its second operand, the stretch's result is the aggregation
  `aggK` of the launch contents of arguments 1 and 0; at the bias buffer it is the bias as a row; the arguments
  themselves are not written. The intermediate buffers that the later stretches read again (the stored sources, the
  destinations, the inverse degrees) are read here too.

  Each fact is first stated over ANY memory the stretch starts from, as a fact about the list of operations alone,
  and then instantiated at the launch memory.
-/
import proofs.«110434_j36318243455158_2_alg».proof.Proof.Gen.KernelIdeal.Frame
import proofs.«110434_j36318243455158_2_alg».proof.Proof.AggK
import Idealize.ShloMosaic.Lib.ValueLayout

set_option maxRecDepth 16384

noncomputable section

namespace Cert.KernelIdeal.KValue

open Idealize.ShloMosaic Idealize.ShloMosaic.TcCoe Idealize.ShloMosaic.ValueIdx
open Idealize.ShloMosaic.StableHlo
open Cert.KernelIdeal.Gen

/-! ## The first stretch over any starting memory -/

section Stretch
variable (W : Valuation τ sig (Elt Ideal))

/-- The flattened source row is the edge list's row 0. -/
theorem after0_v1 : (StableHlo.after (hostOps0 (F := Ideal)) W (Proc.devRef .tc main_v1) : EdgeVec)
    = srcRaw (W (Proc.devRef .tc main_arg1)) := by
  after_results_simp; rfl

/-- The flattened destination row is the edge list's row 1. -/
theorem after0_v3 : (StableHlo.after (hostOps0 (F := Ideal)) W (Proc.devRef .tc main_v3) : EdgeVec)
    = dstRaw (W (Proc.devRef .tc main_arg1)) := by
  after_results_simp; rfl

/-- The inverse degrees, as a column. -/
theorem after0_v12 : (StableHlo.after (hostOps0 (F := Ideal)) W (Proc.devRef .tc main_v12)
      : (⟨S100000x1, .f32⟩ : BufTy).Contents (Elt Ideal))
    = dinv (W (Proc.devRef .tc main_arg1)) := by
  after_results_simp; rfl

/-- The aggregation of the features in argument 0 along the edges in argument 1. -/
theorem after0_v24 : (StableHlo.after (hostOps0 (F := Ideal)) W (Proc.devRef .tc main_v24) : Cert.GNN.A2 100000 128)
    = aggK (W (Proc.devRef .tc main_arg1)) (W (Proc.devRef .tc main_arg0)) := by
  after_results_simp; rfl

/-- The first bias as a one-row matrix. -/
theorem after0_v25 : (StableHlo.after (hostOps0 (F := Ideal)) W (Proc.devRef .tc main_v25) : Cert.GNN.A2 1 128)
    = Cert.GNN.row (W (Proc.devRef .tc main_arg4)) := by
  after_results_simp
  funext j
  rw [eq_ix2 j]
  exact shapeCast_a_1a_apply _ _ _ _

/-- The stretch writes none of the arguments. -/
theorem after0_arg0 : StableHlo.after (hostOps0 (F := Ideal)) W (Proc.devRef .tc main_arg0) = W (Proc.devRef .tc main_arg0) := by
  after_results_simp
theorem after0_arg1 : StableHlo.after (hostOps0 (F := Ideal)) W (Proc.devRef .tc main_arg1) = W (Proc.devRef .tc main_arg1) := by
  after_results_simp
theorem after0_arg2 : StableHlo.after (hostOps0 (F := Ideal)) W (Proc.devRef .tc main_arg2) = W (Proc.devRef .tc main_arg2) := by
  after_results_simp
theorem after0_arg3 : StableHlo.after (hostOps0 (F := Ideal)) W (Proc.devRef .tc main_arg3) = W (Proc.devRef .tc main_arg3) := by
  after_results_simp

end Stretch

/-! ## At the launch memory: what the first region finds -/

section Run
variable (m : (ℓ : Loc nD τ sig) → Buf (Elt Ideal) ℓ) (ρ : Dev nD → PrngReg) (c : Dev nD)

theorem V1_v24 : (Gen.V1 m ρ c main_v24 : Cert.GNN.A2 100000 128)
    = aggK (m ((c.tc : Thread nD τ).loc main_arg1)) (m ((c.tc : Thread nD τ).loc main_arg0)) :=
  after0_v24 (W0 m ρ c)

theorem V1_v25 : (Gen.V1 m ρ c main_v25 : Cert.GNN.A2 1 128) = Cert.GNN.row (m ((c.tc : Thread nD τ).loc main_arg4)) :=
  after0_v25 (W0 m ρ c)

theorem V1_arg0 : Gen.V1 m ρ c main_arg0 = m ((c.tc : Thread nD τ).loc main_arg0) := after0_arg0 (W0 m ρ c)
theorem V1_arg2 : Gen.V1 m ρ c main_arg2 = m ((c.tc : Thread nD τ).loc main_arg2) := after0_arg2 (W0 m ρ c)
theorem V1_arg3 : Gen.V1 m ρ c main_arg3 = m ((c.tc : Thread nD τ).loc main_arg3) := after0_arg3 (W0 m ρ c)

/-- The stored sources, the destinations and the inverse degrees as the later stretches find them when nothing
    in between writes them: at the first region's entry. -/
theorem W1_v1 : (W1 m ρ c (Proc.devRef .tc main_v1) : EdgeVec) = srcRaw (m ((c.tc : Thread nD τ).loc main_arg1)) :=
  after0_v1 (W0 m ρ c)
theorem W1_v3 : (W1 m ρ c (Proc.devRef .tc main_v3) : EdgeVec) = dstRaw (m ((c.tc : Thread nD τ).loc main_arg1)) :=
  after0_v3 (W0 m ρ c)
theorem W1_v12 : (W1 m ρ c (Proc.devRef .tc main_v12) : (⟨S100000x1, .f32⟩ : BufTy).Contents (Elt Ideal))
    = dinv (m ((c.tc : Thread nD τ).loc main_arg1)) :=
  after0_v12 (W0 m ρ c)

end Run

end Cert.KernelIdeal.KValue

end
-- ==== Proof.HostAgg2.lean ====
/-
  The host operations before the second convolution, read at the buffers that convolution takes.

  Between the first layer's normalisation and the second convolution the program aggregates the first layer's
  output along the same edges. It reads the stored sources, destinations and inverse degrees that the first stretch
  left (no operation and no region in between writes them), the first layer's output as the second region left it,
  and the second bias vector (argument 9). At the buffer the third region takes as its second operand the result is
  `aggK` of the launch edge list and of the first layer's output; the bias buffer holds the bias as a row; the
  first layer's output and the two weight matrices (arguments 7 and 8) are as they were.
-/
import proofs.«110434_j36318243455158_2_alg».proof.Proof.Gen.KernelIdeal.Frame
import proofs.«110434_j36318243455158_2_alg».proof.Proof.AggK
import proofs.«110434_j36318243455158_2_alg».proof.Proof.AggFrom
import proofs.«110434_j36318243455158_2_alg».proof.Proof.HostAgg0
import Idealize.ShloMosaic.Lib.ValueLayout

set_option maxRecDepth 16384

noncomputable section

namespace Cert.KernelIdeal.KValue

open Idealize.ShloMosaic Idealize.ShloMosaic.TcCoe Idealize.ShloMosaic.ValueIdx
open Idealize.ShloMosaic.StableHlo
open Cert.KernelIdeal.Gen

/-! ## The stretches over any starting memory -/

section Stretch
variable (W : Valuation τ sig (Elt Ideal))

/-- The second layer's aggregation, from the four buffers the stretch reads. -/
theorem after2_v58 : (StableHlo.after (hostOps2 (F := Ideal)) W (Proc.devRef .tc main_v58) : Cert.GNN.A2 100000 128)
    = aggFrom (W (Proc.devRef .tc main_v1)) (W (Proc.devRef .tc main_v3)) (W (Proc.devRef .tc main_v12))
        (W (Proc.devRef .tc main_v45)) := by
  after_results_simp; rfl

/-- The second bias as a one-row matrix. -/
theorem after2_v59 : (StableHlo.after (hostOps2 (F := Ideal)) W (Proc.devRef .tc main_v59) : Cert.GNN.A2 1 128)
    = Cert.GNN.row (W (Proc.devRef .tc main_arg9)) := by
  after_results_simp
  funext j
  rw [eq_ix2 j]
  exact shapeCast_a_1a_apply _ _ _ _

/-- What the stretch before the second convolution does not write. -/
theorem after2_v45 : StableHlo.after (hostOps2 (F := Ideal)) W (Proc.devRef .tc main_v45) = W (Proc.devRef .tc main_v45) := by
  after_results_simp
theorem after2_arg7 : StableHlo.after (hostOps2 (F := Ideal)) W (Proc.devRef .tc main_arg7) = W (Proc.devRef .tc main_arg7) := by
  after_results_simp
theorem after2_arg8 : StableHlo.after (hostOps2 (F := Ideal)) W (Proc.devRef .tc main_arg8) = W (Proc.devRef .tc main_arg8) := by
  after_results_simp
theorem after2_v1 : StableHlo.after (hostOps2 (F := Ideal)) W (Proc.devRef .tc main_v1) = W (Proc.devRef .tc main_v1) := by
  after_results_simp
theorem after2_v3 : StableHlo.after (hostOps2 (F := Ideal)) W (Proc.devRef .tc main_v3) = W (Proc.devRef .tc main_v3) := by
  after_results_simp
theorem after2_v12 : StableHlo.after (hostOps2 (F := Ideal)) W (Proc.devRef .tc main_v12) = W (Proc.devRef .tc main_v12) := by
  after_results_simp

/-- What the first normalisation's stretch does not write. -/
theorem after1_v1 : StableHlo.after (hostOps1 (F := Ideal)) W (Proc.devRef .tc main_v1) = W (Proc.devRef .tc main_v1) := by
  after_results_simp
theorem after1_v3 : StableHlo.after (hostOps1 (F := Ideal)) W (Proc.devRef .tc main_v3) = W (Proc.devRef .tc main_v3) := by
  after_results_simp
theorem after1_v12 : StableHlo.after (hostOps1 (F := Ideal)) W (Proc.devRef .tc main_v12) = W (Proc.devRef .tc main_v12) := by
  after_results_simp
theorem after1_arg7 : StableHlo.after (hostOps1 (F := Ideal)) W (Proc.devRef .tc main_arg7) = W (Proc.devRef .tc main_arg7) := by
  after_results_simp
theorem after1_arg8 : StableHlo.after (hostOps1 (F := Ideal)) W (Proc.devRef .tc main_arg8) = W (Proc.devRef .tc main_arg8) := by
  after_results_simp
theorem after1_arg9 : StableHlo.after (hostOps1 (F := Ideal)) W (Proc.devRef .tc main_arg9) = W (Proc.devRef .tc main_arg9) := by
  after_results_simp

/-- What the first stretch does not write. -/
theorem after0_arg7 : StableHlo.after (hostOps0 (F := Ideal)) W (Proc.devRef .tc main_arg7) = W (Proc.devRef .tc main_arg7) := by
  after_results_simp
theorem after0_arg8 : StableHlo.after (hostOps0 (F := Ideal)) W (Proc.devRef .tc main_arg8) = W (Proc.devRef .tc main_arg8) := by
  after_results_simp
theorem after0_arg9 : StableHlo.after (hostOps0 (F := Ideal)) W (Proc.devRef .tc main_arg9) = W (Proc.devRef .tc main_arg9) := by
  after_results_simp

end Stretch

/-! ## At the launch memory: what the third region finds -/

section Run
variable (m : (ℓ : Loc nD τ sig) → Buf (Elt Ideal) ℓ) (ρ : Dev nD → PrngReg) (c : Dev nD)

/-- At the second region's exit the stored sources, destinations and inverse degrees are the first stretch's. -/
theorem W4_v1 : (W4 m ρ c (Proc.devRef .tc main_v1) : EdgeVec) = srcRaw (m ((c.tc : Thread nD τ).loc main_arg1)) :=
  (W4_of_ne m ρ c main_v1 (by decide)).trans ((after1_v1 (W2 m ρ c)).trans
    ((W2_of_ne m ρ c main_v1 (by decide)).trans (W1_v1 m ρ c)))
theorem W4_v3 : (W4 m ρ c (Proc.devRef .tc main_v3) : EdgeVec) = dstRaw (m ((c.tc : Thread nD τ).loc main_arg1)) :=
  (W4_of_ne m ρ c main_v3 (by decide)).trans ((after1_v3 (W2 m ρ c)).trans
    ((W2_of_ne m ρ c main_v3 (by decide)).trans (W1_v3 m ρ c)))
theorem W4_v12 : (W4 m ρ c (Proc.devRef .tc main_v12) : (⟨S100000x1, .f32⟩ : BufTy).Contents (Elt Ideal))
    = dinv (m ((c.tc : Thread nD τ).loc main_arg1)) :=
  (W4_of_ne m ρ c main_v12 (by decide)).trans ((after1_v12 (W2 m ρ c)).trans
    ((W2_of_ne m ρ c main_v12 (by decide)).trans (W1_v12 m ρ c)))

/-- An argument that neither of the first two stretches nor of the first two regions writes is, at the second
    region's exit, as launched. -/
theorem W4_arg7 : W4 m ρ c (Proc.devRef .tc main_arg7) = m ((c.tc : Thread nD τ).loc main_arg7) :=
  (W4_of_ne m ρ c main_arg7 (by decide)).trans ((after1_arg7 (W2 m ρ c)).trans
    ((W2_of_ne m ρ c main_arg7 (by decide)).trans ((after0_arg7 (W0 m ρ c)).trans rfl)))
theorem W4_arg8 : W4 m ρ c (Proc.devRef .tc main_arg8) = m ((c.tc : Thread nD τ).loc main_arg8) :=
  (W4_of_ne m ρ c main_arg8 (by decide)).trans ((after1_arg8 (W2 m ρ c)).trans
    ((W2_of_ne m ρ c main_arg8 (by decide)).trans ((after0_arg8 (W0 m ρ c)).trans rfl)))
theorem W4_arg9 : W4 m ρ c (Proc.devRef .tc main_arg9) = m ((c.tc : Thread nD τ).loc main_arg9) :=
  (W4_of_ne m ρ c main_arg9 (by decide)).trans ((after1_arg9 (W2 m ρ c)).trans
    ((W2_of_ne m ρ c main_arg9 (by decide)).trans ((after0_arg9 (W0 m ρ c)).trans rfl)))

theorem V5_v58 : (Gen.V5 m ρ c main_v58 : Cert.GNN.A2 100000 128)
    = aggK (m ((c.tc : Thread nD τ).loc main_arg1)) (Gen.V4 m ρ c main_v45) := by
  refine (after2_v58 (W4 m ρ c)).trans ?_
  rw [W4_v1, W4_v3, W4_v12]
  exact aggFrom_eq _ _

theorem V5_v59 : (Gen.V5 m ρ c main_v59 : Cert.GNN.A2 1 128) = Cert.GNN.row (m ((c.tc : Thread nD τ).loc main_arg9)) :=
  (after2_v59 (W4 m ρ c)).trans (congrArg Cert.GNN.row (W4_arg9 m ρ c))

theorem V5_v45 : Gen.V5 m ρ c main_v45 = Gen.V4 m ρ c main_v45 := after2_v45 (W4 m ρ c)

theorem V5_arg7 : Gen.V5 m ρ c main_arg7 = m ((c.tc : Thread nD τ).loc main_arg7) :=
  (after2_arg7 (W4 m ρ c)).trans (W4_arg7 m ρ c)
theorem V5_arg8 : Gen.V5 m ρ c main_arg8 = m ((c.tc : Thread nD τ).loc main_arg8) :=
  (after2_arg8 (W4 m ρ c)).trans (W4_arg8 m ρ c)

end Run

end Cert.KernelIdeal.KValue

end
-- ==== Proof.HostAgg4.lean ====
/-
  The host operations before the third convolution, read at the buffers that convolution takes.

  Between the second layer's normalisation and the last convolution the program aggregates the second layer's
  output along the same edges, from the stored sources, destinations and inverse degrees of the first stretch
  (nothing in between writes them) and from the second layer's output as the fourth region left it, and turns the
  last bias vector (argument 14) into a one-row matrix. At the buffer the fifth region takes as its second operand
  the result is `aggK` of the launch edge list and of the second layer's output; the bias buffer holds the bias
  as a row; the second layer's output and the two weight matrices (arguments 12 and 13) are as they were.
-/
import proofs.«110434_j36318243455158_2_alg».proof.Proof.Gen.KernelIdeal.Frame
import proofs.«110434_j36318243455158_2_alg».proof.Proof.AggK
import proofs.«110434_j36318243455158_2_alg».proof.Proof.AggFrom
import proofs.«110434_j36318243455158_2_alg».proof.Proof.HostAgg2
import Idealize.ShloMosaic.Lib.ValueLayout

set_option maxRecDepth 16384

noncomputable section

namespace Cert.KernelIdeal.KValue

open Idealize.ShloMosaic Idealize.ShloMosaic.TcCoe Idealize.ShloMosaic.ValueIdx
open Idealize.ShloMosaic.StableHlo
open Cert.KernelIdeal.Gen

/-! ## The stretches over any starting memory -/

section Stretch
variable (W : Valuation τ sig (Elt Ideal))

/-- The third layer's aggregation, from the four buffers the stretch reads. -/
theorem after4_v92 : (StableHlo.after (hostOps4 (F := Ideal)) W (Proc.devRef .tc main_v92) : Cert.GNN.A2 100000 128)
    = aggFrom (W (Proc.devRef .tc main_v1)) (W (Proc.devRef .tc main_v3)) (W (Proc.devRef .tc main_v12))
        (W (Proc.devRef .tc main_v79)) := by
  after_results_simp; rfl

/-- The last bias as a one-row matrix. -/
theorem after4_v93 : (StableHlo.after (hostOps4 (F := Ideal)) W (Proc.devRef .tc main_v93) : Cert.GNN.A2 1 64)
    = Cert.GNN.row (W (Proc.devRef .tc main_arg14)) := by
  after_results_simp
  funext j
  rw [eq_ix2 j]
  exact shapeCast_a_1a_apply _ _ _ _

/-- What the stretch before the last convolution does not write. -/
theorem after4_v79 : StableHlo.after (hostOps4 (F := Ideal)) W (Proc.devRef .tc main_v79) = W (Proc.devRef .tc main_v79) := by
  after_results_simp
theorem after4_arg14 : StableHlo.after (hostOps4 (F := Ideal)) W (Proc.devRef .tc main_arg14) = W (Proc.devRef .tc main_arg14) := by
  after_results_simp

/-- What the second normalisation's stretch does not write. -/
theorem after3_v1 : StableHlo.after (hostOps3 (F := Ideal)) W (Proc.devRef .tc main_v1) = W (Proc.devRef .tc main_v1) := by
  after_results_simp
theorem after3_v3 : StableHlo.after (hostOps3 (F := Ideal)) W (Proc.devRef .tc main_v3) = W (Proc.devRef .tc main_v3) := by
  after_results_simp
theorem after3_v12 : StableHlo.after (hostOps3 (F := Ideal)) W (Proc.devRef .tc main_v12) = W (Proc.devRef .tc main_v12) := by
  after_results_simp

end Stretch

/-! ## At the launch memory: what the fifth region finds -/

section Run
variable (m : (ℓ : Loc nD τ sig) → Buf (Elt Ideal) ℓ) (ρ : Dev nD → PrngReg) (c : Dev nD)

/-- At the fourth region's exit the stored sources, destinations and inverse degrees are the first stretch's. -/
theorem W8_v1 : (W8 m ρ c (Proc.devRef .tc main_v1) : EdgeVec) = srcRaw (m ((c.tc : Thread nD τ).loc main_arg1)) :=
  (W8_of_ne m ρ c main_v1 (by decide)).trans ((after3_v1 (W6 m ρ c)).trans
    ((W6_of_ne m ρ c main_v1 (by decide)).trans ((after2_v1 (W4 m ρ c)).trans (W4_v1 m ρ c))))
theorem W8_v3 : (W8 m ρ c (Proc.devRef .tc main_v3) : EdgeVec) = dstRaw (m ((c.tc : Thread nD τ).loc main_arg1)) :=
  (W8_of_ne m ρ c main_v3 (by decide)).trans ((after3_v3 (W6 m ρ c)).trans
    ((W6_of_ne m ρ c main_v3 (by decide)).trans ((after2_v3 (W4 m ρ c)).trans (W4_v3 m ρ c))))
theorem W8_v12 : (W8 m ρ c (Proc.devRef .tc main_v12) : (⟨S100000x1, .f32⟩ : BufTy).Contents (Elt Ideal))
    = dinv (m ((c.tc : Thread nD τ).loc main_arg1)) :=
  (W8_of_ne m ρ c main_v12 (by decide)).trans ((after3_v12 (W6 m ρ c)).trans
    ((W6_of_ne m ρ c main_v12 (by decide)).trans ((after2_v12 (W4 m ρ c)).trans (W4_v12 m ρ c))))

/-- The last bias vector at the fourth region's exit is as launched: neither the last stretch nor the last region
    writes it, and at the end of the run it is as launched. -/
theorem W8_arg14 : W8 m ρ c (Proc.devRef .tc main_arg14) = m ((c.tc : Thread nD τ).loc main_arg14) :=
  (after4_arg14 (W8 m ρ c)).symm.trans ((W10_of_ne m ρ c main_arg14 (by decide)).symm.trans (W10_main_arg14 m ρ c))

theorem V9_v92 : (Gen.V9 m ρ c main_v92 : Cert.GNN.A2 100000 128)
    = aggK (m ((c.tc : Thread nD τ).loc main_arg1)) (Gen.V8 m ρ c main_v79) := by
  refine (after4_v92 (W8 m ρ c)).trans ?_
  rw [W8_v1, W8_v3, W8_v12]
  exact aggFrom_eq _ _

theorem V9_v93 : (Gen.V9 m ρ c main_v93 : Cert.GNN.A2 1 64) = Cert.GNN.row (m ((c.tc : Thread nD τ).loc main_arg14)) :=
  (after4_v93 (W8 m ρ c)).trans (congrArg Cert.GNN.row (W8_arg14 m ρ c))

theorem V9_v79 : Gen.V9 m ρ c main_v79 = Gen.V8 m ρ c main_v79 := after4_v79 (W8 m ρ c)

/-- The last region reads its weight matrices and leaves them; at the end of the run they are as launched. -/
theorem V9_arg12 : Gen.V9 m ρ c main_arg12 = m ((c.tc : Thread nD τ).loc main_arg12) :=
  ((W10_arr m ρ c 2).trans (((dat4 (V9 m ρ) c).arrAt_in 2 rfl _).trans (A_eq4 (V9 m ρ) c 2))).symm.trans
    (W10_main_arg12 m ρ c)
theorem V9_arg13 : Gen.V9 m ρ c main_arg13 = m ((c.tc : Thread nD τ).loc main_arg13) :=
  ((W10_arr m ρ c 3).trans (((dat4 (V9 m ρ) c).arrAt_in 3 rfl _).trans (A_eq4 (V9 m ρ) c 3))).symm.trans
    (W10_main_arg13 m ρ c)

end Run

end Cert.KernelIdeal.KValue

end
-- ==== Proof.HostStats1.lean ====
/-
  Between the first convolution and its normalisation the host turns the convolution's per-tile column sums
  into the normalisation's affine form. With s[t,0,c] the sum of column c over tile t and q[t,0,c] the sum of its
  squares, the host adds each over the 20 tiles starting from zero, divides by n = 100000 to get E[h] and E[h²],
  forms var = max (E[h²] - E[h]², 0), and then
      scale[0,c] = γ[c] · rsqrt (var[c] + ε),        shift[0,c] = β[c] - E[h][c] · scale[0,c],
  γ and β being the layer's two vectors viewed as one-row matrices. This file reads those operations entry by
  entry at the exact (extended-real) arithmetic and shows that the two one-row matrices the next region takes are
  the specification's scaleK and shiftK of the tile sums, and that the convolution's own output is passed on
  untouched. Each operation read at an index is its textbook meaning; the only steps with content are the sum over
  the tile axis (a sum over Fin 20, the zero start value dropping out) and the vector-to-row view (row-major
  position c of the vector is position (0, c) of the row).
-/
import proofs.«110434_j36318243455158_2_alg».proof.Proof.Gen.KernelIdeal.Frame
import proofs.«110434_j36318243455158_2_alg».proof.Proof.Spec
import Idealize.ShloMosaic.Lib.IdealHost
import Idealize.ShloMosaic.Lib.Pipeline.Value

noncomputable section

open Idealize.ShloMosaic Idealize.ShloMosaic.ValueIdx Idealize.ShloMosaic.TcCoe
open scoped BigOperators

namespace Cert.KernelIdeal.KValue.Stats1

open Cert.KernelIdeal Cert.KernelIdeal.Gen

/-! ## The operations at an index, over variables -/

/-- The shape fact that names the index a reduction over the tile axis inserts. -/
theorem red20 : S20x1x128.Reduces [0] S1x128 := by decide

/-- The host's sum over the 20 tiles from the zero word, at a column: the sum of the 20 entries. -/
theorem colsum_at (s : FVec Ideal S20x1x128 .f32) (j : S1x128.Idx) :
    Host.reduceAdd s (constant (F := Ideal) S_ .f32 0x00000000#32) reducesTo_S20x1x128_S1x128_d0 h_S_ j
      = Cert.GNN.colK s (j 1) := by
  rw [hostReduceAdd_apply, Ideal.hostReduceAdd_single _ red20, constant_apply, Ideal.ofBits_zero_f32, zero_add]
  unfold Cert.GNN.colK
  refine Finset.sum_congr rfl fun k _ => congrArg s ?_
  have h0 : (j 0).val = 0 := Nat.lt_one_iff.mp (idx2_lt0 j)
  funext d
  apply Fin.ext
  match d with
  | ⟨0, _⟩ => rfl
  | ⟨1, _⟩ => exact h0
  | ⟨2, _⟩ => rfl

/-- The column mean as the host forms it: the sum over the tiles divided by the word of 100000. -/
def hMean (s : FVec Ideal S20x1x128 .f32) : FVec Ideal S1x128 .f32 :=
  Host.divf (Host.reduceAdd s (constant (F := Ideal) S_ .f32 0x00000000#32) reducesTo_S20x1x128_S1x128_d0 h_S_)
    (broadcastInDim S1x128 ![] bcast_S_S1x128 (constant (F := Ideal) S_ .f32 0x47C35000#32))

theorem hMean_at (s : FVec Ideal S20x1x128 .f32) (j : S1x128.Idx) : hMean s j = Cert.GNN.meanK s (j 1) := by
  unfold hMean
  rw [hostDivf_apply, colsum_at, broadcastInDim_scalar_apply, constant_apply]
  rfl

/-- A vector viewed as a one-row matrix reads the vector at the column. -/
theorem rowcast_at (g : FVec Ideal S128 .f32) (j : S1x128.Idx) :
    shapeCast S1x128 g shapeCasts_S128_S1x128 j = g (ix1 (j 1)) := by
  have h0 : (j 0).val = 0 := Nat.lt_one_iff.mp (idx2_lt0 j)
  refine shapeCast_apply g _ j (ix1 (j 1)) ?_
  rw [Shape.rowMajor_val_one, Shape.rowMajor_val_two, h0]
  show (j 1).val = 0 * 128 + (j 1).val
  omega

/-- The host's reciprocal square root at an index. -/
theorem hostRsqrt_at (x : FVec Ideal S1x128 .f32) (j : S1x128.Idx) : Host.rsqrt x j = Ideal.rsqrt (x j) := rfl

/-- The scale as the host forms it from the two families of tile sums and γ. -/
def hScale (s q : FVec Ideal S20x1x128 .f32) (g : FVec Ideal S128 .f32) : FVec Ideal S1x128 .f32 :=
  mulf (fun i => shapeCast S1x128 g shapeCasts_S128_S1x128 i)
    (Host.rsqrt
      (addf
        (maximumf (subf (hMean q) (mulf (hMean s) (hMean s)))
          (broadcastInDim S1x128 ![] bcast_S_S1x128 (constant (F := Ideal) S_ .f32 0x00000000#32)))
        (broadcastInDim S1x128 ![] bcast_S_S1x128 (constant (F := Ideal) S_ .f32 0x3727C5AC#32))))

theorem hScale_eq (s q : FVec Ideal S20x1x128 .f32) (g : FVec Ideal S128 .f32) :
    (hScale s q g : Cert.GNN.A2 1 128) = Cert.GNN.scaleK s q g := by
  funext j
  unfold hScale
  rw [mulf_apply, hostRsqrt_at, addf_apply, maximumf_apply, subf_apply, mulf_apply, hMean_at, hMean_at,
    broadcastInDim_scalar_apply, broadcastInDim_scalar_apply, constant_apply, constant_apply, Ideal.ofBits_zero_f32]
  show shapeCast S1x128 g shapeCasts_S128_S1x128 j * _ = _
  rw [rowcast_at]
  rfl

/-- The shift as the host forms it: β as a row minus the mean times the scale. -/
def hShift (s q : FVec Ideal S20x1x128 .f32) (g be : FVec Ideal S128 .f32) : FVec Ideal S1x128 .f32 :=
  subf (fun i => shapeCast S1x128 be shapeCasts_S128_S1x128 i) (mulf (hMean s) (hScale s q g))

theorem hShift_eq (s q : FVec Ideal S20x1x128 .f32) (g be : FVec Ideal S128 .f32) :
    (hShift s q g be : Cert.GNN.A2 1 128) = Cert.GNN.shiftK s q g be := by
  funext j
  unfold hShift
  rw [subf_apply, mulf_apply, hMean_at, congrFun (hScale_eq s q g) j]
  show shapeCast S1x128 be shapeCasts_S128_S1x128 j - _ = _
  rw [rowcast_at]
  rfl

/-! ## The stretch of host operations, from any contents -/

/-- From any contents `W`, the stretch leaves the scale of `W`'s tile sums and γ in the scale's buffer. -/
theorem after_scale (W : Valuation τ sig (Elt Ideal)) :
    (StableHlo.after (hostOps1 (F := Ideal)) W (Proc.devRef .tc main_v41) : Cert.GNN.A2 1 128)
      = Cert.GNN.scaleK (W (Proc.devRef .tc main_v26_1)) (W (Proc.devRef .tc main_v26_2)) (W (Proc.devRef .tc main_arg5)) := by
  after_results_simp
  exact hScale_eq _ _ _

/-- … and the shift of `W`'s tile sums, γ and β in the shift's buffer. -/
theorem after_shift (W : Valuation τ sig (Elt Ideal)) :
    (StableHlo.after (hostOps1 (F := Ideal)) W (Proc.devRef .tc main_v44) : Cert.GNN.A2 1 128)
      = Cert.GNN.shiftK (W (Proc.devRef .tc main_v26_1)) (W (Proc.devRef .tc main_v26_2)) (W (Proc.devRef .tc main_arg5))
          (W (Proc.devRef .tc main_arg6)) := by
  after_results_simp
  exact hShift_eq _ _ _ _

end Cert.KernelIdeal.KValue.Stats1

namespace Cert.KernelIdeal.KValue

open Cert.KernelIdeal Cert.KernelIdeal.Gen

variable (m : (ℓ : Loc nD τ sig) → Buf (Elt Ideal) ℓ) (ρ : Dev nD → PrngReg)

/-- No region and no host operation before this point writes the argument `main_arg5`: it still holds its launch contents. -/
theorem W2_arg5 (c : Dev nD) :
    Gen.W2 m ρ c (Proc.devRef .tc main_arg5) = m ((c : Thread nD τ).loc main_arg5) :=
  calc Gen.W2 m ρ c (Proc.devRef .tc main_arg5)
    _ = Gen.W1 m ρ c (Proc.devRef .tc main_arg5) := Gen.W2_of_ne m ρ c main_arg5 (by decide)
    _ = Gen.W0 m ρ c (Proc.devRef .tc main_arg5) := StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide)))
    _ = m ((c : Thread nD τ).loc main_arg5) := rfl

/-- No region and no host operation before this point writes the argument `main_arg6`: it still holds its launch contents. -/
theorem W2_arg6 (c : Dev nD) :
    Gen.W2 m ρ c (Proc.devRef .tc main_arg6) = m ((c : Thread nD τ).loc main_arg6) :=
  calc Gen.W2 m ρ c (Proc.devRef .tc main_arg6)
    _ = Gen.W1 m ρ c (Proc.devRef .tc main_arg6) := Gen.W2_of_ne m ρ c main_arg6 (by decide)
    _ = Gen.W0 m ρ c (Proc.devRef .tc main_arg6) := StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide)))
    _ = m ((c : Thread nD τ).loc main_arg6) := rfl

/-- The scale the next region takes is the specification's, of the convolution region's two families of tile sums and γ. -/
theorem V3_v41 (c : Dev nD) :
    (Gen.V3 m ρ c main_v41 : Cert.GNN.A2 1 128)
      = Cert.GNN.scaleK (Gen.V2 m ρ c main_v26_1) (Gen.V2 m ρ c main_v26_2) (m ((c : Thread nD τ).loc main_arg5)) := by
  have h := Stats1.after_scale (Gen.W2 m ρ c)
  rw [W2_arg5 m ρ c] at h
  exact h

/-- The shift the next region takes is the specification's, of the same tile sums, γ and β. -/
theorem V3_v44 (c : Dev nD) :
    (Gen.V3 m ρ c main_v44 : Cert.GNN.A2 1 128)
      = Cert.GNN.shiftK (Gen.V2 m ρ c main_v26_1) (Gen.V2 m ρ c main_v26_2) (m ((c : Thread nD τ).loc main_arg5))
          (m ((c : Thread nD τ).loc main_arg6)) := by
  have h := Stats1.after_shift (Gen.W2 m ρ c)
  rw [W2_arg5 m ρ c, W2_arg6 m ρ c] at h
  exact h

/-- The stretch does not write the convolution's output: the next region takes it as the convolution region left it. -/
theorem V3_v26_0 (c : Dev nD) : Gen.V3 m ρ c main_v26_0 = Gen.V2 m ρ c main_v26_0 :=
  StableHlo.after_of_forall_not_mem _ _ (List.forall_iff_forall_mem.mp (by
      simp only [hostOps1, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide)))

end Cert.KernelIdeal.KValue

end
-- ==== Proof.HostStats3.lean ====
/-
  Between the second convolution and its normalisation the host turns the convolution's per-tile column sums
  into the normalisation's affine form. With s[t,0,c] the sum of column c over tile t and q[t,0,c] the sum of its
  squares, the host adds each over the 20 tiles starting from zero, divides by n = 100000 to get E[h] and E[h²],
  forms var = max (E[h²] - E[h]², 0), and then
      scale[0,c] = γ[c] · rsqrt (var[c] + ε),        shift[0,c] = β[c] - E[h][c] · scale[0,c],
  γ and β being the layer's two vectors viewed as one-row matrices. This file reads those operations entry by
  entry at the exact (extended-real) arithmetic and shows that the two one-row matrices the next region takes are
  the specification's scaleK and shiftK of the tile sums, and that the convolution's own output is passed on
  untouched. Each operation read at an index is its textbook meaning; the only steps with content are the sum over
  the tile axis (a sum over Fin 20, the zero start value dropping out) and the vector-to-row view (row-major
  position c of the vector is position (0, c) of the row).
-/
import proofs.«110434_j36318243455158_2_alg».proof.Proof.Gen.KernelIdeal.Frame
import proofs.«110434_j36318243455158_2_alg».proof.Proof.Spec
import Idealize.ShloMosaic.Lib.IdealHost
import Idealize.ShloMosaic.Lib.Pipeline.Value

noncomputable section

open Idealize.ShloMosaic Idealize.ShloMosaic.ValueIdx Idealize.ShloMosaic.TcCoe
open scoped BigOperators

namespace Cert.KernelIdeal.KValue.Stats3

open Cert.KernelIdeal Cert.KernelIdeal.Gen

/-! ## The operations at an index, over variables -/

/-- The shape fact that names the index a reduction over the tile axis inserts. -/
theorem red20 : S20x1x128.Reduces [0] S1x128 := by decide

/-- The host's sum over the 20 tiles from the zero word, at a column: the sum of the 20 entries. -/
theorem colsum_at (s : FVec Ideal S20x1x128 .f32) (j : S1x128.Idx) :
    Host.reduceAdd s (constant (F := Ideal) S_ .f32 0x00000000#32) reducesTo_S20x1x128_S1x128_d0 h_S_ j
      = Cert.GNN.colK s (j 1) := by
  rw [hostReduceAdd_apply, Ideal.hostReduceAdd_single _ red20, constant_apply, Ideal.ofBits_zero_f32, zero_add]
  unfold Cert.GNN.colK
  refine Finset.sum_congr rfl fun k _ => congrArg s ?_
  have h0 : (j 0).val = 0 := Nat.lt_one_iff.mp (idx2_lt0 j)
  funext d
  apply Fin.ext
  match d with
  | ⟨0, _⟩ => rfl
  | ⟨1, _⟩ => exact h0
  | ⟨2, _⟩ => rfl

/-- The column mean as the host forms it: the sum over the tiles divided by the word of 100000. -/
def hMean (s : FVec Ideal S20x1x128 .f32) : FVec Ideal S1x128 .f32 :=
  Host.divf (Host.reduceAdd s (constant (F := Ideal) S_ .f32 0x00000000#32) reducesTo_S20x1x128_S1x128_d0 h_S_)
    (broadcastInDim S1x128 ![] bcast_S_S1x128 (constant (F := Ideal) S_ .f32 0x47C35000#32))

theorem hMean_at (s : FVec Ideal S20x1x128 .f32) (j : S1x128.Idx) : hMean s j = Cert.GNN.meanK s (j 1) := by
  unfold hMean
  rw [hostDivf_apply, colsum_at, broadcastInDim_scalar_apply, constant_apply]
  rfl

/-- A vector viewed as a one-row matrix reads the vector at the column. -/
theorem rowcast_at (g : FVec Ideal S128 .f32) (j : S1x128.Idx) :
    shapeCast S1x128 g shapeCasts_S128_S1x128 j = g (ix1 (j 1)) := by
  have h0 : (j 0).val = 0 := Nat.lt_one_iff.mp (idx2_lt0 j)
  refine shapeCast_apply g _ j (ix1 (j 1)) ?_
  rw [Shape.rowMajor_val_one, Shape.rowMajor_val_two, h0]
  show (j 1).val = 0 * 128 + (j 1).val
  omega

/-- The host's reciprocal square root at an index. -/
theorem hostRsqrt_at (x : FVec Ideal S1x128 .f32) (j : S1x128.Idx) : Host.rsqrt x j = Ideal.rsqrt (x j) := rfl

/-- The scale as the host forms it from the two families of tile sums and γ. -/
def hScale (s q : FVec Ideal S20x1x128 .f32) (g : FVec Ideal S128 .f32) : FVec Ideal S1x128 .f32 :=
  mulf (fun i => shapeCast S1x128 g shapeCasts_S128_S1x128 i)
    (Host.rsqrt
      (addf
        (maximumf (subf (hMean q) (mulf (hMean s) (hMean s)))
          (broadcastInDim S1x128 ![] bcast_S_S1x128 (constant (F := Ideal) S_ .f32 0x00000000#32)))
        (broadcastInDim S1x128 ![] bcast_S_S1x128 (constant (F := Ideal) S_ .f32 0x3727C5AC#32))))

theorem hScale_eq (s q : FVec Ideal S20x1x128 .f32) (g : FVec Ideal S128 .f32) :
    (hScale s q g : Cert.GNN.A2 1 128) = Cert.GNN.scaleK s q g := by
  funext j
  unfold hScale
  rw [mulf_apply, hostRsqrt_at, addf_apply, maximumf_apply, subf_apply, mulf_apply, hMean_at, hMean_at,
    broadcastInDim_scalar_apply, broadcastInDim_scalar_apply, constant_apply, constant_apply, Ideal.ofBits_zero_f32]
  show shapeCast S1x128 g shapeCasts_S128_S1x128 j * _ = _
  rw [rowcast_at]
  rfl

/-- The shift as the host forms it: β as a row minus the mean times the scale. -/
def hShift (s q : FVec Ideal S20x1x128 .f32) (g be : FVec Ideal S128 .f32) : FVec Ideal S1x128 .f32 :=
  subf (fun i => shapeCast S1x128 be shapeCasts_S128_S1x128 i) (mulf (hMean s) (hScale s q g))

theorem hShift_eq (s q : FVec Ideal S20x1x128 .f32) (g be : FVec Ideal S128 .f32) :
    (hShift s q g be : Cert.GNN.A2 1 128) = Cert.GNN.shiftK s q g be := by
  funext j
  unfold hShift
  rw [subf_apply, mulf_apply, hMean_at, congrFun (hScale_eq s q g) j]
  show shapeCast S1x128 be shapeCasts_S128_S1x128 j - _ = _
  rw [rowcast_at]
  rfl

/-! ## The stretch of host operations, from any contents -/

/-- From any contents `W`, the stretch leaves the scale of `W`'s tile sums and γ in the scale's buffer. -/
theorem after_scale (W : Valuation τ sig (Elt Ideal)) :
    (StableHlo.after (hostOps3 (F := Ideal)) W (Proc.devRef .tc main_v75) : Cert.GNN.A2 1 128)
      = Cert.GNN.scaleK (W (Proc.devRef .tc main_v60_1)) (W (Proc.devRef .tc main_v60_2)) (W (Proc.devRef .tc main_arg10)) := by
  after_results_simp
  exact hScale_eq _ _ _

/-- … and the shift of `W`'s tile sums, γ and β in the shift's buffer. -/
theorem after_shift (W : Valuation τ sig (Elt Ideal)) :
    (StableHlo.after (hostOps3 (F := Ideal)) W (Proc.devRef .tc main_v78) : Cert.GNN.A2 1 128)
      = Cert.GNN.shiftK (W (Proc.devRef .tc main_v60_1)) (W (Proc.devRef .tc main_v60_2)) (W (Proc.devRef .tc main_arg10))
          (W (Proc.devRef .tc main_arg11)) := by
  after_results_simp
  exact hShift_eq _ _ _ _

end Cert.KernelIdeal.KValue.Stats3

namespace Cert.KernelIdeal.KValue

open Cert.KernelIdeal Cert.KernelIdeal.Gen

variable (m : (ℓ : Loc nD τ sig) → Buf (Elt Ideal) ℓ) (ρ : Dev nD → PrngReg)

/-- No region and no host operation before this point writes the argument `main_arg10`: it still holds its launch contents. -/
theorem W6_arg10 (c : Dev nD) :
    Gen.W6 m ρ c (Proc.devRef .tc main_arg10) = m ((c : Thread nD τ).loc main_arg10) :=
  calc Gen.W6 m ρ c (Proc.devRef .tc main_arg10)
    _ = Gen.W5 m ρ c (Proc.devRef .tc main_arg10) := Gen.W6_of_ne m ρ c main_arg10 (by decide)
    _ = Gen.W4 m ρ c (Proc.devRef .tc main_arg10) := StableHlo.after_of_forall_not_mem _ _ (List.forall_iff_forall_mem.mp (by
      simp only [hostOps2, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide)))
    _ = Gen.W3 m ρ c (Proc.devRef .tc main_arg10) := Gen.W4_of_ne m ρ c main_arg10 (by decide)
    _ = Gen.W2 m ρ c (Proc.devRef .tc main_arg10) := StableHlo.after_of_forall_not_mem _ _ (List.forall_iff_forall_mem.mp (by
      simp only [hostOps1, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide)))
    _ = Gen.W1 m ρ c (Proc.devRef .tc main_arg10) := Gen.W2_of_ne m ρ c main_arg10 (by decide)
    _ = Gen.W0 m ρ c (Proc.devRef .tc main_arg10) := StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide)))
    _ = m ((c : Thread nD τ).loc main_arg10) := rfl

/-- No region and no host operation before this point writes the argument `main_arg11`: it still holds its launch contents. -/
theorem W6_arg11 (c : Dev nD) :
    Gen.W6 m ρ c (Proc.devRef .tc main_arg11) = m ((c : Thread nD τ).loc main_arg11) :=
  calc Gen.W6 m ρ c (Proc.devRef .tc main_arg11)
    _ = Gen.W5 m ρ c (Proc.devRef .tc main_arg11) := Gen.W6_of_ne m ρ c main_arg11 (by decide)
    _ = Gen.W4 m ρ c (Proc.devRef .tc main_arg11) := StableHlo.after_of_forall_not_mem _ _ (List.forall_iff_forall_mem.mp (by
      simp only [hostOps2, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide)))
    _ = Gen.W3 m ρ c (Proc.devRef .tc main_arg11) := Gen.W4_of_ne m ρ c main_arg11 (by decide)
    _ = Gen.W2 m ρ c (Proc.devRef .tc main_arg11) := StableHlo.after_of_forall_not_mem _ _ (List.forall_iff_forall_mem.mp (by
      simp only [hostOps1, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide)))
    _ = Gen.W1 m ρ c (Proc.devRef .tc main_arg11) := Gen.W2_of_ne m ρ c main_arg11 (by decide)
    _ = Gen.W0 m ρ c (Proc.devRef .tc main_arg11) := StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide)))
    _ = m ((c : Thread nD τ).loc main_arg11) := rfl

/-- The scale the next region takes is the specification's, of the convolution region's two families of tile sums and γ. -/
theorem V7_v75 (c : Dev nD) :
    (Gen.V7 m ρ c main_v75 : Cert.GNN.A2 1 128)
      = Cert.GNN.scaleK (Gen.V6 m ρ c main_v60_1) (Gen.V6 m ρ c main_v60_2) (m ((c : Thread nD τ).loc main_arg10)) := by
  have h := Stats3.after_scale (Gen.W6 m ρ c)
  rw [W6_arg10 m ρ c] at h
  exact h

/-- The shift the next region takes is the specification's, of the same tile sums, γ and β. -/
theorem V7_v78 (c : Dev nD) :
    (Gen.V7 m ρ c main_v78 : Cert.GNN.A2 1 128)
      = Cert.GNN.shiftK (Gen.V6 m ρ c main_v60_1) (Gen.V6 m ρ c main_v60_2) (m ((c : Thread nD τ).loc main_arg10))
          (m ((c : Thread nD τ).loc main_arg11)) := by
  have h := Stats3.after_shift (Gen.W6 m ρ c)
  rw [W6_arg10 m ρ c, W6_arg11 m ρ c] at h
  exact h

/-- The stretch does not write the convolution's output: the next region takes it as the convolution region left it. -/
theorem V7_v60_0 (c : Dev nD) : Gen.V7 m ρ c main_v60_0 = Gen.V6 m ρ c main_v60_0 :=
  StableHlo.after_of_forall_not_mem _ _ (List.forall_iff_forall_mem.mp (by
      simp only [hostOps3, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide)))

end Cert.KernelIdeal.KValue

end
-- ==== Proof.ConvTile.lean ====
/-
  One tile of the convolution and its column statistics, read entry by entry on the extended reals.

  Given a tile `x` of 5000 rows of the node features, the matching tile `a` of the aggregated features, the two
  128 × 128 weight matrices `ws`, `wn` and the bias as a one-row matrix `b`, the body computes three values:
  * the tile of the convolution, whose entry (r, c) is (Σₖ x[r,k]·ws[k,c] + Σₖ a[r,k]·wn[k,c]) + b[0,c]: two block
    products, each a sum over the one contracted coordinate, added, plus the bias row laid along every row;
  * the column sums of that tile, shaped [1,1,128]: entry (0,0,c) is the sum over the 5000 rows r of the tile's
    entry (r, c) (a sum over axis 0, then two unit axes put in front);
  * the column sums of the squares of the tile's entries, shaped likewise.
  On the extended reals the roundings to the narrow format on the way into the products are the identity, so no
  rounding is left in any of these.
-/
import proofs.«110434_j36318243455158_2_alg».proof.Proof.Gen.KernelIdeal.Skeleton
import Idealize.ShloMosaic.PureOps.Ideal.Laws
import Idealize.ShloMosaic.Lib.ValueIdx
import Idealize.ShloMosaic.Lib.ValueLayout

noncomputable section

open scoped BigOperators
open Cert.KernelIdeal Cert.KernelIdeal.Gen Idealize.ShloMosaic Idealize.ShloMosaic.ValueIdx

namespace Cert.KernelIdeal.RegionValue

/-- The dimension numbers of the block product: rows × contraction times contraction × columns. -/
abbrev dotD : DotDims S5000x128 S128x128 S5000x128 := dot_S5000x128_S128x128_S5000x128_1_0_0_1_n_n

/-- A block product into the zero block, at entry (r, c): the sum over the contracted coordinate k of l[r,k]·w[k,c]. -/
theorem blockProduct_apply {φ₁ φ₂ : FTy} (l : FVec Ideal S5000x128 φ₁) (w : FVec Ideal S128x128 φ₂) (r : Fin 5000) (c : Fin 128) :
    FloatOps.matmul dotD none l w (constant (F := Ideal) S5000x128 .f32 0x00000000#32) (ix2 r c)
      = ∑ k : Fin 128, l (ix2 r k) * w (ix2 k c) := by
  rw [Ideal.matmul_constant_zero_apply, ← Equiv.sum_comp (contrEquiv1 dotD 128 rfl rfl).symm]
  refine Finset.sum_congr rfl fun k _ => ?_
  have ck := contrEquiv1_symm_val dotD 128 rfl rfl k
  have hl : dotD.lhsIdx (ix2 r c) ((contrEquiv1 dotD 128 rfl rfl).symm k) = ix2 r k := by
    funext ax; apply Fin.ext
    match ax with
    | ⟨0, _⟩ => simp [DotDims.lhsIdx, dotD, dot_S5000x128_S128x128_S5000x128_1_0_0_1_n_n]; rfl
    | ⟨1, _⟩ => simp [DotDims.lhsIdx, dotD, dot_S5000x128_S128x128_S5000x128_1_0_0_1_n_n]; exact ck
  have hr : dotD.rhsIdx (ix2 r c) ((contrEquiv1 dotD 128 rfl rfl).symm k) = ix2 k c := by
    funext ax; apply Fin.ext
    match ax with
    | ⟨0, _⟩ => simp [DotDims.rhsIdx, dotD, dot_S5000x128_S128x128_S5000x128_1_0_0_1_n_n]; exact ck
    | ⟨1, _⟩ => simp [DotDims.rhsIdx, dotD, dot_S5000x128_S128x128_S5000x128_1_0_0_1_n_n]; rfl
  rw [hl, hr]

/-- A sum over the rows of a 5000 × 128 block (a reduction along axis 0 from the zero word), at column c: the sum over the
    5000 rows r of the block's entry (r, c). -/
theorem colSum_apply (v : FVec Ideal S5000x128 .f32) (h : S5000x128.Reduces [0] S128) (hφ : FKind.Formats .f32)
    (hacc : (0x00000000#32 : BitVec 32) = FKind.add.neutral .f32 hφ) (c : Fin 128) :
    multiReduction .add [0] S128 v 0x00000000#32 h hφ hacc (ix1 c) = ∑ r : Fin 5000, v (ix2 r c) := by
  refine (Ideal.multiReduction_add_single v 0x00000000#32 h hφ hacc (ix1 c)).trans ?_
  refine Finset.sum_congr rfl fun r _ => congrArg v ?_
  funext ax; apply Fin.ext
  match ax with
  | ⟨0, _⟩ => rfl
  | ⟨1, _⟩ => rfl

/-! ## The body of convolution kernel 0 -/

/-- The tile of the convolution at entry (r, c). -/
theorem convTile0_apply (x : Vec Ideal S5000x128 .f32) (a : Vec Ideal S5000x128 .f32) (ws wn : Vec Ideal S128x128 .f32)
    (b : Vec Ideal S1x128 .f32) (r : Fin 5000) (c : Fin 128) :
    k0_pay1 (F := Ideal) x a ws wn b (ix2 r c)
      = ((∑ k : Fin 128, x (ix2 r k) * ws (ix2 k c)) + ∑ k : Fin 128, a (ix2 r k) * wn (ix2 k c)) + b (ix2 0 c) := by
  unfold k0_pay1
  refine congrArg₂ (· + ·) (congrArg₂ (· + ·) ?_ ?_) ?_
  · refine (blockProduct_apply _ _ r c).trans ?_
    rfl
  · refine (blockProduct_apply _ _ r c).trans ?_
    rw [shapeCast_self]
    rfl
  · refine (broadcastTo_1b_ab_apply _ _ r c).trans ?_
    rw [shapeCast_self]

/-- The column sums of the tile: entry (0, 0, c) is the sum of column c of the tile over its 5000 rows. -/
theorem tileColSum0_apply (x : Vec Ideal S5000x128 .f32) (a : Vec Ideal S5000x128 .f32) (ws wn : Vec Ideal S128x128 .f32)
    (b : Vec Ideal S1x128 .f32) (c : Fin 128) :
    k0_pay2 (F := Ideal) x a ws wn b (ix3 (0 : Fin 1) (0 : Fin 1) c)
      = ∑ r : Fin 5000, k0_pay1 (F := Ideal) x a ws wn b (ix2 r c) := by
  unfold k0_pay2
  refine (shapeCast_ab_1ab_apply _ _ 0 0 c).trans ?_
  refine (shapeCast_a_1a_apply _ _ 0 c).trans ?_
  exact colSum_apply _ _ _ _ c

/-- The column sums of the squares of the tile's entries. -/
theorem tileColSumSq0_apply (x : Vec Ideal S5000x128 .f32) (a : Vec Ideal S5000x128 .f32) (ws wn : Vec Ideal S128x128 .f32)
    (b : Vec Ideal S1x128 .f32) (c : Fin 128) :
    k0_pay3 (F := Ideal) x a ws wn b (ix3 (0 : Fin 1) (0 : Fin 1) c)
      = ∑ r : Fin 5000, k0_pay1 (F := Ideal) x a ws wn b (ix2 r c) * k0_pay1 (F := Ideal) x a ws wn b (ix2 r c) := by
  unfold k0_pay3
  refine (shapeCast_ab_1ab_apply _ _ 0 0 c).trans ?_
  refine (shapeCast_a_1a_apply _ _ 0 c).trans ?_
  exact colSum_apply _ _ _ _ c

/-! ## The body of convolution kernel 2 -/

/-- The tile of the convolution at entry (r, c). -/
theorem convTile2_apply (x : Vec Ideal S5000x128 .bf16) (a : Vec Ideal S5000x128 .f32) (ws wn : Vec Ideal S128x128 .f32)
    (b : Vec Ideal S1x128 .f32) (r : Fin 5000) (c : Fin 128) :
    k2_pay1 (F := Ideal) x a ws wn b (ix2 r c)
      = ((∑ k : Fin 128, x (ix2 r k) * ws (ix2 k c)) + ∑ k : Fin 128, a (ix2 r k) * wn (ix2 k c)) + b (ix2 0 c) := by
  unfold k2_pay1
  refine congrArg₂ (· + ·) (congrArg₂ (· + ·) ?_ ?_) ?_
  · refine (blockProduct_apply _ _ r c).trans ?_
    rw [shapeCast_self]
    rfl
  · refine (blockProduct_apply _ _ r c).trans ?_
    rw [shapeCast_self]
    rfl
  · refine (broadcastTo_1b_ab_apply _ _ r c).trans ?_
    rw [shapeCast_self]

/-- The column sums of the tile: entry (0, 0, c) is the sum of column c of the tile over its 5000 rows. -/
theorem tileColSum2_apply (x : Vec Ideal S5000x128 .bf16) (a : Vec Ideal S5000x128 .f32) (ws wn : Vec Ideal S128x128 .f32)
    (b : Vec Ideal S1x128 .f32) (c : Fin 128) :
    k2_pay2 (F := Ideal) x a ws wn b (ix3 (0 : Fin 1) (0 : Fin 1) c)
      = ∑ r : Fin 5000, k2_pay1 (F := Ideal) x a ws wn b (ix2 r c) := by
  unfold k2_pay2
  refine (shapeCast_ab_1ab_apply _ _ 0 0 c).trans ?_
  refine (shapeCast_a_1a_apply _ _ 0 c).trans ?_
  exact colSum_apply _ _ _ _ c

/-- The column sums of the squares of the tile's entries. -/
theorem tileColSumSq2_apply (x : Vec Ideal S5000x128 .bf16) (a : Vec Ideal S5000x128 .f32) (ws wn : Vec Ideal S128x128 .f32)
    (b : Vec Ideal S1x128 .f32) (c : Fin 128) :
    k2_pay3 (F := Ideal) x a ws wn b (ix3 (0 : Fin 1) (0 : Fin 1) c)
      = ∑ r : Fin 5000, k2_pay1 (F := Ideal) x a ws wn b (ix2 r c) * k2_pay1 (F := Ideal) x a ws wn b (ix2 r c) := by
  unfold k2_pay3
  refine (shapeCast_ab_1ab_apply _ _ 0 0 c).trans ?_
  refine (shapeCast_a_1a_apply _ _ 0 c).trans ?_
  exact colSum_apply _ _ _ _ c

end Cert.KernelIdeal.RegionValue

end
-- ==== Proof.TileRows.lean ====
/-
  A tile of the convolution is the matching rows of the whole convolution.

  Tile n of a 100000-row array X is its rows 5000 n … 5000 n + 4999: row r of the tile is row 5000 n + r of X. If the
  body is given tile n of the features X and of the aggregated features A, together with the whole weight matrices and
  the whole bias row, then
  * entry (r, c) of the tile it computes is entry (5000 n + r, c) of the convolution `conv X A WS WN B`;
  * its column sums, entry (0, 0, c), are entry (n, 0, c) of the convolution's per-tile column sums `tileSum`;
  * the column sums of its squares are entry (n, 0, c) of `tileSumSq`.
  Stated over arbitrary blocks, with the hypothesis that they hold those rows: so the same statements serve every
  grid point, and both convolution kernels (whose bodies differ only in the declared format of the feature tile).
-/
import proofs.«110434_j36318243455158_2_alg».proof.Proof.ConvTile
import proofs.«110434_j36318243455158_2_alg».proof.Proof.Spec

noncomputable section

open scoped BigOperators
open Cert.KernelIdeal Cert.KernelIdeal.Gen Idealize.ShloMosaic Idealize.ShloMosaic.ValueIdx

namespace Cert.KernelIdeal.RegionValue

open Cert.GNN

/-- The block `x` holds tile `n` of the array `X`: its entry (r, k) is entry (5000 n + r, k) of `X`. -/
def IsTile (n : Nat) (x : S5000x128.Idx → EReal) (X : A2 100000 128) : Prop :=
  ∀ (j : S5000x128.Idx) (i : S100000x128.Idx), (i 0).val = 5000 * n + (j 0).val → (i 1).val = (j 1).val → x j = X i

theorem rowOf_val (t : Fin 20) (r : Fin 5000) : (rowOf t r).val = 5000 * t.val + r.val := rfl

/-- One entry of the convolution written out at coordinates. -/
theorem conv_ix2 (X A : A2 100000 128) (WS WN : A2 128 128) (B : A2 1 128) (i : Fin 100000) (c : Fin 128) :
    conv X A WS WN B (ix2 i c)
      = ((∑ k : Fin 128, X (ix2 i k) * WS (ix2 k c)) + ∑ k : Fin 128, A (ix2 i k) * WN (ix2 k c)) + B (ix2 0 c) := rfl

section Kernel0

variable (X A : A2 100000 128) (WS WN : A2 128 128) (B : A2 1 128)
variable (x a : Vec Ideal S5000x128 .f32) (ws wn : Vec Ideal S128x128 .f32) (b : Vec Ideal S1x128 .f32)

/-- Entry (r, c) of the tile the body computes is entry (5000 n + r, c) of the convolution. -/
theorem convTile0_rows (n : Nat) (hx : IsTile n x X) (ha : IsTile n a A) (hws : ws = WS) (hwn : wn = WN) (hb : b = B)
    (r : Fin 5000) (c : Fin 128) (i : Fin 100000) (hi : i.val = 5000 * n + r.val) :
    k0_pay1 (F := Ideal) x a ws wn b (ix2 r c) = conv X A WS WN B (ix2 i c) := by
  subst hws hwn hb
  rw [convTile0_apply, conv_ix2]
  refine congrArg₂ (· + ·) (congrArg₂ (· + ·) ?_ ?_) rfl
  · exact Finset.sum_congr rfl fun k _ => congrArg (· * ws (ix2 k c)) (hx (ix2 r k) (ix2 i k) hi rfl)
  · exact Finset.sum_congr rfl fun k _ => congrArg (· * wn (ix2 k c)) (ha (ix2 r k) (ix2 i k) hi rfl)

/-- The same at any pair of indices whose coordinates match: index `j` of the tile against index `i` of the array. -/
theorem convTile0_rows_idx (n : Nat) (hx : IsTile n x X) (ha : IsTile n a A) (hws : ws = WS) (hwn : wn = WN) (hb : b = B)
    (j : S5000x128.Idx) (i : S100000x128.Idx) (h0 : (i 0).val = 5000 * n + (j 0).val) (h1 : (i 1).val = (j 1).val) :
    k0_pay1 (F := Ideal) x a ws wn b j = conv X A WS WN B i := by
  obtain ⟨r, c, rfl⟩ : ∃ (r : Fin 5000) (c : Fin 128), j = ix2 r c := ⟨j 0, j 1, eq_ix2 j⟩
  obtain ⟨p, q, rfl⟩ : ∃ (p : Fin 100000) (q : Fin 128), i = ix2 p q := ⟨i 0, i 1, eq_ix2 i⟩
  obtain rfl : q = c := Fin.ext h1
  exact convTile0_rows X A WS WN B x a ws wn b n hx ha hws hwn hb r q p h0

/-- The tile's column sums are the convolution's column sums over tile n. -/
theorem tileColSum0_rows (n : Fin 20) (hx : IsTile n.val x X) (ha : IsTile n.val a A) (hws : ws = WS) (hwn : wn = WN) (hb : b = B)
    (j : S1x1x128.Idx) (i : S20x1x128.Idx) (h0 : (i 0).val = n.val) (h2 : (i 2).val = (j 2).val) :
    k0_pay2 (F := Ideal) x a ws wn b j = tileSum (conv X A WS WN B) i := by
  obtain ⟨u, v, c, rfl⟩ : ∃ (u v : Fin 1) (c : Fin 128), j = ix3 u v c := ⟨j 0, j 1, j 2, eq_ix3 j⟩
  obtain ⟨p, w, q, rfl⟩ : ∃ (p : Fin 20) (w : Fin 1) (q : Fin 128), i = ix3 p w q := ⟨i 0, i 1, i 2, eq_ix3 i⟩
  obtain rfl : u = 0 := Subsingleton.elim _ _
  obtain rfl : v = 0 := Subsingleton.elim _ _
  obtain rfl : q = c := Fin.ext h2
  obtain rfl : p = n := Fin.ext h0
  rw [tileColSum0_apply]
  exact Finset.sum_congr rfl fun r _ =>
    convTile0_rows X A WS WN B x a ws wn b p.val hx ha hws hwn hb r q (rowOf p r) (rowOf_val p r)

/-- The column sums of the tile's squares are the convolution's column sums of squares over tile n. -/
theorem tileColSumSq0_rows (n : Fin 20) (hx : IsTile n.val x X) (ha : IsTile n.val a A) (hws : ws = WS) (hwn : wn = WN) (hb : b = B)
    (j : S1x1x128.Idx) (i : S20x1x128.Idx) (h0 : (i 0).val = n.val) (h2 : (i 2).val = (j 2).val) :
    k0_pay3 (F := Ideal) x a ws wn b j = tileSumSq (conv X A WS WN B) i := by
  obtain ⟨u, v, c, rfl⟩ : ∃ (u v : Fin 1) (c : Fin 128), j = ix3 u v c := ⟨j 0, j 1, j 2, eq_ix3 j⟩
  obtain ⟨p, w, q, rfl⟩ : ∃ (p : Fin 20) (w : Fin 1) (q : Fin 128), i = ix3 p w q := ⟨i 0, i 1, i 2, eq_ix3 i⟩
  obtain rfl : u = 0 := Subsingleton.elim _ _
  obtain rfl : v = 0 := Subsingleton.elim _ _
  obtain rfl : q = c := Fin.ext h2
  obtain rfl : p = n := Fin.ext h0
  rw [tileColSumSq0_apply]
  refine Finset.sum_congr rfl fun r _ => ?_
  have e := convTile0_rows X A WS WN B x a ws wn b p.val hx ha hws hwn hb r q (rowOf p r) (rowOf_val p r)
  exact congrArg₂ (· * ·) e e

end Kernel0

section Kernel2

variable (X A : A2 100000 128) (WS WN : A2 128 128) (B : A2 1 128)
variable (x : Vec Ideal S5000x128 .bf16) (a : Vec Ideal S5000x128 .f32) (ws wn : Vec Ideal S128x128 .f32) (b : Vec Ideal S1x128 .f32)

/-- Entry (r, c) of the tile the body computes is entry (5000 n + r, c) of the convolution. -/
theorem convTile2_rows (n : Nat) (hx : IsTile n x X) (ha : IsTile n a A) (hws : ws = WS) (hwn : wn = WN) (hb : b = B)
    (r : Fin 5000) (c : Fin 128) (i : Fin 100000) (hi : i.val = 5000 * n + r.val) :
    k2_pay1 (F := Ideal) x a ws wn b (ix2 r c) = conv X A WS WN B (ix2 i c) := by
  subst hws hwn hb
  rw [convTile2_apply, conv_ix2]
  refine congrArg₂ (· + ·) (congrArg₂ (· + ·) ?_ ?_) rfl
  · exact Finset.sum_congr rfl fun k _ => congrArg (· * ws (ix2 k c)) (hx (ix2 r k) (ix2 i k) hi rfl)
  · exact Finset.sum_congr rfl fun k _ => congrArg (· * wn (ix2 k c)) (ha (ix2 r k) (ix2 i k) hi rfl)

/-- The same at any pair of indices whose coordinates match: index `j` of the tile against index `i` of the array. -/
theorem convTile2_rows_idx (n : Nat) (hx : IsTile n x X) (ha : IsTile n a A) (hws : ws = WS) (hwn : wn = WN) (hb : b = B)
    (j : S5000x128.Idx) (i : S100000x128.Idx) (h0 : (i 0).val = 5000 * n + (j 0).val) (h1 : (i 1).val = (j 1).val) :
    k2_pay1 (F := Ideal) x a ws wn b j = conv X A WS WN B i := by
  obtain ⟨r, c, rfl⟩ : ∃ (r : Fin 5000) (c : Fin 128), j = ix2 r c := ⟨j 0, j 1, eq_ix2 j⟩
  obtain ⟨p, q, rfl⟩ : ∃ (p : Fin 100000) (q : Fin 128), i = ix2 p q := ⟨i 0, i 1, eq_ix2 i⟩
  obtain rfl : q = c := Fin.ext h1
  exact convTile2_rows X A WS WN B x a ws wn b n hx ha hws hwn hb r q p h0

/-- The tile's column sums are the convolution's column sums over tile n. -/
theorem tileColSum2_rows (n : Fin 20) (hx : IsTile n.val x X) (ha : IsTile n.val a A) (hws : ws = WS) (hwn : wn = WN) (hb : b = B)
    (j : S1x1x128.Idx) (i : S20x1x128.Idx) (h0 : (i 0).val = n.val) (h2 : (i 2).val = (j 2).val) :
    k2_pay2 (F := Ideal) x a ws wn b j = tileSum (conv X A WS WN B) i := by
  obtain ⟨u, v, c, rfl⟩ : ∃ (u v : Fin 1) (c : Fin 128), j = ix3 u v c := ⟨j 0, j 1, j 2, eq_ix3 j⟩
  obtain ⟨p, w, q, rfl⟩ : ∃ (p : Fin 20) (w : Fin 1) (q : Fin 128), i = ix3 p w q := ⟨i 0, i 1, i 2, eq_ix3 i⟩
  obtain rfl : u = 0 := Subsingleton.elim _ _
  obtain rfl : v = 0 := Subsingleton.elim _ _
  obtain rfl : q = c := Fin.ext h2
  obtain rfl : p = n := Fin.ext h0
  rw [tileColSum2_apply]
  exact Finset.sum_congr rfl fun r _ =>
    convTile2_rows X A WS WN B x a ws wn b p.val hx ha hws hwn hb r q (rowOf p r) (rowOf_val p r)

/-- The column sums of the tile's squares are the convolution's column sums of squares over tile n. -/
theorem tileColSumSq2_rows (n : Fin 20) (hx : IsTile n.val x X) (ha : IsTile n.val a A) (hws : ws = WS) (hwn : wn = WN) (hb : b = B)
    (j : S1x1x128.Idx) (i : S20x1x128.Idx) (h0 : (i 0).val = n.val) (h2 : (i 2).val = (j 2).val) :
    k2_pay3 (F := Ideal) x a ws wn b j = tileSumSq (conv X A WS WN B) i := by
  obtain ⟨u, v, c, rfl⟩ : ∃ (u v : Fin 1) (c : Fin 128), j = ix3 u v c := ⟨j 0, j 1, j 2, eq_ix3 j⟩
  obtain ⟨p, w, q, rfl⟩ : ∃ (p : Fin 20) (w : Fin 1) (q : Fin 128), i = ix3 p w q := ⟨i 0, i 1, i 2, eq_ix3 i⟩
  obtain rfl : u = 0 := Subsingleton.elim _ _
  obtain rfl : v = 0 := Subsingleton.elim _ _
  obtain rfl : q = c := Fin.ext h2
  obtain rfl : p = n := Fin.ext h0
  rw [tileColSumSq2_apply]
  refine Finset.sum_congr rfl fun r _ => ?_
  have e := convTile2_rows X A WS WN B x a ws wn b p.val hx ha hws hwn hb r q (rowOf p r) (rowOf_val p r)
  exact congrArg₂ (· * ·) e e

end Kernel2

end Cert.KernelIdeal.RegionValue

end
-- ==== Proof.Region0.lean ====
/-
  The arrays the first convolution kernel leaves, as whole-array functions of the arrays it is given.

  The grid has 20 points. At point t the body is given rows 5000 t … 5000 t + 4999 of the features and of the aggregated
  features (an element of a block sits, on each axis, at block index × block size + its coordinate inside the block; the
  block index on the row axis is t), and the whole of the two weight matrices and of the bias row (block index 0 on every
  axis). It writes back
  * rows 5000 t … 5000 t + 4999 of the first result: by the tile lemma these are the same rows of the convolution;
  * the one row (t, 0, ·) of the second and of the third result: the column sums of that tile and of its squares, which
    are entry (t, 0, ·) of the per-tile column sums of the convolution and of its squares.
  Row i of the first result is covered by point i / 5000, row (p, 0, ·) of the other two by point p; every index is
  covered, so each result is the whole-array function.
-/
import proofs.«110434_j36318243455158_2_alg».proof.Proof.Gen.KernelIdeal.Frame
import proofs.«110434_j36318243455158_2_alg».proof.Proof.Spec
import proofs.«110434_j36318243455158_2_alg».proof.Proof.TileRows
import Idealize.ShloMosaic.Lib.Pipeline.Value

noncomputable section

open Cert.KernelIdeal Cert.KernelIdeal.Gen Idealize.ShloMosaic Idealize.ShloMosaic.TcCoe Idealize.SL.Sem
open Idealize.ShloMosaic.Pipeline (Dat)
open Idealize.ShloMosaic.ValueIdx

namespace Cert.KernelIdeal.RegionValue

open Cert.GNN

variable (V : (c : Dev nD) → (b : Ref sig .tc) → Buf (Elt Ideal) ((c : Thread nD τ).loc b))

theorem zeros2_0 : (![0, 0] : Fin 2 → Nat) = fun _ => 0 := funext fun a => by fin_cases a <;> rfl
theorem zeros3_0 : (![0, 0, 0] : Fin 3 → Nat) = fun _ => 0 := funext fun a => by fin_cases a <;> rfl

/-- The printed index maps, decided over the 20 grid points: the row-tiled windows sit at block index t on the row
    axis (for the two statistics arrays: on the tile axis) and 0 elsewhere, the whole-array windows at 0 everywhere. -/
theorem blockIndex0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 3) = t.val ∧ win0_6.index t (1 : Fin 3) = 0 ∧ win0_6.index t (2 : Fin 3) = 0
    ∧ win0_7.index t (0 : Fin 3) = t.val ∧ win0_7.index t (1 : Fin 3) = 0 ∧ win0_7.index t (2 : Fin 3) = 0 :=
  (by decide +kernel : ∀ t : Fin grid0.N, _)

/-! ## The input blocks as rows of the arrays -/

/-- The features' block at point t is tile t of the features. -/
theorem tile0_0 (c : Dev nD) (t : Fin cfg0.N) :
    IsTile t.val (iblk0 V c 0 t) (V c (Pipeline.arrRef spec0 0)) := by
  intro j i h0 h1
  obtain ⟨e0, e1, -⟩ := blockIndex0 t
  unfold iblk0
  rw [View.read_apply]
  show (V c (Pipeline.arrRef spec0 0) : S100000x128.Idx → EReal) _ = (V c (Pipeline.arrRef spec0 0) : S100000x128.Idx → EReal) i
  refine congrArg _ ?_
  funext ax; apply Fin.ext
  match ax with
  | ⟨0, _⟩ => show win0_0.index t (0 : Fin 2) * 5000 + 1 * (j 0).val = (i 0).val; rw [e0, h0]; omega
  | ⟨1, _⟩ => show win0_0.index t (1 : Fin 2) * 128 + 1 * (j 1).val = (i 1).val; rw [e1, h1]; omega

/-- The aggregated features' block at point t is tile t of the aggregated features. -/
theorem tile0_1 (c : Dev nD) (t : Fin cfg0.N) :
    IsTile t.val (iblk0 V c 1 t) (V c (Pipeline.arrRef spec0 1)) := by
  intro j i h0 h1
  obtain ⟨-, -, e0, e1, -⟩ := blockIndex0 t
  unfold iblk0
  rw [View.read_apply]
  show (V c (Pipeline.arrRef spec0 1) : S100000x128.Idx → EReal) _ = (V c (Pipeline.arrRef spec0 1) : S100000x128.Idx → EReal) i
  refine congrArg _ ?_
  funext ax; apply Fin.ext
  match ax with
  | ⟨0, _⟩ => show win0_1.index t (0 : Fin 2) * 5000 + 1 * (j 0).val = (i 0).val; rw [e0, h0]; omega
  | ⟨1, _⟩ => show win0_1.index t (1 : Fin 2) * 128 + 1 * (j 1).val = (i 1).val; rw [e1, h1]; omega

/-- The first weight matrix's block at every point is the whole matrix. -/
theorem whole0_2 (c : Dev nD) (t : Fin cfg0.N) :
    (iblk0 V c 2 t : Vec Ideal S128x128 .f32) = (V c (Pipeline.arrRef spec0 2) : S128x128.Idx → EReal) := by
  obtain ⟨-, -, -, -, e0, e1, -⟩ := blockIndex0 t
  funext j
  unfold iblk0
  rw [View.read_apply]
  show (V c (Pipeline.arrRef spec0 2) : S128x128.Idx → EReal) _ = (V c (Pipeline.arrRef spec0 2) : S128x128.Idx → EReal) j
  refine congrArg _ ?_
  funext ax; apply Fin.ext
  match ax with
  | ⟨0, _⟩ => show win0_2.index t (0 : Fin 2) * 128 + 1 * (j 0).val = (j 0).val; rw [e0]; omega
  | ⟨1, _⟩ => show win0_2.index t (1 : Fin 2) * 128 + 1 * (j 1).val = (j 1).val; rw [e1]; omega

/-- The second weight matrix's block at every point is the whole matrix. -/
theorem whole0_3 (c : Dev nD) (t : Fin cfg0.N) :
    (iblk0 V c 3 t : Vec Ideal S128x128 .f32) = (V c (Pipeline.arrRef spec0 3) : S128x128.Idx → EReal) := by
  obtain ⟨-, -, -, -, -, -, e0, e1, -⟩ := blockIndex0 t
  funext j
  unfold iblk0
  rw [View.read_apply]
  show (V c (Pipeline.arrRef spec0 3) : S128x128.Idx → EReal) _ = (V c (Pipeline.arrRef spec0 3) : S128x128.Idx → EReal) j
  refine congrArg _ ?_
  funext ax; apply Fin.ext
  match ax with
  | ⟨0, _⟩ => show win0_3.index t (0 : Fin 2) * 128 + 1 * (j 0).val = (j 0).val; rw [e0]; omega
  | ⟨1, _⟩ => show win0_3.index t (1 : Fin 2) * 128 + 1 * (j 1).val = (j 1).val; rw [e1]; omega

/-- The bias row's block at every point is the whole row. -/
theorem whole0_4 (c : Dev nD) (t : Fin cfg0.N) :
    (iblk0 V c 4 t : Vec Ideal S1x128 .f32) = (V c (Pipeline.arrRef spec0 4) : S1x128.Idx → EReal) := by
  obtain ⟨-, -, -, -, -, -, -, -, e0, e1, -⟩ := blockIndex0 t
  funext j
  unfold iblk0
  rw [View.read_apply]
  show (V c (Pipeline.arrRef spec0 4) : S1x128.Idx → EReal) _ = (V c (Pipeline.arrRef spec0 4) : S1x128.Idx → EReal) j
  refine congrArg _ ?_
  funext ax; apply Fin.ext
  match ax with
  | ⟨0, _⟩ => show win0_4.index t (0 : Fin 2) * 1 + 1 * (j 0).val = (j 0).val; rw [e0]; omega
  | ⟨1, _⟩ => show win0_4.index t (1 : Fin 2) * 128 + 1 * (j 1).val = (j 1).val; rw [e1]; omega

/-! ## What each point writes back -/

/-- The five arrays the kernel is given, as the region finds them. -/
abbrev feat0 (c : Dev nD) : A2 100000 128 := (V c (Pipeline.arrRef spec0 0) : S100000x128.Idx → EReal)
abbrev aggr0 (c : Dev nD) : A2 100000 128 := (V c (Pipeline.arrRef spec0 1) : S100000x128.Idx → EReal)
abbrev wSelf0 (c : Dev nD) : A2 128 128 := (V c (Pipeline.arrRef spec0 2) : S128x128.Idx → EReal)
abbrev wNeigh0 (c : Dev nD) : A2 128 128 := (V c (Pipeline.arrRef spec0 3) : S128x128.Idx → EReal)
abbrev biasRow0 (c : Dev nD) : A2 1 128 := (V c (Pipeline.arrRef spec0 4) : S1x128.Idx → EReal)

/-- The convolution of the arrays as the region finds them. -/
abbrev convOf0 (c : Dev nD) : A2 100000 128 := conv (feat0 V c) (aggr0 V c) (wSelf0 V c) (wNeigh0 V c) (biasRow0 V c)

/-- Point t writes back rows 5000 t … 5000 t + 4999 of the convolution. -/
theorem flushed0_5_eq (c : Dev nD) (t : Fin cfg0.N) :
    (dat0 (F := Ideal) V c).flushed 5 t = ((cfg0.win 5).blk t).view.read (Elt Ideal) (convOf0 V c) := by
  show (cfg0.win 5).cut (grid0.coords t) ((dat0 V c).after 5 t) = _
  rw [after0_5]
  unfold out0_5
  rw [View.canon_unit_zero zeros2_0]
  simp only [View.ld_unit_zero (S := S5000x128) zeros2_0, View.ld_unit_zero (S := S128x128) zeros2_0,
    View.ld_unit_zero (S := S1x128) zeros2_0]
  obtain ⟨-, -, -, -, -, -, -, -, -, -, e0, e1, -⟩ := blockIndex0 t
  funext y
  refine convTile0_rows_idx (feat0 V c) (aggr0 V c) (wSelf0 V c) (wNeigh0 V c) (biasRow0 V c)
    (iblk0 V c 0 t) (iblk0 V c 1 t) (iblk0 V c 2 t) (iblk0 V c 3 t) (iblk0 V c 4 t) t.val
    (tile0_0 V c t) (tile0_1 V c t) (whole0_2 V c t) (whole0_3 V c t) (whole0_4 V c t)
    (win0_5.xinj (grid0.coords t) y) (((cfg0.win 5).blk t).view.emb y) ?_ ?_
  · show win0_5.index t (0 : Fin 2) * 5000 + 1 * (y 0).val = 5000 * t.val + (y 0).val; rw [e0]; omega
  · show win0_5.index t (1 : Fin 2) * 128 + 1 * (y 1).val = (y 1).val; rw [e1]; omega

/-- Point t writes back row (t, 0, ·) of the per-tile column sums of the convolution. -/
theorem flushed0_6_eq (c : Dev nD) (t : Fin cfg0.N) :
    (dat0 (F := Ideal) V c).flushed 6 t = ((cfg0.win 6).blk t).view.read (Elt Ideal) (tileSum (convOf0 V c)) := by
  show (cfg0.win 6).cut (grid0.coords t) ((dat0 V c).after 6 t) = _
  rw [after0_6]
  unfold out0_6
  rw [View.canon_unit_zero zeros3_0]
  simp only [View.ld_unit_zero (S := S5000x128) zeros2_0, View.ld_unit_zero (S := S128x128) zeros2_0,
    View.ld_unit_zero (S := S1x128) zeros2_0]
  obtain ⟨-, -, -, -, -, -, -, -, -, -, -, -, e0, e1, e2, -⟩ := blockIndex0 t
  have hN : cfg0.N = 20 := N_0
  funext y
  refine tileColSum0_rows (feat0 V c) (aggr0 V c) (wSelf0 V c) (wNeigh0 V c) (biasRow0 V c)
    (iblk0 V c 0 t) (iblk0 V c 1 t) (iblk0 V c 2 t) (iblk0 V c 3 t) (iblk0 V c 4 t) ⟨t.val, by omega⟩
    (tile0_0 V c t) (tile0_1 V c t) (whole0_2 V c t) (whole0_3 V c t) (whole0_4 V c t)
    (win0_6.xinj (grid0.coords t) y) (((cfg0.win 6).blk t).view.emb y) ?_ ?_
  · show win0_6.index t (0 : Fin 3) * 1 + 1 * (y 0).val = t.val
    have hy : (y 0).val < 1 := (y 0).isLt
    rw [e0]; omega
  · show win0_6.index t (2 : Fin 3) * 128 + 1 * (y 2).val = (y 2).val; rw [e2]; omega

/-- Point t writes back row (t, 0, ·) of the per-tile column sums of squares of the convolution. -/
theorem flushed0_7_eq (c : Dev nD) (t : Fin cfg0.N) :
    (dat0 (F := Ideal) V c).flushed 7 t = ((cfg0.win 7).blk t).view.read (Elt Ideal) (tileSumSq (convOf0 V c)) := by
  show (cfg0.win 7).cut (grid0.coords t) ((dat0 V c).after 7 t) = _
  rw [after0_7]
  unfold out0_7
  rw [View.canon_unit_zero zeros3_0]
  simp only [View.ld_unit_zero (S := S5000x128) zeros2_0, View.ld_unit_zero (S := S128x128) zeros2_0,
    View.ld_unit_zero (S := S1x128) zeros2_0]
  obtain ⟨-, -, -, -, -, -, -, -, -, -, -, -, -, -, -, e0, e1, e2⟩ := blockIndex0 t
  have hN : cfg0.N = 20 := N_0
  funext y
  refine tileColSumSq0_rows (feat0 V c) (aggr0 V c) (wSelf0 V c) (wNeigh0 V c) (biasRow0 V c)
    (iblk0 V c 0 t) (iblk0 V c 1 t) (iblk0 V c 2 t) (iblk0 V c 3 t) (iblk0 V c 4 t) ⟨t.val, by omega⟩
    (tile0_0 V c t) (tile0_1 V c t) (whole0_2 V c t) (whole0_3 V c t) (whole0_4 V c t)
    (win0_7.xinj (grid0.coords t) y) (((cfg0.win 7).blk t).view.emb y) ?_ ?_
  · show win0_7.index t (0 : Fin 3) * 1 + 1 * (y 0).val = t.val
    have hy : (y 0).val < 1 := (y 0).isLt
    rw [e0]; omega
  · show win0_7.index t (2 : Fin 3) * 128 + 1 * (y 2).val = (y 2).val; rw [e2]; omega

/-! ## Every index is covered by some point's block -/

/-- An index of the first result is in point t's block iff each coordinate is in the block's range on its axis. -/
theorem mem_blk0_5 (t : Fin cfg0.N) (i : S100000x128.Idx) :
    i ∈ ((cfg0.win 5).blk t).view.set ↔ ∀ a : Fin 2, win0_5.index t a * S5000x128.size a ≤ (i a).val
      ∧ (i a).val < win0_5.index t a * S5000x128.size a + S5000x128.size a := by
  show i ∈ ((View.whole main_v26_0).slice (win0_5.rect t)).set ↔ _
  rw [View.set_slice_whole, Rect.mem_set_unit]
  exact Iff.rfl

theorem mem_blk0_6 (t : Fin cfg0.N) (i : S20x1x128.Idx) :
    i ∈ ((cfg0.win 6).blk t).view.set ↔ ∀ a : Fin 3, win0_6.index t a * S1x1x128.size a ≤ (i a).val
      ∧ (i a).val < win0_6.index t a * S1x1x128.size a + S1x1x128.size a := by
  show i ∈ ((View.whole main_v26_1).slice (win0_6.rect t)).set ↔ _
  rw [View.set_slice_whole, Rect.mem_set_unit]
  exact Iff.rfl

theorem mem_blk0_7 (t : Fin cfg0.N) (i : S20x1x128.Idx) :
    i ∈ ((cfg0.win 7).blk t).view.set ↔ ∀ a : Fin 3, win0_7.index t a * S1x1x128.size a ≤ (i a).val
      ∧ (i a).val < win0_7.index t a * S1x1x128.size a + S1x1x128.size a := by
  show i ∈ ((View.whole main_v26_2).slice (win0_7.rect t)).set ↔ _
  rw [View.set_slice_whole, Rect.mem_set_unit]
  exact Iff.rfl

/-- Row i of the first result is in the block of point i / 5000. -/
theorem cover0_5 (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  have hN : cfg0.N = 20 := N_0
  refine ⟨⟨(i 0).val / 5000, by omega⟩, flush0_5 _, ?_⟩
  rw [mem_blk0_5]
  obtain ⟨-, -, -, -, -, -, -, -, -, -, e0, e1, -⟩ := blockIndex0 ⟨(i 0).val / 5000, by omega⟩
  intro a
  match a with
  | ⟨0, _⟩ =>
    show win0_5.index _ (0 : Fin 2) * 5000 ≤ (i 0).val ∧ (i 0).val < win0_5.index _ (0 : Fin 2) * 5000 + 5000
    rw [e0]; show (i 0).val / 5000 * 5000 ≤ (i 0).val ∧ (i 0).val < (i 0).val / 5000 * 5000 + 5000; omega
  | ⟨1, _⟩ =>
    show win0_5.index _ (1 : Fin 2) * 128 ≤ (i 1).val ∧ (i 1).val < win0_5.index _ (1 : Fin 2) * 128 + 128
    rw [e1]; omega

/-- Row (p, 0, ·) of the second result is in the block of point p. -/
theorem cover0_6 (i : S20x1x128.Idx) :
    ∃ t : Fin cfg0.N, (cfg0.win 6).flush t = true ∧ i ∈ ((cfg0.win 6).blk t).view.set := by
  have hi0 : (i 0).val < 20 := (i 0).isLt
  have hi1 : (i 1).val < 1 := (i 1).isLt
  have hi2 : (i 2).val < 128 := (i 2).isLt
  have hN : cfg0.N = 20 := N_0
  refine ⟨⟨(i 0).val, by omega⟩, flush0_6 _, ?_⟩
  rw [mem_blk0_6]
  obtain ⟨-, -, -, -, -, -, -, -, -, -, -, -, e0, e1, e2, -⟩ := blockIndex0 ⟨(i 0).val, by omega⟩
  intro a
  match a with
  | ⟨0, _⟩ =>
    show win0_6.index _ (0 : Fin 3) * 1 ≤ (i 0).val ∧ (i 0).val < win0_6.index _ (0 : Fin 3) * 1 + 1
    rw [e0]; show (i 0).val * 1 ≤ (i 0).val ∧ (i 0).val < (i 0).val * 1 + 1; omega
  | ⟨1, _⟩ =>
    show win0_6.index _ (1 : Fin 3) * 1 ≤ (i 1).val ∧ (i 1).val < win0_6.index _ (1 : Fin 3) * 1 + 1
    rw [e1]; omega
  | ⟨2, _⟩ =>
    show win0_6.index _ (2 : Fin 3) * 128 ≤ (i 2).val ∧ (i 2).val < win0_6.index _ (2 : Fin 3) * 128 + 128
    rw [e2]; omega

/-- Row (p, 0, ·) of the third result is in the block of point p. -/
theorem cover0_7 (i : S20x1x128.Idx) :
    ∃ t : Fin cfg0.N, (cfg0.win 7).flush t = true ∧ i ∈ ((cfg0.win 7).blk t).view.set := by
  have hi0 : (i 0).val < 20 := (i 0).isLt
  have hi1 : (i 1).val < 1 := (i 1).isLt
  have hi2 : (i 2).val < 128 := (i 2).isLt
  have hN : cfg0.N = 20 := N_0
  refine ⟨⟨(i 0).val, by omega⟩, flush0_7 _, ?_⟩
  rw [mem_blk0_7]
  obtain ⟨-, -, -, -, -, -, -, -, -, -, -, -, -, -, -, e0, e1, e2⟩ := blockIndex0 ⟨(i 0).val, by omega⟩
  intro a
  match a with
  | ⟨0, _⟩ =>
    show win0_7.index _ (0 : Fin 3) * 1 ≤ (i 0).val ∧ (i 0).val < win0_7.index _ (0 : Fin 3) * 1 + 1
    rw [e0]; show (i 0).val * 1 ≤ (i 0).val ∧ (i 0).val < (i 0).val * 1 + 1; omega
  | ⟨1, _⟩ =>
    show win0_7.index _ (1 : Fin 3) * 1 ≤ (i 1).val ∧ (i 1).val < win0_7.index _ (1 : Fin 3) * 1 + 1
    rw [e1]; omega
  | ⟨2, _⟩ =>
    show win0_7.index _ (2 : Fin 3) * 128 ≤ (i 2).val ∧ (i 2).val < win0_7.index _ (2 : Fin 3) * 128 + 128
    rw [e2]; omega

/-! ## The three results as whole arrays -/

/-- The first result is the convolution of the arrays the kernel is given. -/
theorem final0_5 (c : Dev nD) : (Gen.dat0 (F := Ideal) V c).arrAt 5 cfg0.N
    = Cert.GNN.conv (V c (Pipeline.arrRef spec0 0)) (V c (Pipeline.arrRef spec0 1)) (V c (Pipeline.arrRef spec0 2))
        (V c (Pipeline.arrRef spec0 3)) (V c (Pipeline.arrRef spec0 4)) :=
  (dat0 (F := Ideal) V c).arrAt_eq_of_cover 5 (convOf0 V c) (fun t _ => flushed0_5_eq V c t) (cover0_5)

/-- The second result is the per-tile column sums of that convolution. -/
theorem final0_6 (c : Dev nD) : (Gen.dat0 (F := Ideal) V c).arrAt 6 cfg0.N
    = Cert.GNN.tileSum (Cert.GNN.conv (V c (Pipeline.arrRef spec0 0)) (V c (Pipeline.arrRef spec0 1))
        (V c (Pipeline.arrRef spec0 2)) (V c (Pipeline.arrRef spec0 3)) (V c (Pipeline.arrRef spec0 4))) :=
  (dat0 (F := Ideal) V c).arrAt_eq_of_cover 6 (tileSum (convOf0 V c)) (fun t _ => flushed0_6_eq V c t) (cover0_6)

/-- The third result is the per-tile column sums of squares of that convolution. -/
theorem final0_7 (c : Dev nD) : (Gen.dat0 (F := Ideal) V c).arrAt 7 cfg0.N
    = Cert.GNN.tileSumSq (Cert.GNN.conv (V c (Pipeline.arrRef spec0 0)) (V c (Pipeline.arrRef spec0 1))
        (V c (Pipeline.arrRef spec0 2)) (V c (Pipeline.arrRef spec0 3)) (V c (Pipeline.arrRef spec0 4))) :=
  (dat0 (F := Ideal) V c).arrAt_eq_of_cover 7 (tileSumSq (convOf0 V c)) (fun t _ => flushed0_7_eq V c t) (cover0_7)

end Cert.KernelIdeal.RegionValue

end
-- ==== Proof.Region1.lean ====
/-
  The normalise-and-ReLU call of the first layer, read as one function of its three operand arrays.

  The call walks the 100000 rows in 20 blocks of 5000. At block `t` it loads rows `5000 t … 5000 t + 4999` of `h`
  and the one-row matrices `scale` and `shift` (the same row at every block), and stores
  `max (h · scale + shift, 0)` into the same rows of the result: the row of `scale` and `shift` is broadcast down
  the 5000 rows, the change of float format is the identity on extended reals, and the zero the maximum is taken
  against is the real number 0. Block `t` of the result is therefore block `t` of the whole-array function
  `Cert.GNN.bnrelu h scale shift`; the 20 blocks cover the array (row `i` lies in block `i / 5000`), so the result
  array ends holding that function.
-/
import proofs.«110434_j36318243455158_2_alg».proof.Proof.Gen.KernelIdeal.Frame
import proofs.«110434_j36318243455158_2_alg».proof.Proof.Spec
import Idealize.ShloMosaic.Lib.Pipeline.Value
import Idealize.ShloMosaic.Lib.ValueLayout
import Idealize.ShloMosaic.PureOps.Ideal.Laws

noncomputable section

namespace Cert.KernelIdeal.RegionValue

open Cert.KernelIdeal Cert.KernelIdeal.Gen Idealize.ShloMosaic Idealize.ShloMosaic.TcCoe Idealize.ShloMosaic.ValueIdx
open Idealize.ShloMosaic.Pipeline (Dat)

theorem hz_r1 : (![0, 0] : Fin 2 → Nat) = fun _ => 0 := funext fun a => by fin_cases a <;> rfl

/-- The payload of the store at row `r`, column `q` of a block: `max (x0[r,q] · x1[0,q] + x2[0,q], 0)`. -/
theorem pay1_apply (x0 : Vec Ideal S5000x128 .f32) (x1 x2 : Vec Ideal S1x128 .f32) (r : Fin 5000) (q : Fin 128) :
    k1_pay1 (F := Ideal) x0 x1 x2 (ix2 r q) = max (x0 (ix2 r q) * x1 (ix2 0 q) + x2 (ix2 0 q)) 0 := by
  unfold k1_pay1
  simp only [truncf_apply, maximumf_apply, addf_apply, mulf_apply, broadcast_apply, shapeCast_self,
    broadcastTo_1b_ab_apply]
  show max _ (Ideal.ofBits .f32 0x00000000#32) = _
  rw [Ideal.ofBits_zero_f32]

/-- The same at any index of the block. -/
theorem pay1_at (x0 : Vec Ideal S5000x128 .f32) (x1 x2 : Vec Ideal S1x128 .f32) (j : S5000x128.Idx) :
    k1_pay1 (F := Ideal) x0 x1 x2 j = max (x0 j * x1 (ix2 0 (j 1)) + x2 (ix2 0 (j 1))) 0 := by
  obtain ⟨r, q, rfl⟩ : ∃ (r : Fin 5000) (q : Fin 128), j = ix2 r q := ⟨j 0, j 1, eq_ix2 j⟩
  exact pay1_apply x0 x1 x2 r q

variable (V : (c : Dev nD) → (b : Ref sig .tc) → Buf (Elt Ideal) ((c : Thread nD τ).loc b))

/-- The printed index maps over the 20 points: the two big windows sit at block row `t`, the one-row windows at (0, 0). -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Block `t` of `h`: entry `(r, q)` is entry `(5000 t + r, q)` of the array. -/
theorem iblk1_0_apply (c : Dev nD) (t : Fin cfg1.N) (y : S5000x128.Idx) (k : S100000x128.Idx)
    (hk0 : (k 0).val = 5000 * t.val + (y 0).val) (hk1 : (k 1).val = (y 1).val) :
    (iblk1 V c 0 t : Vec Ideal S5000x128 .f32) y = (V c (Pipeline.arrRef spec1 0) : S100000x128.Idx → EReal) k := by
  obtain ⟨e00, e01, -⟩ := idx_facts1 t
  show V c (Pipeline.arrRef spec1 0) (((cfg1.win 0).blk t).view.emb y) = V c (Pipeline.arrRef spec1 0) k
  refine congrArg (V c (Pipeline.arrRef spec1 0)) ?_
  funext a; apply Fin.ext
  match a with
  | ⟨0, _⟩ => show win1_0.index t (0 : Fin 2) * 5000 + 1 * (y 0).val = (k 0).val; omega
  | ⟨1, _⟩ => show win1_0.index t (1 : Fin 2) * 128 + 1 * (y 1).val = (k 1).val; omega

/-- The block of `scale` at every point is the whole one-row array. -/
theorem iblk1_1_apply (c : Dev nD) (t : Fin cfg1.N) (y k : S1x128.Idx) (hk1 : (k 1).val = (y 1).val) :
    (iblk1 V c 1 t : Vec Ideal S1x128 .f32) y = (V c (Pipeline.arrRef spec1 1) : S1x128.Idx → EReal) k := by
  obtain ⟨-, -, e10, e11, -⟩ := idx_facts1 t
  have hy : (y 0).val < 1 := (y 0).isLt
  have hk : (k 0).val < 1 := (k 0).isLt
  show V c (Pipeline.arrRef spec1 1) (((cfg1.win 1).blk t).view.emb y) = V c (Pipeline.arrRef spec1 1) k
  refine congrArg (V c (Pipeline.arrRef spec1 1)) ?_
  funext a; apply Fin.ext
  match a with
  | ⟨0, _⟩ => show win1_1.index t (0 : Fin 2) * 1 + 1 * (y 0).val = (k 0).val; omega
  | ⟨1, _⟩ => show win1_1.index t (1 : Fin 2) * 128 + 1 * (y 1).val = (k 1).val; omega

/-- The block of `shift` at every point is the whole one-row array. -/
theorem iblk1_2_apply (c : Dev nD) (t : Fin cfg1.N) (y k : S1x128.Idx) (hk1 : (k 1).val = (y 1).val) :
    (iblk1 V c 2 t : Vec Ideal S1x128 .f32) y = (V c (Pipeline.arrRef spec1 2) : S1x128.Idx → EReal) k := by
  obtain ⟨-, -, -, -, e20, e21, -⟩ := idx_facts1 t
  have hy : (y 0).val < 1 := (y 0).isLt
  have hk : (k 0).val < 1 := (k 0).isLt
  show V c (Pipeline.arrRef spec1 2) (((cfg1.win 2).blk t).view.emb y) = V c (Pipeline.arrRef spec1 2) k
  refine congrArg (V c (Pipeline.arrRef spec1 2)) ?_
  funext a; apply Fin.ext
  match a with
  | ⟨0, _⟩ => show win1_2.index t (0 : Fin 2) * 1 + 1 * (y 0).val = (k 0).val; omega
  | ⟨1, _⟩ => show win1_2.index t (1 : Fin 2) * 128 + 1 * (y 1).val = (k 1).val; omega

/-- What point `t` writes back is block `t` of `bnrelu h scale shift`. -/
theorem flushed1_eq (c : Dev nD) (t : Fin cfg1.N) :
    (dat1 (F := Ideal) V c).flushed 3 t = ((cfg1.win 3).blk t).view.read (Elt Ideal)
      (Cert.GNN.bnrelu (V c (Pipeline.arrRef spec1 0)) (V c (Pipeline.arrRef spec1 1)) (V c (Pipeline.arrRef spec1 2))) := by
  show (cfg1.win 3).cut (grid1.coords t) ((dat1 V c).after 3 t) = _
  rw [after1_3]
  unfold out1_3
  rw [View.canon_unit_zero hz_r1]
  simp only [View.ld_unit_zero (S := S5000x128) hz_r1, View.ld_unit_zero (S := S1x128) hz_r1]
  obtain ⟨e00, e01, e10, e11, e20, e21, e30, e31⟩ := idx_facts1 t
  funext j
  show k1_pay1 (F := Ideal) (iblk1 V c 0 t) (iblk1 V c 1 t) (iblk1 V c 2 t) j
    = Cert.GNN.bnrelu (V c (Pipeline.arrRef spec1 0)) (V c (Pipeline.arrRef spec1 1)) (V c (Pipeline.arrRef spec1 2))
        (((cfg1.win 3).blk t).view.emb j)
  refine (pay1_at _ _ _ j).trans ?_
  show _ = max (_ * _ + _) 0
  have hj0 : (j 0).val < 5000 := (j 0).isLt
  have hj1 : (j 1).val < 128 := (j 1).isLt
  refine congrArg₂ max (congrArg₂ (· + ·) (congrArg₂ (· * ·) (iblk1_0_apply V c t _ _ ?_ ?_) (iblk1_1_apply V c t _ _ ?_))
    (iblk1_2_apply V c t _ _ ?_)) rfl
  · show win1_3.index t (0 : Fin 2) * 5000 + 1 * (j 0).val = 5000 * t.val + (j 0).val; omega
  · show win1_3.index t (1 : Fin 2) * 128 + 1 * (j 1).val = (j 1).val; omega
  · show win1_3.index t (1 : Fin 2) * 128 + 1 * (j 1).val = (j 1).val; omega
  · show win1_3.index t (1 : Fin 2) * 128 + 1 * (j 1).val = (j 1).val; omega

/-- An index of the array is in point `t`'s block iff each coordinate is in the block's range on its axis. -/
theorem mem_blk1 (t : Fin cfg1.N) (i : S100000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v45).slice (win1_3.rect t)).set ↔ _
  rw [View.set_slice_whole, Rect.mem_set_unit]
  exact Iff.rfl

/-- Every index lies in the block of the point `i₀ / 5000`. -/
theorem cover1 (i : S100000x128.Idx) : ∃ t : Fin cfg1.N, (cfg1.win 3).flush t = true ∧ i ∈ ((cfg1.win 3).blk t).view.set := by
  have hi0 : (i 0).val < 100000 := (i 0).isLt
  have hi1 : (i 1).val < 128 := (i 1).isLt
  have hN : cfg1.N = 20 := N_1
  let t : Fin cfg1.N := ⟨(i 0).val / 5000, by rw [hN]; omega⟩
  obtain ⟨e00, e01, e10, e11, e20, e21, e30, e31⟩ := idx_facts1 t
  have e30' : win1_3.index t (0 : Fin 2) = (i 0).val / 5000 := e30
  refine ⟨t, flush1_3 t, ?_⟩
  rw [mem_blk1]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 128 ≤ (i 1).val ∧ (i 1).val < win1_3.index t (1 : Fin 2) * 128 + 128; omega

/-- The result array of the call: `max (h · scale + shift, 0)` of its three operands as the call finds them. -/
theorem final1_3 (c : Dev nD) : (Gen.dat1 (F := Ideal) V c).arrAt 3 cfg1.N
    = Cert.GNN.bnrelu (V c (Pipeline.arrRef spec1 0)) (V c (Pipeline.arrRef spec1 1)) (V c (Pipeline.arrRef spec1 2)) :=
  (dat1 (F := Ideal) V c).arrAt_eq_of_cover 3 _ (fun t _ => flushed1_eq V c t) cover1

end Cert.KernelIdeal.RegionValue

end
-- ==== Proof.Region2.lean ====
/-
  The arrays the second convolution kernel leaves, as whole-array functions of the arrays it is given.

  The grid has 20 points. At point t the body is given rows 5000 t … 5000 t + 4999 of the features and of the aggregated
  features (an element of a block sits, on each axis, at block index × block size + its coordinate inside the block; the
  block index on the row axis is t), and the whole of the two weight matrices and of the bias row (block index 0 on every
  axis). It writes back
  * rows 5000 t … 5000 t + 4999 of the first result: by the tile lemma these are the same rows of the convolution;
  * the one row (t, 0, ·) of the second and of the third result: the column sums of that tile and of its squares, which
    are entry (t, 0, ·) of the per-tile column sums of the convolution and of its squares.
  Row i of the first result is covered by point i / 5000, row (p, 0, ·) of the other two by point p; every index is
  covered, so each result is the whole-array function.
-/
import proofs.«110434_j36318243455158_2_alg».proof.Proof.Gen.KernelIdeal.Frame
import proofs.«110434_j36318243455158_2_alg».proof.Proof.Spec
import proofs.«110434_j36318243455158_2_alg».proof.Proof.TileRows
import Idealize.ShloMosaic.Lib.Pipeline.Value

noncomputable section

open Cert.KernelIdeal Cert.KernelIdeal.Gen Idealize.ShloMosaic Idealize.ShloMosaic.TcCoe Idealize.SL.Sem
open Idealize.ShloMosaic.Pipeline (Dat)
open Idealize.ShloMosaic.ValueIdx

namespace Cert.KernelIdeal.RegionValue

open Cert.GNN

variable (V : (c : Dev nD) → (b : Ref sig .tc) → Buf (Elt Ideal) ((c : Thread nD τ).loc b))

theorem zeros2_2 : (![0, 0] : Fin 2 → Nat) = fun _ => 0 := funext fun a => by fin_cases a <;> rfl
theorem zeros3_2 : (![0, 0, 0] : Fin 3 → Nat) = fun _ => 0 := funext fun a => by fin_cases a <;> rfl

/-- The printed index maps, decided over the 20 grid points: the row-tiled windows sit at block index t on the row
    axis (for the two statistics arrays: on the tile axis) and 0 elsewhere, the whole-array windows at 0 everywhere. -/
theorem blockIndex2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0
    ∧ win2_6.index t (0 : Fin 3) = t.val ∧ win2_6.index t (1 : Fin 3) = 0 ∧ win2_6.index t (2 : Fin 3) = 0
    ∧ win2_7.index t (0 : Fin 3) = t.val ∧ win2_7.index t (1 : Fin 3) = 0 ∧ win2_7.index t (2 : Fin 3) = 0 :=
  (by decide +kernel : ∀ t : Fin grid2.N, _)

/-! ## The input blocks as rows of the arrays -/

/-- The features' block at point t is tile t of the features. -/
theorem tile2_0 (c : Dev nD) (t : Fin cfg2.N) :
    IsTile t.val (iblk2 V c 0 t) (V c (Pipeline.arrRef spec2 0)) := by
  intro j i h0 h1
  obtain ⟨e0, e1, -⟩ := blockIndex2 t
  unfold iblk2
  rw [View.read_apply]
  show (V c (Pipeline.arrRef spec2 0) : S100000x128.Idx → EReal) _ = (V c (Pipeline.arrRef spec2 0) : S100000x128.Idx → EReal) i
  refine congrArg _ ?_
  funext ax; apply Fin.ext
  match ax with
  | ⟨0, _⟩ => show win2_0.index t (0 : Fin 2) * 5000 + 1 * (j 0).val = (i 0).val; rw [e0, h0]; omega
  | ⟨1, _⟩ => show win2_0.index t (1 : Fin 2) * 128 + 1 * (j 1).val = (i 1).val; rw [e1, h1]; omega

/-- The aggregated features' block at point t is tile t of the aggregated features. -/
theorem tile2_1 (c : Dev nD) (t : Fin cfg2.N) :
    IsTile t.val (iblk2 V c 1 t) (V c (Pipeline.arrRef spec2 1)) := by
  intro j i h0 h1
  obtain ⟨-, -, e0, e1, -⟩ := blockIndex2 t
  unfold iblk2
  rw [View.read_apply]
  show (V c (Pipeline.arrRef spec2 1) : S100000x128.Idx → EReal) _ = (V c (Pipeline.arrRef spec2 1) : S100000x128.Idx → EReal) i
  refine congrArg _ ?_
  funext ax; apply Fin.ext
  match ax with
  | ⟨0, _⟩ => show win2_1.index t (0 : Fin 2) * 5000 + 1 * (j 0).val = (i 0).val; rw [e0, h0]; omega
  | ⟨1, _⟩ => show win2_1.index t (1 : Fin 2) * 128 + 1 * (j 1).val = (i 1).val; rw [e1, h1]; omega

/-- The first weight matrix's block at every point is the whole matrix. -/
theorem whole2_2 (c : Dev nD) (t : Fin cfg2.N) :
    (iblk2 V c 2 t : Vec Ideal S128x128 .f32) = (V c (Pipeline.arrRef spec2 2) : S128x128.Idx → EReal) := by
  obtain ⟨-, -, -, -, e0, e1, -⟩ := blockIndex2 t
  funext j
  unfold iblk2
  rw [View.read_apply]
  show (V c (Pipeline.arrRef spec2 2) : S128x128.Idx → EReal) _ = (V c (Pipeline.arrRef spec2 2) : S128x128.Idx → EReal) j
  refine congrArg _ ?_
  funext ax; apply Fin.ext
  match ax with
  | ⟨0, _⟩ => show win2_2.index t (0 : Fin 2) * 128 + 1 * (j 0).val = (j 0).val; rw [e0]; omega
  | ⟨1, _⟩ => show win2_2.index t (1 : Fin 2) * 128 + 1 * (j 1).val = (j 1).val; rw [e1]; omega

/-- The second weight matrix's block at every point is the whole matrix. -/
theorem whole2_3 (c : Dev nD) (t : Fin cfg2.N) :
    (iblk2 V c 3 t : Vec Ideal S128x128 .f32) = (V c (Pipeline.arrRef spec2 3) : S128x128.Idx → EReal) := by
  obtain ⟨-, -, -, -, -, -, e0, e1, -⟩ := blockIndex2 t
  funext j
  unfold iblk2
  rw [View.read_apply]
  show (V c (Pipeline.arrRef spec2 3) : S128x128.Idx → EReal) _ = (V c (Pipeline.arrRef spec2 3) : S128x128.Idx → EReal) j
  refine congrArg _ ?_
  funext ax; apply Fin.ext
  match ax with
  | ⟨0, _⟩ => show win2_3.index t (0 : Fin 2) * 128 + 1 * (j 0).val = (j 0).val; rw [e0]; omega
  | ⟨1, _⟩ => show win2_3.index t (1 : Fin 2) * 128 + 1 * (j 1).val = (j 1).val; rw [e1]; omega

/-- The bias row's block at every point is the whole row. -/
theorem whole2_4 (c : Dev nD) (t : Fin cfg2.N) :
    (iblk2 V c 4 t : Vec Ideal S1x128 .f32) = (V c (Pipeline.arrRef spec2 4) : S1x128.Idx → EReal) := by
  obtain ⟨-, -, -, -, -, -, -, -, e0, e1, -⟩ := blockIndex2 t
  funext j
  unfold iblk2
  rw [View.read_apply]
  show (V c (Pipeline.arrRef spec2 4) : S1x128.Idx → EReal) _ = (V c (Pipeline.arrRef spec2 4) : S1x128.Idx → EReal) j
  refine congrArg _ ?_
  funext ax; apply Fin.ext
  match ax with
  | ⟨0, _⟩ => show win2_4.index t (0 : Fin 2) * 1 + 1 * (j 0).val = (j 0).val; rw [e0]; omega
  | ⟨1, _⟩ => show win2_4.index t (1 : Fin 2) * 128 + 1 * (j 1).val = (j 1).val; rw [e1]; omega

/-! ## What each point writes back -/

/-- The five arrays the kernel is given, as the region finds them. -/
abbrev feat2 (c : Dev nD) : A2 100000 128 := (V c (Pipeline.arrRef spec2 0) : S100000x128.Idx → EReal)
abbrev aggr2 (c : Dev nD) : A2 100000 128 := (V c (Pipeline.arrRef spec2 1) : S100000x128.Idx → EReal)
abbrev wSelf2 (c : Dev nD) : A2 128 128 := (V c (Pipeline.arrRef spec2 2) : S128x128.Idx → EReal)
abbrev wNeigh2 (c : Dev nD) : A2 128 128 := (V c (Pipeline.arrRef spec2 3) : S128x128.Idx → EReal)
abbrev biasRow2 (c : Dev nD) : A2 1 128 := (V c (Pipeline.arrRef spec2 4) : S1x128.Idx → EReal)

/-- The convolution of the arrays as the region finds them. -/
abbrev convOf2 (c : Dev nD) : A2 100000 128 := conv (feat2 V c) (aggr2 V c) (wSelf2 V c) (wNeigh2 V c) (biasRow2 V c)

/-- Point t writes back rows 5000 t … 5000 t + 4999 of the convolution. -/
theorem flushed2_5_eq (c : Dev nD) (t : Fin cfg2.N) :
    (dat2 (F := Ideal) V c).flushed 5 t = ((cfg2.win 5).blk t).view.read (Elt Ideal) (convOf2 V c) := by
  show (cfg2.win 5).cut (grid2.coords t) ((dat2 V c).after 5 t) = _
  rw [after2_5]
  unfold out2_5
  rw [View.canon_unit_zero zeros2_2]
  simp only [View.ld_unit_zero (S := S5000x128) zeros2_2, View.ld_unit_zero (S := S128x128) zeros2_2,
    View.ld_unit_zero (S := S1x128) zeros2_2]
  obtain ⟨-, -, -, -, -, -, -, -, -, -, e0, e1, -⟩ := blockIndex2 t
  funext y
  refine convTile2_rows_idx (feat2 V c) (aggr2 V c) (wSelf2 V c) (wNeigh2 V c) (biasRow2 V c)
    (iblk2 V c 0 t) (iblk2 V c 1 t) (iblk2 V c 2 t) (iblk2 V c 3 t) (iblk2 V c 4 t) t.val
    (tile2_0 V c t) (tile2_1 V c t) (whole2_2 V c t) (whole2_3 V c t) (whole2_4 V c t)
    (win2_5.xinj (grid2.coords t) y) (((cfg2.win 5).blk t).view.emb y) ?_ ?_
  · show win2_5.index t (0 : Fin 2) * 5000 + 1 * (y 0).val = 5000 * t.val + (y 0).val; rw [e0]; omega
  · show win2_5.index t (1 : Fin 2) * 128 + 1 * (y 1).val = (y 1).val; rw [e1]; omega

/-- Point t writes back row (t, 0, ·) of the per-tile column sums of the convolution. -/
theorem flushed2_6_eq (c : Dev nD) (t : Fin cfg2.N) :
    (dat2 (F := Ideal) V c).flushed 6 t = ((cfg2.win 6).blk t).view.read (Elt Ideal) (tileSum (convOf2 V c)) := by
  show (cfg2.win 6).cut (grid2.coords t) ((dat2 V c).after 6 t) = _
  rw [after2_6]
  unfold out2_6
  rw [View.canon_unit_zero zeros3_2]
  simp only [View.ld_unit_zero (S := S5000x128) zeros2_2, View.ld_unit_zero (S := S128x128) zeros2_2,
    View.ld_unit_zero (S := S1x128) zeros2_2]
  obtain ⟨-, -, -, -, -, -, -, -, -, -, -, -, e0, e1, e2, -⟩ := blockIndex2 t
  have hN : cfg2.N = 20 := N_2
  funext y
  refine tileColSum2_rows (feat2 V c) (aggr2 V c) (wSelf2 V c) (wNeigh2 V c) (biasRow2 V c)
    (iblk2 V c 0 t) (iblk2 V c 1 t) (iblk2 V c 2 t) (iblk2 V c 3 t) (iblk2 V c 4 t) ⟨t.val, by omega⟩
    (tile2_0 V c t) (tile2_1 V c t) (whole2_2 V c t) (whole2_3 V c t) (whole2_4 V c t)
    (win2_6.xinj (grid2.coords t) y) (((cfg2.win 6).blk t).view.emb y) ?_ ?_
  · show win2_6.index t (0 : Fin 3) * 1 + 1 * (y 0).val = t.val
    have hy : (y 0).val < 1 := (y 0).isLt
    rw [e0]; omega
  · show win2_6.index t (2 : Fin 3) * 128 + 1 * (y 2).val = (y 2).val; rw [e2]; omega

/-- Point t writes back row (t, 0, ·) of the per-tile column sums of squares of the convolution. -/
theorem flushed2_7_eq (c : Dev nD) (t : Fin cfg2.N) :
    (dat2 (F := Ideal) V c).flushed 7 t = ((cfg2.win 7).blk t).view.read (Elt Ideal) (tileSumSq (convOf2 V c)) := by
  show (cfg2.win 7).cut (grid2.coords t) ((dat2 V c).after 7 t) = _
  rw [after2_7]
  unfold out2_7
  rw [View.canon_unit_zero zeros3_2]
  simp only [View.ld_unit_zero (S := S5000x128) zeros2_2, View.ld_unit_zero (S := S128x128) zeros2_2,
    View.ld_unit_zero (S := S1x128) zeros2_2]
  obtain ⟨-, -, -, -, -, -, -, -, -, -, -, -, -, -, -, e0, e1, e2⟩ := blockIndex2 t
  have hN : cfg2.N = 20 := N_2
  funext y
  refine tileColSumSq2_rows (feat2 V c) (aggr2 V c) (wSelf2 V c) (wNeigh2 V c) (biasRow2 V c)
    (iblk2 V c 0 t) (iblk2 V c 1 t) (iblk2 V c 2 t) (iblk2 V c 3 t) (iblk2 V c 4 t) ⟨t.val, by omega⟩
    (tile2_0 V c t) (tile2_1 V c t) (whole2_2 V c t) (whole2_3 V c t) (whole2_4 V c t)
    (win2_7.xinj (grid2.coords t) y) (((cfg2.win 7).blk t).view.emb y) ?_ ?_
  · show win2_7.index t (0 : Fin 3) * 1 + 1 * (y 0).val = t.val
    have hy : (y 0).val < 1 := (y 0).isLt
    rw [e0]; omega
  · show win2_7.index t (2 : Fin 3) * 128 + 1 * (y 2).val = (y 2).val; rw [e2]; omega

/-! ## Every index is covered by some point's block -/

/-- An index of the first result is in point t's block iff each coordinate is in the block's range on its axis. -/
theorem mem_blk2_5 (t : Fin cfg2.N) (i : S100000x128.Idx) :
    i ∈ ((cfg2.win 5).blk t).view.set ↔ ∀ a : Fin 2, win2_5.index t a * S5000x128.size a ≤ (i a).val
      ∧ (i a).val < win2_5.index t a * S5000x128.size a + S5000x128.size a := by
  show i ∈ ((View.whole main_v60_0).slice (win2_5.rect t)).set ↔ _
  rw [View.set_slice_whole, Rect.mem_set_unit]
  exact Iff.rfl

theorem mem_blk2_6 (t : Fin cfg2.N) (i : S20x1x128.Idx) :
    i ∈ ((cfg2.win 6).blk t).view.set ↔ ∀ a : Fin 3, win2_6.index t a * S1x1x128.size a ≤ (i a).val
      ∧ (i a).val < win2_6.index t a * S1x1x128.size a + S1x1x128.size a := by
  show i ∈ ((View.whole main_v60_1).slice (win2_6.rect t)).set ↔ _
  rw [View.set_slice_whole, Rect.mem_set_unit]
  exact Iff.rfl

theorem mem_blk2_7 (t : Fin cfg2.N) (i : S20x1x128.Idx) :
    i ∈ ((cfg2.win 7).blk t).view.set ↔ ∀ a : Fin 3, win2_7.index t a * S1x1x128.size a ≤ (i a).val
      ∧ (i a).val < win2_7.index t a * S1x1x128.size a + S1x1x128.size a := by
  show i ∈ ((View.whole main_v60_2).slice (win2_7.rect t)).set ↔ _
  rw [View.set_slice_whole, Rect.mem_set_unit]
  exact Iff.rfl

/-- Row i of the first result is in the block of point i / 5000. -/
theorem cover2_5 (i : S100000x128.Idx) :
    ∃ t : Fin cfg2.N, (cfg2.win 5).flush t = true ∧ i ∈ ((cfg2.win 5).blk t).view.set := by
  have hi0 : (i 0).val < 100000 := (i 0).isLt
  have hi1 : (i 1).val < 128 := (i 1).isLt
  have hN : cfg2.N = 20 := N_2
  refine ⟨⟨(i 0).val / 5000, by omega⟩, flush2_5 _, ?_⟩
  rw [mem_blk2_5]
  obtain ⟨-, -, -, -, -, -, -, -, -, -, e0, e1, -⟩ := blockIndex2 ⟨(i 0).val / 5000, by omega⟩
  intro a
  match a with
  | ⟨0, _⟩ =>
    show win2_5.index _ (0 : Fin 2) * 5000 ≤ (i 0).val ∧ (i 0).val < win2_5.index _ (0 : Fin 2) * 5000 + 5000
    rw [e0]; show (i 0).val / 5000 * 5000 ≤ (i 0).val ∧ (i 0).val < (i 0).val / 5000 * 5000 + 5000; omega
  | ⟨1, _⟩ =>
    show win2_5.index _ (1 : Fin 2) * 128 ≤ (i 1).val ∧ (i 1).val < win2_5.index _ (1 : Fin 2) * 128 + 128
    rw [e1]; omega

/-- Row (p, 0, ·) of the second result is in the block of point p. -/
theorem cover2_6 (i : S20x1x128.Idx) :
    ∃ t : Fin cfg2.N, (cfg2.win 6).flush t = true ∧ i ∈ ((cfg2.win 6).blk t).view.set := by
  have hi0 : (i 0).val < 20 := (i 0).isLt
  have hi1 : (i 1).val < 1 := (i 1).isLt
  have hi2 : (i 2).val < 128 := (i 2).isLt
  have hN : cfg2.N = 20 := N_2
  refine ⟨⟨(i 0).val, by omega⟩, flush2_6 _, ?_⟩
  rw [mem_blk2_6]
  obtain ⟨-, -, -, -, -, -, -, -, -, -, -, -, e0, e1, e2, -⟩ := blockIndex2 ⟨(i 0).val, by omega⟩
  intro a
  match a with
  | ⟨0, _⟩ =>
    show win2_6.index _ (0 : Fin 3) * 1 ≤ (i 0).val ∧ (i 0).val < win2_6.index _ (0 : Fin 3) * 1 + 1
    rw [e0]; show (i 0).val * 1 ≤ (i 0).val ∧ (i 0).val < (i 0).val * 1 + 1; omega
  | ⟨1, _⟩ =>
    show win2_6.index _ (1 : Fin 3) * 1 ≤ (i 1).val ∧ (i 1).val < win2_6.index _ (1 : Fin 3) * 1 + 1
    rw [e1]; omega
  | ⟨2, _⟩ =>
    show win2_6.index _ (2 : Fin 3) * 128 ≤ (i 2).val ∧ (i 2).val < win2_6.index _ (2 : Fin 3) * 128 + 128
    rw [e2]; omega

/-- Row (p, 0, ·) of the third result is in the block of point p. -/
theorem cover2_7 (i : S20x1x128.Idx) :
    ∃ t : Fin cfg2.N, (cfg2.win 7).flush t = true ∧ i ∈ ((cfg2.win 7).blk t).view.set := by
  have hi0 : (i 0).val < 20 := (i 0).isLt
  have hi1 : (i 1).val < 1 := (i 1).isLt
  have hi2 : (i 2).val < 128 := (i 2).isLt
  have hN : cfg2.N = 20 := N_2
  refine ⟨⟨(i 0).val, by omega⟩, flush2_7 _, ?_⟩
  rw [mem_blk2_7]
  obtain ⟨-, -, -, -, -, -, -, -, -, -, -, -, -, -, -, e0, e1, e2⟩ := blockIndex2 ⟨(i 0).val, by omega⟩
  intro a
  match a with
  | ⟨0, _⟩ =>
    show win2_7.index _ (0 : Fin 3) * 1 ≤ (i 0).val ∧ (i 0).val < win2_7.index _ (0 : Fin 3) * 1 + 1
    rw [e0]; show (i 0).val * 1 ≤ (i 0).val ∧ (i 0).val < (i 0).val * 1 + 1; omega
  | ⟨1, _⟩ =>
    show win2_7.index _ (1 : Fin 3) * 1 ≤ (i 1).val ∧ (i 1).val < win2_7.index _ (1 : Fin 3) * 1 + 1
    rw [e1]; omega
  | ⟨2, _⟩ =>
    show win2_7.index _ (2 : Fin 3) * 128 ≤ (i 2).val ∧ (i 2).val < win2_7.index _ (2 : Fin 3) * 128 + 128
    rw [e2]; omega

/-! ## The three results as whole arrays -/

/-- The first result is the convolution of the arrays the kernel is given. -/
theorem final2_5 (c : Dev nD) : (Gen.dat2 (F := Ideal) V c).arrAt 5 cfg2.N
    = Cert.GNN.conv (V c (Pipeline.arrRef spec2 0)) (V c (Pipeline.arrRef spec2 1)) (V c (Pipeline.arrRef spec2 2))
        (V c (Pipeline.arrRef spec2 3)) (V c (Pipeline.arrRef spec2 4)) :=
  (dat2 (F := Ideal) V c).arrAt_eq_of_cover 5 (convOf2 V c) (fun t _ => flushed2_5_eq V c t) (cover2_5)

/-- The second result is the per-tile column sums of that convolution. -/
theorem final2_6 (c : Dev nD) : (Gen.dat2 (F := Ideal) V c).arrAt 6 cfg2.N
    = Cert.GNN.tileSum (Cert.GNN.conv (V c (Pipeline.arrRef spec2 0)) (V c (Pipeline.arrRef spec2 1))
        (V c (Pipeline.arrRef spec2 2)) (V c (Pipeline.arrRef spec2 3)) (V c (Pipeline.arrRef spec2 4))) :=
  (dat2 (F := Ideal) V c).arrAt_eq_of_cover 6 (tileSum (convOf2 V c)) (fun t _ => flushed2_6_eq V c t) (cover2_6)

/-- The third result is the per-tile column sums of squares of that convolution. -/
theorem final2_7 (c : Dev nD) : (Gen.dat2 (F := Ideal) V c).arrAt 7 cfg2.N
    = Cert.GNN.tileSumSq (Cert.GNN.conv (V c (Pipeline.arrRef spec2 0)) (V c (Pipeline.arrRef spec2 1))
        (V c (Pipeline.arrRef spec2 2)) (V c (Pipeline.arrRef spec2 3)) (V c (Pipeline.arrRef spec2 4))) :=
  (dat2 (F := Ideal) V c).arrAt_eq_of_cover 7 (tileSumSq (convOf2 V c)) (fun t _ => flushed2_7_eq V c t) (cover2_7)

end Cert.KernelIdeal.RegionValue

end
-- ==== Proof.Region3.lean ====
/-
  The normalise-and-ReLU call of the second layer, read as one function of its three operand arrays.

  The call walks the 100000 rows in 20 blocks of 5000. At block `t` it loads rows `5000 t … 5000 t + 4999` of `h`
  and the one-row matrices `scale` and `shift` (the same row at every block), and stores
  `max (h · scale + shift, 0)` into the same rows of the result: the row of `scale` and `shift` is broadcast down
  the 5000 rows, the change of float format is the identity on extended reals, and the zero the maximum is taken
  against is the real number 0. Block `t` of the result is therefore block `t` of the whole-array function
  `Cert.GNN.bnrelu h scale shift`; the 20 blocks cover the array (row `i` lies in block `i / 5000`), so the result
  array ends holding that function.
-/
import proofs.«110434_j36318243455158_2_alg».proof.Proof.Gen.KernelIdeal.Frame
import proofs.«110434_j36318243455158_2_alg».proof.Proof.Spec
import Idealize.ShloMosaic.Lib.Pipeline.Value
import Idealize.ShloMosaic.Lib.ValueLayout
import Idealize.ShloMosaic.PureOps.Ideal.Laws

noncomputable section

namespace Cert.KernelIdeal.RegionValue

open Cert.KernelIdeal Cert.KernelIdeal.Gen Idealize.ShloMosaic Idealize.ShloMosaic.TcCoe Idealize.ShloMosaic.ValueIdx
open Idealize.ShloMosaic.Pipeline (Dat)

theorem hz_r3 : (![0, 0] : Fin 2 → Nat) = fun _ => 0 := funext fun a => by fin_cases a <;> rfl

/-- The payload of the store at row `r`, column `q` of a block: `max (x0[r,q] · x1[0,q] + x2[0,q], 0)`. -/
theorem pay3_apply (x0 : Vec Ideal S5000x128 .f32) (x1 x2 : Vec Ideal S1x128 .f32) (r : Fin 5000) (q : Fin 128) :
    k3_pay1 (F := Ideal) x0 x1 x2 (ix2 r q) = max (x0 (ix2 r q) * x1 (ix2 0 q) + x2 (ix2 0 q)) 0 := by
  unfold k3_pay1
  simp only [truncf_apply, maximumf_apply, addf_apply, mulf_apply, broadcast_apply, shapeCast_self,
    broadcastTo_1b_ab_apply]
  show max _ (Ideal.ofBits .f32 0x00000000#32) = _
  rw [Ideal.ofBits_zero_f32]

/-- The same at any index of the block. -/
theorem pay3_at (x0 : Vec Ideal S5000x128 .f32) (x1 x2 : Vec Ideal S1x128 .f32) (j : S5000x128.Idx) :
    k3_pay1 (F := Ideal) x0 x1 x2 j = max (x0 j * x1 (ix2 0 (j 1)) + x2 (ix2 0 (j 1))) 0 := by
  obtain ⟨r, q, rfl⟩ : ∃ (r : Fin 5000) (q : Fin 128), j = ix2 r q := ⟨j 0, j 1, eq_ix2 j⟩
  exact pay3_apply x0 x1 x2 r q

variable (V : (c : Dev nD) → (b : Ref sig .tc) → Buf (Elt Ideal) ((c : Thread nD τ).loc b))

/-- The printed index maps over the 20 points: the two big windows sit at block row `t`, the one-row windows at (0, 0). -/
theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- Block `t` of `h`: entry `(r, q)` is entry `(5000 t + r, q)` of the array. -/
theorem iblk3_0_apply (c : Dev nD) (t : Fin cfg3.N) (y : S5000x128.Idx) (k : S100000x128.Idx)
    (hk0 : (k 0).val = 5000 * t.val + (y 0).val) (hk1 : (k 1).val = (y 1).val) :
    (iblk3 V c 0 t : Vec Ideal S5000x128 .f32) y = (V c (Pipeline.arrRef spec3 0) : S100000x128.Idx → EReal) k := by
  obtain ⟨e00, e01, -⟩ := idx_facts3 t
  show V c (Pipeline.arrRef spec3 0) (((cfg3.win 0).blk t).view.emb y) = V c (Pipeline.arrRef spec3 0) k
  refine congrArg (V c (Pipeline.arrRef spec3 0)) ?_
  funext a; apply Fin.ext
  match a with
  | ⟨0, _⟩ => show win3_0.index t (0 : Fin 2) * 5000 + 1 * (y 0).val = (k 0).val; omega
  | ⟨1, _⟩ => show win3_0.index t (1 : Fin 2) * 128 + 1 * (y 1).val = (k 1).val; omega

/-- The block of `scale` at every point is the whole one-row array. -/
theorem iblk3_1_apply (c : Dev nD) (t : Fin cfg3.N) (y k : S1x128.Idx) (hk1 : (k 1).val = (y 1).val) :
    (iblk3 V c 1 t : Vec Ideal S1x128 .f32) y = (V c (Pipeline.arrRef spec3 1) : S1x128.Idx → EReal) k := by
  obtain ⟨-, -, e10, e11, -⟩ := idx_facts3 t
  have hy : (y 0).val < 1 := (y 0).isLt
  have hk : (k 0).val < 1 := (k 0).isLt
  show V c (Pipeline.arrRef spec3 1) (((cfg3.win 1).blk t).view.emb y) = V c (Pipeline.arrRef spec3 1) k
  refine congrArg (V c (Pipeline.arrRef spec3 1)) ?_
  funext a; apply Fin.ext
  match a with
  | ⟨0, _⟩ => show win3_1.index t (0 : Fin 2) * 1 + 1 * (y 0).val = (k 0).val; omega
  | ⟨1, _⟩ => show win3_1.index t (1 : Fin 2) * 128 + 1 * (y 1).val = (k 1).val; omega

/-- The block of `shift` at every point is the whole one-row array. -/
theorem iblk3_2_apply (c : Dev nD) (t : Fin cfg3.N) (y k : S1x128.Idx) (hk1 : (k 1).val = (y 1).val) :
    (iblk3 V c 2 t : Vec Ideal S1x128 .f32) y = (V c (Pipeline.arrRef spec3 2) : S1x128.Idx → EReal) k := by
  obtain ⟨-, -, -, -, e20, e21, -⟩ := idx_facts3 t
  have hy : (y 0).val < 1 := (y 0).isLt
  have hk : (k 0).val < 1 := (k 0).isLt
  show V c (Pipeline.arrRef spec3 2) (((cfg3.win 2).blk t).view.emb y) = V c (Pipeline.arrRef spec3 2) k
  refine congrArg (V c (Pipeline.arrRef spec3 2)) ?_
  funext a; apply Fin.ext
  match a with
  | ⟨0, _⟩ => show win3_2.index t (0 : Fin 2) * 1 + 1 * (y 0).val = (k 0).val; omega
  | ⟨1, _⟩ => show win3_2.index t (1 : Fin 2) * 128 + 1 * (y 1).val = (k 1).val; omega

/-- What point `t` writes back is block `t` of `bnrelu h scale shift`. -/
theorem flushed3_eq (c : Dev nD) (t : Fin cfg3.N) :
    (dat3 (F := Ideal) V c).flushed 3 t = ((cfg3.win 3).blk t).view.read (Elt Ideal)
      (Cert.GNN.bnrelu (V c (Pipeline.arrRef spec3 0)) (V c (Pipeline.arrRef spec3 1)) (V c (Pipeline.arrRef spec3 2))) := by
  show (cfg3.win 3).cut (grid3.coords t) ((dat3 V c).after 3 t) = _
  rw [after3_3]
  unfold out3_3
  rw [View.canon_unit_zero hz_r3]
  simp only [View.ld_unit_zero (S := S5000x128) hz_r3, View.ld_unit_zero (S := S1x128) hz_r3]
  obtain ⟨e00, e01, e10, e11, e20, e21, e30, e31⟩ := idx_facts3 t
  funext j
  show k3_pay1 (F := Ideal) (iblk3 V c 0 t) (iblk3 V c 1 t) (iblk3 V c 2 t) j
    = Cert.GNN.bnrelu (V c (Pipeline.arrRef spec3 0)) (V c (Pipeline.arrRef spec3 1)) (V c (Pipeline.arrRef spec3 2))
        (((cfg3.win 3).blk t).view.emb j)
  refine (pay3_at _ _ _ j).trans ?_
  show _ = max (_ * _ + _) 0
  have hj0 : (j 0).val < 5000 := (j 0).isLt
  have hj1 : (j 1).val < 128 := (j 1).isLt
  refine congrArg₂ max (congrArg₂ (· + ·) (congrArg₂ (· * ·) (iblk3_0_apply V c t _ _ ?_ ?_) (iblk3_1_apply V c t _ _ ?_))
    (iblk3_2_apply V c t _ _ ?_)) rfl
  · show win3_3.index t (0 : Fin 2) * 5000 + 1 * (j 0).val = 5000 * t.val + (j 0).val; omega
  · show win3_3.index t (1 : Fin 2) * 128 + 1 * (j 1).val = (j 1).val; omega
  · show win3_3.index t (1 : Fin 2) * 128 + 1 * (j 1).val = (j 1).val; omega
  · show win3_3.index t (1 : Fin 2) * 128 + 1 * (j 1).val = (j 1).val; omega

/-- An index of the array is in point `t`'s block iff each coordinate is in the block's range on its axis. -/
theorem mem_blk3 (t : Fin cfg3.N) (i : S100000x128.Idx) :
    i ∈ ((cfg3.win 3).blk t).view.set ↔ ∀ a : Fin 2, win3_3.index t a * S5000x128.size a ≤ (i a).val ∧ (i a).val < win3_3.index t a * S5000x128.size a + S5000x128.size a := by
  show i ∈ ((View.whole main_v79).slice (win3_3.rect t)).set ↔ _
  rw [View.set_slice_whole, Rect.mem_set_unit]
  exact Iff.rfl

/-- Every index lies in the block of the point `i₀ / 5000`. -/
theorem cover3 (i : S100000x128.Idx) : ∃ t : Fin cfg3.N, (cfg3.win 3).flush t = true ∧ i ∈ ((cfg3.win 3).blk t).view.set := by
  have hi0 : (i 0).val < 100000 := (i 0).isLt
  have hi1 : (i 1).val < 128 := (i 1).isLt
  have hN : cfg3.N = 20 := N_3
  let t : Fin cfg3.N := ⟨(i 0).val / 5000, by rw [hN]; omega⟩
  obtain ⟨e00, e01, e10, e11, e20, e21, e30, e31⟩ := idx_facts3 t
  have e30' : win3_3.index t (0 : Fin 2) = (i 0).val / 5000 := e30
  refine ⟨t, flush3_3 t, ?_⟩
  rw [mem_blk3]
  intro a
  match a with
  | ⟨0, _⟩ => show win3_3.index t (0 : Fin 2) * 5000 ≤ (i 0).val ∧ (i 0).val < win3_3.index t (0 : Fin 2) * 5000 + 5000; omega
  | ⟨1, _⟩ => show win3_3.index t (1 : Fin 2) * 128 ≤ (i 1).val ∧ (i 1).val < win3_3.index t (1 : Fin 2) * 128 + 128; omega

/-- The result array of the call: `max (h · scale + shift, 0)` of its three operands as the call finds them. -/
theorem final3_3 (c : Dev nD) : (Gen.dat3 (F := Ideal) V c).arrAt 3 cfg3.N
    = Cert.GNN.bnrelu (V c (Pipeline.arrRef spec3 0)) (V c (Pipeline.arrRef spec3 1)) (V c (Pipeline.arrRef spec3 2)) :=
  (dat3 (F := Ideal) V c).arrAt_eq_of_cover 3 _ (fun t _ => flushed3_eq V c t) cover3

end Cert.KernelIdeal.RegionValue

end
-- ==== Proof.KLayers.lean ====
/-
  The two normalised layers of the network, read off the run's boundary contents.

  The run alternates stretches of host operations with regions; the contents of every buffer at each boundary
  are a fold through the program. Here the fold is walked from the launch memory up to the end of the fourth
  region, one boundary at a time, each step quoting what that stretch or region does to the buffers it writes:

    * the first stretch prepares the mean aggregation agg(x) of the input and views the bias as a row;
    * a convolution region leaves h = x·W_self + agg(x)·W_neigh + b, and the column sums of h and of h² tile by tile;
    * the next stretch turns those sums into the normalisation's scale and shift;
    * a normalisation region leaves max (h·scale + shift, 0).

  Composed, the buffer the first normalisation region writes holds the specification's layer (in the tiled
  arrangement) of the input array, and the buffer the second one writes holds the layer of that. No region or
  stretch is opened here: only their stated effects are chained, by rewriting.
-/
import proofs.«110434_j36318243455158_2_alg».proof.Proof.Gen.KernelIdeal.Frame
import proofs.«110434_j36318243455158_2_alg».proof.Proof.Spec
import proofs.«110434_j36318243455158_2_alg».proof.Proof.AggK
import proofs.«110434_j36318243455158_2_alg».proof.Proof.HostAgg0
import proofs.«110434_j36318243455158_2_alg».proof.Proof.HostAgg2
import proofs.«110434_j36318243455158_2_alg».proof.Proof.HostStats1
import proofs.«110434_j36318243455158_2_alg».proof.Proof.HostStats3
import proofs.«110434_j36318243455158_2_alg».proof.Proof.Region0
import proofs.«110434_j36318243455158_2_alg».proof.Proof.Region1
import proofs.«110434_j36318243455158_2_alg».proof.Proof.Region2
import proofs.«110434_j36318243455158_2_alg».proof.Proof.Region3

noncomputable section

open Idealize.ShloMosaic Idealize.ShloMosaic.ValueIdx Idealize.ShloMosaic.TcCoe
open scoped BigOperators

namespace Cert.KernelIdeal.KValue

open Cert.KernelIdeal Cert.KernelIdeal.Gen

variable (m : (ℓ : Loc nD τ sig) → Buf (Elt Ideal) ℓ) (ρ : Dev nD → PrngReg)

/-! ## The first normalised layer -/

/-- The first convolution region leaves the convolution of what it was given. -/
theorem V2_v26_0 (c : Dev nD) :
    (Gen.V2 m ρ c main_v26_0 : Cert.GNN.A2 100000 128) = (Cert.GNN.conv (m ((c : Thread nD τ).loc main_arg0)) (aggK (m ((c : Thread nD τ).loc main_arg1)) (m ((c : Thread nD τ).loc main_arg0))) (m ((c : Thread nD τ).loc main_arg2)) (m ((c : Thread nD τ).loc main_arg3)) (Cert.GNN.row (m ((c : Thread nD τ).loc main_arg4)))) := by
  have h := RegionValue.final0_5 (Gen.V1 m ρ) c
  rw [show (Gen.V1 m ρ c (Pipeline.arrRef spec0 0) : Cert.GNN.A2 100000 128) = _ from V1_arg0 m ρ c,
    show (Gen.V1 m ρ c (Pipeline.arrRef spec0 1) : Cert.GNN.A2 100000 128) = _ from V1_v24 m ρ c,
    show (Gen.V1 m ρ c (Pipeline.arrRef spec0 2) : Cert.GNN.A2 128 128) = _ from V1_arg2 m ρ c,
    show (Gen.V1 m ρ c (Pipeline.arrRef spec0 3) : Cert.GNN.A2 128 128) = _ from V1_arg3 m ρ c,
    show (Gen.V1 m ρ c (Pipeline.arrRef spec0 4) : Cert.GNN.A2 1 128) = _ from V1_v25 m ρ c] at h
  exact (Gen.W2_arr m ρ c 5).trans h

/-- … its per-tile column sums … -/
theorem V2_v26_1 (c : Dev nD) :
    (Gen.V2 m ρ c main_v26_1 : Cert.GNN.A3 20 1 128) = Cert.GNN.tileSum (Cert.GNN.conv (m ((c : Thread nD τ).loc main_arg0)) (aggK (m ((c : Thread nD τ).loc main_arg1)) (m ((c : Thread nD τ).loc main_arg0))) (m ((c : Thread nD τ).loc main_arg2)) (m ((c : Thread nD τ).loc main_arg3)) (Cert.GNN.row (m ((c : Thread nD τ).loc main_arg4)))) := by
  have h := RegionValue.final0_6 (Gen.V1 m ρ) c
  rw [show (Gen.V1 m ρ c (Pipeline.arrRef spec0 0) : Cert.GNN.A2 100000 128) = _ from V1_arg0 m ρ c,
    show (Gen.V1 m ρ c (Pipeline.arrRef spec0 1) : Cert.GNN.A2 100000 128) = _ from V1_v24 m ρ c,
    show (Gen.V1 m ρ c (Pipeline.arrRef spec0 2) : Cert.GNN.A2 128 128) = _ from V1_arg2 m ρ c,
    show (Gen.V1 m ρ c (Pipeline.arrRef spec0 3) : Cert.GNN.A2 128 128) = _ from V1_arg3 m ρ c,
    show (Gen.V1 m ρ c (Pipeline.arrRef spec0 4) : Cert.GNN.A2 1 128) = _ from V1_v25 m ρ c] at h
  exact (Gen.W2_arr m ρ c 6).trans h

/-- … and its per-tile column sums of squares. -/
theorem V2_v26_2 (c : Dev nD) :
    (Gen.V2 m ρ c main_v26_2 : Cert.GNN.A3 20 1 128) = Cert.GNN.tileSumSq (Cert.GNN.conv (m ((c : Thread nD τ).loc main_arg0)) (aggK (m ((c : Thread nD τ).loc main_arg1)) (m ((c : Thread nD τ).loc main_arg0))) (m ((c : Thread nD τ).loc main_arg2)) (m ((c : Thread nD τ).loc main_arg3)) (Cert.GNN.row (m ((c : Thread nD τ).loc main_arg4)))) := by
  have h := RegionValue.final0_7 (Gen.V1 m ρ) c
  rw [show (Gen.V1 m ρ c (Pipeline.arrRef spec0 0) : Cert.GNN.A2 100000 128) = _ from V1_arg0 m ρ c,
    show (Gen.V1 m ρ c (Pipeline.arrRef spec0 1) : Cert.GNN.A2 100000 128) = _ from V1_v24 m ρ c,
    show (Gen.V1 m ρ c (Pipeline.arrRef spec0 2) : Cert.GNN.A2 128 128) = _ from V1_arg2 m ρ c,
    show (Gen.V1 m ρ c (Pipeline.arrRef spec0 3) : Cert.GNN.A2 128 128) = _ from V1_arg3 m ρ c,
    show (Gen.V1 m ρ c (Pipeline.arrRef spec0 4) : Cert.GNN.A2 1 128) = _ from V1_v25 m ρ c] at h
  exact (Gen.W2_arr m ρ c 7).trans h

/-- The first normalisation region leaves the specification's layer of its input. -/
theorem V4_v45 (c : Dev nD) :
    (Gen.V4 m ρ c main_v45 : Cert.GNN.A2 100000 128)
      = Cert.GNN.layerK (aggK (m ((c : Thread nD τ).loc main_arg1))) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) := by
  have h := RegionValue.final1_3 (Gen.V3 m ρ) c
  rw [show (Gen.V3 m ρ c (Pipeline.arrRef spec1 0) : Cert.GNN.A2 100000 128) = _ from V3_v26_0 m ρ c,
    show (Gen.V3 m ρ c (Pipeline.arrRef spec1 1) : Cert.GNN.A2 1 128) = _ from V3_v41 m ρ c,
    show (Gen.V3 m ρ c (Pipeline.arrRef spec1 2) : Cert.GNN.A2 1 128) = _ from V3_v44 m ρ c,
    V2_v26_0 m ρ c, V2_v26_1 m ρ c, V2_v26_2 m ρ c] at h
  exact (Gen.W4_arr m ρ c 3).trans h

/-! ## The second normalised layer -/

/-- The second convolution region leaves the convolution of what it was given. -/
theorem V6_v60_0 (c : Dev nD) :
    (Gen.V6 m ρ c main_v60_0 : Cert.GNN.A2 100000 128) = (Cert.GNN.conv (Gen.V4 m ρ c main_v45) (aggK (m ((c : Thread nD τ).loc main_arg1)) (Gen.V4 m ρ c main_v45)) (m ((c : Thread nD τ).loc main_arg7)) (m ((c : Thread nD τ).loc main_arg8)) (Cert.GNN.row (m ((c : Thread nD τ).loc main_arg9)))) := by
  have h := RegionValue.final2_5 (Gen.V5 m ρ) c
  rw [show (Gen.V5 m ρ c (Pipeline.arrRef spec2 0) : Cert.GNN.A2 100000 128) = _ from V5_v45 m ρ c,
    show (Gen.V5 m ρ c (Pipeline.arrRef spec2 1) : Cert.GNN.A2 100000 128) = _ from V5_v58 m ρ c,
    show (Gen.V5 m ρ c (Pipeline.arrRef spec2 2) : Cert.GNN.A2 128 128) = _ from V5_arg7 m ρ c,
    show (Gen.V5 m ρ c (Pipeline.arrRef spec2 3) : Cert.GNN.A2 128 128) = _ from V5_arg8 m ρ c,
    show (Gen.V5 m ρ c (Pipeline.arrRef spec2 4) : Cert.GNN.A2 1 128) = _ from V5_v59 m ρ c] at h
  exact (Gen.W6_arr m ρ c 5).trans h

/-- … its per-tile column sums … -/
theorem V6_v60_1 (c : Dev nD) :
    (Gen.V6 m ρ c main_v60_1 : Cert.GNN.A3 20 1 128) = Cert.GNN.tileSum (Cert.GNN.conv (Gen.V4 m ρ c main_v45) (aggK (m ((c : Thread nD τ).loc main_arg1)) (Gen.V4 m ρ c main_v45)) (m ((c : Thread nD τ).loc main_arg7)) (m ((c : Thread nD τ).loc main_arg8)) (Cert.GNN.row (m ((c : Thread nD τ).loc main_arg9)))) := by
  have h := RegionValue.final2_6 (Gen.V5 m ρ) c
  rw [show (Gen.V5 m ρ c (Pipeline.arrRef spec2 0) : Cert.GNN.A2 100000 128) = _ from V5_v45 m ρ c,
    show (Gen.V5 m ρ c (Pipeline.arrRef spec2 1) : Cert.GNN.A2 100000 128) = _ from V5_v58 m ρ c,
    show (Gen.V5 m ρ c (Pipeline.arrRef spec2 2) : Cert.GNN.A2 128 128) = _ from V5_arg7 m ρ c,
    show (Gen.V5 m ρ c (Pipeline.arrRef spec2 3) : Cert.GNN.A2 128 128) = _ from V5_arg8 m ρ c,
    show (Gen.V5 m ρ c (Pipeline.arrRef spec2 4) : Cert.GNN.A2 1 128) = _ from V5_v59 m ρ c] at h
  exact (Gen.W6_arr m ρ c 6).trans h

/-- … and its per-tile column sums of squares. -/
theorem V6_v60_2 (c : Dev nD) :
    (Gen.V6 m ρ c main_v60_2 : Cert.GNN.A3 20 1 128) = Cert.GNN.tileSumSq (Cert.GNN.conv (Gen.V4 m ρ c main_v45) (aggK (m ((c : Thread nD τ).loc main_arg1)) (Gen.V4 m ρ c main_v45)) (m ((c : Thread nD τ).loc main_arg7)) (m ((c : Thread nD τ).loc main_arg8)) (Cert.GNN.row (m ((c : Thread nD τ).loc main_arg9)))) := by
  have h := RegionValue.final2_7 (Gen.V5 m ρ) c
  rw [show (Gen.V5 m ρ c (Pipeline.arrRef spec2 0) : Cert.GNN.A2 100000 128) = _ from V5_v45 m ρ c,
    show (Gen.V5 m ρ c (Pipeline.arrRef spec2 1) : Cert.GNN.A2 100000 128) = _ from V5_v58 m ρ c,
    show (Gen.V5 m ρ c (Pipeline.arrRef spec2 2) : Cert.GNN.A2 128 128) = _ from V5_arg7 m ρ c,
    show (Gen.V5 m ρ c (Pipeline.arrRef spec2 3) : Cert.GNN.A2 128 128) = _ from V5_arg8 m ρ c,
    show (Gen.V5 m ρ c (Pipeline.arrRef spec2 4) : Cert.GNN.A2 1 128) = _ from V5_v59 m ρ c] at h
  exact (Gen.W6_arr m ρ c 7).trans h

/-- The second normalisation region leaves the specification's layer of its input. -/
theorem V8_v79 (c : Dev nD) :
    (Gen.V8 m ρ c main_v79 : Cert.GNN.A2 100000 128)
      = Cert.GNN.layerK (aggK (m ((c : Thread nD τ).loc main_arg1))) (Gen.V4 m ρ c main_v45) (m ((c : Thread nD τ).loc main_arg7)) (m ((c : Thread nD τ).loc main_arg8)) (m ((c : Thread nD τ).loc main_arg9)) (m ((c : Thread nD τ).loc main_arg10)) (m ((c : Thread nD τ).loc main_arg11)) := by
  have h := RegionValue.final3_3 (Gen.V7 m ρ) c
  rw [show (Gen.V7 m ρ c (Pipeline.arrRef spec3 0) : Cert.GNN.A2 100000 128) = _ from V7_v60_0 m ρ c,
    show (Gen.V7 m ρ c (Pipeline.arrRef spec3 1) : Cert.GNN.A2 1 128) = _ from V7_v75 m ρ c,
    show (Gen.V7 m ρ c (Pipeline.arrRef spec3 2) : Cert.GNN.A2 1 128) = _ from V7_v78 m ρ c,
    V6_v60_0 m ρ c, V6_v60_1 m ρ c, V6_v60_2 m ρ c] at h
  exact (Gen.W8_arr m ρ c 3).trans h

end Cert.KernelIdeal.KValue

end
-- ==== Proof.LibKeepdims.lean ====
/-
  Small shapes read at an index: the forms a sum that keeps its axis produces.

  A row sum of an `[a, b]` array is an `[a]` vector viewed as a column `[a, 1]`; a column is spread over `[a, b]` again by
  repeating its one entry along each row; two columns side by side make an `[a, 2]` array, two rows one over the other a
  `[2, b]` array. Each lemma reads one of these at an index written with its coordinates, so that the next lemma of a
  chain matches.
-/
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.LibKeepdims

open Idealize.ShloMosaic Idealize.ShloMosaic.ValueIdx

variable {α : Type}

/-- A column `[a, 1]` broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` vector cast to a column `[a, 1]` reads, at `(p, u)`, the vector at `p`. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- The sum along the rows of an `[a, b]` array of extended reals, at row `p`: the sum of that row's entries. -/
theorem rowSum_apply {a b : ℕ} (src : FVec Ideal (⟨2, ![a, b]⟩ : Shape) .f32)
    (h : Shape.Reduces (⟨2, ![a, b]⟩ : Shape) [1] ⟨1, ![a]⟩) (hφ : FKind.Formats .f32)
    (hacc : (0x00000000#32 : BitVec 32) = 0x00000000#32) (p : Fin a) :
    multiReduction .add [1] ⟨1, ![a]⟩ src 0x00000000#32 h hφ hacc (ix1 p) = ∑ c : Fin b, src (ix2 p c) := by
  refine (Ideal.multiReduction_add_single src 0x00000000#32 h hφ hacc (ix1 p)).trans ?_
  show ∑ c : Fin b, src (h.lift (ix1 p) c) = _
  refine Finset.sum_congr rfl fun c _ => congrArg src ?_
  funext d
  match d with
  | ⟨0, _⟩ => exact Fin.ext rfl
  | ⟨1, _⟩ => exact Fin.ext rfl

/-- The sum down the columns of an `[a, b]` array, at column `c`: the sum of that column's entries. -/
theorem colSum_apply {a b : ℕ} (src : FVec Ideal (⟨2, ![a, b]⟩ : Shape) .f32)
    (h : Shape.Reduces (⟨2, ![a, b]⟩ : Shape) [0] ⟨1, ![b]⟩) (hφ : FKind.Formats .f32)
    (hacc : (0x00000000#32 : BitVec 32) = 0x00000000#32) (c : Fin b) :
    multiReduction .add [0] ⟨1, ![b]⟩ src 0x00000000#32 h hφ hacc (ix1 c) = ∑ p : Fin a, src (ix2 p c) := by
  refine (Ideal.multiReduction_add_single src 0x00000000#32 h hφ hacc (ix1 c)).trans ?_
  show ∑ p : Fin a, src (h.lift (ix1 c) p) = _
  refine Finset.sum_congr rfl fun p _ => congrArg src ?_
  funext d
  match d with
  | ⟨0, _⟩ => exact Fin.ext rfl
  | ⟨1, _⟩ => exact Fin.ext rfl

/-- Two columns side by side: entry `(p, k)` of the `[a, 2]` array is column `k`'s entry of row `p`. -/
theorem concat_cols_apply {a : ℕ} (u v : (⟨2, ![a, 1]⟩ : Shape).Idx → α)
    (h : Shape.Concatenates (([⟨⟨2, ![a, 1]⟩, u⟩, ⟨⟨2, ![a, 1]⟩, v⟩] : List ((s : Shape) × (s.Idx → α))).map (·.1)) ⟨2, ![a, 2]⟩ 1)
    (p : Fin a) (k : Fin 2) :
    concatenate ⟨2, ![a, 2]⟩ 1 [⟨⟨2, ![a, 1]⟩, u⟩, ⟨⟨2, ![a, 1]⟩, v⟩] h (ix2 p k) = (![u, v] k) (ix2 p (0 : Fin 1)) := by
  refine concatenate_ofFn_unit_apply (t := ⟨2, ![a, 2]⟩) (s₁ := ⟨2, ![a, 1]⟩) 1 (N := 2) ![u, v] h rfl rfl (ix2 p k) k rfl
    (ix2 p (0 : Fin 1)) fun b hb => ?_
  match b with
  | ⟨0, _⟩ => rfl
  | ⟨1, _⟩ => exact absurd rfl hb

/-- Two rows one over the other: entry `(k, c)` of the `[2, b]` array is row `k`'s entry of column `c`. -/
theorem concat_rows_apply {b : ℕ} (u v : (⟨2, ![1, b]⟩ : Shape).Idx → α)
    (h : Shape.Concatenates (([⟨⟨2, ![1, b]⟩, u⟩, ⟨⟨2, ![1, b]⟩, v⟩] : List ((s : Shape) × (s.Idx → α))).map (·.1)) ⟨2, ![2, b]⟩ 0)
    (k : Fin 2) (c : Fin b) :
    concatenate ⟨2, ![2, b]⟩ 0 [⟨⟨2, ![1, b]⟩, u⟩, ⟨⟨2, ![1, b]⟩, v⟩] h (ix2 k c) = (![u, v] k) (ix2 (0 : Fin 1) c) := by
  refine concatenate_ofFn_unit_apply (t := ⟨2, ![2, b]⟩) (s₁ := ⟨2, ![1, b]⟩) 0 (N := 2) ![u, v] h rfl rfl (ix2 k c) k rfl
    (ix2 (0 : Fin 1) c) fun b' hb => ?_
  match b' with
  | ⟨0, _⟩ => exact absurd rfl hb
  | ⟨1, _⟩ => rfl

/-- The same, with the column chosen by a test on `k`. -/
theorem concat_cols_ite_apply {a : ℕ} (u v : (⟨2, ![a, 1]⟩ : Shape).Idx → α)
    (h : Shape.Concatenates (([⟨⟨2, ![a, 1]⟩, u⟩, ⟨⟨2, ![a, 1]⟩, v⟩] : List ((s : Shape) × (s.Idx → α))).map (·.1)) ⟨2, ![a, 2]⟩ 1)
    (p : Fin a) (k : Fin 2) :
    concatenate ⟨2, ![a, 2]⟩ 1 [⟨⟨2, ![a, 1]⟩, u⟩, ⟨⟨2, ![a, 1]⟩, v⟩] h (ix2 p k)
      = if k.val = 0 then u (ix2 p (0 : Fin 1)) else v (ix2 p (0 : Fin 1)) := by
  rw [concat_cols_apply u v h p k]
  fin_cases k <;> simp

/-- The same for two rows. -/
theorem concat_rows_ite_apply {b : ℕ} (u v : (⟨2, ![1, b]⟩ : Shape).Idx → α)
    (h : Shape.Concatenates (([⟨⟨2, ![1, b]⟩, u⟩, ⟨⟨2, ![1, b]⟩, v⟩] : List ((s : Shape) × (s.Idx → α))).map (·.1)) ⟨2, ![2, b]⟩ 0)
    (k : Fin 2) (c : Fin b) :
    concatenate ⟨2, ![2, b]⟩ 0 [⟨⟨2, ![1, b]⟩, u⟩, ⟨⟨2, ![1, b]⟩, v⟩] h (ix2 k c)
      = if k.val = 0 then u (ix2 (0 : Fin 1) c) else v (ix2 (0 : Fin 1) c) := by
  rw [concat_rows_apply u v h k c]
  fin_cases k <;> simp

end Cert.LibKeepdims

end
-- ==== Proof.Region4Pay.lean ====
/-
  The last call's arithmetic, read one entry at a time.

  A block of the call is 5000 rows. From the block of `x`, the block of the neighbour average, the two 128 × 64 weight
  matrices and the one-row bias it forms `z = x · W_self + a · W_neigh + b` (each product into a zero accumulator, so it
  is the plain sum over the 128 contracted coordinates; the changes of float format are the identity on extended
  reals), and then along every row of 64 the log-softmax: the row's maximum `m` (a fold of `max` from -∞), `z - m`,
  the sum of the exponentials of that, its logarithm, and the difference. The kept-axis forms in between — a vector
  of 5000 viewed as a column, a column spread along the rows — only move a row's one number to every column.
  So entry `(r, q)` of what the call stores is `lsmRow (convBlk … r) q`, written with the same `rowMax`, `Ideal.exp` and
  `Ideal.log` as the specification's `lsmAt`.
-/
import proofs.«110434_j36318243455158_2_alg».proof.Proof.Gen.KernelIdeal.Skeleton
import proofs.«110434_j36318243455158_2_alg».proof.Proof.Spec
import proofs.«110434_j36318243455158_2_alg».proof.Proof.LibKeepdims
import Idealize.ShloMosaic.Lib.ValueLayout
import Idealize.ShloMosaic.PureOps.Ideal.Laws

noncomputable section

open scoped BigOperators

namespace Cert.KernelIdeal.RegionValue

open Cert.KernelIdeal Cert.KernelIdeal.Gen Idealize.ShloMosaic Idealize.ShloMosaic.ValueIdx

/-- The convolution at row `r`, column `q` of a block, from the five loaded blocks. -/
def convBlk (x0 x1 : S5000x128.Idx → EReal) (x2 x3 : S128x64.Idx → EReal) (x4 : S1x64.Idx → EReal)
    (r : Fin 5000) (q : Fin 64) : EReal :=
  ((∑ k : Fin 128, x0 (ix2 r k) * x2 (ix2 k q)) + (∑ k : Fin 128, x1 (ix2 r k) * x3 (ix2 k q))) + x4 (ix2 0 q)

/-- The log-softmax of one row of 64, at column `q`. -/
def lsmRow (z : Fin 64 → EReal) (q : Fin 64) : EReal :=
  (z q - Cert.GNN.rowMax z) - Ideal.log (∑ c : Fin 64, Ideal.exp (z c - Cert.GNN.rowMax z))

/-- The dimension numbers of the two products: rows × contraction times contraction × columns. -/
abbrev D4 : DotDims S5000x128 S128x64 S5000x64 := dot_S5000x128_S128x64_S5000x64_1_0_0_1_n_n

theorem lhs4_0 (i : S5000x64.Idx) (k : D4.contr.Idx) : (D4.lhsIdx i k 0).val = (i 0).val := by
  unfold DotDims.lhsIdx
  rw [dif_neg (show ¬(0 : Fin S5000x128.rank) ∈ D4.lhsBatch by decide),
    dif_pos (show (0 : Fin S5000x128.rank) ∈ D4.lhsNonContracting by decide)]
  rfl

theorem lhs4_1 (i : S5000x64.Idx) (k : D4.contr.Idx) : (D4.lhsIdx i k 1).val = (k ⟨0, by decide⟩).val :=
  D4.lhsIdx_val_of_single rfl i k

theorem rhs4_0 (i : S5000x64.Idx) (k : D4.contr.Idx) : (D4.rhsIdx i k 0).val = (k ⟨0, by decide⟩).val :=
  D4.rhsIdx_val_of_single rfl i k

theorem rhs4_1 (i : S5000x64.Idx) (k : D4.contr.Idx) : (D4.rhsIdx i k 1).val = (i 1).val := by
  unfold DotDims.rhsIdx
  rw [dif_neg (show ¬(1 : Fin S128x64.rank) ∈ D4.rhsBatch by decide),
    dif_pos (show (1 : Fin S128x64.rank) ∈ D4.rhsNonContracting by decide)]
  rfl

/-- A product into the zero accumulator, at row `r`, column `q`: the sum over the 128 contracted coordinates. -/
theorem mm4_apply {φ₁ φ₂ : FTy} (a : FVec Ideal S5000x128 φ₁) (b : FVec Ideal S128x64 φ₂) (r : Fin 5000) (q : Fin 64) :
    matmul (F := Ideal) D4 none a b (constant S5000x64 .f32 0x00000000#32) (ix2 r q)
      = ∑ k : Fin 128, a (ix2 r k) * b (ix2 k q) := by
  show FloatOps.matmul D4 none a b (constant S5000x64 .f32 0x00000000#32) (ix2 r q) = _
  rw [Ideal.matmul_constant_zero_apply, ← Equiv.sum_comp (contrEquiv1 D4 128 rfl rfl).symm]
  refine Finset.sum_congr rfl fun k _ => ?_
  have hk := contrEquiv1_symm_val D4 128 rfl rfl k
  have el : D4.lhsIdx (ix2 r q) ((contrEquiv1 D4 128 rfl rfl).symm k) = ix2 r k := funext fun ax => Fin.ext (by
    match ax with
    | ⟨0, _⟩ => exact lhs4_0 _ _
    | ⟨1, _⟩ => exact (lhs4_1 _ _).trans hk)
  have er : D4.rhsIdx (ix2 r q) ((contrEquiv1 D4 128 rfl rfl).symm k) = ix2 k q := funext fun ax => Fin.ext (by
    match ax with
    | ⟨0, _⟩ => exact (rhs4_0 _ _).trans hk
    | ⟨1, _⟩ => exact rhs4_1 _ _)
  rw [el, er]

/-- The maximum along the rows of a `[5000, 64]` array, at row `p`: the fold of `max` from -∞ over that row's entries. -/
theorem rowMax4_apply (src : FVec Ideal S5000x64 .f32) (h : Shape.Reduces S5000x64 [1] S5000) (hφ : FKind.Formats .f32)
    (hacc : (0xFF800000#32 : BitVec 32) = 0xFF800000#32) (p : Fin 5000) :
    multiReduction .maximumf [1] S5000 src 0xFF800000#32 h hφ hacc (ix1 p) = Cert.GNN.rowMax (fun c => src (ix2 p c)) := by
  refine (Ideal.multiReduction_maximumf_single src 0xFF800000#32 h hφ hacc (ix1 p)).trans ?_
  show (Finset.univ : Finset (Fin 64)).fold max (Ideal.ofBits .f32 0xFF800000#32) (src ∘ h.lift (ix1 p)) = _
  unfold Cert.GNN.rowMax Cert.GNN.negInf
  show Finset.fold max (Ideal.ofBits .f32 0xFF800000#32) (fun c => src (h.lift (ix1 p) c)) Finset.univ
    = Finset.fold max (Ideal.ofBits .f32 0xFF800000#32) (fun c => src (ix2 p c)) Finset.univ
  refine congrArg (fun f : Fin 64 → EReal => Finset.fold max (Ideal.ofBits .f32 0xFF800000#32) f Finset.univ)
    (funext fun c => congrArg src ?_)
  funext d
  match d with
  | ⟨0, _⟩ => exact Fin.ext rfl
  | ⟨1, _⟩ => exact Fin.ext rfl

/-- The convolution part of the stored value: the two products added, plus the bias row spread down the block. -/
theorem conv_head4 (x0 : FVec Ideal S5000x128 .bf16) (x1 : FVec Ideal S5000x128 .f32) (x2 x3 : FVec Ideal S128x64 .f32)
    (x4 : FVec Ideal S1x64 .f32) (r : Fin 5000) (q : Fin 64) :
    addf (addf
        (matmul (F := Ideal) dot_S5000x128_S128x64_S5000x64_1_0_0_1_n_n none (shapeCast S5000x128 x0 shapeCasts_S5000x128_S5000x128)
          (truncf .bf16 x2 bitsLt_bf16_f32) (constant S5000x64 .f32 0x00000000#32))
        (matmul (F := Ideal) dot_S5000x128_S128x64_S5000x64_1_0_0_1_n_n none
          (truncf .bf16 (shapeCast S5000x128 x1 shapeCasts_S5000x128_S5000x128) bitsLt_bf16_f32)
          (truncf .bf16 x3 bitsLt_bf16_f32) (constant S5000x64 .f32 0x00000000#32)))
      (broadcastTo S5000x64 (shapeCast S1x64 x4 shapeCasts_S1x64_S1x64) broadcasts_S1x64_S5000x64) (ix2 r q)
      = convBlk x0 x1 x2 x3 x4 r q := by
  rw [addf_apply, addf_apply, broadcastTo_1b_ab_apply, shapeCast_self, shapeCast_self, shapeCast_self]
  rw [show (dot_S5000x128_S128x64_S5000x64_1_0_0_1_n_n : DotDims S5000x128 S128x64 S5000x64) = D4 from rfl,
    mm4_apply, mm4_apply]
  simp only [truncf_apply]
  rfl

theorem exp_apply4 {s : Shape} {φ : FTy} (x : FVec Ideal s φ) (i : s.Idx) : exp x i = FloatOps.exp (x i) := rfl
theorem log_apply4 {s : Shape} {φ : FTy} (x : FVec Ideal s φ) (i : s.Idx) : log x i = FloatOps.log (x i) := rfl

/-- The log-softmax part: from the pre-softmax block `Z`, the stored value at row `r`, column `q`. -/
theorem lsm_tail4 (Z : FVec Ideal S5000x64 .f32) (h : Shape.Reduces S5000x64 [1] S5000) (hφ : FKind.Formats .f32)
    (hm : (0xFF800000#32 : BitVec 32) = 0xFF800000#32) (ha : (0x00000000#32 : BitVec 32) = 0x00000000#32)
    (hc : S5000.ShapeCasts S5000x1) (hb : S5000x1.Broadcasts S5000x64) (r : Fin 5000) (q : Fin 64) :
    subf
      (subf Z (broadcastTo S5000x64 (shapeCast S5000x1 (multiReduction .maximumf [1] S5000 Z 0xFF800000#32 h hφ hm) hc) hb))
      (broadcastTo S5000x64
        (log (shapeCast S5000x1
          (multiReduction .add [1] S5000
            (exp (subf Z (broadcastTo S5000x64 (shapeCast S5000x1 (multiReduction .maximumf [1] S5000 Z 0xFF800000#32 h hφ hm) hc) hb)))
            0x00000000#32 h hφ ha) hc)) hb) (ix2 r q)
      = lsmRow (fun c => Z (ix2 r c)) q := by
  simp only [subf_apply, Cert.LibKeepdims.broadcastTo_a1_ab_apply, log_apply4, exp_apply4,
    Cert.LibKeepdims.shapeCast_a_a1_apply, Ideal.log_def, Ideal.exp_def]
  rw [rowMax4_apply Z h hφ hm r, Cert.LibKeepdims.rowSum_apply _ h hφ ha r]
  simp only [subf_apply, Cert.LibKeepdims.broadcastTo_a1_ab_apply, exp_apply4,
    Cert.LibKeepdims.shapeCast_a_a1_apply, Ideal.exp_def]
  rw [rowMax4_apply Z h hφ hm r]
  rfl

/-- The stored value at row `r`, column `q` of a block: the log-softmax of the block's convolution row. -/
theorem pay4_apply (x0 : Vec Ideal S5000x128 .bf16) (x1 : Vec Ideal S5000x128 .f32) (x2 x3 : Vec Ideal S128x64 .f32)
    (x4 : Vec Ideal S1x64 .f32) (r : Fin 5000) (q : Fin 64) :
    k4_pay1 (F := Ideal) x0 x1 x2 x3 x4 (ix2 r q) = lsmRow (convBlk x0 x1 x2 x3 x4 r) q := by
  unfold k4_pay1
  refine (lsm_tail4 _ _ _ _ _ _ _ r q).trans ?_
  refine congrArg (fun z => lsmRow z q) (funext fun c => ?_)
  exact conv_head4 x0 x1 x2 x3 x4 r c

/-- The same at any index of the block. -/
theorem pay4_at (x0 : Vec Ideal S5000x128 .bf16) (x1 : Vec Ideal S5000x128 .f32) (x2 x3 : Vec Ideal S128x64 .f32)
    (x4 : Vec Ideal S1x64 .f32) (j : S5000x64.Idx) :
    k4_pay1 (F := Ideal) x0 x1 x2 x3 x4 j = lsmRow (convBlk x0 x1 x2 x3 x4 (j 0)) (j 1) := by
  obtain ⟨r, q, rfl⟩ : ∃ (r : Fin 5000) (q : Fin 64), j = ix2 r q := ⟨j 0, j 1, eq_ix2 j⟩
  exact pay4_apply x0 x1 x2 x3 x4 r q

end Cert.KernelIdeal.RegionValue

end
-- ==== Proof.Region4.lean ====
/-
  The last call — the third convolution fused with a row-wise log-softmax — read as one function of its five operand
  arrays.

  The call walks the 100000 rows in 20 blocks of 5000. At block `t` it loads rows `5000 t … 5000 t + 4999` of `x` and of
  the neighbour average, and (the same at every block) the two 128 × 64 weight matrices and the one-row bias; what it
  stores into the same rows of the result is, entry by entry, the log-softmax along the row of
  `x · W_self + a · W_neigh + b` (Region4Pay). A row of the block is a row of the arrays, so block `t` of the result is
  block `t` of the whole-array function `Cert.GNN.lsm (Cert.GNN.conv x a W_self W_neigh b)`; the 20 blocks cover the
  array (row `i` lies in block `i / 5000`), so the result array ends holding that function.
-/
import proofs.«110434_j36318243455158_2_alg».proof.Proof.Gen.KernelIdeal.Frame
import proofs.«110434_j36318243455158_2_alg».proof.Proof.Spec
import proofs.«110434_j36318243455158_2_alg».proof.Proof.Region4Pay
import Idealize.ShloMosaic.Lib.Pipeline.Value

noncomputable section

open scoped BigOperators

namespace Cert.KernelIdeal.RegionValue

open Cert.KernelIdeal Cert.KernelIdeal.Gen Idealize.ShloMosaic Idealize.ShloMosaic.TcCoe Idealize.ShloMosaic.ValueIdx
open Idealize.ShloMosaic.Pipeline (Dat)

theorem hz_r4 : (![0, 0] : Fin 2 → Nat) = fun _ => 0 := funext fun a => by fin_cases a <;> rfl

variable (V : (c : Dev nD) → (b : Ref sig .tc) → Buf (Elt Ideal) ((c : Thread nD τ).loc b))

/-- The printed index maps over the 20 points: the three 5000-row windows sit at block row `t`, the weights and the
    bias at (0, 0). -/
theorem idx_facts4 : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = t.val ∧ win4_5.index t (1 : Fin 2) = 0 :=
  (by decide +kernel : ∀ t : Fin grid4.N, _)

/-- Block `t` of `x`: entry `(r, k)` is entry `(5000 t + r, k)` of the array. -/
theorem iblk4_0_apply (c : Dev nD) (t : Fin cfg4.N) (y : S5000x128.Idx) (k : S100000x128.Idx)
    (hk0 : (k 0).val = 5000 * t.val + (y 0).val) (hk1 : (k 1).val = (y 1).val) :
    (iblk4 V c 0 t : Vec Ideal S5000x128 .bf16) y = (V c (Pipeline.arrRef spec4 0) : S100000x128.Idx → EReal) k := by
  obtain ⟨e00, e01, -⟩ := idx_facts4 t
  show V c (Pipeline.arrRef spec4 0) (((cfg4.win 0).blk t).view.emb y) = V c (Pipeline.arrRef spec4 0) k
  refine congrArg (V c (Pipeline.arrRef spec4 0)) ?_
  funext a; apply Fin.ext
  match a with
  | ⟨0, _⟩ => show win4_0.index t (0 : Fin 2) * 5000 + 1 * (y 0).val = (k 0).val; omega
  | ⟨1, _⟩ => show win4_0.index t (1 : Fin 2) * 128 + 1 * (y 1).val = (k 1).val; omega

/-- Block `t` of the neighbour average, likewise. -/
theorem iblk4_1_apply (c : Dev nD) (t : Fin cfg4.N) (y : S5000x128.Idx) (k : S100000x128.Idx)
    (hk0 : (k 0).val = 5000 * t.val + (y 0).val) (hk1 : (k 1).val = (y 1).val) :
    (iblk4 V c 1 t : Vec Ideal S5000x128 .f32) y = (V c (Pipeline.arrRef spec4 1) : S100000x128.Idx → EReal) k := by
  obtain ⟨-, -, e10, e11, -⟩ := idx_facts4 t
  show V c (Pipeline.arrRef spec4 1) (((cfg4.win 1).blk t).view.emb y) = V c (Pipeline.arrRef spec4 1) k
  refine congrArg (V c (Pipeline.arrRef spec4 1)) ?_
  funext a; apply Fin.ext
  match a with
  | ⟨0, _⟩ => show win4_1.index t (0 : Fin 2) * 5000 + 1 * (y 0).val = (k 0).val; omega
  | ⟨1, _⟩ => show win4_1.index t (1 : Fin 2) * 128 + 1 * (y 1).val = (k 1).val; omega

/-- The block of `W_self` at every point is the whole matrix. -/
theorem iblk4_2_apply (c : Dev nD) (t : Fin cfg4.N) (y : S128x64.Idx) :
    (iblk4 V c 2 t : Vec Ideal S128x64 .f32) y = (V c (Pipeline.arrRef spec4 2) : S128x64.Idx → EReal) y := by
  obtain ⟨-, -, -, -, e20, e21, -⟩ := idx_facts4 t
  show V c (Pipeline.arrRef spec4 2) (((cfg4.win 2).blk t).view.emb y) = V c (Pipeline.arrRef spec4 2) y
  refine congrArg (V c (Pipeline.arrRef spec4 2)) ?_
  funext a; apply Fin.ext
  match a with
  | ⟨0, _⟩ => show win4_2.index t (0 : Fin 2) * 128 + 1 * (y 0).val = (y 0).val; omega
  | ⟨1, _⟩ => show win4_2.index t (1 : Fin 2) * 64 + 1 * (y 1).val = (y 1).val; omega

/-- The block of `W_neigh` at every point is the whole matrix. -/
theorem iblk4_3_apply (c : Dev nD) (t : Fin cfg4.N) (y : S128x64.Idx) :
    (iblk4 V c 3 t : Vec Ideal S128x64 .f32) y = (V c (Pipeline.arrRef spec4 3) : S128x64.Idx → EReal) y := by
  obtain ⟨-, -, -, -, -, -, e30, e31, -⟩ := idx_facts4 t
  show V c (Pipeline.arrRef spec4 3) (((cfg4.win 3).blk t).view.emb y) = V c (Pipeline.arrRef spec4 3) y
  refine congrArg (V c (Pipeline.arrRef spec4 3)) ?_
  funext a; apply Fin.ext
  match a with
  | ⟨0, _⟩ => show win4_3.index t (0 : Fin 2) * 128 + 1 * (y 0).val = (y 0).val; omega
  | ⟨1, _⟩ => show win4_3.index t (1 : Fin 2) * 64 + 1 * (y 1).val = (y 1).val; omega

/-- The block of the bias at every point is the whole one-row array. -/
theorem iblk4_4_apply (c : Dev nD) (t : Fin cfg4.N) (y k : S1x64.Idx) (hk1 : (k 1).val = (y 1).val) :
    (iblk4 V c 4 t : Vec Ideal S1x64 .f32) y = (V c (Pipeline.arrRef spec4 4) : S1x64.Idx → EReal) k := by
  obtain ⟨-, -, -, -, -, -, -, -, e40, e41, -⟩ := idx_facts4 t
  have hy : (y 0).val < 1 := (y 0).isLt
  have hk : (k 0).val < 1 := (k 0).isLt
  show V c (Pipeline.arrRef spec4 4) (((cfg4.win 4).blk t).view.emb y) = V c (Pipeline.arrRef spec4 4) k
  refine congrArg (V c (Pipeline.arrRef spec4 4)) ?_
  funext a; apply Fin.ext
  match a with
  | ⟨0, _⟩ => show win4_4.index t (0 : Fin 2) * 1 + 1 * (y 0).val = (k 0).val; omega
  | ⟨1, _⟩ => show win4_4.index t (1 : Fin 2) * 64 + 1 * (y 1).val = (k 1).val; omega

/-- Row `r` of the blocks' convolution at point `t` is row `5000 t + r` of the arrays' convolution. -/
theorem convBlk_eq4 (c : Dev nD) (t : Fin cfg4.N) (r : Fin 5000) (i : Fin 100000) (hi : i.val = 5000 * t.val + r.val) :
    convBlk (iblk4 V c 0 t) (iblk4 V c 1 t) (iblk4 V c 2 t) (iblk4 V c 3 t) (iblk4 V c 4 t) r
      = fun q => Cert.GNN.convAt (V c (Pipeline.arrRef spec4 0)) (V c (Pipeline.arrRef spec4 1))
          (V c (Pipeline.arrRef spec4 2)) (V c (Pipeline.arrRef spec4 3)) (V c (Pipeline.arrRef spec4 4)) i q := by
  funext q
  unfold convBlk Cert.GNN.convAt
  refine congrArg₂ (· + ·) (congrArg₂ (· + ·)
      (Finset.sum_congr rfl fun k _ => congrArg₂ (· * ·) (iblk4_0_apply V c t _ _ ?_ ?_) (iblk4_2_apply V c t _))
      (Finset.sum_congr rfl fun k _ => congrArg₂ (· * ·) (iblk4_1_apply V c t _ _ ?_ ?_) (iblk4_3_apply V c t _)))
    (iblk4_4_apply V c t _ _ ?_)
  all_goals first | exact hi | rfl

/-- What point `t` writes back is block `t` of the log-softmax of the convolution of the arrays. -/
theorem flushed4_eq (c : Dev nD) (t : Fin cfg4.N) :
    (dat4 (F := Ideal) V c).flushed 5 t = ((cfg4.win 5).blk t).view.read (Elt Ideal)
      (Cert.GNN.lsm (Cert.GNN.conv (V c (Pipeline.arrRef spec4 0)) (V c (Pipeline.arrRef spec4 1))
        (V c (Pipeline.arrRef spec4 2)) (V c (Pipeline.arrRef spec4 3)) (V c (Pipeline.arrRef spec4 4)))) := by
  show (cfg4.win 5).cut (grid4.coords t) ((dat4 V c).after 5 t) = _
  rw [after4_5]
  unfold out4_5
  rw [View.canon_unit_zero hz_r4]
  simp only [View.ld_unit_zero (S := S5000x128) hz_r4, View.ld_unit_zero (S := S128x64) hz_r4,
    View.ld_unit_zero (S := S1x64) hz_r4]
  obtain ⟨-, -, -, -, -, -, -, -, -, -, e50, e51⟩ := idx_facts4 t
  funext j
  show k4_pay1 (F := Ideal) (iblk4 V c 0 t) (iblk4 V c 1 t) (iblk4 V c 2 t) (iblk4 V c 3 t) (iblk4 V c 4 t) j
    = Cert.GNN.lsm (Cert.GNN.conv (V c (Pipeline.arrRef spec4 0)) (V c (Pipeline.arrRef spec4 1))
        (V c (Pipeline.arrRef spec4 2)) (V c (Pipeline.arrRef spec4 3)) (V c (Pipeline.arrRef spec4 4)))
        (((cfg4.win 5).blk t).view.emb j)
  refine (pay4_at _ _ _ _ _ j).trans ?_
  have hj0 : (j 0).val < 5000 := (j 0).isLt
  have hj1 : (j 1).val < 64 := (j 1).isLt
  have hi : ((((cfg4.win 5).blk t).view.emb j) 0).val = 5000 * t.val + (j 0).val := by
    show win4_5.index t (0 : Fin 2) * 5000 + 1 * (j 0).val = _; omega
  have hq : (j 1 : Fin 64) = (((cfg4.win 5).blk t).view.emb j) 1 := Fin.ext (by
    show (j 1).val = win4_5.index t (1 : Fin 2) * 64 + 1 * (j 1).val; omega)
  refine (congrArg (fun z => lsmRow z (j 1)) (convBlk_eq4 V c t (j 0) ((((cfg4.win 5).blk t).view.emb j) 0) hi)).trans ?_
  exact congrArg (lsmRow _) hq

/-- An index of the array is in point `t`'s block iff each coordinate is in the block's range on its axis. -/
theorem mem_blk4 (t : Fin cfg4.N) (i : S100000x64.Idx) :
    i ∈ ((cfg4.win 5).blk t).view.set ↔ ∀ a : Fin 2, win4_5.index t a * S5000x64.size a ≤ (i a).val ∧ (i a).val < win4_5.index t a * S5000x64.size a + S5000x64.size a := by
  show i ∈ ((View.whole main_v94).slice (win4_5.rect t)).set ↔ _
  rw [View.set_slice_whole, Rect.mem_set_unit]
  exact Iff.rfl

/-- Every index lies in the block of the point `i₀ / 5000`. -/
theorem cover4 (i : S100000x64.Idx) : ∃ t : Fin cfg4.N, (cfg4.win 5).flush t = true ∧ i ∈ ((cfg4.win 5).blk t).view.set := by
  have hi0 : (i 0).val < 100000 := (i 0).isLt
  have hi1 : (i 1).val < 64 := (i 1).isLt
  have hN : cfg4.N = 20 := N_4
  let t : Fin cfg4.N := ⟨(i 0).val / 5000, by rw [hN]; omega⟩
  obtain ⟨-, -, -, -, -, -, -, -, -, -, e50, e51⟩ := idx_facts4 t
  have e50' : win4_5.index t (0 : Fin 2) = (i 0).val / 5000 := e50
  refine ⟨t, flush4_5 t, ?_⟩
  rw [mem_blk4]
  intro a
  match a with
  | ⟨0, _⟩ => show win4_5.index t (0 : Fin 2) * 5000 ≤ (i 0).val ∧ (i 0).val < win4_5.index t (0 : Fin 2) * 5000 + 5000; omega
  | ⟨1, _⟩ => show win4_5.index t (1 : Fin 2) * 64 ≤ (i 1).val ∧ (i 1).val < win4_5.index t (1 : Fin 2) * 64 + 64; omega

/-- The result array of the call: the row-wise log-softmax of the convolution of its operands as the call finds them. -/
theorem final4_5 (c : Dev nD) : (Gen.dat4 (F := Ideal) V c).arrAt 5 cfg4.N
    = Cert.GNN.lsm (Cert.GNN.conv (V c (Pipeline.arrRef spec4 0)) (V c (Pipeline.arrRef spec4 1))
        (V c (Pipeline.arrRef spec4 2)) (V c (Pipeline.arrRef spec4 3)) (V c (Pipeline.arrRef spec4 4))) :=
  (dat4 (F := Ideal) V c).arrAt_eq_of_cover 5 _ (fun t _ => flushed4_eq V c t) cover4

end Cert.KernelIdeal.RegionValue

end
-- ==== Proof.KChain.lean ====
/-
  The whole run: the result buffer at the end is the specification's network of the argument arrays.

  After the two normalised layers (read in the module of the layers) one stretch of host operations prepares the
  mean aggregation of the second layer's output and views the last bias as a row, and the last region leaves the
  row log-softmax of the third convolution. Chaining these, the result buffer holds

      lsm (conv L₂ (agg L₂) W_self W_neigh b),   L₂ = layer (layer x),

  which is the specification's network in the tiled arrangement, by unfolding that definition. The statement about
  executions follows from the run with the result buffer named at the fold's contents, by weakening its
  postcondition along this equation.
-/
import proofs.«110434_j36318243455158_2_alg».proof.Proof.Gen.KernelIdeal.Frame
import proofs.«110434_j36318243455158_2_alg».proof.Proof.Spec
import proofs.«110434_j36318243455158_2_alg».proof.Proof.AggK
import proofs.«110434_j36318243455158_2_alg».proof.Proof.KRunNamed
import proofs.«110434_j36318243455158_2_alg».proof.Proof.HostAgg4
import proofs.«110434_j36318243455158_2_alg».proof.Proof.KLayers
import proofs.«110434_j36318243455158_2_alg».proof.Proof.Region4

noncomputable section

open Idealize.ShloMosaic Idealize.ShloMosaic.ValueIdx Idealize.ShloMosaic.TcCoe
open scoped BigOperators

namespace Cert.KernelIdeal.KValue

open Cert.KernelIdeal Cert.KernelIdeal.Gen

variable (m : (ℓ : Loc nD τ sig) → Buf (Elt Ideal) ℓ) (ρ : Dev nD → PrngReg)

/-- The last region leaves the row log-softmax of the convolution of the second layer's output. -/
theorem W10_v94 (c : Dev nD) :
    (Gen.W10 (F := Ideal) m ρ c (Proc.devRef .tc main_v94) : Cert.GNN.A2 100000 64)
      = Cert.GNN.lsm (Cert.GNN.conv (Gen.V8 m ρ c main_v79) (aggK (m ((c : Thread nD τ).loc main_arg1)) (Gen.V8 m ρ c main_v79))
          (m ((c : Thread nD τ).loc main_arg12)) (m ((c : Thread nD τ).loc main_arg13)) (Cert.GNN.row (m ((c : Thread nD τ).loc main_arg14)))) := by
  have h := RegionValue.final4_5 (Gen.V9 m ρ) c
  rw [show (Gen.V9 m ρ c (Pipeline.arrRef spec4 0) : Cert.GNN.A2 100000 128) = _ from V9_v79 m ρ c,
    show (Gen.V9 m ρ c (Pipeline.arrRef spec4 1) : Cert.GNN.A2 100000 128) = _ from V9_v92 m ρ c,
    show (Gen.V9 m ρ c (Pipeline.arrRef spec4 2) : Cert.GNN.A2 128 64) = _ from V9_arg12 m ρ c,
    show (Gen.V9 m ρ c (Pipeline.arrRef spec4 3) : Cert.GNN.A2 128 64) = _ from V9_arg13 m ρ c,
    show (Gen.V9 m ρ c (Pipeline.arrRef spec4 4) : Cert.GNN.A2 1 64) = _ from V9_v93 m ρ c] at h
  exact (Gen.W10_arr m ρ c 5).trans h

/-- The result buffer at the end of the run is the specification's network, in the tiled arrangement, of the
    argument arrays. -/
theorem result_eq (c : Dev nD) :
    (Gen.W10 (F := Ideal) m ρ c (Proc.devRef .tc main_v94) : Cert.GNN.A2 100000 64)
      = Cert.GNN.outK (aggK (m ((c : Thread nD τ).loc main_arg1)))
        (m ((c : Thread nD τ).loc main_arg0))
        (m ((c : Thread nD τ).loc main_arg2))
        (m ((c : Thread nD τ).loc main_arg3))
        (m ((c : Thread nD τ).loc main_arg4))
        (m ((c : Thread nD τ).loc main_arg5))
        (m ((c : Thread nD τ).loc main_arg6))
        (m ((c : Thread nD τ).loc main_arg7))
        (m ((c : Thread nD τ).loc main_arg8))
        (m ((c : Thread nD τ).loc main_arg9))
        (m ((c : Thread nD τ).loc main_arg10))
        (m ((c : Thread nD τ).loc main_arg11))
        (m ((c : Thread nD τ).loc main_arg12))
        (m ((c : Thread nD τ).loc main_arg13))
        (m ((c : Thread nD τ).loc main_arg14)) := by
  rw [W10_v94 m ρ c, V8_v79 m ρ c, V4_v45 m ρ c]
  rfl

/-- Every weakly fair execution of the program terminates without a fault, with the result buffer at the
    specification's network of the argument arrays and the argument arrays as launched. -/
theorem run : θ_run (defs (F := Ideal)) (onTc (τ := τ) (main (F := Ideal))) ⟨m, fun _ => 0, ρ⟩ (fun r => ∀ c : Dev nD,
      r.2.mem ((c.tc : Thread nD τ).loc main_v94)
        = Cert.GNN.outK (aggK (m ((c : Thread nD τ).loc main_arg1)))
        (m ((c : Thread nD τ).loc main_arg0))
        (m ((c : Thread nD τ).loc main_arg2))
        (m ((c : Thread nD τ).loc main_arg3))
        (m ((c : Thread nD τ).loc main_arg4))
        (m ((c : Thread nD τ).loc main_arg5))
        (m ((c : Thread nD τ).loc main_arg6))
        (m ((c : Thread nD τ).loc main_arg7))
        (m ((c : Thread nD τ).loc main_arg8))
        (m ((c : Thread nD τ).loc main_arg9))
        (m ((c : Thread nD τ).loc main_arg10))
        (m ((c : Thread nD τ).loc main_arg11))
        (m ((c : Thread nD τ).loc main_arg12))
        (m ((c : Thread nD τ).loc main_arg13))
        (m ((c : Thread nD τ).loc main_arg14))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run _ _ _).mono (fun r h c => ⟨((h c).1).trans (result_eq m ρ c), (h c).2⟩) (run_named m ρ)

end Cert.KernelIdeal.KValue

end
-- ==== Proof.RefRunLib.lean ====
/-
  Two small facts about a straight line of host operations, used to read a long line chunk by chunk.

  * Running two lists one after the other is running their concatenation: the buffers' contents after
    `l₁ ++ l₂` are those after `l₂` started from those after `l₁`.
  * An operation that writes exactly one buffer, listed in `W`, writes inside `W`; a buffer outside `W` is then
    untouched by a line all of whose operations write inside `W` (the library's `after_of_writes_sub`).
-/
import Idealize.ShloMosaic.Lib.StableHlo.Run

noncomputable section

namespace Cert.RunLib

open Idealize.ShloMosaic Idealize.ShloMosaic.StableHlo

variable {τ : Topo} {sig : RefSig} {Val : EltTy → Type}

/-- The contents after a concatenation: the second list run from the contents after the first. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- An operation whose one written buffer is listed in `W` writes inside `W`. -/
theorem writes_sub_of_mem {W : List (Ref sig .tc)} {op : HloOp τ sig Val} {y : Ref sig .tc}
    (hw : op.writes = {Proc.devRef .tc y}) (hy : y ∈ W) :
    op.writes ⊆ (W.map (Proc.devRef (τ := τ) .tc)).toFinset := by
  rw [hw, Finset.singleton_subset_iff, List.mem_toFinset]
  exact List.mem_map_of_mem hy

end Cert.RunLib

end
-- ==== Proof.RefOps0.lean ====
/-
  The first third of the reference's straight line, as lists of host operations.

  The reference is a host program: a sequence of whole-array operations, each writing one buffer of its own.
  Its first window is: the edge list's two rows, the first aggregation, the first convolution, the first
  batch normalisation (the variance function and the selection it calls written out at the call site over
  that call's own buffers), the first relu likewise, and the first constant of the second aggregation.
  The window equals the sequence of these lists: every step of the printed text is one entry, in order.
  For each list: the buffers it writes, and that any other buffer keeps its contents across it.
  A list holding a called function's operations is also given with each of them as the plain operation at the
  call's buffers (the typed references only transport along the buffers' types, which is the identity here).
-/
import proofs.«110434_j36318243455158_2_alg».proof.ReferenceIdeal
import Idealize.ShloMosaic.Lib.StableHlo.Run
import proofs.«110434_j36318243455158_2_alg».proof.Proof.RefRunLib

noncomputable section

namespace Cert.ReferenceIdeal.RValue

open Idealize.ShloMosaic Idealize.ShloMosaic.TcCoe Idealize.SL.Sem Idealize.ShloMosaic.StableHlo Cert.ReferenceIdeal
open Cert.ReferenceIdeal.Facts₀ Cert.ReferenceIdeal.Facts

variable {F : FTy → Type} [FloatOps F] [Cert.ReferenceIdeal.Facts]

/-- The two rows of the edge list cut out and flattened: sources and destinations. -/
abbrev cEdge : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000 ]

/-- The first aggregation: the in-degree by a scatter-add of ones, the wrapped source index, the gather of the input's rows, their scatter-add into zeros, the division by the clamped in-degree. -/
abbrev cAgg0 : List (HloOp τ sig (Elt F)) :=
  [ nullary main_cst (constant S_ .f32 0x3F800000#32),
    unary main_cst main_v4 (broadcastInDim S1600000 ![] bcast_S_S1600000 : (⟨S_, .f32⟩ : BufTy).Contents (Elt F) → (⟨S1600000, .f32⟩ : BufTy).Contents (Elt F)),
    nullary main_cst_0 (constant S_ .f32 0x00000000#32),
    unary main_cst_0 main_v5 (broadcastInDim S100000 ![] bcast_S_S100000 : (⟨S_, .f32⟩ : BufTy).Contents (Elt F) → (⟨S100000, .f32⟩ : BufTy).Contents (Elt F)),
    unary main_v3 main_v6 (broadcastInDim S1600000x1 ![0] bcast_S1600000_S1600000x1_0 : (⟨S1600000, .i32⟩ : BufTy).Contents (Elt F) → (⟨S1600000x1, .i32⟩ : BufTy).Contents (Elt F)),
    ternary main_v5 main_v6 main_v4 main_v7 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_c (constantI S_ 32 0#32),
    unary main_c main_v8 (broadcastInDim S1600000 ![] bcast_S_S1600000 : (⟨S_, .i32⟩ : BufTy).Contents (Elt F) → (⟨S1600000, .i32⟩ : BufTy).Contents (Elt F)),
    binary main_v1 main_v8 main_v9 (cmpi .slt : (⟨S1600000, .i32⟩ : BufTy).Contents (Elt F) → (⟨S1600000, .i32⟩ : BufTy).Contents (Elt F) → (⟨S1600000, .i1⟩ : BufTy).Contents (Elt F)),
    nullary main_c_1 (constantI S_ 32 100000#32),
    unary main_c_1 main_v10 (broadcastInDim S1600000 ![] bcast_S_S1600000 : (⟨S_, .i32⟩ : BufTy).Contents (Elt F) → (⟨S1600000, .i32⟩ : BufTy).Contents (Elt F)),
    binary main_v1 main_v10 main_v11 (addi : (⟨S1600000, .i32⟩ : BufTy).Contents (Elt F) → (⟨S1600000, .i32⟩ : BufTy).Contents (Elt F) → (⟨S1600000, .i32⟩ : BufTy).Contents (Elt F)),
    ternary main_v9 main_v11 main_v1 main_v12 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v12 main_v13 (broadcastInDim S1600000x1 ![0] bcast_S1600000_S1600000x1_0 : (⟨S1600000, .i32⟩ : BufTy).Contents (Elt F) → (⟨S1600000x1, .i32⟩ : BufTy).Contents (Elt F)),
    binary main_arg0 main_v13 main_v14 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst_2 (constant S_ .f32 0x00000000#32),
    unary main_cst_2 main_v15 (broadcastInDim S100000x128 ![] bcast_S_S100000x128 : (⟨S_, .f32⟩ : BufTy).Contents (Elt F) → (⟨S100000x128, .f32⟩ : BufTy).Contents (Elt F)),
    unary main_v3 main_v16 (broadcastInDim S1600000x1 ![0] bcast_S1600000_S1600000x1_0 : (⟨S1600000, .i32⟩ : BufTy).Contents (Elt F) → (⟨S1600000x1, .i32⟩ : BufTy).Contents (Elt F)),
    ternary main_v15 main_v16 main_v14 main_v17 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    nullary main_cst_3 (constant S_ .f32 0x3F800000#32),
    unary main_cst_3 main_v18 (broadcastInDim S100000 ![] bcast_S_S100000 : (⟨S_, .f32⟩ : BufTy).Contents (Elt F) → (⟨S100000, .f32⟩ : BufTy).Contents (Elt F)),
    binary main_v7 main_v18 main_v19 (maximumf : (⟨S100000, .f32⟩ : BufTy).Contents (Elt F) → (⟨S100000, .f32⟩ : BufTy).Contents (Elt F) → (⟨S100000, .f32⟩ : BufTy).Contents (Elt F)),
    unary main_v19 main_v20 (broadcastInDim S100000x1 ![0] bcast_S100000_S100000x1_0 : (⟨S100000, .f32⟩ : BufTy).Contents (Elt F) → (⟨S100000x1, .f32⟩ : BufTy).Contents (Elt F)),
    unary main_v20 main_v21 (broadcastInDim S100000x128 ![0, 1] bcast_S100000x1_S100000x128_0_1 : (⟨S100000x1, .f32⟩ : BufTy).Contents (Elt F) → (⟨S100000x128, .f32⟩ : BufTy).Contents (Elt F)),
    binary main_v17 main_v21 main_v22 (Host.divf : (⟨S100000x128, .f32⟩ : BufTy).Contents (Elt F) → (⟨S100000x128, .f32⟩ : BufTy).Contents (Elt F) → (⟨S100000x128, .f32⟩ : BufTy).Contents (Elt F)) ]

/-- The first convolution: two contractions, their sum, the bias spread over the rows, the sum. -/
abbrev cConv0 : List (HloOp τ sig (Elt F)) :=
  [ binary main_arg0 main_arg2 main_v23 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v22 main_arg3 main_v24 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v23 main_v24 main_v25 (addf : (⟨S100000x128, .f32⟩ : BufTy).Contents (Elt F) → (⟨S100000x128, .f32⟩ : BufTy).Contents (Elt F) → (⟨S100000x128, .f32⟩ : BufTy).Contents (Elt F)),
    unary main_arg4 main_v26 (broadcastInDim S1x128 ![1] bcast_S128_S1x128_1 : (⟨S128, .f32⟩ : BufTy).Contents (Elt F) → (⟨S1x128, .f32⟩ : BufTy).Contents (Elt F)),
    unary main_v26 main_v27 (broadcastInDim S100000x128 ![0, 1] bcast_S1x128_S100000x128_0_1 : (⟨S1x128, .f32⟩ : BufTy).Contents (Elt F) → (⟨S100000x128, .f32⟩ : BufTy).Contents (Elt F)),
    binary main_v25 main_v27 main_v28 (addf : (⟨S100000x128, .f32⟩ : BufTy).Contents (Elt F) → (⟨S100000x128, .f32⟩ : BufTy).Contents (Elt F) → (⟨S100000x128, .f32⟩ : BufTy).Contents (Elt F)) ]

/-- The first batch normalisation: the column mean, the variance function's operations (and the selection it calls) written out over the call's buffers, then the affine form. -/
abbrev cBn0 : List (HloOp τ sig (Elt F)) :=
  [ nullary main_cst_4 (constant S_ .f32 0x00000000#32),
    binary main_v28 main_cst_4 main_v29 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_5 (constant S_ .f32 0x47C35000#32),
    unary main_cst_5 main_v30 (broadcastInDim S128 ![] bcast_S_S128 : (⟨S_, .f32⟩ : BufTy).Contents (Elt F) → (⟨S128, .f32⟩ : BufTy).Contents (Elt F)),
    binary main_v29 main_v30 main_v31 (Host.divf : (⟨S128, .f32⟩ : BufTy).Contents (Elt F) → (⟨S128, .f32⟩ : BufTy).Contents (Elt F) → (⟨S128, .f32⟩ : BufTy).Contents (Elt F)),
    nullary main_c_6 (constantI S_ 32 0#32),
    TRef.nullary main_call0.cst (constant S_ .f32 0x00000000#32),
    TRef.binary (.of main_v28 : StableHlo.TRef sig ⟨S100000x128, .f32⟩) main_call0.cst main_call0.v0 (fun x v => Host.reduceAdd x v reducesTo_S100000x128_S128_d0 h_S_),
    TRef.unary main_call0.v0 main_call0.v1 (broadcastInDim S1x128 ![1] bcast_S128_S1x128_1),
    TRef.nullary main_call0.cst_0 (constant S_ .f32 0x47C35000#32),
    TRef.unary main_call0.cst_0 main_call0.v2 (broadcastInDim S1x128 ![] bcast_S_S1x128),
    TRef.binary main_call0.v1 main_call0.v2 main_call0.v3 Host.divf,
    TRef.unary main_call0.v3 main_call0.v4 (broadcastInDim S100000x128 ![0, 1] bcast_S1x128_S100000x128_0_1),
    TRef.binary (.of main_v28 : StableHlo.TRef sig ⟨S100000x128, .f32⟩) main_call0.v4 main_call0.v5 subf,
    TRef.binary main_call0.v5 main_call0.v5 main_call0.v6 mulf,
    TRef.unary (.of main_c_6 : StableHlo.TRef sig ⟨S_, .i32⟩) main_call0.v7 (sitofp .f32),
    TRef.nullary main_call0.cst_1 (constant S_ .f32 0x47C35000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S100000x128_S128_d0 h_S_),
    TRef.unary main_call0.v8 main_call0.v10 (broadcastInDim S128 ![] bcast_S_S128),
    TRef.binary main_call0.v9 main_call0.v10 main_call0.v11 Host.divf,
    TRef.nullary main_call0.cst_3 (constant S_ .f32 0x00000000#32),
    TRef.binary main_call0.v8 main_call0.cst_3 main_call0.v12 (cmpf .ogt),
    TRef.nullary main_call0.cst_4 (constant S_ .f32 0x7FC00000#32),
    TRef.unary main_call0.cst_4 main_call0.call0.v0 id,
    TRef.unary main_call0.call0.v0 main_call0.call0.v1 (broadcastInDim S128 ![] bcast_S_S128),
    TRef.ternary main_call0.v12 main_call0.v11 main_call0.call0.v1 main_call0.call0.v2 (fun p a b => select (broadcastInDim S128 ![] bcast_S_S128 p) a b),
    unary main_v31 main_v33 (broadcastInDim S1x128 ![1] bcast_S128_S1x128_1 : (⟨S128, .f32⟩ : BufTy).Contents (Elt F) → (⟨S1x128, .f32⟩ : BufTy).Contents (Elt F)),
    unary main_v33 main_v34 (broadcastInDim S100000x128 ![0, 1] bcast_S1x128_S100000x128_0_1 : (⟨S1x128, .f32⟩ : BufTy).Contents (Elt F) → (⟨S100000x128, .f32⟩ : BufTy).Contents (Elt F)),
    binary main_v28 main_v34 main_v35 (subf : (⟨S100000x128, .f32⟩ : BufTy).Contents (Elt F) → (⟨S100000x128, .f32⟩ : BufTy).Contents (Elt F) → (⟨S100000x128, .f32⟩ : BufTy).Contents (Elt F)),
    nullary main_cst_7 (constant S_ .f32 0x3727C5AC#32),
    unary main_cst_7 main_v36 (broadcastInDim S128 ![] bcast_S_S128 : (⟨S_, .f32⟩ : BufTy).Contents (Elt F) → (⟨S128, .f32⟩ : BufTy).Contents (Elt F)),
    binary main_v32 main_v36 main_v37 (addf : (⟨S128, .f32⟩ : BufTy).Contents (Elt F) → (⟨S128, .f32⟩ : BufTy).Contents (Elt F) → (⟨S128, .f32⟩ : BufTy).Contents (Elt F)),
    unary main_v37 main_v38 (Host.rsqrt : (⟨S128, .f32⟩ : BufTy).Contents (Elt F) → (⟨S128, .f32⟩ : BufTy).Contents (Elt F)),
    unary main_v38 main_v39 (broadcastInDim S1x128 ![1] bcast_S128_S1x128_1 : (⟨S128, .f32⟩ : BufTy).Contents (Elt F) → (⟨S1x128, .f32⟩ : BufTy).Contents (Elt F)),
    unary main_v39 main_v40 (broadcastInDim S100000x128 ![0, 1] bcast_S1x128_S100000x128_0_1 : (⟨S1x128, .f32⟩ : BufTy).Contents (Elt F) → (⟨S100000x128, .f32⟩ : BufTy).Contents (Elt F)),
    binary main_v35 main_v40 main_v41 (mulf : (⟨S100000x128, .f32⟩ : BufTy).Contents (Elt F) → (⟨S100000x128, .f32⟩ : BufTy).Contents (Elt F) → (⟨S100000x128, .f32⟩ : BufTy).Contents (Elt F)),
    unary main_arg5 main_v42 (broadcastInDim S1x128 ![1] bcast_S128_S1x128_1 : (⟨S128, .f32⟩ : BufTy).Contents (Elt F) → (⟨S1x128, .f32⟩ : BufTy).Contents (Elt F)),
    unary main_v42 main_v43 (broadcastInDim S100000x128 ![0, 1] bcast_S1x128_S100000x128_0_1 : (⟨S1x128, .f32⟩ : BufTy).Contents (Elt F) → (⟨S100000x128, .f32⟩ : BufTy).Contents (Elt F)),
    binary main_v41 main_v43 main_v44 (mulf : (⟨S100000x128, .f32⟩ : BufTy).Contents (Elt F) → (⟨S100000x128, .f32⟩ : BufTy).Contents (Elt F) → (⟨S100000x128, .f32⟩ : BufTy).Contents (Elt F)),
    unary main_arg6 main_v45 (broadcastInDim S1x128 ![1] bcast_S128_S1x128_1 : (⟨S128, .f32⟩ : BufTy).Contents (Elt F) → (⟨S1x128, .f32⟩ : BufTy).Contents (Elt F)),
    unary main_v45 main_v46 (broadcastInDim S100000x128 ![0, 1] bcast_S1x128_S100000x128_0_1 : (⟨S1x128, .f32⟩ : BufTy).Contents (Elt F) → (⟨S100000x128, .f32⟩ : BufTy).Contents (Elt F)),
    binary main_v44 main_v46 main_v47 (addf : (⟨S100000x128, .f32⟩ : BufTy).Contents (Elt F) → (⟨S100000x128, .f32⟩ : BufTy).Contents (Elt F) → (⟨S100000x128, .f32⟩ : BufTy).Contents (Elt F)) ]

/-- The first relu, its three operations over the call's buffers. -/
abbrev cRelu0 : List (HloOp τ sig (Elt F)) :=
  [ TRef.nullary main_call1.cst (constant S_ .f32 0x00000000#32),
    TRef.unary main_call1.cst main_call1.v0 (broadcastInDim S100000x128 ![] bcast_S_S100000x128),
    TRef.binary (.of main_v47 : StableHlo.TRef sig ⟨S100000x128, .f32⟩) main_call1.v0 main_call1.v1 maximumf ]

/-- The first operation of the second aggregation (the constant one). -/
abbrev cAgg1a : List (HloOp τ sig (Elt F)) :=
  [ nullary main_cst_8 (constant S_ .f32 0x3F800000#32) ]

/-- `cBn0` with each operation of a called function written as the plain operation at the call's buffers. -/
abbrev cBn0U : List (HloOp τ sig (Elt F)) :=
  [ nullary main_cst_4 (constant S_ .f32 0x00000000#32),
    binary main_v28 main_cst_4 main_v29 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_5 (constant S_ .f32 0x47C35000#32),
    unary main_cst_5 main_v30 (broadcastInDim S128 ![] bcast_S_S128 : (⟨S_, .f32⟩ : BufTy).Contents (Elt F) → (⟨S128, .f32⟩ : BufTy).Contents (Elt F)),
    binary main_v29 main_v30 main_v31 (Host.divf : (⟨S128, .f32⟩ : BufTy).Contents (Elt F) → (⟨S128, .f32⟩ : BufTy).Contents (Elt F) → (⟨S128, .f32⟩ : BufTy).Contents (Elt F)),
    nullary main_c_6 (constantI S_ 32 0#32),
    nullary main_call0_cst ((constant S_ .f32 0x00000000#32) : (⟨S_, .f32⟩ : BufTy).Contents (Elt F)),
    binary main_v28 main_call0_cst main_call0_v0 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    unary main_call0_v0 main_call0_v1 ((broadcastInDim S1x128 ![1] bcast_S128_S1x128_1) : (⟨S128, .f32⟩ : BufTy).Contents (Elt F) → (⟨S1x128, .f32⟩ : BufTy).Contents (Elt F)),
    nullary main_call0_cst_0 ((constant S_ .f32 0x47C35000#32) : (⟨S_, .f32⟩ : BufTy).Contents (Elt F)),
    unary main_call0_cst_0 main_call0_v2 ((broadcastInDim S1x128 ![] bcast_S_S1x128) : (⟨S_, .f32⟩ : BufTy).Contents (Elt F) → (⟨S1x128, .f32⟩ : BufTy).Contents (Elt F)),
    binary main_call0_v1 main_call0_v2 main_call0_v3 (Host.divf : (⟨S1x128, .f32⟩ : BufTy).Contents (Elt F) → (⟨S1x128, .f32⟩ : BufTy).Contents (Elt F) → (⟨S1x128, .f32⟩ : BufTy).Contents (Elt F)),
    unary main_call0_v3 main_call0_v4 ((broadcastInDim S100000x128 ![0, 1] bcast_S1x128_S100000x128_0_1) : (⟨S1x128, .f32⟩ : BufTy).Contents (Elt F) → (⟨S100000x128, .f32⟩ : BufTy).Contents (Elt F)),
    binary main_v28 main_call0_v4 main_call0_v5 (subf : (⟨S100000x128, .f32⟩ : BufTy).Contents (Elt F) → (⟨S100000x128, .f32⟩ : BufTy).Contents (Elt F) → (⟨S100000x128, .f32⟩ : BufTy).Contents (Elt F)),
    binary main_call0_v5 main_call0_v5 main_call0_v6 (mulf : (⟨S100000x128, .f32⟩ : BufTy).Contents (Elt F) → (⟨S100000x128, .f32⟩ : BufTy).Contents (Elt F) → (⟨S100000x128, .f32⟩ : BufTy).Contents (Elt F)),
    unary main_c_6 main_call0_v7 ((sitofp .f32) : (⟨S_, .i32⟩ : BufTy).Contents (Elt F) → (⟨S_, .f32⟩ : BufTy).Contents (Elt F)),
    nullary main_call0_cst_1 ((constant S_ .f32 0x47C35000#32) : (⟨S_, .f32⟩ : BufTy).Contents (Elt F)),
    binary main_call0_cst_1 main_call0_v7 main_call0_v8 (subf : (⟨S_, .f32⟩ : BufTy).Contents (Elt F) → (⟨S_, .f32⟩ : BufTy).Contents (Elt F) → (⟨S_, .f32⟩ : BufTy).Contents (Elt F)),
    nullary main_call0_cst_2 ((constant S_ .f32 0x00000000#32) : (⟨S_, .f32⟩ : BufTy).Contents (Elt F)),
    binary main_call0_v6 main_call0_cst_2 main_call0_v9 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    unary main_call0_v8 main_call0_v10 ((broadcastInDim S128 ![] bcast_S_S128) : (⟨S_, .f32⟩ : BufTy).Contents (Elt F) → (⟨S128, .f32⟩ : BufTy).Contents (Elt F)),
    binary main_call0_v9 main_call0_v10 main_call0_v11 (Host.divf : (⟨S128, .f32⟩ : BufTy).Contents (Elt F) → (⟨S128, .f32⟩ : BufTy).Contents (Elt F) → (⟨S128, .f32⟩ : BufTy).Contents (Elt F)),
    nullary main_call0_cst_3 ((constant S_ .f32 0x00000000#32) : (⟨S_, .f32⟩ : BufTy).Contents (Elt F)),
    binary main_call0_v8 main_call0_cst_3 main_call0_v12 ((cmpf .ogt) : (⟨S_, .f32⟩ : BufTy).Contents (Elt F) → (⟨S_, .f32⟩ : BufTy).Contents (Elt F) → (⟨S_, .i1⟩ : BufTy).Contents (Elt F)),
    nullary main_call0_cst_4 ((constant S_ .f32 0x7FC00000#32) : (⟨S_, .f32⟩ : BufTy).Contents (Elt F)),
    unary main_call0_cst_4 main_call0_call0_v0 (id : (⟨S_, .f32⟩ : BufTy).Contents (Elt F) → (⟨S_, .f32⟩ : BufTy).Contents (Elt F)),
    unary main_call0_call0_v0 main_call0_call0_v1 ((broadcastInDim S128 ![] bcast_S_S128) : (⟨S_, .f32⟩ : BufTy).Contents (Elt F) → (⟨S128, .f32⟩ : BufTy).Contents (Elt F)),
    ternary main_call0_v12 main_call0_v11 main_call0_call0_v1 main_v32 ((fun p a b => select (broadcastInDim S128 ![] bcast_S_S128 p) a b) : (⟨S_, .i1⟩ : BufTy).Contents (Elt F) → (⟨S128, .f32⟩ : BufTy).Contents (Elt F) → (⟨S128, .f32⟩ : BufTy).Contents (Elt F) → (⟨S128, .f32⟩ : BufTy).Contents (Elt F)),
    unary main_v31 main_v33 (broadcastInDim S1x128 ![1] bcast_S128_S1x128_1 : (⟨S128, .f32⟩ : BufTy).Contents (Elt F) → (⟨S1x128, .f32⟩ : BufTy).Contents (Elt F)),
    unary main_v33 main_v34 (broadcastInDim S100000x128 ![0, 1] bcast_S1x128_S100000x128_0_1 : (⟨S1x128, .f32⟩ : BufTy).Contents (Elt F) → (⟨S100000x128, .f32⟩ : BufTy).Contents (Elt F)),
    binary main_v28 main_v34 main_v35 (subf : (⟨S100000x128, .f32⟩ : BufTy).Contents (Elt F) → (⟨S100000x128, .f32⟩ : BufTy).Contents (Elt F) → (⟨S100000x128, .f32⟩ : BufTy).Contents (Elt F)),
    nullary main_cst_7 (constant S_ .f32 0x3727C5AC#32),
    unary main_cst_7 main_v36 (broadcastInDim S128 ![] bcast_S_S128 : (⟨S_, .f32⟩ : BufTy).Contents (Elt F) → (⟨S128, .f32⟩ : BufTy).Contents (Elt F)),
    binary main_v32 main_v36 main_v37 (addf : (⟨S128, .f32⟩ : BufTy).Contents (Elt F) → (⟨S128, .f32⟩ : BufTy).Contents (Elt F) → (⟨S128, .f32⟩ : BufTy).Contents (Elt F)),
    unary main_v37 main_v38 (Host.rsqrt : (⟨S128, .f32⟩ : BufTy).Contents (Elt F) → (⟨S128, .f32⟩ : BufTy).Contents (Elt F)),
    unary main_v38 main_v39 (broadcastInDim S1x128 ![1] bcast_S128_S1x128_1 : (⟨S128, .f32⟩ : BufTy).Contents (Elt F) → (⟨S1x128, .f32⟩ : BufTy).Contents (Elt F)),
    unary main_v39 main_v40 (broadcastInDim S100000x128 ![0, 1] bcast_S1x128_S100000x128_0_1 : (⟨S1x128, .f32⟩ : BufTy).Contents (Elt F) → (⟨S100000x128, .f32⟩ : BufTy).Contents (Elt F)),
    binary main_v35 main_v40 main_v41 (mulf : (⟨S100000x128, .f32⟩ : BufTy).Contents (Elt F) → (⟨S100000x128, .f32⟩ : BufTy).Contents (Elt F) → (⟨S100000x128, .f32⟩ : BufTy).Contents (Elt F)),
    unary main_arg5 main_v42 (broadcastInDim S1x128 ![1] bcast_S128_S1x128_1 : (⟨S128, .f32⟩ : BufTy).Contents (Elt F) → (⟨S1x128, .f32⟩ : BufTy).Contents (Elt F)),
    unary main_v42 main_v43 (broadcastInDim S100000x128 ![0, 1] bcast_S1x128_S100000x128_0_1 : (⟨S1x128, .f32⟩ : BufTy).Contents (Elt F) → (⟨S100000x128, .f32⟩ : BufTy).Contents (Elt F)),
    binary main_v41 main_v43 main_v44 (mulf : (⟨S100000x128, .f32⟩ : BufTy).Contents (Elt F) → (⟨S100000x128, .f32⟩ : BufTy).Contents (Elt F) → (⟨S100000x128, .f32⟩ : BufTy).Contents (Elt F)),
    unary main_arg6 main_v45 (broadcastInDim S1x128 ![1] bcast_S128_S1x128_1 : (⟨S128, .f32⟩ : BufTy).Contents (Elt F) → (⟨S1x128, .f32⟩ : BufTy).Contents (Elt F)),
    unary main_v45 main_v46 (broadcastInDim S100000x128 ![0, 1] bcast_S1x128_S100000x128_0_1 : (⟨S1x128, .f32⟩ : BufTy).Contents (Elt F) → (⟨S100000x128, .f32⟩ : BufTy).Contents (Elt F)),
    binary main_v44 main_v46 main_v47 (addf : (⟨S100000x128, .f32⟩ : BufTy).Contents (Elt F) → (⟨S100000x128, .f32⟩ : BufTy).Contents (Elt F) → (⟨S100000x128, .f32⟩ : BufTy).Contents (Elt F)) ]

/-- `cRelu0` with each operation of a called function written as the plain operation at the call's buffers. -/
abbrev cRelu0U : List (HloOp τ sig (Elt F)) :=
  [ nullary main_call1_cst ((constant S_ .f32 0x00000000#32) : (⟨S_, .f32⟩ : BufTy).Contents (Elt F)),
    unary main_call1_cst main_call1_v0 ((broadcastInDim S100000x128 ![] bcast_S_S100000x128) : (⟨S_, .f32⟩ : BufTy).Contents (Elt F) → (⟨S100000x128, .f32⟩ : BufTy).Contents (Elt F)),
    binary main_v47 main_call1_v0 main_v48 (maximumf : (⟨S100000x128, .f32⟩ : BufTy).Contents (Elt F) → (⟨S100000x128, .f32⟩ : BufTy).Contents (Elt F) → (⟨S100000x128, .f32⟩ : BufTy).Contents (Elt F)) ]

attribute [local irreducible] Host.reduce Host.reduceAdd in
set_option maxRecDepth 8192 in
/-- Each typed-reference operation of the call is the plain operation at the same buffers: the transports along the buffers' types are the identity. -/
theorem cBn0_eqU : (cBn0 : List (HloOp τ sig (Elt F))) = cBn0U :=
  List.cons_eq_cons.mpr ⟨rfl, List.cons_eq_cons.mpr ⟨rfl, List.cons_eq_cons.mpr ⟨rfl, List.cons_eq_cons.mpr ⟨rfl, List.cons_eq_cons.mpr ⟨rfl, List.cons_eq_cons.mpr ⟨rfl, List.cons_eq_cons.mpr ⟨rfl, List.cons_eq_cons.mpr ⟨rfl, List.cons_eq_cons.mpr ⟨rfl, List.cons_eq_cons.mpr ⟨rfl, List.cons_eq_cons.mpr ⟨rfl, List.cons_eq_cons.mpr ⟨rfl, List.cons_eq_cons.mpr ⟨rfl, List.cons_eq_cons.mpr ⟨rfl, List.cons_eq_cons.mpr ⟨rfl, List.cons_eq_cons.mpr ⟨rfl, List.cons_eq_cons.mpr ⟨rfl, List.cons_eq_cons.mpr ⟨rfl, List.cons_eq_cons.mpr ⟨rfl, List.cons_eq_cons.mpr ⟨rfl, List.cons_eq_cons.mpr ⟨rfl, List.cons_eq_cons.mpr ⟨rfl, List.cons_eq_cons.mpr ⟨rfl, List.cons_eq_cons.mpr ⟨rfl, List.cons_eq_cons.mpr ⟨rfl, List.cons_eq_cons.mpr ⟨rfl, List.cons_eq_cons.mpr ⟨rfl, List.cons_eq_cons.mpr ⟨rfl, List.cons_eq_cons.mpr ⟨rfl, List.cons_eq_cons.mpr ⟨rfl, List.cons_eq_cons.mpr ⟨rfl, List.cons_eq_cons.mpr ⟨rfl, List.cons_eq_cons.mpr ⟨rfl, List.cons_eq_cons.mpr ⟨rfl, List.cons_eq_cons.mpr ⟨rfl, List.cons_eq_cons.mpr ⟨rfl, List.cons_eq_cons.mpr ⟨rfl, List.cons_eq_cons.mpr ⟨rfl, List.cons_eq_cons.mpr ⟨rfl, List.cons_eq_cons.mpr ⟨rfl, List.cons_eq_cons.mpr ⟨rfl, List.cons_eq_cons.mpr ⟨rfl, List.cons_eq_cons.mpr ⟨rfl, List.cons_eq_cons.mpr ⟨rfl, rfl⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩

attribute [local irreducible] Host.reduce Host.reduceAdd in
set_option maxRecDepth 8192 in
/-- Each typed-reference operation of the call is the plain operation at the same buffers: the transports along the buffers' types are the identity. -/
theorem cRelu0_eqU : (cRelu0 : List (HloOp τ sig (Elt F))) = cRelu0U :=
  List.cons_eq_cons.mpr ⟨rfl, List.cons_eq_cons.mpr ⟨rfl, List.cons_eq_cons.mpr ⟨rfl, rfl⟩⟩⟩

theorem cEdge_sub : (cEdge : List (HloOp τ sig (Elt F))).Forall fun op => op.bufs ⊆ tcRefs τ sig :=
  ⟨unary_bufs_sub .., reshape_bufs_sub .., unary_bufs_sub .., reshape_bufs_sub ..⟩

theorem cAgg0_sub : (cAgg0 : List (HloOp τ sig (Elt F))).Forall fun op => op.bufs ⊆ tcRefs τ sig :=
  ⟨nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., binary_bufs_sub .., unary_bufs_sub .., unary_bufs_sub .., binary_bufs_sub ..⟩

theorem cConv0_sub : (cConv0 : List (HloOp τ sig (Elt F))).Forall fun op => op.bufs ⊆ tcRefs τ sig :=
  ⟨binary_bufs_sub .., binary_bufs_sub .., binary_bufs_sub .., unary_bufs_sub .., unary_bufs_sub .., binary_bufs_sub ..⟩

theorem cBn0_sub : (cBn0 : List (HloOp τ sig (Elt F))).Forall fun op => op.bufs ⊆ tcRefs τ sig :=
  ⟨nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub ..⟩

theorem cRelu0_sub : (cRelu0 : List (HloOp τ sig (Elt F))).Forall fun op => op.bufs ⊆ tcRefs τ sig :=
  ⟨nullary_bufs_sub .., unary_bufs_sub .., binary_bufs_sub ..⟩

theorem cAgg1a_sub : (cAgg1a : List (HloOp τ sig (Elt F))).Forall fun op => op.bufs ⊆ tcRefs τ sig :=
  nullary_bufs_sub ..

/-- The buffers `cEdge` writes, one per operation, in order. -/
abbrev cEdgeW : List (Ref sig .tc) :=
  [main_v0, main_v1, main_v2, main_v3]

theorem cEdge_writes : (cEdge : List (HloOp τ sig (Elt F))).Forall fun op => op.writes ⊆ ((cEdgeW).map (Proc.devRef (τ := τ) .tc)).toFinset :=
  ⟨Cert.RunLib.writes_sub_of_mem rfl (by decide),
   Cert.RunLib.writes_sub_of_mem rfl (by decide),
   Cert.RunLib.writes_sub_of_mem rfl (by decide),
   Cert.RunLib.writes_sub_of_mem rfl (by decide)⟩

/-- A buffer `cEdge` does not write keeps its contents. -/
theorem cEdge_keep (V : Valuation τ sig (Elt F)) {r : Ref sig .tc} (hr : r ∉ cEdgeW) :
    after cEdge V (no_index (Proc.devRef .tc r)) = V (Proc.devRef .tc r) :=
  after_of_writes_sub cEdge V cEdge_writes hr

/-- The buffers `cAgg0` writes, one per operation, in order. -/
abbrev cAgg0W : List (Ref sig .tc) :=
  [main_cst, main_v4, main_cst_0, main_v5, main_v6, main_v7, main_c, main_v8, main_v9, main_c_1, main_v10, main_v11, main_v12, main_v13, main_v14, main_cst_2, main_v15, main_v16, main_v17, main_cst_3, main_v18, main_v19, main_v20, main_v21, main_v22]

theorem cAgg0_writes : (cAgg0 : List (HloOp τ sig (Elt F))).Forall fun op => op.writes ⊆ ((cAgg0W).map (Proc.devRef (τ := τ) .tc)).toFinset :=
  ⟨Cert.RunLib.writes_sub_of_mem rfl (by decide),
   Cert.RunLib.writes_sub_of_mem rfl (by decide),
   Cert.RunLib.writes_sub_of_mem rfl (by decide),
   Cert.RunLib.writes_sub_of_mem rfl (by decide),
   Cert.RunLib.writes_sub_of_mem rfl (by decide),
   Cert.RunLib.writes_sub_of_mem rfl (by decide),
   Cert.RunLib.writes_sub_of_mem rfl (by decide),
   Cert.RunLib.writes_sub_of_mem rfl (by decide),
   Cert.RunLib.writes_sub_of_mem rfl (by decide),
   Cert.RunLib.writes_sub_of_mem rfl (by decide),
   Cert.RunLib.writes_sub_of_mem rfl (by decide),
   Cert.RunLib.writes_sub_of_mem rfl (by decide),
   Cert.RunLib.writes_sub_of_mem rfl (by decide),
   Cert.RunLib.writes_sub_of_mem rfl (by decide),
   Cert.RunLib.writes_sub_of_mem rfl (by decide),
   Cert.RunLib.writes_sub_of_mem rfl (by decide),
   Cert.RunLib.writes_sub_of_mem rfl (by decide),
   Cert.RunLib.writes_sub_of_mem rfl (by decide),
   Cert.RunLib.writes_sub_of_mem rfl (by decide),
   Cert.RunLib.writes_sub_of_mem rfl (by decide),
   Cert.RunLib.writes_sub_of_mem rfl (by decide),
   Cert.RunLib.writes_sub_of_mem rfl (by decide),
   Cert.RunLib.writes_sub_of_mem rfl (by decide),
   Cert.RunLib.writes_sub_of_mem rfl (by decide),
   Cert.RunLib.writes_sub_of_mem rfl (by decide)⟩

/-- A buffer `cAgg0` does not write keeps its contents. -/
theorem cAgg0_keep (V : Valuation τ sig (Elt F)) {r : Ref sig .tc} (hr : r ∉ cAgg0W) :
    after cAgg0 V (no_index (Proc.devRef .tc r)) = V (Proc.devRef .tc r) :=
  after_of_writes_sub cAgg0 V cAgg0_writes hr

/-- The buffers `cConv0` writes, one per operation, in order. -/
abbrev cConv0W : List (Ref sig .tc) :=
  [main_v23, main_v24, main_v25, main_v26, main_v27, main_v28]

theorem cConv0_writes : (cConv0 : List (HloOp τ sig (Elt F))).Forall fun op => op.writes ⊆ ((cConv0W).map (Proc.devRef (τ := τ) .tc)).toFinset :=
  ⟨Cert.RunLib.writes_sub_of_mem rfl (by decide),
   Cert.RunLib.writes_sub_of_mem rfl (by decide),
   Cert.RunLib.writes_sub_of_mem rfl (by decide),
   Cert.RunLib.writes_sub_of_mem rfl (by decide),
   Cert.RunLib.writes_sub_of_mem rfl (by decide),
   Cert.RunLib.writes_sub_of_mem rfl (by decide)⟩

/-- A buffer `cConv0` does not write keeps its contents. -/
theorem cConv0_keep (V : Valuation τ sig (Elt F)) {r : Ref sig .tc} (hr : r ∉ cConv0W) :
    after cConv0 V (no_index (Proc.devRef .tc r)) = V (Proc.devRef .tc r) :=
  after_of_writes_sub cConv0 V cConv0_writes hr

/-- The buffers `cBn0` writes, one per operation, in order. -/
abbrev cBn0W : List (Ref sig .tc) :=
  [main_cst_4, main_v29, main_cst_5, main_v30, main_v31, main_c_6, main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_cst_3, main_call0_v12, main_call0_cst_4, main_call0_call0_v0, main_call0_call0_v1, main_v32, main_v33, main_v34, main_v35, main_cst_7, main_v36, main_v37, main_v38, main_v39, main_v40, main_v41, main_v42, main_v43, main_v44, main_v45, main_v46, main_v47]

theorem cBn0_writes : (cBn0 : List (HloOp τ sig (Elt F))).Forall fun op => op.writes ⊆ ((cBn0W).map (Proc.devRef (τ := τ) .tc)).toFinset :=
  ⟨Cert.RunLib.writes_sub_of_mem rfl (by decide),
   Cert.RunLib.writes_sub_of_mem rfl (by decide),
   Cert.RunLib.writes_sub_of_mem rfl (by decide),
   Cert.RunLib.writes_sub_of_mem rfl (by decide),
   Cert.RunLib.writes_sub_of_mem rfl (by decide),
   Cert.RunLib.writes_sub_of_mem rfl (by decide),
   Cert.RunLib.writes_sub_of_mem rfl (by decide),
   Cert.RunLib.writes_sub_of_mem rfl (by decide),
   Cert.RunLib.writes_sub_of_mem rfl (by decide),
   Cert.RunLib.writes_sub_of_mem rfl (by decide),
   Cert.RunLib.writes_sub_of_mem rfl (by decide),
   Cert.RunLib.writes_sub_of_mem rfl (by decide),
   Cert.RunLib.writes_sub_of_mem rfl (by decide),
   Cert.RunLib.writes_sub_of_mem rfl (by decide),
   Cert.RunLib.writes_sub_of_mem rfl (by decide),
   Cert.RunLib.writes_sub_of_mem rfl (by decide),
   Cert.RunLib.writes_sub_of_mem rfl (by decide),
   Cert.RunLib.writes_sub_of_mem rfl (by decide),
   Cert.RunLib.writes_sub_of_mem rfl (by decide),
   Cert.RunLib.writes_sub_of_mem rfl (by decide),
   Cert.RunLib.writes_sub_of_mem rfl (by decide),
   Cert.RunLib.writes_sub_of_mem rfl (by decide),
   Cert.RunLib.writes_sub_of_mem rfl (by decide),
   Cert.RunLib.writes_sub_of_mem rfl (by decide),
   Cert.RunLib.writes_sub_of_mem rfl (by decide),
   Cert.RunLib.writes_sub_of_mem rfl (by decide),
   Cert.RunLib.writes_sub_of_mem rfl (by decide),
   Cert.RunLib.writes_sub_of_mem rfl (by decide),
   Cert.RunLib.writes_sub_of_mem rfl (by decide),
   Cert.RunLib.writes_sub_of_mem rfl (by decide),
   Cert.RunLib.writes_sub_of_mem rfl (by decide),
   Cert.RunLib.writes_sub_of_mem rfl (by decide),
   Cert.RunLib.writes_sub_of_mem rfl (by decide),
   Cert.RunLib.writes_sub_of_mem rfl (by decide),
   Cert.RunLib.writes_sub_of_mem rfl (by decide),
   Cert.RunLib.writes_sub_of_mem rfl (by decide),
   Cert.RunLib.writes_sub_of_mem rfl (by decide),
   Cert.RunLib.writes_sub_of_mem rfl (by decide),
   Cert.RunLib.writes_sub_of_mem rfl (by decide),
   Cert.RunLib.writes_sub_of_mem rfl (by decide),
   Cert.RunLib.writes_sub_of_mem rfl (by decide),
   Cert.RunLib.writes_sub_of_mem rfl (by decide),
   Cert.RunLib.writes_sub_of_mem rfl (by decide),
   Cert.RunLib.writes_sub_of_mem rfl (by decide)⟩

/-- A buffer `cBn0` does not write keeps its contents. -/
theorem cBn0_keep (V : Valuation τ sig (Elt F)) {r : Ref sig .tc} (hr : r ∉ cBn0W) :
    after cBn0 V (no_index (Proc.devRef .tc r)) = V (Proc.devRef .tc r) :=
  after_of_writes_sub cBn0 V cBn0_writes hr

/-- The buffers `cRelu0` writes, one per operation, in order. -/
abbrev cRelu0W : List (Ref sig .tc) :=
  [main_call1_cst, main_call1_v0, main_v48]

theorem cRelu0_writes : (cRelu0 : List (HloOp τ sig (Elt F))).Forall fun op => op.writes ⊆ ((cRelu0W).map (Proc.devRef (τ := τ) .tc)).toFinset :=
  ⟨Cert.RunLib.writes_sub_of_mem rfl (by decide),
   Cert.RunLib.writes_sub_of_mem rfl (by decide),
   Cert.RunLib.writes_sub_of_mem rfl (by decide)⟩

/-- A buffer `cRelu0` does not write keeps its contents. -/
theorem cRelu0_keep (V : Valuation τ sig (Elt F)) {r : Ref sig .tc} (hr : r ∉ cRelu0W) :
    after cRelu0 V (no_index (Proc.devRef .tc r)) = V (Proc.devRef .tc r) :=
  after_of_writes_sub cRelu0 V cRelu0_writes hr

/-- The buffers `cAgg1a` writes, one per operation, in order. -/
abbrev cAgg1aW : List (Ref sig .tc) :=
  [main_cst_8]

theorem cAgg1a_writes : (cAgg1a : List (HloOp τ sig (Elt F))).Forall fun op => op.writes ⊆ ((cAgg1aW).map (Proc.devRef (τ := τ) .tc)).toFinset :=
  Cert.RunLib.writes_sub_of_mem rfl (by decide)

/-- A buffer `cAgg1a` does not write keeps its contents. -/
theorem cAgg1a_keep (V : Valuation τ sig (Elt F)) {r : Ref sig .tc} (hr : r ∉ cAgg1aW) :
    after cAgg1a V (no_index (Proc.devRef .tc r)) = V (Proc.devRef .tc r) :=
  after_of_writes_sub cAgg1a V cAgg1a_writes hr

set_option maxRecDepth 8192 in
set_option maxHeartbeats 4000000 in
/-- The window is the sequence of its operations: each called function's text unfolded at its call,
    the sequencing re-associated; what is left differs only in how the side conditions' proofs are written. -/
theorem main_part0_eq (d : Dev nD) : main_part0 (F := F) d = seq (cEdge ++ (cAgg0 ++ (cConv0 ++ (cBn0 ++ (cRelu0 ++ (cAgg1a)))))) := by
  simp only [main_part0, fn_var.body, fn_where.body, fn_relu.body, cEdge, cAgg0, cConv0, cBn0, cRelu0, cAgg1a, List.cons_append, List.nil_append, seq, bind_assoc, pure_bind]
  first | done | rfl

end Cert.ReferenceIdeal.RValue

end
-- ==== Proof.AggR.lean ====
/-
  The neighbourhood mean of a SAGE convolution, as the reference program writes it.

  The edge list is a 2 x 1600000 integer array: row 0 the source node of each edge, row 1 its destination.
  From it: `srcR` and `dstR` (the two rows as vectors), `degR` (the in-degree of every node: a scatter-add of
  ones at the destinations into a zero vector), `srcNR` (the source index with a negative value wrapped by
  adding the node count, which is how an out-of-range-from-below index is read). The mean itself, `aggR ei h`:
  gather the rows of `h` at the wrapped sources, scatter-add them at the destinations into a zero matrix, and
  divide row `i` by `max (deg i) 1`. Every operation is the printed program's own, at the ideal instance; the
  three layers of the network apply exactly these operations (to new buffers), so one definition serves all three.
-/
import proofs.«110434_j36318243455158_2_alg».proof.ReferenceIdeal
import proofs.«110434_j36318243455158_2_alg».proof.Proof.Spec

noncomputable section

namespace Cert.ReferenceIdeal.RValue

open Idealize.ShloMosaic Cert.ReferenceIdeal
open Cert.ReferenceIdeal.Facts₀ Cert.ReferenceIdeal.Facts

variable [Cert.ReferenceIdeal.Facts]

/-- Row 0 of the edge list: the source node of each edge. -/
def srcR (ei : (⟨S2x1600000, .i32⟩ : BufTy).Contents (Elt Ideal)) : (⟨S1600000, .i32⟩ : BufTy).Contents (Elt Ideal) :=
  fun i => shapeCast S1600000 (extractStridedSlice S1x1600000 ![0, 0] ei slices_S2x1600000_S1x1600000_0_0) shapeCasts_S1x1600000_S1600000 i

/-- Row 1 of the edge list: the destination node of each edge. -/
def dstR (ei : (⟨S2x1600000, .i32⟩ : BufTy).Contents (Elt Ideal)) : (⟨S1600000, .i32⟩ : BufTy).Contents (Elt Ideal) :=
  fun i => shapeCast S1600000 (extractStridedSlice S1x1600000 ![1, 0] ei slices_S2x1600000_S1x1600000_1_0) shapeCasts_S1x1600000_S1600000 i

/-- The destinations as a column of one-component index vectors. -/
def dstColR (ei : (⟨S2x1600000, .i32⟩ : BufTy).Contents (Elt Ideal)) : (⟨S1600000x1, .i32⟩ : BufTy).Contents (Elt Ideal) :=
  broadcastInDim S1600000x1 ![0] bcast_S1600000_S1600000x1_0 (dstR ei)

/-- The in-degree of every node: ones scatter-added at the destinations into zeros. -/
def degR (ei : (⟨S2x1600000, .i32⟩ : BufTy).Contents (Elt Ideal)) : (⟨S100000, .f32⟩ : BufTy).Contents (Elt Ideal) :=
  Host.scatterAdd (F := Ideal) (φ := .f32) scatter_S100000_S1600000x1_S1600000_n_0_0_1
    (broadcastInDim S100000 ![] bcast_S_S100000 (constant (F := Ideal) S_ .f32 0x00000000#32 : (⟨S_, .f32⟩ : BufTy).Contents (Elt Ideal)) : (⟨S100000, .f32⟩ : BufTy).Contents (Elt Ideal))
    (dstColR ei)
    (broadcastInDim S1600000 ![] bcast_S_S1600000 (constant (F := Ideal) S_ .f32 0x3F800000#32 : (⟨S_, .f32⟩ : BufTy).Contents (Elt Ideal)) : (⟨S1600000, .f32⟩ : BufTy).Contents (Elt Ideal))

/-- The source index, a negative one wrapped by adding the node count. -/
def srcNR (ei : (⟨S2x1600000, .i32⟩ : BufTy).Contents (Elt Ideal)) : (⟨S1600000, .i32⟩ : BufTy).Contents (Elt Ideal) :=
  select
    (cmpi .slt (srcR ei) (broadcastInDim S1600000 ![] bcast_S_S1600000 (constantI S_ 32 0#32 : (⟨S_, .i32⟩ : BufTy).Contents (Elt Ideal)) : (⟨S1600000, .i32⟩ : BufTy).Contents (Elt Ideal)) : (⟨S1600000, .i1⟩ : BufTy).Contents (Elt Ideal))
    (addi (srcR ei) (broadcastInDim S1600000 ![] bcast_S_S1600000 (constantI S_ 32 100000#32 : (⟨S_, .i32⟩ : BufTy).Contents (Elt Ideal)) : (⟨S1600000, .i32⟩ : BufTy).Contents (Elt Ideal)) : (⟨S1600000, .i32⟩ : BufTy).Contents (Elt Ideal))
    (srcR ei)

/-- The wrapped sources as a column of one-component index vectors. -/
def srcColR (ei : (⟨S2x1600000, .i32⟩ : BufTy).Contents (Elt Ideal)) : (⟨S1600000x1, .i32⟩ : BufTy).Contents (Elt Ideal) :=
  broadcastInDim S1600000x1 ![0] bcast_S1600000_S1600000x1_0 (srcNR ei)

/-- The neighbours' rows summed at each destination. -/
def sumR (ei : (⟨S2x1600000, .i32⟩ : BufTy).Contents (Elt Ideal)) (h : Cert.GNN.A2 100000 128) : (⟨S100000x128, .f32⟩ : BufTy).Contents (Elt Ideal) :=
  Host.scatterAdd (F := Ideal) (φ := .f32) scatter_S100000x128_S1600000x1_S1600000x128_1_0_0_1
    (broadcastInDim S100000x128 ![] bcast_S_S100000x128 (constant (F := Ideal) S_ .f32 0x00000000#32 : (⟨S_, .f32⟩ : BufTy).Contents (Elt Ideal)) : (⟨S100000x128, .f32⟩ : BufTy).Contents (Elt Ideal))
    (dstColR ei)
    (Host.gather gather_S100000x128_S1600000x1_S1600000x128_1_0_n_n_0_1_1128 (h : (⟨S100000x128, .f32⟩ : BufTy).Contents (Elt Ideal)) (srcColR ei) : (⟨S1600000x128, .f32⟩ : BufTy).Contents (Elt Ideal))

/-- `max (deg i) 1` spread along each row. -/
def denR (ei : (⟨S2x1600000, .i32⟩ : BufTy).Contents (Elt Ideal)) : (⟨S100000x128, .f32⟩ : BufTy).Contents (Elt Ideal) :=
  broadcastInDim S100000x128 ![0, 1] bcast_S100000x1_S100000x128_0_1
    (broadcastInDim S100000x1 ![0] bcast_S100000_S100000x1_0
      (maximumf (F := Ideal) (φ := .f32) (degR ei) (broadcastInDim S100000 ![] bcast_S_S100000 (constant (F := Ideal) S_ .f32 0x3F800000#32 : (⟨S_, .f32⟩ : BufTy).Contents (Elt Ideal)) : (⟨S100000, .f32⟩ : BufTy).Contents (Elt Ideal)) : (⟨S100000, .f32⟩ : BufTy).Contents (Elt Ideal))
      : (⟨S100000x1, .f32⟩ : BufTy).Contents (Elt Ideal))

/-- The mean over a node's in-neighbours of the rows of `h` (statements %0 … %22 of the reference's @main). -/
def aggR (ei : (⟨S2x1600000, .i32⟩ : BufTy).Contents (Elt Ideal)) (h : Cert.GNN.A2 100000 128) : Cert.GNN.A2 100000 128 :=
  Host.divf (F := Ideal) (φ := .f32) (sumR ei h) (denR ei)

end Cert.ReferenceIdeal.RValue

end
-- ==== Proof.RefTerm.lean ====
/-
  The value the reference program computes, as named pure terms in the program's own vocabulary
  (no index-level reading here: that is done elsewhere, one stage at a time).

  One hidden layer is: the convolution `x·W_self + agg(x)·W_neigh + b` (`convTerm`: two contractions, their sum,
  the bias spread over the rows, the sum); the batch normalisation over the 100000 rows — the column mean
  (`meanTerm`: the column sum divided by the row count), the column variance as jnp.var writes it
  (`varMeanTerm` its own column mean as a one-row matrix, `varDevTerm` the deviations, `varSumTerm` the column sums
  of their squares, `varCountTerm` the row count less the zero correction, `varTerm` the quotient, kept where the
  count is positive and otherwise replaced by a not-a-number constant), then
  `((h - mean) · rsqrt (var + ε)) · γ + β` (`bnTerm`) — and the maximum with zero (`reluTerm`).
  The output layer is a convolution into 64 columns (`convTerm64`) followed by the row-wise log-softmax:
  `lsmMaxTerm` the row maximum (folded from -∞, then once more taken against -∞), `lsmShiftTerm` the row less its
  maximum, `lsmSumTerm` the row sums of the exponentials, `lsmTerm` the shifted row less the logarithm of that sum.
  `res` composes two hidden layers and the output layer, each aggregating with `aggR` over the same edge list.
-/
import proofs.«110434_j36318243455158_2_alg».proof.Proof.AggR

noncomputable section

namespace Cert.ReferenceIdeal.RValue

open Idealize.ShloMosaic Cert.ReferenceIdeal
open Cert.ReferenceIdeal.Facts₀ Cert.ReferenceIdeal.Facts

variable [Cert.ReferenceIdeal.Facts]

/-! ## A hidden layer -/

/-- `x·ws + a·wn + b` (statements %23 … %28). -/
def convTerm (x a : Cert.GNN.A2 100000 128) (ws wn : Cert.GNN.A2 128 128) (b : Cert.GNN.A1 128) : Cert.GNN.A2 100000 128 :=
  addf (F := Ideal) (φ := .f32)
    (addf (F := Ideal) (φ := .f32)
      (Host.dotGeneral (F := Ideal) (φ₁ := .f32) (φ₂ := .f32) dot_S100000x128_S128x128_S100000x128_1_0_0_1_n_n none (x : (⟨S100000x128, .f32⟩ : BufTy).Contents (Elt Ideal)) (ws : (⟨S128x128, .f32⟩ : BufTy).Contents (Elt Ideal)) : (⟨S100000x128, .f32⟩ : BufTy).Contents (Elt Ideal))
      (Host.dotGeneral (F := Ideal) (φ₁ := .f32) (φ₂ := .f32) dot_S100000x128_S128x128_S100000x128_1_0_0_1_n_n none (a : (⟨S100000x128, .f32⟩ : BufTy).Contents (Elt Ideal)) (wn : (⟨S128x128, .f32⟩ : BufTy).Contents (Elt Ideal)) : (⟨S100000x128, .f32⟩ : BufTy).Contents (Elt Ideal))
      : (⟨S100000x128, .f32⟩ : BufTy).Contents (Elt Ideal))
    (broadcastInDim S100000x128 ![0, 1] bcast_S1x128_S100000x128_0_1 (broadcastInDim S1x128 ![1] bcast_S128_S1x128_1 (b : (⟨S128, .f32⟩ : BufTy).Contents (Elt Ideal)) : (⟨S1x128, .f32⟩ : BufTy).Contents (Elt Ideal)) : (⟨S100000x128, .f32⟩ : BufTy).Contents (Elt Ideal))

/-- The column mean: the column sum over the row count (statements %29 … %31). -/
def meanTerm (h : Cert.GNN.A2 100000 128) : Cert.GNN.A1 128 :=
  Host.divf (F := Ideal) (φ := .f32)
    (Host.reduceAdd (F := Ideal) (h : (⟨S100000x128, .f32⟩ : BufTy).Contents (Elt Ideal)) (constant (F := Ideal) S_ .f32 0x00000000#32 : (⟨S_, .f32⟩ : BufTy).Contents (Elt Ideal)) reducesTo_S100000x128_S128_d0 h_S_ : (⟨S128, .f32⟩ : BufTy).Contents (Elt Ideal))
    (broadcastInDim S128 ![] bcast_S_S128 (constant (F := Ideal) S_ .f32 0x47C35000#32 : (⟨S_, .f32⟩ : BufTy).Contents (Elt Ideal)) : (⟨S128, .f32⟩ : BufTy).Contents (Elt Ideal))

/-- The variance's own column mean, a one-row matrix (the variance function's %0 … %3). -/
def varMeanTerm (h : Cert.GNN.A2 100000 128) : (⟨S1x128, .f32⟩ : BufTy).Contents (Elt Ideal) :=
  Host.divf (F := Ideal) (φ := .f32)
    (broadcastInDim S1x128 ![1] bcast_S128_S1x128_1 (Host.reduceAdd (F := Ideal) (h : (⟨S100000x128, .f32⟩ : BufTy).Contents (Elt Ideal)) (constant (F := Ideal) S_ .f32 0x00000000#32 : (⟨S_, .f32⟩ : BufTy).Contents (Elt Ideal)) reducesTo_S100000x128_S128_d0 h_S_ : (⟨S128, .f32⟩ : BufTy).Contents (Elt Ideal)) : (⟨S1x128, .f32⟩ : BufTy).Contents (Elt Ideal))
    (broadcastInDim S1x128 ![] bcast_S_S1x128 (constant (F := Ideal) S_ .f32 0x47C35000#32 : (⟨S_, .f32⟩ : BufTy).Contents (Elt Ideal)) : (⟨S1x128, .f32⟩ : BufTy).Contents (Elt Ideal))

/-- The deviations from that mean (the variance function's %4, %5). -/
def varDevTerm (h : Cert.GNN.A2 100000 128) : Cert.GNN.A2 100000 128 :=
  subf (F := Ideal) (φ := .f32) (h : (⟨S100000x128, .f32⟩ : BufTy).Contents (Elt Ideal)) (broadcastInDim S100000x128 ![0, 1] bcast_S1x128_S100000x128_0_1 (varMeanTerm h) : (⟨S100000x128, .f32⟩ : BufTy).Contents (Elt Ideal))

/-- The column sums of the squared deviations (the variance function's %6, %9). -/
def varSumTerm (h : Cert.GNN.A2 100000 128) : Cert.GNN.A1 128 :=
  Host.reduceAdd (F := Ideal) (mulf (F := Ideal) (φ := .f32) (varDevTerm h) (varDevTerm h) : (⟨S100000x128, .f32⟩ : BufTy).Contents (Elt Ideal)) (constant (F := Ideal) S_ .f32 0x00000000#32 : (⟨S_, .f32⟩ : BufTy).Contents (Elt Ideal)) reducesTo_S100000x128_S128_d0 h_S_

/-- The divisor: the row count less the correction, here the integer zero converted (the variance function's %7, %8). -/
def varCountTerm : (⟨S_, .f32⟩ : BufTy).Contents (Elt Ideal) :=
  subf (F := Ideal) (φ := .f32) (constant (F := Ideal) S_ .f32 0x47C35000#32 : (⟨S_, .f32⟩ : BufTy).Contents (Elt Ideal))
    (sitofp (F := Ideal) .f32 (constantI S_ 32 0#32 : (⟨S_, .i32⟩ : BufTy).Contents (Elt Ideal)) : (⟨S_, .f32⟩ : BufTy).Contents (Elt Ideal))

/-- The column variance: the quotient where the divisor is positive, a not-a-number constant otherwise
    (the variance function's %10 … %13, the selection function's %0 … %2). -/
def varTerm (h : Cert.GNN.A2 100000 128) : Cert.GNN.A1 128 :=
  select
    (broadcastInDim S128 ![] bcast_S_S128 (cmpf (F := Ideal) (φ := .f32) .ogt varCountTerm (constant (F := Ideal) S_ .f32 0x00000000#32 : (⟨S_, .f32⟩ : BufTy).Contents (Elt Ideal)) : (⟨S_, .i1⟩ : BufTy).Contents (Elt Ideal)) : (⟨S128, .i1⟩ : BufTy).Contents (Elt Ideal))
    (Host.divf (F := Ideal) (φ := .f32) (varSumTerm h) (broadcastInDim S128 ![] bcast_S_S128 varCountTerm : (⟨S128, .f32⟩ : BufTy).Contents (Elt Ideal)) : (⟨S128, .f32⟩ : BufTy).Contents (Elt Ideal))
    (broadcastInDim S128 ![] bcast_S_S128 (id (constant (F := Ideal) S_ .f32 0x7FC00000#32 : (⟨S_, .f32⟩ : BufTy).Contents (Elt Ideal)) : (⟨S_, .f32⟩ : BufTy).Contents (Elt Ideal)) : (⟨S128, .f32⟩ : BufTy).Contents (Elt Ideal))

/-- `((h - mean) · rsqrt (var + ε)) · γ + β` (statements %33 … %47). -/
def bnTerm (h : Cert.GNN.A2 100000 128) (g be : Cert.GNN.A1 128) : Cert.GNN.A2 100000 128 :=
  addf (F := Ideal) (φ := .f32)
    (mulf (F := Ideal) (φ := .f32)
      (mulf (F := Ideal) (φ := .f32)
        (subf (F := Ideal) (φ := .f32) (h : (⟨S100000x128, .f32⟩ : BufTy).Contents (Elt Ideal)) (broadcastInDim S100000x128 ![0, 1] bcast_S1x128_S100000x128_0_1 (broadcastInDim S1x128 ![1] bcast_S128_S1x128_1 (meanTerm h) : (⟨S1x128, .f32⟩ : BufTy).Contents (Elt Ideal)) : (⟨S100000x128, .f32⟩ : BufTy).Contents (Elt Ideal)) : (⟨S100000x128, .f32⟩ : BufTy).Contents (Elt Ideal))
        (broadcastInDim S100000x128 ![0, 1] bcast_S1x128_S100000x128_0_1 (broadcastInDim S1x128 ![1] bcast_S128_S1x128_1 (Host.rsqrt (F := Ideal) (φ := .f32) (addf (F := Ideal) (φ := .f32) (varTerm h) (broadcastInDim S128 ![] bcast_S_S128 (constant (F := Ideal) S_ .f32 0x3727C5AC#32 : (⟨S_, .f32⟩ : BufTy).Contents (Elt Ideal)) : (⟨S128, .f32⟩ : BufTy).Contents (Elt Ideal)) : (⟨S128, .f32⟩ : BufTy).Contents (Elt Ideal)) : (⟨S128, .f32⟩ : BufTy).Contents (Elt Ideal)) : (⟨S1x128, .f32⟩ : BufTy).Contents (Elt Ideal)) : (⟨S100000x128, .f32⟩ : BufTy).Contents (Elt Ideal))
        : (⟨S100000x128, .f32⟩ : BufTy).Contents (Elt Ideal))
      (broadcastInDim S100000x128 ![0, 1] bcast_S1x128_S100000x128_0_1 (broadcastInDim S1x128 ![1] bcast_S128_S1x128_1 (g : (⟨S128, .f32⟩ : BufTy).Contents (Elt Ideal)) : (⟨S1x128, .f32⟩ : BufTy).Contents (Elt Ideal)) : (⟨S100000x128, .f32⟩ : BufTy).Contents (Elt Ideal))
      : (⟨S100000x128, .f32⟩ : BufTy).Contents (Elt Ideal))
    (broadcastInDim S100000x128 ![0, 1] bcast_S1x128_S100000x128_0_1 (broadcastInDim S1x128 ![1] bcast_S128_S1x128_1 (be : (⟨S128, .f32⟩ : BufTy).Contents (Elt Ideal)) : (⟨S1x128, .f32⟩ : BufTy).Contents (Elt Ideal)) : (⟨S100000x128, .f32⟩ : BufTy).Contents (Elt Ideal))

/-- The maximum with zero (the relu function's %cst, %0, %1). -/
def reluTerm (y : Cert.GNN.A2 100000 128) : Cert.GNN.A2 100000 128 :=
  maximumf (F := Ideal) (φ := .f32) (y : (⟨S100000x128, .f32⟩ : BufTy).Contents (Elt Ideal)) (broadcastInDim S100000x128 ![] bcast_S_S100000x128 (constant (F := Ideal) S_ .f32 0x00000000#32 : (⟨S_, .f32⟩ : BufTy).Contents (Elt Ideal)) : (⟨S100000x128, .f32⟩ : BufTy).Contents (Elt Ideal))

/-- A hidden layer: convolution over the mean aggregation, batch normalisation, relu (statements %0 … %48). -/
def layerTerm (ei : (⟨S2x1600000, .i32⟩ : BufTy).Contents (Elt Ideal)) (x : Cert.GNN.A2 100000 128) (ws wn : Cert.GNN.A2 128 128) (b g be : Cert.GNN.A1 128) :
    Cert.GNN.A2 100000 128 :=
  reluTerm (bnTerm (convTerm x (aggR ei x) ws wn b) g be)

/-! ## The output layer -/

/-- `x·ws + a·wn + b` into 64 columns (statements %113 … %118). -/
def convTerm64 (x a : Cert.GNN.A2 100000 128) (ws wn : Cert.GNN.A2 128 64) (b : Cert.GNN.A1 64) : Cert.GNN.A2 100000 64 :=
  addf (F := Ideal) (φ := .f32)
    (addf (F := Ideal) (φ := .f32)
      (Host.dotGeneral (F := Ideal) (φ₁ := .f32) (φ₂ := .f32) dot_S100000x128_S128x64_S100000x64_1_0_0_1_n_n none (x : (⟨S100000x128, .f32⟩ : BufTy).Contents (Elt Ideal)) (ws : (⟨S128x64, .f32⟩ : BufTy).Contents (Elt Ideal)) : (⟨S100000x64, .f32⟩ : BufTy).Contents (Elt Ideal))
      (Host.dotGeneral (F := Ideal) (φ₁ := .f32) (φ₂ := .f32) dot_S100000x128_S128x64_S100000x64_1_0_0_1_n_n none (a : (⟨S100000x128, .f32⟩ : BufTy).Contents (Elt Ideal)) (wn : (⟨S128x64, .f32⟩ : BufTy).Contents (Elt Ideal)) : (⟨S100000x64, .f32⟩ : BufTy).Contents (Elt Ideal))
      : (⟨S100000x64, .f32⟩ : BufTy).Contents (Elt Ideal))
    (broadcastInDim S100000x64 ![0, 1] bcast_S1x64_S100000x64_0_1
      (broadcastInDim S1x64 ![1] bcast_S64_S1x64_1 (b : (⟨S64, .f32⟩ : BufTy).Contents (Elt Ideal)) : (⟨S1x64, .f32⟩ : BufTy).Contents (Elt Ideal)) : (⟨S100000x64, .f32⟩ : BufTy).Contents (Elt Ideal))

/-- The row maximum: folded from -∞, then taken once more against -∞ (the log-softmax function's %cst … %2). -/
def lsmMaxTerm (h : Cert.GNN.A2 100000 64) : (⟨S100000, .f32⟩ : BufTy).Contents (Elt Ideal) :=
  maximumf (F := Ideal) (φ := .f32)
    (broadcastInDim S100000 ![] bcast_S_S100000 (constant (F := Ideal) S_ .f32 0xFF800000#32 : (⟨S_, .f32⟩ : BufTy).Contents (Elt Ideal)) : (⟨S100000, .f32⟩ : BufTy).Contents (Elt Ideal))
    (Host.reduce (FloatOps.maximumf (F := Ideal) (φ := .f32)) (h : (⟨S100000x64, .f32⟩ : BufTy).Contents (Elt Ideal)) (constant (F := Ideal) S_ .f32 0xFF800000#32 : (⟨S_, .f32⟩ : BufTy).Contents (Elt Ideal)) reducesTo_S100000x64_S100000_d1 h_S_ : (⟨S100000, .f32⟩ : BufTy).Contents (Elt Ideal))

/-- The row less its maximum (the log-softmax function's %3 … %5). -/
def lsmShiftTerm (h : Cert.GNN.A2 100000 64) : Cert.GNN.A2 100000 64 :=
  subf (F := Ideal) (φ := .f32) (h : (⟨S100000x64, .f32⟩ : BufTy).Contents (Elt Ideal))
    (broadcastInDim S100000x64 ![0, 1] bcast_S100000x1_S100000x64_0_1
      (broadcastInDim S100000x1 ![0] bcast_S100000_S100000x1_0 (lsmMaxTerm h) : (⟨S100000x1, .f32⟩ : BufTy).Contents (Elt Ideal)) : (⟨S100000x64, .f32⟩ : BufTy).Contents (Elt Ideal))

/-- The row sums of the exponentials of the shifted row (the log-softmax function's %6, %7). -/
def lsmSumTerm (h : Cert.GNN.A2 100000 64) : (⟨S100000, .f32⟩ : BufTy).Contents (Elt Ideal) :=
  Host.reduceAdd (F := Ideal) (Host.exp (F := Ideal) (φ := .f32) (lsmShiftTerm h) : (⟨S100000x64, .f32⟩ : BufTy).Contents (Elt Ideal)) (constant (F := Ideal) S_ .f32 0x00000000#32 : (⟨S_, .f32⟩ : BufTy).Contents (Elt Ideal)) reducesTo_S100000x64_S100000_d1 h_S_

/-- The shifted row less the logarithm of that sum (the log-softmax function's %8 … %11). -/
def lsmTerm (h : Cert.GNN.A2 100000 64) : Cert.GNN.A2 100000 64 :=
  subf (F := Ideal) (φ := .f32) (lsmShiftTerm h)
    (broadcastInDim S100000x64 ![0, 1] bcast_S100000x1_S100000x64_0_1
      (Host.log (F := Ideal) (φ := .f32) (broadcastInDim S100000x1 ![0] bcast_S100000_S100000x1_0 (lsmSumTerm h) : (⟨S100000x1, .f32⟩ : BufTy).Contents (Elt Ideal)) : (⟨S100000x1, .f32⟩ : BufTy).Contents (Elt Ideal))
      : (⟨S100000x64, .f32⟩ : BufTy).Contents (Elt Ideal))

/-- The output layer: convolution over the mean aggregation, log-softmax (statements %94 … %119). -/
def finalTerm (ei : (⟨S2x1600000, .i32⟩ : BufTy).Contents (Elt Ideal)) (x : Cert.GNN.A2 100000 128) (ws wn : Cert.GNN.A2 128 64) (b : Cert.GNN.A1 64) :
    Cert.GNN.A2 100000 64 :=
  lsmTerm (convTerm64 x (aggR ei x) ws wn b)

/-- The reference's result as a function of its fifteen arguments. -/
def res (a0 : Cert.GNN.A2 100000 128) (a1 : (⟨S2x1600000, .i32⟩ : BufTy).Contents (Elt Ideal))
    (a2 a3 : Cert.GNN.A2 128 128) (a4 a5 a6 : Cert.GNN.A1 128)
    (a7 a8 : Cert.GNN.A2 128 128) (a9 a10 a11 : Cert.GNN.A1 128)
    (a12 a13 : Cert.GNN.A2 128 64) (a14 : Cert.GNN.A1 64) : Cert.GNN.A2 100000 64 :=
  finalTerm a1 (layerTerm a1 (layerTerm a1 a0 a2 a3 a4 a5 a6) a7 a8 a9 a10 a11) a12 a13 a14

end Cert.ReferenceIdeal.RValue

end
-- ==== Proof.RefAggOf.lean ====
/-
  The neighbourhood mean over given source and destination vectors.

  `aggOf src dst h` is the aggregation with the two rows of the edge list already cut out: the in-degree by a
  scatter-add of ones at `dst`, the source index wrapped when negative, the rows of `h` gathered there and
  scatter-added at `dst` into zeros, each row divided by its clamped in-degree. With the rows cut from an edge
  list `ei` it is `aggR ei h`, by unfolding both sides (`aggR_eq`).
-/
import proofs.«110434_j36318243455158_2_alg».proof.Proof.RefTerm

noncomputable section

namespace Cert.ReferenceIdeal.RValue

open Idealize.ShloMosaic Idealize.ShloMosaic.TcCoe Idealize.SL.Sem Idealize.ShloMosaic.StableHlo Cert.ReferenceIdeal
open Cert.ReferenceIdeal.Facts₀ Cert.ReferenceIdeal.Facts

variable [Cert.ReferenceIdeal.Facts]

/-- The in-degree from the destinations. -/
def degOf (dst : (⟨S1600000, .i32⟩ : BufTy).Contents (Elt Ideal)) : (⟨S100000, .f32⟩ : BufTy).Contents (Elt Ideal) :=
  Host.scatterAdd (F := Ideal) (φ := .f32) scatter_S100000_S1600000x1_S1600000_n_0_0_1
    (broadcastInDim S100000 ![] bcast_S_S100000 (constant (F := Ideal) S_ .f32 0x00000000#32 : (⟨S_, .f32⟩ : BufTy).Contents (Elt Ideal)) : (⟨S100000, .f32⟩ : BufTy).Contents (Elt Ideal))
    (broadcastInDim S1600000x1 ![0] bcast_S1600000_S1600000x1_0 dst : (⟨S1600000x1, .i32⟩ : BufTy).Contents (Elt Ideal))
    (broadcastInDim S1600000 ![] bcast_S_S1600000 (constant (F := Ideal) S_ .f32 0x3F800000#32 : (⟨S_, .f32⟩ : BufTy).Contents (Elt Ideal)) : (⟨S1600000, .f32⟩ : BufTy).Contents (Elt Ideal))

/-- The source index, a negative one wrapped by adding the node count. -/
def srcNOf (src : (⟨S1600000, .i32⟩ : BufTy).Contents (Elt Ideal)) : (⟨S1600000, .i32⟩ : BufTy).Contents (Elt Ideal) :=
  select
    (cmpi .slt src (broadcastInDim S1600000 ![] bcast_S_S1600000 (constantI S_ 32 0#32 : (⟨S_, .i32⟩ : BufTy).Contents (Elt Ideal)) : (⟨S1600000, .i32⟩ : BufTy).Contents (Elt Ideal)) : (⟨S1600000, .i1⟩ : BufTy).Contents (Elt Ideal))
    (addi src (broadcastInDim S1600000 ![] bcast_S_S1600000 (constantI S_ 32 100000#32 : (⟨S_, .i32⟩ : BufTy).Contents (Elt Ideal)) : (⟨S1600000, .i32⟩ : BufTy).Contents (Elt Ideal)) : (⟨S1600000, .i32⟩ : BufTy).Contents (Elt Ideal))
    src

/-- The mean over a node's in-neighbours, from the source and destination vectors. -/
def aggOf (src dst : (⟨S1600000, .i32⟩ : BufTy).Contents (Elt Ideal)) (h : Cert.GNN.A2 100000 128) : Cert.GNN.A2 100000 128 :=
  Host.divf (F := Ideal) (φ := .f32)
    (Host.scatterAdd (F := Ideal) (φ := .f32) scatter_S100000x128_S1600000x1_S1600000x128_1_0_0_1
      (broadcastInDim S100000x128 ![] bcast_S_S100000x128 (constant (F := Ideal) S_ .f32 0x00000000#32 : (⟨S_, .f32⟩ : BufTy).Contents (Elt Ideal)) : (⟨S100000x128, .f32⟩ : BufTy).Contents (Elt Ideal))
      (broadcastInDim S1600000x1 ![0] bcast_S1600000_S1600000x1_0 dst : (⟨S1600000x1, .i32⟩ : BufTy).Contents (Elt Ideal))
      (Host.gather gather_S100000x128_S1600000x1_S1600000x128_1_0_n_n_0_1_1128 (h : (⟨S100000x128, .f32⟩ : BufTy).Contents (Elt Ideal))
        (broadcastInDim S1600000x1 ![0] bcast_S1600000_S1600000x1_0 (srcNOf src) : (⟨S1600000x1, .i32⟩ : BufTy).Contents (Elt Ideal)) : (⟨S1600000x128, .f32⟩ : BufTy).Contents (Elt Ideal))
      : (⟨S100000x128, .f32⟩ : BufTy).Contents (Elt Ideal))
    (broadcastInDim S100000x128 ![0, 1] bcast_S100000x1_S100000x128_0_1
      (broadcastInDim S100000x1 ![0] bcast_S100000_S100000x1_0
        (maximumf (F := Ideal) (φ := .f32) (degOf dst) (broadcastInDim S100000 ![] bcast_S_S100000 (constant (F := Ideal) S_ .f32 0x3F800000#32 : (⟨S_, .f32⟩ : BufTy).Contents (Elt Ideal)) : (⟨S100000, .f32⟩ : BufTy).Contents (Elt Ideal)) : (⟨S100000, .f32⟩ : BufTy).Contents (Elt Ideal))
        : (⟨S100000x1, .f32⟩ : BufTy).Contents (Elt Ideal)) : (⟨S100000x128, .f32⟩ : BufTy).Contents (Elt Ideal))

/-- With the rows cut from the edge list, it is the reference's aggregation. -/
theorem aggR_eq (ei : (⟨S2x1600000, .i32⟩ : BufTy).Contents (Elt Ideal)) (h : Cert.GNN.A2 100000 128) :
    aggR ei h = aggOf (srcR ei) (dstR ei) h := by
  unfold aggR sumR denR degR dstColR srcColR srcNR aggOf degOf srcNOf
  rfl

end Cert.ReferenceIdeal.RValue

end
-- ==== Proof.RefValA0.lean ====
/-
  What the edge-list cut, the first aggregation, the first convolution and the first relu leave in their result buffers, each as a named term of what was read.

  Each is read off the list of operations: an operation's result at its own buffer is its function of its
  operands' contents, and any other buffer is untouched; what remains is the named term, unfolded.
-/
import proofs.«110434_j36318243455158_2_alg».proof.Proof.RefOps0
import proofs.«110434_j36318243455158_2_alg».proof.Proof.RefAggOf

noncomputable section

namespace Cert.ReferenceIdeal.RValue

open Idealize.ShloMosaic Idealize.ShloMosaic.TcCoe Idealize.SL.Sem Idealize.ShloMosaic.StableHlo Cert.ReferenceIdeal
open Cert.ReferenceIdeal.Facts₀ Cert.ReferenceIdeal.Facts

variable [Cert.ReferenceIdeal.Facts]

attribute [local irreducible] Host.reduce Host.reduceAdd Host.gather Host.scatterAdd FloatOps.dotGeneral in
set_option maxRecDepth 8192 in
set_option maxHeartbeats 4000000 in
/-- The source row of the edge list. -/
theorem cEdge_src (V : Valuation τ sig (Elt Ideal)) :
    after (cEdge (F := Ideal)) V (main_v1 : DevRef τ sig) = srcR (V (main_arg1 : DevRef τ sig)) := by
  after_results_simp
  rfl

attribute [local irreducible] Host.reduce Host.reduceAdd Host.gather Host.scatterAdd FloatOps.dotGeneral in
set_option maxRecDepth 8192 in
set_option maxHeartbeats 4000000 in
/-- The destination row of the edge list. -/
theorem cEdge_dst (V : Valuation τ sig (Elt Ideal)) :
    after (cEdge (F := Ideal)) V (main_v3 : DevRef τ sig) = dstR (V (main_arg1 : DevRef τ sig)) := by
  after_results_simp
  rfl

attribute [local irreducible] Host.reduce Host.reduceAdd Host.gather Host.scatterAdd FloatOps.dotGeneral in
set_option maxRecDepth 8192 in
set_option maxHeartbeats 4000000 in
/-- The aggregation of layer 0: the mean over in-neighbours of the rows it gathered. -/
theorem cAgg0_out (V : Valuation τ sig (Elt Ideal)) :
    after (cAgg0 (F := Ideal)) V (main_v22 : DevRef τ sig) = aggOf (V (main_v1 : DevRef τ sig)) (V (main_v3 : DevRef τ sig)) (V (main_arg0 : DevRef τ sig)) := by
  after_results_simp
  rfl

attribute [local irreducible] Host.reduce Host.reduceAdd Host.gather Host.scatterAdd FloatOps.dotGeneral in
set_option maxRecDepth 8192 in
set_option maxHeartbeats 4000000 in
/-- The first convolution's result. -/
theorem cConv0_out (V : Valuation τ sig (Elt Ideal)) :
    after (cConv0 (F := Ideal)) V (main_v28 : DevRef τ sig) = convTerm (V (main_arg0 : DevRef τ sig)) (V (main_v22 : DevRef τ sig)) (V (main_arg2 : DevRef τ sig)) (V (main_arg3 : DevRef τ sig)) (V (main_arg4 : DevRef τ sig)) := by
  after_results_simp
  rfl

attribute [local irreducible] Host.reduce Host.reduceAdd Host.gather Host.scatterAdd FloatOps.dotGeneral in
set_option maxRecDepth 8192 in
set_option maxHeartbeats 4000000 in
/-- The first relu's result. -/
theorem cRelu0_out (V : Valuation τ sig (Elt Ideal)) :
    after (cRelu0 (F := Ideal)) V (main_v48 : DevRef τ sig) = reluTerm (V (main_v47 : DevRef τ sig)) := by
  rw [cRelu0_eqU]
  after_results_simp
  rfl

end Cert.ReferenceIdeal.RValue

end
-- ==== Proof.RefValB0.lean ====
/-
  What the first batch normalisation's operations leave in their result buffers, each as a named term of what was read.

  Each is read off the list of operations: an operation's result at its own buffer is its function of its
  operands' contents, and any other buffer is untouched; what remains is the named term, unfolded.
-/
import proofs.«110434_j36318243455158_2_alg».proof.Proof.RefOps0
import proofs.«110434_j36318243455158_2_alg».proof.Proof.RefTerm

noncomputable section

namespace Cert.ReferenceIdeal.RValue

open Idealize.ShloMosaic Idealize.ShloMosaic.TcCoe Idealize.SL.Sem Idealize.ShloMosaic.StableHlo Cert.ReferenceIdeal
open Cert.ReferenceIdeal.Facts₀ Cert.ReferenceIdeal.Facts

variable [Cert.ReferenceIdeal.Facts]

attribute [local irreducible] Host.reduce Host.reduceAdd Host.gather Host.scatterAdd FloatOps.dotGeneral in
set_option maxRecDepth 8192 in
set_option maxHeartbeats 4000000 in
/-- The first batch normalisation's result. -/
theorem cBn0_out (V : Valuation τ sig (Elt Ideal)) :
    after (cBn0 (F := Ideal)) V (main_v47 : DevRef τ sig) = bnTerm (V (main_v28 : DevRef τ sig)) (V (main_arg5 : DevRef τ sig)) (V (main_arg6 : DevRef τ sig)) := by
  rw [cBn0_eqU]
  after_results_simp
  rfl

end Cert.ReferenceIdeal.RValue

end
-- ==== Proof.RefOps1.lean ====
/-
  The middle third of the reference's straight line, as lists of host operations: the rest of the second
  aggregation, the second convolution, the second batch normalisation (the variance function written out at
  the call site), the second relu, and the third aggregation up to its in-degree.
  The window equals the sequence of these lists; for each list, the buffers it writes, and that any other
  buffer keeps its contents across it.
  A list holding a called function's operations is also given with each of them as the plain operation at the
  call's buffers (the typed references only transport along the buffers' types, which is the identity here).
-/
import proofs.«110434_j36318243455158_2_alg».proof.ReferenceIdeal
import Idealize.ShloMosaic.Lib.StableHlo.Run
import proofs.«110434_j36318243455158_2_alg».proof.Proof.RefRunLib

noncomputable section

namespace Cert.ReferenceIdeal.RValue

open Idealize.ShloMosaic Idealize.ShloMosaic.TcCoe Idealize.SL.Sem Idealize.ShloMosaic.StableHlo Cert.ReferenceIdeal
open Cert.ReferenceIdeal.Facts₀ Cert.ReferenceIdeal.Facts

variable {F : FTy → Type} [FloatOps F] [Cert.ReferenceIdeal.Facts]

/-- The rest of the second aggregation. -/
abbrev cAgg1b : List (HloOp τ sig (Elt F)) :=
  [ unary main_cst_8 main_v49 (broadcastInDim S1600000 ![] bcast_S_S1600000 : (⟨S_, .f32⟩ : BufTy).Contents (Elt F) → (⟨S1600000, .f32⟩ : BufTy).Contents (Elt F)),
    nullary main_cst_9 (constant S_ .f32 0x00000000#32),
    unary main_cst_9 main_v50 (broadcastInDim S100000 ![] bcast_S_S100000 : (⟨S_, .f32⟩ : BufTy).Contents (Elt F) → (⟨S100000, .f32⟩ : BufTy).Contents (Elt F)),
    unary main_v3 main_v51 (broadcastInDim S1600000x1 ![0] bcast_S1600000_S1600000x1_0 : (⟨S1600000, .i32⟩ : BufTy).Contents (Elt F) → (⟨S1600000x1, .i32⟩ : BufTy).Contents (Elt F)),
    ternary main_v50 main_v51 main_v49 main_v52 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_c_10 (constantI S_ 32 0#32),
    unary main_c_10 main_v53 (broadcastInDim S1600000 ![] bcast_S_S1600000 : (⟨S_, .i32⟩ : BufTy).Contents (Elt F) → (⟨S1600000, .i32⟩ : BufTy).Contents (Elt F)),
    binary main_v1 main_v53 main_v54 (cmpi .slt : (⟨S1600000, .i32⟩ : BufTy).Contents (Elt F) → (⟨S1600000, .i32⟩ : BufTy).Contents (Elt F) → (⟨S1600000, .i1⟩ : BufTy).Contents (Elt F)),
    nullary main_c_11 (constantI S_ 32 100000#32),
    unary main_c_11 main_v55 (broadcastInDim S1600000 ![] bcast_S_S1600000 : (⟨S_, .i32⟩ : BufTy).Contents (Elt F) → (⟨S1600000, .i32⟩ : BufTy).Contents (Elt F)),
    binary main_v1 main_v55 main_v56 (addi : (⟨S1600000, .i32⟩ : BufTy).Contents (Elt F) → (⟨S1600000, .i32⟩ : BufTy).Contents (Elt F) → (⟨S1600000, .i32⟩ : BufTy).Contents (Elt F)),
    ternary main_v54 main_v56 main_v1 main_v57 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v57 main_v58 (broadcastInDim S1600000x1 ![0] bcast_S1600000_S1600000x1_0 : (⟨S1600000, .i32⟩ : BufTy).Contents (Elt F) → (⟨S1600000x1, .i32⟩ : BufTy).Contents (Elt F)),
    binary main_v48 main_v58 main_v59 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst_12 (constant S_ .f32 0x00000000#32),
    unary main_cst_12 main_v60 (broadcastInDim S100000x128 ![] bcast_S_S100000x128 : (⟨S_, .f32⟩ : BufTy).Contents (Elt F) → (⟨S100000x128, .f32⟩ : BufTy).Contents (Elt F)),
    unary main_v3 main_v61 (broadcastInDim S1600000x1 ![0] bcast_S1600000_S1600000x1_0 : (⟨S1600000, .i32⟩ : BufTy).Contents (Elt F) → (⟨S1600000x1, .i32⟩ : BufTy).Contents (Elt F)),
    ternary main_v60 main_v61 main_v59 main_v62 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    nullary main_cst_13 (constant S_ .f32 0x3F800000#32),
    unary main_cst_13 main_v63 (broadcastInDim S100000 ![] bcast_S_S100000 : (⟨S_, .f32⟩ : BufTy).Contents (Elt F) → (⟨S100000, .f32⟩ : BufTy).Contents (Elt F)),
    binary main_v52 main_v63 main_v64 (maximumf : (⟨S100000, .f32⟩ : BufTy).Contents (Elt F) → (⟨S100000, .f32⟩ : BufTy).Contents (Elt F) → (⟨S100000, .f32⟩ : BufTy).Contents (Elt F)),
    unary main_v64 main_v65 (broadcastInDim S100000x1 ![0] bcast_S100000_S100000x1_0 : (⟨S100000, .f32⟩ : BufTy).Contents (Elt F) → (⟨S100000x1, .f32⟩ : BufTy).Contents (Elt F)),
    unary main_v65 main_v66 (broadcastInDim S100000x128 ![0, 1] bcast_S100000x1_S100000x128_0_1 : (⟨S100000x1, .f32⟩ : BufTy).Contents (Elt F) → (⟨S100000x128, .f32⟩ : BufTy).Contents (Elt F)),
    binary main_v62 main_v66 main_v67 (Host.divf : (⟨S100000x128, .f32⟩ : BufTy).Contents (Elt F) → (⟨S100000x128, .f32⟩ : BufTy).Contents (Elt F) → (⟨S100000x128, .f32⟩ : BufTy).Contents (Elt F)) ]

/-- The second convolution. -/
abbrev cConv1 : List (HloOp τ sig (Elt F)) :=
  [ binary main_v48 main_arg7 main_v68 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v67 main_arg8 main_v69 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v68 main_v69 main_v70 (addf : (⟨S100000x128, .f32⟩ : BufTy).Contents (Elt F) → (⟨S100000x128, .f32⟩ : BufTy).Contents (Elt F) → (⟨S100000x128, .f32⟩ : BufTy).Contents (Elt F)),
    unary main_arg9 main_v71 (broadcastInDim S1x128 ![1] bcast_S128_S1x128_1 : (⟨S128, .f32⟩ : BufTy).Contents (Elt F) → (⟨S1x128, .f32⟩ : BufTy).Contents (Elt F)),
    unary main_v71 main_v72 (broadcastInDim S100000x128 ![0, 1] bcast_S1x128_S100000x128_0_1 : (⟨S1x128, .f32⟩ : BufTy).Contents (Elt F) → (⟨S100000x128, .f32⟩ : BufTy).Contents (Elt F)),
    binary main_v70 main_v72 main_v73 (addf : (⟨S100000x128, .f32⟩ : BufTy).Contents (Elt F) → (⟨S100000x128, .f32⟩ : BufTy).Contents (Elt F) → (⟨S100000x128, .f32⟩ : BufTy).Contents (Elt F)) ]

/-- The second batch normalisation, the variance function's operations written out over the call's buffers. -/
abbrev cBn1 : List (HloOp τ sig (Elt F)) :=
  [ nullary main_cst_14 (constant S_ .f32 0x00000000#32),
    binary main_v73 main_cst_14 main_v74 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_15 (constant S_ .f32 0x47C35000#32),
    unary main_cst_15 main_v75 (broadcastInDim S128 ![] bcast_S_S128 : (⟨S_, .f32⟩ : BufTy).Contents (Elt F) → (⟨S128, .f32⟩ : BufTy).Contents (Elt F)),
    binary main_v74 main_v75 main_v76 (Host.divf : (⟨S128, .f32⟩ : BufTy).Contents (Elt F) → (⟨S128, .f32⟩ : BufTy).Contents (Elt F) → (⟨S128, .f32⟩ : BufTy).Contents (Elt F)),
    nullary main_c_16 (constantI S_ 32 0#32),
    TRef.nullary main_call2.cst (constant S_ .f32 0x00000000#32),
    TRef.binary (.of main_v73 : StableHlo.TRef sig ⟨S100000x128, .f32⟩) main_call2.cst main_call2.v0 (fun x v => Host.reduceAdd x v reducesTo_S100000x128_S128_d0 h_S_),
    TRef.unary main_call2.v0 main_call2.v1 (broadcastInDim S1x128 ![1] bcast_S128_S1x128_1),
    TRef.nullary main_call2.cst_0 (constant S_ .f32 0x47C35000#32),
    TRef.unary main_call2.cst_0 main_call2.v2 (broadcastInDim S1x128 ![] bcast_S_S1x128),
    TRef.binary main_call2.v1 main_call2.v2 main_call2.v3 Host.divf,
    TRef.unary main_call2.v3 main_call2.v4 (broadcastInDim S100000x128 ![0, 1] bcast_S1x128_S100000x128_0_1),
    TRef.binary (.of main_v73 : StableHlo.TRef sig ⟨S100000x128, .f32⟩) main_call2.v4 main_call2.v5 subf,
    TRef.binary main_call2.v5 main_call2.v5 main_call2.v6 mulf,
    TRef.unary (.of main_c_16 : StableHlo.TRef sig ⟨S_, .i32⟩) main_call2.v7 (sitofp .f32),
    TRef.nullary main_call2.cst_1 (constant S_ .f32 0x47C35000#32),
    TRef.binary main_call2.cst_1 main_call2.v7 main_call2.v8 subf,
    TRef.nullary main_call2.cst_2 (constant S_ .f32 0x00000000#32),
    TRef.binary main_call2.v6 main_call2.cst_2 main_call2.v9 (fun x v => Host.reduceAdd x v reducesTo_S100000x128_S128_d0 h_S_),
    TRef.unary main_call2.v8 main_call2.v10 (broadcastInDim S128 ![] bcast_S_S128),
    TRef.binary main_call2.v9 main_call2.v10 main_call2.v11 Host.divf,
    TRef.nullary main_call2.cst_3 (constant S_ .f32 0x00000000#32),
    TRef.binary main_call2.v8 main_call2.cst_3 main_call2.v12 (cmpf .ogt),
    TRef.nullary main_call2.cst_4 (constant S_ .f32 0x7FC00000#32),
    TRef.unary main_call2.cst_4 main_call2.call0.v0 id,
    TRef.unary main_call2.call0.v0 main_call2.call0.v1 (broadcastInDim S128 ![] bcast_S_S128),
    TRef.ternary main_call2.v12 main_call2.v11 main_call2.call0.v1 main_call2.call0.v2 (fun p a b => select (broadcastInDim S128 ![] bcast_S_S128 p) a b),
    unary main_v76 main_v78 (broadcastInDim S1x128 ![1] bcast_S128_S1x128_1 : (⟨S128, .f32⟩ : BufTy).Contents (Elt F) → (⟨S1x128, .f32⟩ : BufTy).Contents (Elt F)),
    unary main_v78 main_v79 (broadcastInDim S100000x128 ![0, 1] bcast_S1x128_S100000x128_0_1 : (⟨S1x128, .f32⟩ : BufTy).Contents (Elt F) → (⟨S100000x128, .f32⟩ : BufTy).Contents (Elt F)),
    binary main_v73 main_v79 main_v80 (subf : (⟨S100000x128, .f32⟩ : BufTy).Contents (Elt F) → (⟨S100000x128, .f32⟩ : BufTy).Contents (Elt F) → (⟨S100000x128, .f32⟩ : BufTy).Contents (Elt F)),
    nullary main_cst_17 (constant S_ .f32 0x3727C5AC#32),
    unary main_cst_17 main_v81 (broadcastInDim S128 ![] bcast_S_S128 : (⟨S_, .f32⟩ : BufTy).Contents (Elt F) → (⟨S128, .f32⟩ : BufTy).Contents (Elt F)),
    binary main_v77 main_v81 main_v82 (addf : (⟨S128, .f32⟩ : BufTy).Contents (Elt F) → (⟨S128, .f32⟩ : BufTy).Contents (Elt F) → (⟨S128, .f32⟩ : BufTy).Contents (Elt F)),
    unary main_v82 main_v83 (Host.rsqrt : (⟨S128, .f32⟩ : BufTy).Contents (Elt F) → (⟨S128, .f32⟩ : BufTy).Contents (Elt F)),
    unary main_v83 main_v84 (broadcastInDim S1x128 ![1] bcast_S128_S1x128_1 : (⟨S128, .f32⟩ : BufTy).Contents (Elt F) → (⟨S1x128, .f32⟩ : BufTy).Contents (Elt F)),
    unary main_v84 main_v85 (broadcastInDim S100000x128 ![0, 1] bcast_S1x128_S100000x128_0_1 : (⟨S1x128, .f32⟩ : BufTy).Contents (Elt F) → (⟨S100000x128, .f32⟩ : BufTy).Contents (Elt F)),
    binary main_v80 main_v85 main_v86 (mulf : (⟨S100000x128, .f32⟩ : BufTy).Contents (Elt F) → (⟨S100000x128, .f32⟩ : BufTy).Contents (Elt F) → (⟨S100000x128, .f32⟩ : BufTy).Contents (Elt F)),
    unary main_arg10 main_v87 (broadcastInDim S1x128 ![1] bcast_S128_S1x128_1 : (⟨S128, .f32⟩ : BufTy).Contents (Elt F) → (⟨S1x128, .f32⟩ : BufTy).Contents (Elt F)),
    unary main_v87 main_v88 (broadcastInDim S100000x128 ![0, 1] bcast_S1x128_S100000x128_0_1 : (⟨S1x128, .f32⟩ : BufTy).Contents (Elt F) → (⟨S100000x128, .f32⟩ : BufTy).Contents (Elt F)),
    binary main_v86 main_v88 main_v89 (mulf : (⟨S100000x128, .f32⟩ : BufTy).Contents (Elt F) → (⟨S100000x128, .f32⟩ : BufTy).Contents (Elt F) → (⟨S100000x128, .f32⟩ : BufTy).Contents (Elt F)),
    unary main_arg11 main_v90 (broadcastInDim S1x128 ![1] bcast_S128_S1x128_1 : (⟨S128, .f32⟩ : BufTy).Contents (Elt F) → (⟨S1x128, .f32⟩ : BufTy).Contents (Elt F)),
    unary main_v90 main_v91 (broadcastInDim S100000x128 ![0, 1] bcast_S1x128_S100000x128_0_1 : (⟨S1x128, .f32⟩ : BufTy).Contents (Elt F) → (⟨S100000x128, .f32⟩ : BufTy).Contents (Elt F)),
    binary main_v89 main_v91 main_v92 (addf : (⟨S100000x128, .f32⟩ : BufTy).Contents (Elt F) → (⟨S100000x128, .f32⟩ : BufTy).Contents (Elt F) → (⟨S100000x128, .f32⟩ : BufTy).Contents (Elt F)) ]

/-- The second relu. -/
abbrev cRelu1 : List (HloOp τ sig (Elt F)) :=
  [ TRef.nullary main_call3.cst (constant S_ .f32 0x00000000#32),
    TRef.unary main_call3.cst main_call3.v0 (broadcastInDim S100000x128 ![] bcast_S_S100000x128),
    TRef.binary (.of main_v92 : StableHlo.TRef sig ⟨S100000x128, .f32⟩) main_call3.v0 main_call3.v1 maximumf ]

/-- The third aggregation up to the in-degree. -/
abbrev cAgg2a : List (HloOp τ sig (Elt F)) :=
  [ nullary main_cst_18 (constant S_ .f32 0x3F800000#32),
    unary main_cst_18 main_v94 (broadcastInDim S1600000 ![] bcast_S_S1600000 : (⟨S_, .f32⟩ : BufTy).Contents (Elt F) → (⟨S1600000, .f32⟩ : BufTy).Contents (Elt F)),
    nullary main_cst_19 (constant S_ .f32 0x00000000#32),
    unary main_cst_19 main_v95 (broadcastInDim S100000 ![] bcast_S_S100000 : (⟨S_, .f32⟩ : BufTy).Contents (Elt F) → (⟨S100000, .f32⟩ : BufTy).Contents (Elt F)),
    unary main_v3 main_v96 (broadcastInDim S1600000x1 ![0] bcast_S1600000_S1600000x1_0 : (⟨S1600000, .i32⟩ : BufTy).Contents (Elt F) → (⟨S1600000x1, .i32⟩ : BufTy).Contents (Elt F)),
    ternary main_v95 main_v96 main_v94 main_v97 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)) ]

/-- `cBn1` with each operation of a called function written as the plain operation at the call's buffers. -/
abbrev cBn1U : List (HloOp τ sig (Elt F)) :=
  [ nullary main_cst_14 (constant S_ .f32 0x00000000#32),
    binary main_v73 main_cst_14 main_v74 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_15 (constant S_ .f32 0x47C35000#32),
    unary main_cst_15 main_v75 (broadcastInDim S128 ![] bcast_S_S128 : (⟨S_, .f32⟩ : BufTy).Contents (Elt F) → (⟨S128, .f32⟩ : BufTy).Contents (Elt F)),
    binary main_v74 main_v75 main_v76 (Host.divf : (⟨S128, .f32⟩ : BufTy).Contents (Elt F) → (⟨S128, .f32⟩ : BufTy).Contents (Elt F) → (⟨S128, .f32⟩ : BufTy).Contents (Elt F)),
    nullary main_c_16 (constantI S_ 32 0#32),
    nullary main_call2_cst ((constant S_ .f32 0x00000000#32) : (⟨S_, .f32⟩ : BufTy).Contents (Elt F)),
    binary main_v73 main_call2_cst main_call2_v0 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    unary main_call2_v0 main_call2_v1 ((broadcastInDim S1x128 ![1] bcast_S128_S1x128_1) : (⟨S128, .f32⟩ : BufTy).Contents (Elt F) → (⟨S1x128, .f32⟩ : BufTy).Contents (Elt F)),
    nullary main_call2_cst_0 ((constant S_ .f32 0x47C35000#32) : (⟨S_, .f32⟩ : BufTy).Contents (Elt F)),
    unary main_call2_cst_0 main_call2_v2 ((broadcastInDim S1x128 ![] bcast_S_S1x128) : (⟨S_, .f32⟩ : BufTy).Contents (Elt F) → (⟨S1x128, .f32⟩ : BufTy).Contents (Elt F)),
    binary main_call2_v1 main_call2_v2 main_call2_v3 (Host.divf : (⟨S1x128, .f32⟩ : BufTy).Contents (Elt F) → (⟨S1x128, .f32⟩ : BufTy).Contents (Elt F) → (⟨S1x128, .f32⟩ : BufTy).Contents (Elt F)),
    unary main_call2_v3 main_call2_v4 ((broadcastInDim S100000x128 ![0, 1] bcast_S1x128_S100000x128_0_1) : (⟨S1x128, .f32⟩ : BufTy).Contents (Elt F) → (⟨S100000x128, .f32⟩ : BufTy).Contents (Elt F)),
    binary main_v73 main_call2_v4 main_call2_v5 (subf : (⟨S100000x128, .f32⟩ : BufTy).Contents (Elt F) → (⟨S100000x128, .f32⟩ : BufTy).Contents (Elt F) → (⟨S100000x128, .f32⟩ : BufTy).Contents (Elt F)),
    binary main_call2_v5 main_call2_v5 main_call2_v6 (mulf : (⟨S100000x128, .f32⟩ : BufTy).Contents (Elt F) → (⟨S100000x128, .f32⟩ : BufTy).Contents (Elt F) → (⟨S100000x128, .f32⟩ : BufTy).Contents (Elt F)),
    unary main_c_16 main_call2_v7 ((sitofp .f32) : (⟨S_, .i32⟩ : BufTy).Contents (Elt F) → (⟨S_, .f32⟩ : BufTy).Contents (Elt F)),
    nullary main_call2_cst_1 ((constant S_ .f32 0x47C35000#32) : (⟨S_, .f32⟩ : BufTy).Contents (Elt F)),
    binary main_call2_cst_1 main_call2_v7 main_call2_v8 (subf : (⟨S_, .f32⟩ : BufTy).Contents (Elt F) → (⟨S_, .f32⟩ : BufTy).Contents (Elt F) → (⟨S_, .f32⟩ : BufTy).Contents (Elt F)),
    nullary main_call2_cst_2 ((constant S_ .f32 0x00000000#32) : (⟨S_, .f32⟩ : BufTy).Contents (Elt F)),
    binary main_call2_v6 main_call2_cst_2 main_call2_v9 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    unary main_call2_v8 main_call2_v10 ((broadcastInDim S128 ![] bcast_S_S128) : (⟨S_, .f32⟩ : BufTy).Contents (Elt F) → (⟨S128, .f32⟩ : BufTy).Contents (Elt F)),
    binary main_call2_v9 main_call2_v10 main_call2_v11 (Host.divf : (⟨S128, .f32⟩ : BufTy).Contents (Elt F) → (⟨S128, .f32⟩ : BufTy).Contents (Elt F) → (⟨S128, .f32⟩ : BufTy).Contents (Elt F)),
    nullary main_call2_cst_3 ((constant S_ .f32 0x00000000#32) : (⟨S_, .f32⟩ : BufTy).Contents (Elt F)),
    binary main_call2_v8 main_call2_cst_3 main_call2_v12 ((cmpf .ogt) : (⟨S_, .f32⟩ : BufTy).Contents (Elt F) → (⟨S_, .f32⟩ : BufTy).Contents (Elt F) → (⟨S_, .i1⟩ : BufTy).Contents (Elt F)),
    nullary main_call2_cst_4 ((constant S_ .f32 0x7FC00000#32) : (⟨S_, .f32⟩ : BufTy).Contents (Elt F)),
    unary main_call2_cst_4 main_call2_call0_v0 (id : (⟨S_, .f32⟩ : BufTy).Contents (Elt F) → (⟨S_, .f32⟩ : BufTy).Contents (Elt F)),
    unary main_call2_call0_v0 main_call2_call0_v1 ((broadcastInDim S128 ![] bcast_S_S128) : (⟨S_, .f32⟩ : BufTy).Contents (Elt F) → (⟨S128, .f32⟩ : BufTy).Contents (Elt F)),
    ternary main_call2_v12 main_call2_v11 main_call2_call0_v1 main_v77 ((fun p a b => select (broadcastInDim S128 ![] bcast_S_S128 p) a b) : (⟨S_, .i1⟩ : BufTy).Contents (Elt F) → (⟨S128, .f32⟩ : BufTy).Contents (Elt F) → (⟨S128, .f32⟩ : BufTy).Contents (Elt F) → (⟨S128, .f32⟩ : BufTy).Contents (Elt F)),
    unary main_v76 main_v78 (broadcastInDim S1x128 ![1] bcast_S128_S1x128_1 : (⟨S128, .f32⟩ : BufTy).Contents (Elt F) → (⟨S1x128, .f32⟩ : BufTy).Contents (Elt F)),
    unary main_v78 main_v79 (broadcastInDim S100000x128 ![0, 1] bcast_S1x128_S100000x128_0_1 : (⟨S1x128, .f32⟩ : BufTy).Contents (Elt F) → (⟨S100000x128, .f32⟩ : BufTy).Contents (Elt F)),
    binary main_v73 main_v79 main_v80 (subf : (⟨S100000x128, .f32⟩ : BufTy).Contents (Elt F) → (⟨S100000x128, .f32⟩ : BufTy).Contents (Elt F) → (⟨S100000x128, .f32⟩ : BufTy).Contents (Elt F)),
    nullary main_cst_17 (constant S_ .f32 0x3727C5AC#32),
    unary main_cst_17 main_v81 (broadcastInDim S128 ![] bcast_S_S128 : (⟨S_, .f32⟩ : BufTy).Contents (Elt F) → (⟨S128, .f32⟩ : BufTy).Contents (Elt F)),
    binary main_v77 main_v81 main_v82 (addf : (⟨S128, .f32⟩ : BufTy).Contents (Elt F) → (⟨S128, .f32⟩ : BufTy).Contents (Elt F) → (⟨S128, .f32⟩ : BufTy).Contents (Elt F)),
    unary main_v82 main_v83 (Host.rsqrt : (⟨S128, .f32⟩ : BufTy).Contents (Elt F) → (⟨S128, .f32⟩ : BufTy).Contents (Elt F)),
    unary main_v83 main_v84 (broadcastInDim S1x128 ![1] bcast_S128_S1x128_1 : (⟨S128, .f32⟩ : BufTy).Contents (Elt F) → (⟨S1x128, .f32⟩ : BufTy).Contents (Elt F)),
    unary main_v84 main_v85 (broadcastInDim S100000x128 ![0, 1] bcast_S1x128_S100000x128_0_1 : (⟨S1x128, .f32⟩ : BufTy).Contents (Elt F) → (⟨S100000x128, .f32⟩ : BufTy).Contents (Elt F)),
    binary main_v80 main_v85 main_v86 (mulf : (⟨S100000x128, .f32⟩ : BufTy).Contents (Elt F) → (⟨S100000x128, .f32⟩ : BufTy).Contents (Elt F) → (⟨S100000x128, .f32⟩ : BufTy).Contents (Elt F)),
    unary main_arg10 main_v87 (broadcastInDim S1x128 ![1] bcast_S128_S1x128_1 : (⟨S128, .f32⟩ : BufTy).Contents (Elt F) → (⟨S1x128, .f32⟩ : BufTy).Contents (Elt F)),
    unary main_v87 main_v88 (broadcastInDim S100000x128 ![0, 1] bcast_S1x128_S100000x128_0_1 : (⟨S1x128, .f32⟩ : BufTy).Contents (Elt F) → (⟨S100000x128, .f32⟩ : BufTy).Contents (Elt F)),
    binary main_v86 main_v88 main_v89 (mulf : (⟨S100000x128, .f32⟩ : BufTy).Contents (Elt F) → (⟨S100000x128, .f32⟩ : BufTy).Contents (Elt F) → (⟨S100000x128, .f32⟩ : BufTy).Contents (Elt F)),
    unary main_arg11 main_v90 (broadcastInDim S1x128 ![1] bcast_S128_S1x128_1 : (⟨S128, .f32⟩ : BufTy).Contents (Elt F) → (⟨S1x128, .f32⟩ : BufTy).Contents (Elt F)),
    unary main_v90 main_v91 (broadcastInDim S100000x128 ![0, 1] bcast_S1x128_S100000x128_0_1 : (⟨S1x128, .f32⟩ : BufTy).Contents (Elt F) → (⟨S100000x128, .f32⟩ : BufTy).Contents (Elt F)),
    binary main_v89 main_v91 main_v92 (addf : (⟨S100000x128, .f32⟩ : BufTy).Contents (Elt F) → (⟨S100000x128, .f32⟩ : BufTy).Contents (Elt F) → (⟨S100000x128, .f32⟩ : BufTy).Contents (Elt F)) ]

/-- `cRelu1` with each operation of a called function written as the plain operation at the call's buffers. -/
abbrev cRelu1U : List (HloOp τ sig (Elt F)) :=
  [ nullary main_call3_cst ((constant S_ .f32 0x00000000#32) : (⟨S_, .f32⟩ : BufTy).Contents (Elt F)),
    unary main_call3_cst main_call3_v0 ((broadcastInDim S100000x128 ![] bcast_S_S100000x128) : (⟨S_, .f32⟩ : BufTy).Contents (Elt F) → (⟨S100000x128, .f32⟩ : BufTy).Contents (Elt F)),
    binary main_v92 main_call3_v0 main_v93 (maximumf : (⟨S100000x128, .f32⟩ : BufTy).Contents (Elt F) → (⟨S100000x128, .f32⟩ : BufTy).Contents (Elt F) → (⟨S100000x128, .f32⟩ : BufTy).Contents (Elt F)) ]

attribute [local irreducible] Host.reduce Host.reduceAdd in
set_option maxRecDepth 8192 in
/-- Each typed-reference operation of the call is the plain operation at the same buffers: the transports along the buffers' types are the identity. -/
theorem cBn1_eqU : (cBn1 : List (HloOp τ sig (Elt F))) = cBn1U :=
  List.cons_eq_cons.mpr ⟨rfl, List.cons_eq_cons.mpr ⟨rfl, List.cons_eq_cons.mpr ⟨rfl, List.cons_eq_cons.mpr ⟨rfl, List.cons_eq_cons.mpr ⟨rfl, List.cons_eq_cons.mpr ⟨rfl, List.cons_eq_cons.mpr ⟨rfl, List.cons_eq_cons.mpr ⟨rfl, List.cons_eq_cons.mpr ⟨rfl, List.cons_eq_cons.mpr ⟨rfl, List.cons_eq_cons.mpr ⟨rfl, List.cons_eq_cons.mpr ⟨rfl, List.cons_eq_cons.mpr ⟨rfl, List.cons_eq_cons.mpr ⟨rfl, List.cons_eq_cons.mpr ⟨rfl, List.cons_eq_cons.mpr ⟨rfl, List.cons_eq_cons.mpr ⟨rfl, List.cons_eq_cons.mpr ⟨rfl, List.cons_eq_cons.mpr ⟨rfl, List.cons_eq_cons.mpr ⟨rfl, List.cons_eq_cons.mpr ⟨rfl, List.cons_eq_cons.mpr ⟨rfl, List.cons_eq_cons.mpr ⟨rfl, List.cons_eq_cons.mpr ⟨rfl, List.cons_eq_cons.mpr ⟨rfl, List.cons_eq_cons.mpr ⟨rfl, List.cons_eq_cons.mpr ⟨rfl, List.cons_eq_cons.mpr ⟨rfl, List.cons_eq_cons.mpr ⟨rfl, List.cons_eq_cons.mpr ⟨rfl, List.cons_eq_cons.mpr ⟨rfl, List.cons_eq_cons.mpr ⟨rfl, List.cons_eq_cons.mpr ⟨rfl, List.cons_eq_cons.mpr ⟨rfl, List.cons_eq_cons.mpr ⟨rfl, List.cons_eq_cons.mpr ⟨rfl, List.cons_eq_cons.mpr ⟨rfl, List.cons_eq_cons.mpr ⟨rfl, List.cons_eq_cons.mpr ⟨rfl, List.cons_eq_cons.mpr ⟨rfl, List.cons_eq_cons.mpr ⟨rfl, List.cons_eq_cons.mpr ⟨rfl, List.cons_eq_cons.mpr ⟨rfl, List.cons_eq_cons.mpr ⟨rfl, rfl⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩

attribute [local irreducible] Host.reduce Host.reduceAdd in
set_option maxRecDepth 8192 in
/-- Each typed-reference operation of the call is the plain operation at the same buffers: the transports along the buffers' types are the identity. -/
theorem cRelu1_eqU : (cRelu1 : List (HloOp τ sig (Elt F))) = cRelu1U :=
  List.cons_eq_cons.mpr ⟨rfl, List.cons_eq_cons.mpr ⟨rfl, List.cons_eq_cons.mpr ⟨rfl, rfl⟩⟩⟩

theorem cAgg1b_sub : (cAgg1b : List (HloOp τ sig (Elt F))).Forall fun op => op.bufs ⊆ tcRefs τ sig :=
  ⟨unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., binary_bufs_sub .., unary_bufs_sub .., unary_bufs_sub .., binary_bufs_sub ..⟩

theorem cConv1_sub : (cConv1 : List (HloOp τ sig (Elt F))).Forall fun op => op.bufs ⊆ tcRefs τ sig :=
  ⟨binary_bufs_sub .., binary_bufs_sub .., binary_bufs_sub .., unary_bufs_sub .., unary_bufs_sub .., binary_bufs_sub ..⟩

theorem cBn1_sub : (cBn1 : List (HloOp τ sig (Elt F))).Forall fun op => op.bufs ⊆ tcRefs τ sig :=
  ⟨nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub ..⟩

theorem cRelu1_sub : (cRelu1 : List (HloOp τ sig (Elt F))).Forall fun op => op.bufs ⊆ tcRefs τ sig :=
  ⟨nullary_bufs_sub .., unary_bufs_sub .., binary_bufs_sub ..⟩

theorem cAgg2a_sub : (cAgg2a : List (HloOp τ sig (Elt F))).Forall fun op => op.bufs ⊆ tcRefs τ sig :=
  ⟨nullary_bufs_sub .., unary_bufs_sub .., nullary_bufs_sub .., unary_bufs_sub .., unary_bufs_sub .., ternary_bufs_sub ..⟩

/-- The buffers `cAgg1b` writes, one per operation, in order. -/
abbrev cAgg1bW : List (Ref sig .tc) :=
  [main_v49, main_cst_9, main_v50, main_v51, main_v52, main_c_10, main_v53, main_v54, main_c_11, main_v55, main_v56, main_v57, main_v58, main_v59, main_cst_12, main_v60, main_v61, main_v62, main_cst_13, main_v63, main_v64, main_v65, main_v66, main_v67]

theorem cAgg1b_writes : (cAgg1b : List (HloOp τ sig (Elt F))).Forall fun op => op.writes ⊆ ((cAgg1bW).map (Proc.devRef (τ := τ) .tc)).toFinset :=
  ⟨Cert.RunLib.writes_sub_of_mem rfl (by decide),
   Cert.RunLib.writes_sub_of_mem rfl (by decide),
   Cert.RunLib.writes_sub_of_mem rfl (by decide),
   Cert.RunLib.writes_sub_of_mem rfl (by decide),
   Cert.RunLib.writes_sub_of_mem rfl (by decide),
   Cert.RunLib.writes_sub_of_mem rfl (by decide),
   Cert.RunLib.writes_sub_of_mem rfl (by decide),
   Cert.RunLib.writes_sub_of_mem rfl (by decide),
   Cert.RunLib.writes_sub_of_mem rfl (by decide),
   Cert.RunLib.writes_sub_of_mem rfl (by decide),
   Cert.RunLib.writes_sub_of_mem rfl (by decide),
   Cert.RunLib.writes_sub_of_mem rfl (by decide),
   Cert.RunLib.writes_sub_of_mem rfl (by decide),
   Cert.RunLib.writes_sub_of_mem rfl (by decide),
   Cert.RunLib.writes_sub_of_mem rfl (by decide),
   Cert.RunLib.writes_sub_of_mem rfl (by decide),
   Cert.RunLib.writes_sub_of_mem rfl (by decide),
   Cert.RunLib.writes_sub_of_mem rfl (by decide),
   Cert.RunLib.writes_sub_of_mem rfl (by decide),
   Cert.RunLib.writes_sub_of_mem rfl (by decide),
   Cert.RunLib.writes_sub_of_mem rfl (by decide),
   Cert.RunLib.writes_sub_of_mem rfl (by decide),
   Cert.RunLib.writes_sub_of_mem rfl (by decide),
   Cert.RunLib.writes_sub_of_mem rfl (by decide)⟩

/-- A buffer `cAgg1b` does not write keeps its contents. -/
theorem cAgg1b_keep (V : Valuation τ sig (Elt F)) {r : Ref sig .tc} (hr : r ∉ cAgg1bW) :
    after cAgg1b V (no_index (Proc.devRef .tc r)) = V (Proc.devRef .tc r) :=
  after_of_writes_sub cAgg1b V cAgg1b_writes hr

/-- The buffers `cConv1` writes, one per operation, in order. -/
abbrev cConv1W : List (Ref sig .tc) :=
  [main_v68, main_v69, main_v70, main_v71, main_v72, main_v73]

theorem cConv1_writes : (cConv1 : List (HloOp τ sig (Elt F))).Forall fun op => op.writes ⊆ ((cConv1W).map (Proc.devRef (τ := τ) .tc)).toFinset :=
  ⟨Cert.RunLib.writes_sub_of_mem rfl (by decide),
   Cert.RunLib.writes_sub_of_mem rfl (by decide),
   Cert.RunLib.writes_sub_of_mem rfl (by decide),
   Cert.RunLib.writes_sub_of_mem rfl (by decide),
   Cert.RunLib.writes_sub_of_mem rfl (by decide),
   Cert.RunLib.writes_sub_of_mem rfl (by decide)⟩

/-- A buffer `cConv1` does not write keeps its contents. -/
theorem cConv1_keep (V : Valuation τ sig (Elt F)) {r : Ref sig .tc} (hr : r ∉ cConv1W) :
    after cConv1 V (no_index (Proc.devRef .tc r)) = V (Proc.devRef .tc r) :=
  after_of_writes_sub cConv1 V cConv1_writes hr

/-- The buffers `cBn1` writes, one per operation, in order. -/
abbrev cBn1W : List (Ref sig .tc) :=
  [main_cst_14, main_v74, main_cst_15, main_v75, main_v76, main_c_16, main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_cst_3, main_call2_v12, main_call2_cst_4, main_call2_call0_v0, main_call2_call0_v1, main_v77, main_v78, main_v79, main_v80, main_cst_17, main_v81, main_v82, main_v83, main_v84, main_v85, main_v86, main_v87, main_v88, main_v89, main_v90, main_v91, main_v92]

theorem cBn1_writes : (cBn1 : List (HloOp τ sig (Elt F))).Forall fun op => op.writes ⊆ ((cBn1W).map (Proc.devRef (τ := τ) .tc)).toFinset :=
  ⟨Cert.RunLib.writes_sub_of_mem rfl (by decide),
   Cert.RunLib.writes_sub_of_mem rfl (by decide),
   Cert.RunLib.writes_sub_of_mem rfl (by decide),
   Cert.RunLib.writes_sub_of_mem rfl (by decide),
   Cert.RunLib.writes_sub_of_mem rfl (by decide),
   Cert.RunLib.writes_sub_of_mem rfl (by decide),
   Cert.RunLib.writes_sub_of_mem rfl (by decide),
   Cert.RunLib.writes_sub_of_mem rfl (by decide),
   Cert.RunLib.writes_sub_of_mem rfl (by decide),
   Cert.RunLib.writes_sub_of_mem rfl (by decide),
   Cert.RunLib.writes_sub_of_mem rfl (by decide),
   Cert.RunLib.writes_sub_of_mem rfl (by decide),
   Cert.RunLib.writes_sub_of_mem rfl (by decide),
   Cert.RunLib.writes_sub_of_mem rfl (by decide),
   Cert.RunLib.writes_sub_of_mem rfl (by decide),
   Cert.RunLib.writes_sub_of_mem rfl (by decide),
   Cert.RunLib.writes_sub_of_mem rfl (by decide),
   Cert.RunLib.writes_sub_of_mem rfl (by decide),
   Cert.RunLib.writes_sub_of_mem rfl (by decide),
   Cert.RunLib.writes_sub_of_mem rfl (by decide),
   Cert.RunLib.writes_sub_of_mem rfl (by decide),
   Cert.RunLib.writes_sub_of_mem rfl (by decide),
   Cert.RunLib.writes_sub_of_mem rfl (by decide),
   Cert.RunLib.writes_sub_of_mem rfl (by decide),
   Cert.RunLib.writes_sub_of_mem rfl (by decide),
   Cert.RunLib.writes_sub_of_mem rfl (by decide),
   Cert.RunLib.writes_sub_of_mem rfl (by decide),
   Cert.RunLib.writes_sub_of_mem rfl (by decide),
   Cert.RunLib.writes_sub_of_mem rfl (by decide),
   Cert.RunLib.writes_sub_of_mem rfl (by decide),
   Cert.RunLib.writes_sub_of_mem rfl (by decide),
   Cert.RunLib.writes_sub_of_mem rfl (by decide),
   Cert.RunLib.writes_sub_of_mem rfl (by decide),
   Cert.RunLib.writes_sub_of_mem rfl (by decide),
   Cert.RunLib.writes_sub_of_mem rfl (by decide),
   Cert.RunLib.writes_sub_of_mem rfl (by decide),
   Cert.RunLib.writes_sub_of_mem rfl (by decide),
   Cert.RunLib.writes_sub_of_mem rfl (by decide),
   Cert.RunLib.writes_sub_of_mem rfl (by decide),
   Cert.RunLib.writes_sub_of_mem rfl (by decide),
   Cert.RunLib.writes_sub_of_mem rfl (by decide),
   Cert.RunLib.writes_sub_of_mem rfl (by decide),
   Cert.RunLib.writes_sub_of_mem rfl (by decide),
   Cert.RunLib.writes_sub_of_mem rfl (by decide)⟩

/-- A buffer `cBn1` does not write keeps its contents. -/
theorem cBn1_keep (V : Valuation τ sig (Elt F)) {r : Ref sig .tc} (hr : r ∉ cBn1W) :
    after cBn1 V (no_index (Proc.devRef .tc r)) = V (Proc.devRef .tc r) :=
  after_of_writes_sub cBn1 V cBn1_writes hr

/-- The buffers `cRelu1` writes, one per operation, in order. -/
abbrev cRelu1W : List (Ref sig .tc) :=
  [main_call3_cst, main_call3_v0, main_v93]

theorem cRelu1_writes : (cRelu1 : List (HloOp τ sig (Elt F))).Forall fun op => op.writes ⊆ ((cRelu1W).map (Proc.devRef (τ := τ) .tc)).toFinset :=
  ⟨Cert.RunLib.writes_sub_of_mem rfl (by decide),
   Cert.RunLib.writes_sub_of_mem rfl (by decide),
   Cert.RunLib.writes_sub_of_mem rfl (by decide)⟩

/-- A buffer `cRelu1` does not write keeps its contents. -/
theorem cRelu1_keep (V : Valuation τ sig (Elt F)) {r : Ref sig .tc} (hr : r ∉ cRelu1W) :
    after cRelu1 V (no_index (Proc.devRef .tc r)) = V (Proc.devRef .tc r) :=
  after_of_writes_sub cRelu1 V cRelu1_writes hr

/-- The buffers `cAgg2a` writes, one per operation, in order. -/
abbrev cAgg2aW : List (Ref sig .tc) :=
  [main_cst_18, main_v94, main_cst_19, main_v95, main_v96, main_v97]

theorem cAgg2a_writes : (cAgg2a : List (HloOp τ sig (Elt F))).Forall fun op => op.writes ⊆ ((cAgg2aW).map (Proc.devRef (τ := τ) .tc)).toFinset :=
  ⟨Cert.RunLib.writes_sub_of_mem rfl (by decide),
   Cert.RunLib.writes_sub_of_mem rfl (by decide),
   Cert.RunLib.writes_sub_of_mem rfl (by decide),
   Cert.RunLib.writes_sub_of_mem rfl (by decide),
   Cert.RunLib.writes_sub_of_mem rfl (by decide),
   Cert.RunLib.writes_sub_of_mem rfl (by decide)⟩

/-- A buffer `cAgg2a` does not write keeps its contents. -/
theorem cAgg2a_keep (V : Valuation τ sig (Elt F)) {r : Ref sig .tc} (hr : r ∉ cAgg2aW) :
    after cAgg2a V (no_index (Proc.devRef .tc r)) = V (Proc.devRef .tc r) :=
  after_of_writes_sub cAgg2a V cAgg2a_writes hr

set_option maxRecDepth 8192 in
set_option maxHeartbeats 4000000 in
/-- The window is the sequence of its operations: each called function's text unfolded at its call,
    the sequencing re-associated; what is left differs only in how the side conditions' proofs are written. -/
theorem main_part1_eq (d : Dev nD) : main_part1 (F := F) d = seq (cAgg1b ++ (cConv1 ++ (cBn1 ++ (cRelu1 ++ (cAgg2a))))) := by
  simp only [main_part1, fn_var.body, fn_where.body, fn_relu.body, cAgg1b, cConv1, cBn1, cRelu1, cAgg2a, List.cons_append, List.nil_append, seq, bind_assoc, pure_bind]
  first | done | rfl

end Cert.ReferenceIdeal.RValue

end
-- ==== Proof.RefValA1.lean ====
/-
  What the second aggregation, the second convolution and the second relu leave in their result buffers, each as a named term of what was read.

  Each is read off the list of operations: an operation's result at its own buffer is its function of its
  operands' contents, and any other buffer is untouched; what remains is the named term, unfolded.
-/
import proofs.«110434_j36318243455158_2_alg».proof.Proof.RefOps0
import proofs.«110434_j36318243455158_2_alg».proof.Proof.RefOps1
import proofs.«110434_j36318243455158_2_alg».proof.Proof.RefAggOf

noncomputable section

namespace Cert.ReferenceIdeal.RValue

open Idealize.ShloMosaic Idealize.ShloMosaic.TcCoe Idealize.SL.Sem Idealize.ShloMosaic.StableHlo Cert.ReferenceIdeal
open Cert.ReferenceIdeal.Facts₀ Cert.ReferenceIdeal.Facts

variable [Cert.ReferenceIdeal.Facts]

attribute [local irreducible] Host.reduce Host.reduceAdd Host.gather Host.scatterAdd FloatOps.dotGeneral in
set_option maxRecDepth 8192 in
set_option maxHeartbeats 4000000 in
/-- The aggregation of layer 1: the mean over in-neighbours of the rows it gathered. -/
theorem cAgg1_out (V : Valuation τ sig (Elt Ideal)) :
    after (cAgg1b (F := Ideal)) (after (cAgg1a (F := Ideal)) V) (main_v67 : DevRef τ sig) = aggOf (V (main_v1 : DevRef τ sig)) (V (main_v3 : DevRef τ sig)) (V (main_v48 : DevRef τ sig)) := by
  after_results_simp
  rfl

attribute [local irreducible] Host.reduce Host.reduceAdd Host.gather Host.scatterAdd FloatOps.dotGeneral in
set_option maxRecDepth 8192 in
set_option maxHeartbeats 4000000 in
/-- The second convolution's result. -/
theorem cConv1_out (V : Valuation τ sig (Elt Ideal)) :
    after (cConv1 (F := Ideal)) V (main_v73 : DevRef τ sig) = convTerm (V (main_v48 : DevRef τ sig)) (V (main_v67 : DevRef τ sig)) (V (main_arg7 : DevRef τ sig)) (V (main_arg8 : DevRef τ sig)) (V (main_arg9 : DevRef τ sig)) := by
  after_results_simp
  rfl

attribute [local irreducible] Host.reduce Host.reduceAdd Host.gather Host.scatterAdd FloatOps.dotGeneral in
set_option maxRecDepth 8192 in
set_option maxHeartbeats 4000000 in
/-- The second relu's result. -/
theorem cRelu1_out (V : Valuation τ sig (Elt Ideal)) :
    after (cRelu1 (F := Ideal)) V (main_v93 : DevRef τ sig) = reluTerm (V (main_v92 : DevRef τ sig)) := by
  rw [cRelu1_eqU]
  after_results_simp
  rfl

end Cert.ReferenceIdeal.RValue

end
-- ==== Proof.RefValB1.lean ====
/-
  What the second batch normalisation's operations leave in their result buffers, each as a named term of what was read.

  Each is read off the list of operations: an operation's result at its own buffer is its function of its
  operands' contents, and any other buffer is untouched; what remains is the named term, unfolded.
-/
import proofs.«110434_j36318243455158_2_alg».proof.Proof.RefOps1
import proofs.«110434_j36318243455158_2_alg».proof.Proof.RefTerm

noncomputable section

namespace Cert.ReferenceIdeal.RValue

open Idealize.ShloMosaic Idealize.ShloMosaic.TcCoe Idealize.SL.Sem Idealize.ShloMosaic.StableHlo Cert.ReferenceIdeal
open Cert.ReferenceIdeal.Facts₀ Cert.ReferenceIdeal.Facts

variable [Cert.ReferenceIdeal.Facts]

attribute [local irreducible] Host.reduce Host.reduceAdd Host.gather Host.scatterAdd FloatOps.dotGeneral in
set_option maxRecDepth 8192 in
set_option maxHeartbeats 4000000 in
/-- The second batch normalisation's result. -/
theorem cBn1_out (V : Valuation τ sig (Elt Ideal)) :
    after (cBn1 (F := Ideal)) V (main_v92 : DevRef τ sig) = bnTerm (V (main_v73 : DevRef τ sig)) (V (main_arg10 : DevRef τ sig)) (V (main_arg11 : DevRef τ sig)) := by
  rw [cBn1_eqU]
  after_results_simp
  rfl

end Cert.ReferenceIdeal.RValue

end
-- ==== Proof.RefOps2.lean ====
/-
  The last third of the reference's straight line, as lists of host operations: the rest of the third
  aggregation (the wrapped source index, the gather, the scatter-add into zeros, the division by the clamped
  in-degree), the output convolution, and the log-softmax's fifteen operations written out at the call site
  over that call's own buffers. The window equals the sequence of these lists; for each list, the buffers it
  writes, and that any other buffer keeps its contents across it.
  A list holding a called function's operations is also given with each of them as the plain operation at the
  call's buffers (the typed references only transport along the buffers' types, which is the identity here).
-/
import proofs.«110434_j36318243455158_2_alg».proof.ReferenceIdeal
import Idealize.ShloMosaic.Lib.StableHlo.Run
import proofs.«110434_j36318243455158_2_alg».proof.Proof.RefRunLib

noncomputable section

namespace Cert.ReferenceIdeal.RValue

open Idealize.ShloMosaic Idealize.ShloMosaic.TcCoe Idealize.SL.Sem Idealize.ShloMosaic.StableHlo Cert.ReferenceIdeal
open Cert.ReferenceIdeal.Facts₀ Cert.ReferenceIdeal.Facts

variable {F : FTy → Type} [FloatOps F] [Cert.ReferenceIdeal.Facts]

/-- The third aggregation, from the comparison of the source index with zero to the division. -/
abbrev cAgg2b : List (HloOp τ sig (Elt F)) :=
  [ nullary main_c_20 (constantI S_ 32 0#32),
    unary main_c_20 main_v98 (broadcastInDim S1600000 ![] bcast_S_S1600000 : (⟨S_, .i32⟩ : BufTy).Contents (Elt F) → (⟨S1600000, .i32⟩ : BufTy).Contents (Elt F)),
    binary main_v1 main_v98 main_v99 (cmpi .slt : (⟨S1600000, .i32⟩ : BufTy).Contents (Elt F) → (⟨S1600000, .i32⟩ : BufTy).Contents (Elt F) → (⟨S1600000, .i1⟩ : BufTy).Contents (Elt F)),
    nullary main_c_21 (constantI S_ 32 100000#32),
    unary main_c_21 main_v100 (broadcastInDim S1600000 ![] bcast_S_S1600000 : (⟨S_, .i32⟩ : BufTy).Contents (Elt F) → (⟨S1600000, .i32⟩ : BufTy).Contents (Elt F)),
    binary main_v1 main_v100 main_v101 (addi : (⟨S1600000, .i32⟩ : BufTy).Contents (Elt F) → (⟨S1600000, .i32⟩ : BufTy).Contents (Elt F) → (⟨S1600000, .i32⟩ : BufTy).Contents (Elt F)),
    ternary main_v99 main_v101 main_v1 main_v102 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v102 main_v103 (broadcastInDim S1600000x1 ![0] bcast_S1600000_S1600000x1_0 : (⟨S1600000, .i32⟩ : BufTy).Contents (Elt F) → (⟨S1600000x1, .i32⟩ : BufTy).Contents (Elt F)),
    binary main_v93 main_v103 main_v104 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst_22 (constant S_ .f32 0x00000000#32),
    unary main_cst_22 main_v105 (broadcastInDim S100000x128 ![] bcast_S_S100000x128 : (⟨S_, .f32⟩ : BufTy).Contents (Elt F) → (⟨S100000x128, .f32⟩ : BufTy).Contents (Elt F)),
    unary main_v3 main_v106 (broadcastInDim S1600000x1 ![0] bcast_S1600000_S1600000x1_0 : (⟨S1600000, .i32⟩ : BufTy).Contents (Elt F) → (⟨S1600000x1, .i32⟩ : BufTy).Contents (Elt F)),
    ternary main_v105 main_v106 main_v104 main_v107 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    nullary main_cst_23 (constant S_ .f32 0x3F800000#32),
    unary main_cst_23 main_v108 (broadcastInDim S100000 ![] bcast_S_S100000 : (⟨S_, .f32⟩ : BufTy).Contents (Elt F) → (⟨S100000, .f32⟩ : BufTy).Contents (Elt F)),
    binary main_v97 main_v108 main_v109 (maximumf : (⟨S100000, .f32⟩ : BufTy).Contents (Elt F) → (⟨S100000, .f32⟩ : BufTy).Contents (Elt F) → (⟨S100000, .f32⟩ : BufTy).Contents (Elt F)),
    unary main_v109 main_v110 (broadcastInDim S100000x1 ![0] bcast_S100000_S100000x1_0 : (⟨S100000, .f32⟩ : BufTy).Contents (Elt F) → (⟨S100000x1, .f32⟩ : BufTy).Contents (Elt F)),
    unary main_v110 main_v111 (broadcastInDim S100000x128 ![0, 1] bcast_S100000x1_S100000x128_0_1 : (⟨S100000x1, .f32⟩ : BufTy).Contents (Elt F) → (⟨S100000x128, .f32⟩ : BufTy).Contents (Elt F)),
    binary main_v107 main_v111 main_v112 (Host.divf : (⟨S100000x128, .f32⟩ : BufTy).Contents (Elt F) → (⟨S100000x128, .f32⟩ : BufTy).Contents (Elt F) → (⟨S100000x128, .f32⟩ : BufTy).Contents (Elt F)) ]

/-- The output convolution: two contractions, their sum, the bias spread over the rows, the sum. -/
abbrev cConv2 : List (HloOp τ sig (Elt F)) :=
  [ binary main_v93 main_arg12 main_v113 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    binary main_v112 main_arg13 main_v114 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    binary main_v113 main_v114 main_v115 (addf : (⟨S100000x64, .f32⟩ : BufTy).Contents (Elt F) → (⟨S100000x64, .f32⟩ : BufTy).Contents (Elt F) → (⟨S100000x64, .f32⟩ : BufTy).Contents (Elt F)),
    unary main_arg14 main_v116 (broadcastInDim S1x64 ![1] bcast_S64_S1x64_1 : (⟨S64, .f32⟩ : BufTy).Contents (Elt F) → (⟨S1x64, .f32⟩ : BufTy).Contents (Elt F)),
    unary main_v116 main_v117 (broadcastInDim S100000x64 ![0, 1] bcast_S1x64_S100000x64_0_1 : (⟨S1x64, .f32⟩ : BufTy).Contents (Elt F) → (⟨S100000x64, .f32⟩ : BufTy).Contents (Elt F)),
    binary main_v115 main_v117 main_v118 (addf : (⟨S100000x64, .f32⟩ : BufTy).Contents (Elt F) → (⟨S100000x64, .f32⟩ : BufTy).Contents (Elt F) → (⟨S100000x64, .f32⟩ : BufTy).Contents (Elt F)) ]

/-- The log-softmax over each row of 64, its operations in order over the call's buffers. -/
abbrev cLsm : List (HloOp τ sig (Elt F)) :=
  [ TRef.nullary main_call4.cst (constant S_ .f32 0xFF800000#32),
    TRef.binary (.of main_v118 : StableHlo.TRef sig ⟨S100000x64, .f32⟩) main_call4.cst main_call4.v0 (fun x v => Host.reduce FloatOps.maximumf x v reducesTo_S100000x64_S100000_d1 h_S_),
    TRef.nullary main_call4.cst_0 (constant S_ .f32 0xFF800000#32),
    TRef.unary main_call4.cst_0 main_call4.v1 (broadcastInDim S100000 ![] bcast_S_S100000),
    TRef.binary main_call4.v1 main_call4.v0 main_call4.v2 maximumf,
    TRef.unary main_call4.v2 main_call4.v3 (broadcastInDim S100000x1 ![0] bcast_S100000_S100000x1_0),
    TRef.unary main_call4.v3 main_call4.v4 (broadcastInDim S100000x64 ![0, 1] bcast_S100000x1_S100000x64_0_1),
    TRef.binary (.of main_v118 : StableHlo.TRef sig ⟨S100000x64, .f32⟩) main_call4.v4 main_call4.v5 subf,
    TRef.unary main_call4.v5 main_call4.v6 Host.exp,
    TRef.nullary main_call4.cst_1 (constant S_ .f32 0x00000000#32),
    TRef.binary main_call4.v6 main_call4.cst_1 main_call4.v7 (fun x v => Host.reduceAdd x v reducesTo_S100000x64_S100000_d1 h_S_),
    TRef.unary main_call4.v7 main_call4.v8 (broadcastInDim S100000x1 ![0] bcast_S100000_S100000x1_0),
    TRef.unary main_call4.v8 main_call4.v9 Host.log,
    TRef.unary main_call4.v9 main_call4.v10 (broadcastInDim S100000x64 ![0, 1] bcast_S100000x1_S100000x64_0_1),
    TRef.binary main_call4.v5 main_call4.v10 main_call4.v11 subf ]

/-- `cLsm` with each operation of a called function written as the plain operation at the call's buffers. -/
abbrev cLsmU : List (HloOp τ sig (Elt F)) :=
  [ nullary main_call4_cst ((constant S_ .f32 0xFF800000#32) : (⟨S_, .f32⟩ : BufTy).Contents (Elt F)),
    binary main_v118 main_call4_cst main_call4_v0 ((fun x v => Host.reduce FloatOps.maximumf x v reducesTo_S100000x64_S100000_d1 h_S_) : (⟨S100000x64, .f32⟩ : BufTy).Contents (Elt F) → (⟨S_, .f32⟩ : BufTy).Contents (Elt F) → (⟨S100000, .f32⟩ : BufTy).Contents (Elt F)),
    nullary main_call4_cst_0 ((constant S_ .f32 0xFF800000#32) : (⟨S_, .f32⟩ : BufTy).Contents (Elt F)),
    unary main_call4_cst_0 main_call4_v1 ((broadcastInDim S100000 ![] bcast_S_S100000) : (⟨S_, .f32⟩ : BufTy).Contents (Elt F) → (⟨S100000, .f32⟩ : BufTy).Contents (Elt F)),
    binary main_call4_v1 main_call4_v0 main_call4_v2 (maximumf : (⟨S100000, .f32⟩ : BufTy).Contents (Elt F) → (⟨S100000, .f32⟩ : BufTy).Contents (Elt F) → (⟨S100000, .f32⟩ : BufTy).Contents (Elt F)),
    unary main_call4_v2 main_call4_v3 ((broadcastInDim S100000x1 ![0] bcast_S100000_S100000x1_0) : (⟨S100000, .f32⟩ : BufTy).Contents (Elt F) → (⟨S100000x1, .f32⟩ : BufTy).Contents (Elt F)),
    unary main_call4_v3 main_call4_v4 ((broadcastInDim S100000x64 ![0, 1] bcast_S100000x1_S100000x64_0_1) : (⟨S100000x1, .f32⟩ : BufTy).Contents (Elt F) → (⟨S100000x64, .f32⟩ : BufTy).Contents (Elt F)),
    binary main_v118 main_call4_v4 main_call4_v5 (subf : (⟨S100000x64, .f32⟩ : BufTy).Contents (Elt F) → (⟨S100000x64, .f32⟩ : BufTy).Contents (Elt F) → (⟨S100000x64, .f32⟩ : BufTy).Contents (Elt F)),
    unary main_call4_v5 main_call4_v6 (Host.exp : (⟨S100000x64, .f32⟩ : BufTy).Contents (Elt F) → (⟨S100000x64, .f32⟩ : BufTy).Contents (Elt F)),
    nullary main_call4_cst_1 ((constant S_ .f32 0x00000000#32) : (⟨S_, .f32⟩ : BufTy).Contents (Elt F)),
    binary main_call4_v6 main_call4_cst_1 main_call4_v7 ((fun x v => Host.reduceAdd x v reducesTo_S100000x64_S100000_d1 h_S_) : (⟨S100000x64, .f32⟩ : BufTy).Contents (Elt F) → (⟨S_, .f32⟩ : BufTy).Contents (Elt F) → (⟨S100000, .f32⟩ : BufTy).Contents (Elt F)),
    unary main_call4_v7 main_call4_v8 ((broadcastInDim S100000x1 ![0] bcast_S100000_S100000x1_0) : (⟨S100000, .f32⟩ : BufTy).Contents (Elt F) → (⟨S100000x1, .f32⟩ : BufTy).Contents (Elt F)),
    unary main_call4_v8 main_call4_v9 (Host.log : (⟨S100000x1, .f32⟩ : BufTy).Contents (Elt F) → (⟨S100000x1, .f32⟩ : BufTy).Contents (Elt F)),
    unary main_call4_v9 main_call4_v10 ((broadcastInDim S100000x64 ![0, 1] bcast_S100000x1_S100000x64_0_1) : (⟨S100000x1, .f32⟩ : BufTy).Contents (Elt F) → (⟨S100000x64, .f32⟩ : BufTy).Contents (Elt F)),
    binary main_call4_v5 main_call4_v10 main_v119 (subf : (⟨S100000x64, .f32⟩ : BufTy).Contents (Elt F) → (⟨S100000x64, .f32⟩ : BufTy).Contents (Elt F) → (⟨S100000x64, .f32⟩ : BufTy).Contents (Elt F)) ]

attribute [local irreducible] Host.reduce Host.reduceAdd in
set_option maxRecDepth 8192 in
/-- Each typed-reference operation of the call is the plain operation at the same buffers: the transports along the buffers' types are the identity. -/
theorem cLsm_eqU : (cLsm : List (HloOp τ sig (Elt F))) = cLsmU :=
  List.cons_eq_cons.mpr ⟨rfl, List.cons_eq_cons.mpr ⟨rfl, List.cons_eq_cons.mpr ⟨rfl, List.cons_eq_cons.mpr ⟨rfl, List.cons_eq_cons.mpr ⟨rfl, List.cons_eq_cons.mpr ⟨rfl, List.cons_eq_cons.mpr ⟨rfl, List.cons_eq_cons.mpr ⟨rfl, List.cons_eq_cons.mpr ⟨rfl, List.cons_eq_cons.mpr ⟨rfl, List.cons_eq_cons.mpr ⟨rfl, List.cons_eq_cons.mpr ⟨rfl, List.cons_eq_cons.mpr ⟨rfl, List.cons_eq_cons.mpr ⟨rfl, List.cons_eq_cons.mpr ⟨rfl, rfl⟩⟩⟩⟩⟩⟩⟩⟩⟩⟩⟩⟩⟩⟩⟩

theorem cAgg2b_sub : (cAgg2b : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., binary_bufs_sub .., unary_bufs_sub .., unary_bufs_sub .., binary_bufs_sub ..⟩

theorem cConv2_sub : (cConv2 : List (HloOp τ sig (Elt F))).Forall fun op => op.bufs ⊆ tcRefs τ sig :=
  ⟨binary_bufs_sub .., binary_bufs_sub .., binary_bufs_sub .., unary_bufs_sub .., unary_bufs_sub .., binary_bufs_sub ..⟩

theorem cLsm_sub : (cLsm : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

/-- The buffers `cAgg2b` writes, one per operation, in order. -/
abbrev cAgg2bW : List (Ref sig .tc) :=
  [main_c_20, main_v98, main_v99, main_c_21, main_v100, main_v101, main_v102, main_v103, main_v104, main_cst_22, main_v105, main_v106, main_v107, main_cst_23, main_v108, main_v109, main_v110, main_v111, main_v112]

theorem cAgg2b_writes : (cAgg2b : List (HloOp τ sig (Elt F))).Forall fun op => op.writes ⊆ ((cAgg2bW).map (Proc.devRef (τ := τ) .tc)).toFinset :=
  ⟨Cert.RunLib.writes_sub_of_mem rfl (by decide),
   Cert.RunLib.writes_sub_of_mem rfl (by decide),
   Cert.RunLib.writes_sub_of_mem rfl (by decide),
   Cert.RunLib.writes_sub_of_mem rfl (by decide),
   Cert.RunLib.writes_sub_of_mem rfl (by decide),
   Cert.RunLib.writes_sub_of_mem rfl (by decide),
   Cert.RunLib.writes_sub_of_mem rfl (by decide),
   Cert.RunLib.writes_sub_of_mem rfl (by decide),
   Cert.RunLib.writes_sub_of_mem rfl (by decide),
   Cert.RunLib.writes_sub_of_mem rfl (by decide),
   Cert.RunLib.writes_sub_of_mem rfl (by decide),
   Cert.RunLib.writes_sub_of_mem rfl (by decide),
   Cert.RunLib.writes_sub_of_mem rfl (by decide),
   Cert.RunLib.writes_sub_of_mem rfl (by decide),
   Cert.RunLib.writes_sub_of_mem rfl (by decide),
   Cert.RunLib.writes_sub_of_mem rfl (by decide),
   Cert.RunLib.writes_sub_of_mem rfl (by decide),
   Cert.RunLib.writes_sub_of_mem rfl (by decide),
   Cert.RunLib.writes_sub_of_mem rfl (by decide)⟩

/-- A buffer `cAgg2b` does not write keeps its contents. -/
theorem cAgg2b_keep (V : Valuation τ sig (Elt F)) {r : Ref sig .tc} (hr : r ∉ cAgg2bW) :
    after cAgg2b V (no_index (Proc.devRef .tc r)) = V (Proc.devRef .tc r) :=
  after_of_writes_sub cAgg2b V cAgg2b_writes hr

/-- The buffers `cConv2` writes, one per operation, in order. -/
abbrev cConv2W : List (Ref sig .tc) :=
  [main_v113, main_v114, main_v115, main_v116, main_v117, main_v118]

theorem cConv2_writes : (cConv2 : List (HloOp τ sig (Elt F))).Forall fun op => op.writes ⊆ ((cConv2W).map (Proc.devRef (τ := τ) .tc)).toFinset :=
  ⟨Cert.RunLib.writes_sub_of_mem rfl (by decide),
   Cert.RunLib.writes_sub_of_mem rfl (by decide),
   Cert.RunLib.writes_sub_of_mem rfl (by decide),
   Cert.RunLib.writes_sub_of_mem rfl (by decide),
   Cert.RunLib.writes_sub_of_mem rfl (by decide),
   Cert.RunLib.writes_sub_of_mem rfl (by decide)⟩

/-- A buffer `cConv2` does not write keeps its contents. -/
theorem cConv2_keep (V : Valuation τ sig (Elt F)) {r : Ref sig .tc} (hr : r ∉ cConv2W) :
    after cConv2 V (no_index (Proc.devRef .tc r)) = V (Proc.devRef .tc r) :=
  after_of_writes_sub cConv2 V cConv2_writes hr

/-- The buffers `cLsm` writes, one per operation, in order. -/
abbrev cLsmW : List (Ref sig .tc) :=
  [main_call4_cst, main_call4_v0, main_call4_cst_0, main_call4_v1, main_call4_v2, main_call4_v3, main_call4_v4, main_call4_v5, main_call4_v6, main_call4_cst_1, main_call4_v7, main_call4_v8, main_call4_v9, main_call4_v10, main_v119]

theorem cLsm_writes : (cLsm : List (HloOp τ sig (Elt F))).Forall fun op => op.writes ⊆ ((cLsmW).map (Proc.devRef (τ := τ) .tc)).toFinset :=
  ⟨Cert.RunLib.writes_sub_of_mem rfl (by decide),
   Cert.RunLib.writes_sub_of_mem rfl (by decide),
   Cert.RunLib.writes_sub_of_mem rfl (by decide),
   Cert.RunLib.writes_sub_of_mem rfl (by decide),
   Cert.RunLib.writes_sub_of_mem rfl (by decide),
   Cert.RunLib.writes_sub_of_mem rfl (by decide),
   Cert.RunLib.writes_sub_of_mem rfl (by decide),
   Cert.RunLib.writes_sub_of_mem rfl (by decide),
   Cert.RunLib.writes_sub_of_mem rfl (by decide),
   Cert.RunLib.writes_sub_of_mem rfl (by decide),
   Cert.RunLib.writes_sub_of_mem rfl (by decide),
   Cert.RunLib.writes_sub_of_mem rfl (by decide),
   Cert.RunLib.writes_sub_of_mem rfl (by decide),
   Cert.RunLib.writes_sub_of_mem rfl (by decide),
   Cert.RunLib.writes_sub_of_mem rfl (by decide)⟩

/-- A buffer `cLsm` does not write keeps its contents. -/
theorem cLsm_keep (V : Valuation τ sig (Elt F)) {r : Ref sig .tc} (hr : r ∉ cLsmW) :
    after cLsm V (no_index (Proc.devRef .tc r)) = V (Proc.devRef .tc r) :=
  after_of_writes_sub cLsm V cLsm_writes hr

set_option maxRecDepth 8192 in
set_option maxHeartbeats 4000000 in
/-- The window is the sequence of its operations: each called function's text unfolded at its call,
    the sequencing re-associated; what is left differs only in how the side conditions' proofs are written. -/
theorem main_part2_eq (d : Dev nD) : main_part2 (F := F) d = seq (cAgg2b ++ (cConv2 ++ (cLsm))) := by
  simp only [main_part2, fn_log_softmax.body, cAgg2b, cConv2, cLsm, List.cons_append, List.nil_append, seq, bind_assoc, pure_bind]
  first | done | rfl

end Cert.ReferenceIdeal.RValue

end
-- ==== Proof.RefValA2.lean ====
/-
  What the third aggregation, the output convolution and the log-softmax leave in their result buffers, each as a named term of what was read.

  Each is read off the list of operations: an operation's result at its own buffer is its function of its
  operands' contents, and any other buffer is untouched; what remains is the named term, unfolded.
-/
import proofs.«110434_j36318243455158_2_alg».proof.Proof.RefOps1
import proofs.«110434_j36318243455158_2_alg».proof.Proof.RefOps2
import proofs.«110434_j36318243455158_2_alg».proof.Proof.RefAggOf

noncomputable section

namespace Cert.ReferenceIdeal.RValue

open Idealize.ShloMosaic Idealize.ShloMosaic.TcCoe Idealize.SL.Sem Idealize.ShloMosaic.StableHlo Cert.ReferenceIdeal
open Cert.ReferenceIdeal.Facts₀ Cert.ReferenceIdeal.Facts

variable [Cert.ReferenceIdeal.Facts]

attribute [local irreducible] Host.reduce Host.reduceAdd Host.gather Host.scatterAdd FloatOps.dotGeneral in
set_option maxRecDepth 8192 in
set_option maxHeartbeats 4000000 in
/-- The aggregation of layer 2: the mean over in-neighbours of the rows it gathered. -/
theorem cAgg2_out (V : Valuation τ sig (Elt Ideal)) :
    after (cAgg2b (F := Ideal)) (after (cAgg2a (F := Ideal)) V) (main_v112 : DevRef τ sig) = aggOf (V (main_v1 : DevRef τ sig)) (V (main_v3 : DevRef τ sig)) (V (main_v93 : DevRef τ sig)) := by
  after_results_simp
  rfl

attribute [local irreducible] Host.reduce Host.reduceAdd Host.gather Host.scatterAdd FloatOps.dotGeneral in
set_option maxRecDepth 8192 in
set_option maxHeartbeats 4000000 in
/-- The output convolution's result. -/
theorem cConv2_out (V : Valuation τ sig (Elt Ideal)) :
    after (cConv2 (F := Ideal)) V (main_v118 : DevRef τ sig) = convTerm64 (V (main_v93 : DevRef τ sig)) (V (main_v112 : DevRef τ sig)) (V (main_arg12 : DevRef τ sig)) (V (main_arg13 : DevRef τ sig)) (V (main_arg14 : DevRef τ sig)) := by
  after_results_simp
  rfl

attribute [local irreducible] Host.reduce Host.reduceAdd Host.gather Host.scatterAdd FloatOps.dotGeneral in
set_option maxRecDepth 8192 in
set_option maxHeartbeats 4000000 in
/-- The log-softmax's result. -/
theorem cLsm_out (V : Valuation τ sig (Elt Ideal)) :
    after (cLsm (F := Ideal)) V (main_v119 : DevRef τ sig) = lsmTerm (V (main_v118 : DevRef τ sig)) := by
  rw [cLsm_eqU]
  after_results_simp
  rfl

end Cert.ReferenceIdeal.RValue

end
-- ==== Proof.RefRun.lean ====
/-
  The run of the idealized reference: every weakly fair execution of its @main terminates without a fault,
  with the result buffer at `res` of the fifteen argument arrays and the arguments unchanged.

  @main is three windows run in order, and each window is the sequence of its lists of operations
  (the window modules); so @main is the sequence of the concatenation `ops` of all of them, and the library's
  run of a straight line gives every buffer at the fold of the operations' results over the launch contents.
  The fold is read chunk by chunk: the contents after a concatenation are those after the second list from
  those after the first; each chunk leaves its result at a named term of what it read (the value modules)
  and every buffer it does not write where it was. Following the result buffer back through the chunks gives
  log-softmax of the output convolution of the second hidden layer's output, each hidden layer the relu of
  the batch normalisation of the convolution over the mean aggregation — which is `res` unfolded. An argument
  buffer is written by no chunk.
-/
import proofs.«110434_j36318243455158_2_alg».proof.Proof.RefValA0
import proofs.«110434_j36318243455158_2_alg».proof.Proof.RefValB0
import proofs.«110434_j36318243455158_2_alg».proof.Proof.RefValA1
import proofs.«110434_j36318243455158_2_alg».proof.Proof.RefValB1
import proofs.«110434_j36318243455158_2_alg».proof.Proof.RefValA2

noncomputable section

namespace Cert.ReferenceIdeal.RValue

open Idealize.ShloMosaic Idealize.ShloMosaic.TcCoe Idealize.SL.Sem Idealize.ShloMosaic.StableHlo Cert.ReferenceIdeal
open Cert.ReferenceIdeal.Facts₀ Cert.ReferenceIdeal.Facts

variable [Cert.ReferenceIdeal.Facts]

section Line

variable {F : FTy → Type} [FloatOps F]

/-- The three windows' operations. -/
abbrev opsP0 : List (HloOp τ sig (Elt F)) := cEdge ++ (cAgg0 ++ (cConv0 ++ (cBn0 ++ (cRelu0 ++ (cAgg1a)))))
abbrev opsP1 : List (HloOp τ sig (Elt F)) := cAgg1b ++ (cConv1 ++ (cBn1 ++ (cRelu1 ++ (cAgg2a))))
abbrev opsP2 : List (HloOp τ sig (Elt F)) := cAgg2b ++ (cConv2 ++ (cLsm))

/-- @main's 206 operations, in order. -/
abbrev ops : List (HloOp τ sig (Elt F)) := opsP0 ++ (opsP1 ++ opsP2)

/-- A property of every entry of two lists holds of every entry of their concatenation. -/
theorem forall_append {α : Type} {p : α → Prop} {l₁ l₂ : List α} (h₁ : l₁.Forall p) (h₂ : l₂.Forall p) : (l₁ ++ l₂).Forall p :=
  List.forall_iff_forall_mem.mpr fun x hx =>
    (List.mem_append.mp hx).elim (List.forall_iff_forall_mem.mp h₁ x) (List.forall_iff_forall_mem.mp h₂ x)

/-- @main is the sequence of its operations: its three windows in order, each the sequence of its own. -/
theorem main_eq (d : Dev nD) : main (F := F) d = seq ops := by
  show (main_part0 d >>= fun _ => main_part1 d >>= fun _ => main_part2 d) = seq (opsP0 ++ (opsP1 ++ opsP2))
  rw [seq_append opsP0 (opsP1 ++ opsP2), seq_append opsP1 opsP2, main_part0_eq, main_part1_eq, main_part2_eq]

theorem scopedRefs_eq : (Finset.univ.filter fun b : Ref sig .tc => b.isScoped) = ∅ := by decide
theorem scopedSems_eq : (Finset.univ.filter fun sm : SemLoc sig => sm.isScoped .tc) = ∅ := by decide

/-- Every operation touches TensorCore buffers only. -/
theorem ops_sub : (ops : List (HloOp τ sig (Elt F))).Forall fun op => op.bufs ⊆ tcRefs τ sig :=
  forall_append (forall_append cEdge_sub (forall_append cAgg0_sub (forall_append cConv0_sub (forall_append cBn0_sub (forall_append cRelu0_sub (cAgg1a_sub)))))) (forall_append (forall_append cAgg1b_sub (forall_append cConv1_sub (forall_append cBn1_sub (forall_append cRelu1_sub (cAgg2a_sub))))) (forall_append cAgg2b_sub (forall_append cConv2_sub (cLsm_sub))))

theorem cEdge_fresh : (cEdge : List (HloOp τ sig (Elt F))).Forall fun op => op.fresh = ∅ :=
  ⟨rfl, rfl, rfl, rfl⟩

theorem cAgg0_fresh : (cAgg0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl⟩

theorem cConv0_fresh : (cConv0 : List (HloOp τ sig (Elt F))).Forall fun op => op.fresh = ∅ :=
  ⟨rfl, rfl, rfl, rfl, rfl, rfl⟩

theorem cBn0_fresh : (cBn0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem cRelu0_fresh : (cRelu0 : List (HloOp τ sig (Elt F))).Forall fun op => op.fresh = ∅ :=
  ⟨rfl, rfl, rfl⟩

theorem cAgg1a_fresh : (cAgg1a : List (HloOp τ sig (Elt F))).Forall fun op => op.fresh = ∅ :=
  rfl

theorem cAgg1b_fresh : (cAgg1b : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl⟩

theorem cConv1_fresh : (cConv1 : List (HloOp τ sig (Elt F))).Forall fun op => op.fresh = ∅ :=
  ⟨rfl, rfl, rfl, rfl, rfl, rfl⟩

theorem cBn1_fresh : (cBn1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem cRelu1_fresh : (cRelu1 : List (HloOp τ sig (Elt F))).Forall fun op => op.fresh = ∅ :=
  ⟨rfl, rfl, rfl⟩

theorem cAgg2a_fresh : (cAgg2a : List (HloOp τ sig (Elt F))).Forall fun op => op.fresh = ∅ :=
  ⟨rfl, rfl, rfl, rfl, rfl, rfl⟩

theorem cAgg2b_fresh : (cAgg2b : List (HloOp τ sig (Elt F))).Forall fun op => op.fresh = ∅ :=
  ⟨rfl, rfl, rfl, rfl, rfl, rfl, rfl, rfl, rfl, rfl, rfl, rfl, rfl, rfl, rfl, rfl, rfl, rfl, rfl⟩

theorem cConv2_fresh : (cConv2 : List (HloOp τ sig (Elt F))).Forall fun op => op.fresh = ∅ :=
  ⟨rfl, rfl, rfl, rfl, rfl, rfl⟩

theorem cLsm_fresh : (cLsm : List (HloOp τ sig (Elt F))).Forall fun op => op.fresh = ∅ :=
  ⟨rfl, rfl, rfl, rfl, rfl, rfl, rfl, rfl, rfl, rfl, rfl, rfl, rfl, rfl, rfl⟩

/-- Every operation determines its result. -/
theorem ops_fresh : ∀ op ∈ (ops : List (HloOp τ sig (Elt F))), op.fresh = ∅ :=
  List.forall_iff_forall_mem.mp
    (forall_append (forall_append cEdge_fresh (forall_append cAgg0_fresh (forall_append cConv0_fresh (forall_append cBn0_fresh (forall_append cRelu0_fresh (cAgg1a_fresh)))))) (forall_append (forall_append cAgg1b_fresh (forall_append cConv1_fresh (forall_append cBn1_fresh (forall_append cRelu1_fresh (cAgg2a_fresh))))) (forall_append cAgg2b_fresh (forall_append cConv2_fresh (cLsm_fresh)))))

end Line

/-! ## The contents after each list, named

`sK V` is the contents after the first `K` lists, started from `V`. -/

section Stages

variable (V : Valuation τ sig (Elt Ideal))

/-- The contents after the first 1 list. -/
def s1 : Valuation τ sig (Elt Ideal) := after (cEdge (F := Ideal)) V

/-- The contents after the first 2 lists. -/
def s2 : Valuation τ sig (Elt Ideal) := after (cAgg0 (F := Ideal)) (s1 V)

/-- The contents after the first 3 lists. -/
def s3 : Valuation τ sig (Elt Ideal) := after (cConv0 (F := Ideal)) (s2 V)

/-- The contents after the first 4 lists. -/
def s4 : Valuation τ sig (Elt Ideal) := after (cBn0 (F := Ideal)) (s3 V)

/-- The contents after the first 5 lists. -/
def s5 : Valuation τ sig (Elt Ideal) := after (cRelu0 (F := Ideal)) (s4 V)

/-- The contents after the first 6 lists. -/
def s6 : Valuation τ sig (Elt Ideal) := after (cAgg1a (F := Ideal)) (s5 V)

/-- The contents after the first 7 lists. -/
def s7 : Valuation τ sig (Elt Ideal) := after (cAgg1b (F := Ideal)) (s6 V)

/-- The contents after the first 8 lists. -/
def s8 : Valuation τ sig (Elt Ideal) := after (cConv1 (F := Ideal)) (s7 V)

/-- The contents after the first 9 lists. -/
def s9 : Valuation τ sig (Elt Ideal) := after (cBn1 (F := Ideal)) (s8 V)

/-- The contents after the first 10 lists. -/
def s10 : Valuation τ sig (Elt Ideal) := after (cRelu1 (F := Ideal)) (s9 V)

/-- The contents after the first 11 lists. -/
def s11 : Valuation τ sig (Elt Ideal) := after (cAgg2a (F := Ideal)) (s10 V)

/-- The contents after the first 12 lists. -/
def s12 : Valuation τ sig (Elt Ideal) := after (cAgg2b (F := Ideal)) (s11 V)

/-- The contents after the first 13 lists. -/
def s13 : Valuation τ sig (Elt Ideal) := after (cConv2 (F := Ideal)) (s12 V)

/-- The contents after the first 14 lists. -/
def s14 : Valuation τ sig (Elt Ideal) := after (cLsm (F := Ideal)) (s13 V)

/-- The contents after the whole line are those after the fourteenth list. -/
theorem ops_after : after (ops (F := Ideal)) V = s14 V := by
  simp only [ops, opsP0, opsP1, opsP2, Cert.RunLib.after_append]
  rfl

/-! ## Buffers no list has written yet

A buffer outside the written sets of the first `K` lists holds after them what it held at the start. -/

theorem k0_1 {r : Ref sig .tc} (h1 : r ∉ cEdgeW) :
    s1 V (Proc.devRef .tc r) = V (Proc.devRef .tc r) :=
  cEdge_keep V h1

theorem k0_2 {r : Ref sig .tc} (h1 : r ∉ cEdgeW) (h2 : r ∉ cAgg0W) :
    s2 V (Proc.devRef .tc r) = V (Proc.devRef .tc r) :=
  (cAgg0_keep (s1 V) h2).trans (k0_1 V h1)

theorem k0_3 {r : Ref sig .tc} (h1 : r ∉ cEdgeW) (h2 : r ∉ cAgg0W) (h3 : r ∉ cConv0W) :
    s3 V (Proc.devRef .tc r) = V (Proc.devRef .tc r) :=
  (cConv0_keep (s2 V) h3).trans (k0_2 V h1 h2)

theorem k0_4 {r : Ref sig .tc} (h1 : r ∉ cEdgeW) (h2 : r ∉ cAgg0W) (h3 : r ∉ cConv0W) (h4 : r ∉ cBn0W) :
    s4 V (Proc.devRef .tc r) = V (Proc.devRef .tc r) :=
  (cBn0_keep (s3 V) h4).trans (k0_3 V h1 h2 h3)

theorem k0_5 {r : Ref sig .tc} (h1 : r ∉ cEdgeW) (h2 : r ∉ cAgg0W) (h3 : r ∉ cConv0W) (h4 : r ∉ cBn0W) (h5 : r ∉ cRelu0W) :
    s5 V (Proc.devRef .tc r) = V (Proc.devRef .tc r) :=
  (cRelu0_keep (s4 V) h5).trans (k0_4 V h1 h2 h3 h4)

theorem k0_6 {r : Ref sig .tc} (h1 : r ∉ cEdgeW) (h2 : r ∉ cAgg0W) (h3 : r ∉ cConv0W) (h4 : r ∉ cBn0W) (h5 : r ∉ cRelu0W) (h6 : r ∉ cAgg1aW) :
    s6 V (Proc.devRef .tc r) = V (Proc.devRef .tc r) :=
  (cAgg1a_keep (s5 V) h6).trans (k0_5 V h1 h2 h3 h4 h5)

theorem k0_7 {r : Ref sig .tc} (h1 : r ∉ cEdgeW) (h2 : r ∉ cAgg0W) (h3 : r ∉ cConv0W) (h4 : r ∉ cBn0W) (h5 : r ∉ cRelu0W) (h6 : r ∉ cAgg1aW) (h7 : r ∉ cAgg1bW) :
    s7 V (Proc.devRef .tc r) = V (Proc.devRef .tc r) :=
  (cAgg1b_keep (s6 V) h7).trans (k0_6 V h1 h2 h3 h4 h5 h6)

theorem k0_8 {r : Ref sig .tc} (h1 : r ∉ cEdgeW) (h2 : r ∉ cAgg0W) (h3 : r ∉ cConv0W) (h4 : r ∉ cBn0W) (h5 : r ∉ cRelu0W) (h6 : r ∉ cAgg1aW) (h7 : r ∉ cAgg1bW) (h8 : r ∉ cConv1W) :
    s8 V (Proc.devRef .tc r) = V (Proc.devRef .tc r) :=
  (cConv1_keep (s7 V) h8).trans (k0_7 V h1 h2 h3 h4 h5 h6 h7)

theorem k0_9 {r : Ref sig .tc} (h1 : r ∉ cEdgeW) (h2 : r ∉ cAgg0W) (h3 : r ∉ cConv0W) (h4 : r ∉ cBn0W) (h5 : r ∉ cRelu0W) (h6 : r ∉ cAgg1aW) (h7 : r ∉ cAgg1bW) (h8 : r ∉ cConv1W) (h9 : r ∉ cBn1W) :
    s9 V (Proc.devRef .tc r) = V (Proc.devRef .tc r) :=
  (cBn1_keep (s8 V) h9).trans (k0_8 V h1 h2 h3 h4 h5 h6 h7 h8)

theorem k0_10 {r : Ref sig .tc} (h1 : r ∉ cEdgeW) (h2 : r ∉ cAgg0W) (h3 : r ∉ cConv0W) (h4 : r ∉ cBn0W) (h5 : r ∉ cRelu0W) (h6 : r ∉ cAgg1aW) (h7 : r ∉ cAgg1bW) (h8 : r ∉ cConv1W) (h9 : r ∉ cBn1W) (h10 : r ∉ cRelu1W) :
    s10 V (Proc.devRef .tc r) = V (Proc.devRef .tc r) :=
  (cRelu1_keep (s9 V) h10).trans (k0_9 V h1 h2 h3 h4 h5 h6 h7 h8 h9)

theorem k0_11 {r : Ref sig .tc} (h1 : r ∉ cEdgeW) (h2 : r ∉ cAgg0W) (h3 : r ∉ cConv0W) (h4 : r ∉ cBn0W) (h5 : r ∉ cRelu0W) (h6 : r ∉ cAgg1aW) (h7 : r ∉ cAgg1bW) (h8 : r ∉ cConv1W) (h9 : r ∉ cBn1W) (h10 : r ∉ cRelu1W) (h11 : r ∉ cAgg2aW) :
    s11 V (Proc.devRef .tc r) = V (Proc.devRef .tc r) :=
  (cAgg2a_keep (s10 V) h11).trans (k0_10 V h1 h2 h3 h4 h5 h6 h7 h8 h9 h10)

theorem k0_12 {r : Ref sig .tc} (h1 : r ∉ cEdgeW) (h2 : r ∉ cAgg0W) (h3 : r ∉ cConv0W) (h4 : r ∉ cBn0W) (h5 : r ∉ cRelu0W) (h6 : r ∉ cAgg1aW) (h7 : r ∉ cAgg1bW) (h8 : r ∉ cConv1W) (h9 : r ∉ cBn1W) (h10 : r ∉ cRelu1W) (h11 : r ∉ cAgg2aW) (h12 : r ∉ cAgg2bW) :
    s12 V (Proc.devRef .tc r) = V (Proc.devRef .tc r) :=
  (cAgg2b_keep (s11 V) h12).trans (k0_11 V h1 h2 h3 h4 h5 h6 h7 h8 h9 h10 h11)

theorem k0_13 {r : Ref sig .tc} (h1 : r ∉ cEdgeW) (h2 : r ∉ cAgg0W) (h3 : r ∉ cConv0W) (h4 : r ∉ cBn0W) (h5 : r ∉ cRelu0W) (h6 : r ∉ cAgg1aW) (h7 : r ∉ cAgg1bW) (h8 : r ∉ cConv1W) (h9 : r ∉ cBn1W) (h10 : r ∉ cRelu1W) (h11 : r ∉ cAgg2aW) (h12 : r ∉ cAgg2bW) (h13 : r ∉ cConv2W) :
    s13 V (Proc.devRef .tc r) = V (Proc.devRef .tc r) :=
  (cConv2_keep (s12 V) h13).trans (k0_12 V h1 h2 h3 h4 h5 h6 h7 h8 h9 h10 h11 h12)

theorem k0_14 {r : Ref sig .tc} (h1 : r ∉ cEdgeW) (h2 : r ∉ cAgg0W) (h3 : r ∉ cConv0W) (h4 : r ∉ cBn0W) (h5 : r ∉ cRelu0W) (h6 : r ∉ cAgg1aW) (h7 : r ∉ cAgg1bW) (h8 : r ∉ cConv1W) (h9 : r ∉ cBn1W) (h10 : r ∉ cRelu1W) (h11 : r ∉ cAgg2aW) (h12 : r ∉ cAgg2bW) (h13 : r ∉ cConv2W) (h14 : r ∉ cLsmW) :
    s14 V (Proc.devRef .tc r) = V (Proc.devRef .tc r) :=
  (cLsm_keep (s13 V) h14).trans (k0_13 V h1 h2 h3 h4 h5 h6 h7 h8 h9 h10 h11 h12 h13)

/-! The two rows of the edge list are written by the first list and by no later one. -/

theorem k1_2 {r : Ref sig .tc} (h2 : r ∉ cAgg0W) :
    s2 V (Proc.devRef .tc r) = s1 V (Proc.devRef .tc r) :=
  cAgg0_keep (s1 V) h2

theorem k1_3 {r : Ref sig .tc} (h2 : r ∉ cAgg0W) (h3 : r ∉ cConv0W) :
    s3 V (Proc.devRef .tc r) = s1 V (Proc.devRef .tc r) :=
  (cConv0_keep (s2 V) h3).trans (k1_2 V h2)

theorem k1_4 {r : Ref sig .tc} (h2 : r ∉ cAgg0W) (h3 : r ∉ cConv0W) (h4 : r ∉ cBn0W) :
    s4 V (Proc.devRef .tc r) = s1 V (Proc.devRef .tc r) :=
  (cBn0_keep (s3 V) h4).trans (k1_3 V h2 h3)

theorem k1_5 {r : Ref sig .tc} (h2 : r ∉ cAgg0W) (h3 : r ∉ cConv0W) (h4 : r ∉ cBn0W) (h5 : r ∉ cRelu0W) :
    s5 V (Proc.devRef .tc r) = s1 V (Proc.devRef .tc r) :=
  (cRelu0_keep (s4 V) h5).trans (k1_4 V h2 h3 h4)

theorem k1_6 {r : Ref sig .tc} (h2 : r ∉ cAgg0W) (h3 : r ∉ cConv0W) (h4 : r ∉ cBn0W) (h5 : r ∉ cRelu0W) (h6 : r ∉ cAgg1aW) :
    s6 V (Proc.devRef .tc r) = s1 V (Proc.devRef .tc r) :=
  (cAgg1a_keep (s5 V) h6).trans (k1_5 V h2 h3 h4 h5)

theorem k1_7 {r : Ref sig .tc} (h2 : r ∉ cAgg0W) (h3 : r ∉ cConv0W) (h4 : r ∉ cBn0W) (h5 : r ∉ cRelu0W) (h6 : r ∉ cAgg1aW) (h7 : r ∉ cAgg1bW) :
    s7 V (Proc.devRef .tc r) = s1 V (Proc.devRef .tc r) :=
  (cAgg1b_keep (s6 V) h7).trans (k1_6 V h2 h3 h4 h5 h6)

theorem k1_8 {r : Ref sig .tc} (h2 : r ∉ cAgg0W) (h3 : r ∉ cConv0W) (h4 : r ∉ cBn0W) (h5 : r ∉ cRelu0W) (h6 : r ∉ cAgg1aW) (h7 : r ∉ cAgg1bW) (h8 : r ∉ cConv1W) :
    s8 V (Proc.devRef .tc r) = s1 V (Proc.devRef .tc r) :=
  (cConv1_keep (s7 V) h8).trans (k1_7 V h2 h3 h4 h5 h6 h7)

theorem k1_9 {r : Ref sig .tc} (h2 : r ∉ cAgg0W) (h3 : r ∉ cConv0W) (h4 : r ∉ cBn0W) (h5 : r ∉ cRelu0W) (h6 : r ∉ cAgg1aW) (h7 : r ∉ cAgg1bW) (h8 : r ∉ cConv1W) (h9 : r ∉ cBn1W) :
    s9 V (Proc.devRef .tc r) = s1 V (Proc.devRef .tc r) :=
  (cBn1_keep (s8 V) h9).trans (k1_8 V h2 h3 h4 h5 h6 h7 h8)

theorem k1_10 {r : Ref sig .tc} (h2 : r ∉ cAgg0W) (h3 : r ∉ cConv0W) (h4 : r ∉ cBn0W) (h5 : r ∉ cRelu0W) (h6 : r ∉ cAgg1aW) (h7 : r ∉ cAgg1bW) (h8 : r ∉ cConv1W) (h9 : r ∉ cBn1W) (h10 : r ∉ cRelu1W) :
    s10 V (Proc.devRef .tc r) = s1 V (Proc.devRef .tc r) :=
  (cRelu1_keep (s9 V) h10).trans (k1_9 V h2 h3 h4 h5 h6 h7 h8 h9)

/-- Across the second aggregation. -/
theorem k5_7 {r : Ref sig .tc} (h6 : r ∉ cAgg1aW) (h7 : r ∉ cAgg1bW) :
    s7 V (Proc.devRef .tc r) = s5 V (Proc.devRef .tc r) :=
  (cAgg1b_keep (s6 V) h7).trans (cAgg1a_keep (s5 V) h6)

/-- Across the third aggregation. -/
theorem k10_12 {r : Ref sig .tc} (h11 : r ∉ cAgg2aW) (h12 : r ∉ cAgg2bW) :
    s12 V (Proc.devRef .tc r) = s10 V (Proc.devRef .tc r) :=
  (cAgg2b_keep (s11 V) h12).trans (cAgg2a_keep (s10 V) h11)

/-! ## The result buffer followed back through the lists -/

/-- The first hidden layer's output, of the launch contents. -/
def lay1 : Cert.GNN.A2 100000 128 :=
  layerTerm (V (main_arg1 : DevRef τ sig)) (V (main_arg0 : DevRef τ sig)) (V (main_arg2 : DevRef τ sig)) (V (main_arg3 : DevRef τ sig)) (V (main_arg4 : DevRef τ sig)) (V (main_arg5 : DevRef τ sig)) (V (main_arg6 : DevRef τ sig))

/-- The second hidden layer's output, of the launch contents. -/
def lay2 : Cert.GNN.A2 100000 128 :=
  layerTerm (V (main_arg1 : DevRef τ sig)) (lay1 V) (V (main_arg7 : DevRef τ sig)) (V (main_arg8 : DevRef τ sig)) (V (main_arg9 : DevRef τ sig)) (V (main_arg10 : DevRef τ sig)) (V (main_arg11 : DevRef τ sig))

theorem v1_src : s1 V (main_v1 : DevRef τ sig) = srcR (V (main_arg1 : DevRef τ sig)) := cEdge_src V

theorem v1_dst : s1 V (main_v3 : DevRef τ sig) = dstR (V (main_arg1 : DevRef τ sig)) := cEdge_dst V

/-- After the first aggregation: the mean over in-neighbours of the input rows. -/
theorem v2_agg : s2 V (main_v22 : DevRef τ sig) = aggR (V (main_arg1 : DevRef τ sig)) (V (main_arg0 : DevRef τ sig)) := by
  rw [aggR_eq]
  refine (cAgg0_out (s1 V)).trans ?_
  rw [v1_src V, v1_dst V, k0_1 V (r := main_arg0) (by decide)]

/-- After the first convolution. -/
theorem v3_conv : s3 V (main_v28 : DevRef τ sig) = convTerm (V (main_arg0 : DevRef τ sig)) (aggR (V (main_arg1 : DevRef τ sig)) (V (main_arg0 : DevRef τ sig))) (V (main_arg2 : DevRef τ sig)) (V (main_arg3 : DevRef τ sig)) (V (main_arg4 : DevRef τ sig)) := by
  refine (cConv0_out (s2 V)).trans ?_
  rw [v2_agg V, k0_2 V (r := main_arg0) (by decide) (by decide), k0_2 V (r := main_arg2) (by decide) (by decide), k0_2 V (r := main_arg3) (by decide) (by decide), k0_2 V (r := main_arg4) (by decide) (by decide)]

/-- After the first batch normalisation. -/
theorem v4_bn : s4 V (main_v47 : DevRef τ sig) = bnTerm (convTerm (V (main_arg0 : DevRef τ sig)) (aggR (V (main_arg1 : DevRef τ sig)) (V (main_arg0 : DevRef τ sig))) (V (main_arg2 : DevRef τ sig)) (V (main_arg3 : DevRef τ sig)) (V (main_arg4 : DevRef τ sig))) (V (main_arg5 : DevRef τ sig)) (V (main_arg6 : DevRef τ sig)) := by
  refine (cBn0_out (s3 V)).trans ?_
  rw [v3_conv V, k0_3 V (r := main_arg5) (by decide) (by decide) (by decide), k0_3 V (r := main_arg6) (by decide) (by decide) (by decide)]

/-- After the first relu: the first hidden layer. -/
theorem v5_relu : s5 V (main_v48 : DevRef τ sig) = lay1 V :=
  (cRelu0_out (s4 V)).trans (congrArg reluTerm (v4_bn V))

/-- After the second aggregation: the mean over in-neighbours of the first layer's rows. -/
theorem v7_agg : s7 V (main_v67 : DevRef τ sig) = aggR (V (main_arg1 : DevRef τ sig)) (lay1 V) := by
  rw [aggR_eq]
  refine (cAgg1_out (s5 V)).trans ?_
  rw [k1_5 V (r := main_v1) (by decide) (by decide) (by decide) (by decide), v1_src V, k1_5 V (r := main_v3) (by decide) (by decide) (by decide) (by decide), v1_dst V, v5_relu V]

/-- After the second convolution. -/
theorem v8_conv : s8 V (main_v73 : DevRef τ sig) = convTerm (lay1 V) (aggR (V (main_arg1 : DevRef τ sig)) (lay1 V)) (V (main_arg7 : DevRef τ sig)) (V (main_arg8 : DevRef τ sig)) (V (main_arg9 : DevRef τ sig)) := by
  refine (cConv1_out (s7 V)).trans ?_
  rw [k5_7 V (r := main_v48) (by decide) (by decide), v5_relu V, v7_agg V, k0_7 V (r := main_arg7) (by decide) (by decide) (by decide) (by decide) (by decide) (by decide) (by decide), k0_7 V (r := main_arg8) (by decide) (by decide) (by decide) (by decide) (by decide) (by decide) (by decide), k0_7 V (r := main_arg9) (by decide) (by decide) (by decide) (by decide) (by decide) (by decide) (by decide)]

/-- After the second batch normalisation. -/
theorem v9_bn : s9 V (main_v92 : DevRef τ sig) = bnTerm (convTerm (lay1 V) (aggR (V (main_arg1 : DevRef τ sig)) (lay1 V)) (V (main_arg7 : DevRef τ sig)) (V (main_arg8 : DevRef τ sig)) (V (main_arg9 : DevRef τ sig))) (V (main_arg10 : DevRef τ sig)) (V (main_arg11 : DevRef τ sig)) := by
  refine (cBn1_out (s8 V)).trans ?_
  rw [v8_conv V, k0_8 V (r := main_arg10) (by decide) (by decide) (by decide) (by decide) (by decide) (by decide) (by decide) (by decide), k0_8 V (r := main_arg11) (by decide) (by decide) (by decide) (by decide) (by decide) (by decide) (by decide) (by decide)]

/-- After the second relu: the second hidden layer. -/
theorem v10_relu : s10 V (main_v93 : DevRef τ sig) = lay2 V :=
  (cRelu1_out (s9 V)).trans (congrArg reluTerm (v9_bn V))

/-- After the third aggregation: the mean over in-neighbours of the second layer's rows. -/
theorem v12_agg : s12 V (main_v112 : DevRef τ sig) = aggR (V (main_arg1 : DevRef τ sig)) (lay2 V) := by
  rw [aggR_eq]
  refine (cAgg2_out (s10 V)).trans ?_
  rw [k1_10 V (r := main_v1) (by decide) (by decide) (by decide) (by decide) (by decide) (by decide) (by decide) (by decide) (by decide), v1_src V, k1_10 V (r := main_v3) (by decide) (by decide) (by decide) (by decide) (by decide) (by decide) (by decide) (by decide) (by decide), v1_dst V, v10_relu V]

/-- After the output convolution. -/
theorem v13_conv : s13 V (main_v118 : DevRef τ sig) = convTerm64 (lay2 V) (aggR (V (main_arg1 : DevRef τ sig)) (lay2 V)) (V (main_arg12 : DevRef τ sig)) (V (main_arg13 : DevRef τ sig)) (V (main_arg14 : DevRef τ sig)) := by
  refine (cConv2_out (s12 V)).trans ?_
  rw [k10_12 V (r := main_v93) (by decide) (by decide), v10_relu V, v12_agg V, k0_12 V (r := main_arg12) (by decide) (by decide) (by decide) (by decide) (by decide) (by decide) (by decide) (by decide) (by decide) (by decide) (by decide) (by decide), k0_12 V (r := main_arg13) (by decide) (by decide) (by decide) (by decide) (by decide) (by decide) (by decide) (by decide) (by decide) (by decide) (by decide) (by decide), k0_12 V (r := main_arg14) (by decide) (by decide) (by decide) (by decide) (by decide) (by decide) (by decide) (by decide) (by decide) (by decide) (by decide) (by decide)]

/-- After the log-softmax: the reference's result term. -/
theorem v14_lsm : s14 V (main_v119 : DevRef τ sig) = res (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) (V (main_arg14 : DevRef τ sig)) :=
  (cLsm_out (s13 V)).trans (congrArg lsmTerm (v13_conv V))

end Stages

/-- The result buffer after the whole line, from any contents: `res` of the argument buffers' contents. -/
theorem out_eq (V : Valuation τ sig (Elt Ideal)) :
    after (ops (F := Ideal)) V (main_v119 : DevRef τ sig)
      = res (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) (V (main_arg14 : DevRef τ sig)) := by
  rw [ops_after V]
  exact v14_lsm V

/-- No list writes argument 0. -/
theorem main_arg0_eq (V : Valuation τ sig (Elt Ideal)) :
    after (ops (F := Ideal)) V (main_arg0 : DevRef τ sig) = V (main_arg0 : DevRef τ sig) := by
  rw [ops_after V]
  exact k0_14 V (r := main_arg0) (by decide) (by decide) (by decide) (by decide) (by decide) (by decide) (by decide) (by decide) (by decide) (by decide) (by decide) (by decide) (by decide) (by decide)

/-- No list writes argument 1. -/
theorem main_arg1_eq (V : Valuation τ sig (Elt Ideal)) :
    after (ops (F := Ideal)) V (main_arg1 : DevRef τ sig) = V (main_arg1 : DevRef τ sig) := by
  rw [ops_after V]
  exact k0_14 V (r := main_arg1) (by decide) (by decide) (by decide) (by decide) (by decide) (by decide) (by decide) (by decide) (by decide) (by decide) (by decide) (by decide) (by decide) (by decide)

/-- No list writes argument 2. -/
theorem main_arg2_eq (V : Valuation τ sig (Elt Ideal)) :
    after (ops (F := Ideal)) V (main_arg2 : DevRef τ sig) = V (main_arg2 : DevRef τ sig) := by
  rw [ops_after V]
  exact k0_14 V (r := main_arg2) (by decide) (by decide) (by decide) (by decide) (by decide) (by decide) (by decide) (by decide) (by decide) (by decide) (by decide) (by decide) (by decide) (by decide)

/-- No list writes argument 3. -/
theorem main_arg3_eq (V : Valuation τ sig (Elt Ideal)) :
    after (ops (F := Ideal)) V (main_arg3 : DevRef τ sig) = V (main_arg3 : DevRef τ sig) := by
  rw [ops_after V]
  exact k0_14 V (r := main_arg3) (by decide) (by decide) (by decide) (by decide) (by decide) (by decide) (by decide) (by decide) (by decide) (by decide) (by decide) (by decide) (by decide) (by decide)

/-- No list writes argument 4. -/
theorem main_arg4_eq (V : Valuation τ sig (Elt Ideal)) :
    after (ops (F := Ideal)) V (main_arg4 : DevRef τ sig) = V (main_arg4 : DevRef τ sig) := by
  rw [ops_after V]
  exact k0_14 V (r := main_arg4) (by decide) (by decide) (by decide) (by decide) (by decide) (by decide) (by decide) (by decide) (by decide) (by decide) (by decide) (by decide) (by decide) (by decide)

/-- No list writes argument 5. -/
theorem main_arg5_eq (V : Valuation τ sig (Elt Ideal)) :
    after (ops (F := Ideal)) V (main_arg5 : DevRef τ sig) = V (main_arg5 : DevRef τ sig) := by
  rw [ops_after V]
  exact k0_14 V (r := main_arg5) (by decide) (by decide) (by decide) (by decide) (by decide) (by decide) (by decide) (by decide) (by decide) (by decide) (by decide) (by decide) (by decide) (by decide)

/-- No list writes argument 6. -/
theorem main_arg6_eq (V : Valuation τ sig (Elt Ideal)) :
    after (ops (F := Ideal)) V (main_arg6 : DevRef τ sig) = V (main_arg6 : DevRef τ sig) := by
  rw [ops_after V]
  exact k0_14 V (r := main_arg6) (by decide) (by decide) (by decide) (by decide) (by decide) (by decide) (by decide) (by decide) (by decide) (by decide) (by decide) (by decide) (by decide) (by decide)

/-- No list writes argument 7. -/
theorem main_arg7_eq (V : Valuation τ sig (Elt Ideal)) :
    after (ops (F := Ideal)) V (main_arg7 : DevRef τ sig) = V (main_arg7 : DevRef τ sig) := by
  rw [ops_after V]
  exact k0_14 V (r := main_arg7) (by decide) (by decide) (by decide) (by decide) (by decide) (by decide) (by decide) (by decide) (by decide) (by decide) (by decide) (by decide) (by decide) (by decide)

/-- No list writes argument 8. -/
theorem main_arg8_eq (V : Valuation τ sig (Elt Ideal)) :
    after (ops (F := Ideal)) V (main_arg8 : DevRef τ sig) = V (main_arg8 : DevRef τ sig) := by
  rw [ops_after V]
  exact k0_14 V (r := main_arg8) (by decide) (by decide) (by decide) (by decide) (by decide) (by decide) (by decide) (by decide) (by decide) (by decide) (by decide) (by decide) (by decide) (by decide)

/-- No list writes argument 9. -/
theorem main_arg9_eq (V : Valuation τ sig (Elt Ideal)) :
    after (ops (F := Ideal)) V (main_arg9 : DevRef τ sig) = V (main_arg9 : DevRef τ sig) := by
  rw [ops_after V]
  exact k0_14 V (r := main_arg9) (by decide) (by decide) (by decide) (by decide) (by decide) (by decide) (by decide) (by decide) (by decide) (by decide) (by decide) (by decide) (by decide) (by decide)

/-- No list writes argument 10. -/
theorem main_arg10_eq (V : Valuation τ sig (Elt Ideal)) :
    after (ops (F := Ideal)) V (main_arg10 : DevRef τ sig) = V (main_arg10 : DevRef τ sig) := by
  rw [ops_after V]
  exact k0_14 V (r := main_arg10) (by decide) (by decide) (by decide) (by decide) (by decide) (by decide) (by decide) (by decide) (by decide) (by decide) (by decide) (by decide) (by decide) (by decide)

/-- No list writes argument 11. -/
theorem main_arg11_eq (V : Valuation τ sig (Elt Ideal)) :
    after (ops (F := Ideal)) V (main_arg11 : DevRef τ sig) = V (main_arg11 : DevRef τ sig) := by
  rw [ops_after V]
  exact k0_14 V (r := main_arg11) (by decide) (by decide) (by decide) (by decide) (by decide) (by decide) (by decide) (by decide) (by decide) (by decide) (by decide) (by decide) (by decide) (by decide)

/-- No list writes argument 12. -/
theorem main_arg12_eq (V : Valuation τ sig (Elt Ideal)) :
    after (ops (F := Ideal)) V (main_arg12 : DevRef τ sig) = V (main_arg12 : DevRef τ sig) := by
  rw [ops_after V]
  exact k0_14 V (r := main_arg12) (by decide) (by decide) (by decide) (by decide) (by decide) (by decide) (by decide) (by decide) (by decide) (by decide) (by decide) (by decide) (by decide) (by decide)

/-- No list writes argument 13. -/
theorem main_arg13_eq (V : Valuation τ sig (Elt Ideal)) :
    after (ops (F := Ideal)) V (main_arg13 : DevRef τ sig) = V (main_arg13 : DevRef τ sig) := by
  rw [ops_after V]
  exact k0_14 V (r := main_arg13) (by decide) (by decide) (by decide) (by decide) (by decide) (by decide) (by decide) (by decide) (by decide) (by decide) (by decide) (by decide) (by decide) (by decide)

/-- No list writes argument 14. -/
theorem main_arg14_eq (V : Valuation τ sig (Elt Ideal)) :
    after (ops (F := Ideal)) V (main_arg14 : DevRef τ sig) = V (main_arg14 : DevRef τ sig) := by
  rw [ops_after V]
  exact k0_14 V (r := main_arg14) (by decide) (by decide) (by decide) (by decide) (by decide) (by decide) (by decide) (by decide) (by decide) (by decide) (by decide) (by decide) (by decide) (by decide)

/-- On every device, from any memory with zero counters: every weakly fair execution of the reference's @main
    terminates with the result at `res` of the arguments' launch contents and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v119) = res (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => ⟨(h c main_v119).trans (out_eq _),
      (h c main_arg0).trans (main_arg0_eq _),
      (h c main_arg1).trans (main_arg1_eq _),
      (h c main_arg2).trans (main_arg2_eq _),
      (h c main_arg3).trans (main_arg3_eq _),
      (h c main_arg4).trans (main_arg4_eq _),
      (h c main_arg5).trans (main_arg5_eq _),
      (h c main_arg6).trans (main_arg6_eq _),
      (h c main_arg7).trans (main_arg7_eq _),
      (h c main_arg8).trans (main_arg8_eq _),
      (h c main_arg9).trans (main_arg9_eq _),
      (h c main_arg10).trans (main_arg10_eq _),
      (h c main_arg11).trans (main_arg11_eq _),
      (h c main_arg12).trans (main_arg12_eq _),
      (h c main_arg13).trans (main_arg13_eq _),
      (h c main_arg14).trans (main_arg14_eq _)⟩)
    (run_seq scopedRefs_eq scopedSems_eq defs main (fun _ => ops) main_eq (fun _ => ops_sub) m ρ (fun _ => ops_fresh))

end Cert.ReferenceIdeal.RValue

end
-- ==== Proof.RefDot.lean ====
/-
  The two matrix products of the reference, read at an entry: entry (i, c) of the product of a
  100000 x 128 array with a 128 x C array (C = 128 in the first two layers, C = 64 in the last) is the sum
  over k of x[i,k] * w[k,c]. At the extended reals the host's product is this exact sum.
-/
import proofs.«110434_j36318243455158_2_alg».proof.ReferenceIdeal
import proofs.«110434_j36318243455158_2_alg».proof.Proof.Spec
import Idealize.ShloMosaic.PureOps.Ideal.Laws
import Idealize.ShloMosaic.Lib.IdealHost

noncomputable section

open scoped BigOperators
open Idealize.ShloMosaic Idealize.ShloMosaic.ValueIdx Cert.GNN

namespace Cert.ReferenceIdeal.RValue

variable [Facts]
open Facts₀

/-! ### The product of a [100000,128] array with a [128,128] array, read at an entry -/

theorem lhs128_0 (i : S100000x128.Idx) (q : dot_S100000x128_S128x128_S100000x128_1_0_0_1_n_n.contr.Idx) :
    (dot_S100000x128_S128x128_S100000x128_1_0_0_1_n_n.lhsIdx i q 0).val = (i 0).val := by
  unfold DotDims.lhsIdx
  rw [dif_neg (show ¬(0 : Fin S100000x128.rank) ∈ dot_S100000x128_S128x128_S100000x128_1_0_0_1_n_n.lhsBatch from List.not_mem_nil),
    dif_pos (show (0 : Fin S100000x128.rank) ∈ dot_S100000x128_S128x128_S100000x128_1_0_0_1_n_n.lhsNonContracting from List.mem_singleton.mpr rfl)]
  rfl

theorem lhs128_1 (i : S100000x128.Idx) (q : dot_S100000x128_S128x128_S100000x128_1_0_0_1_n_n.contr.Idx) :
    (dot_S100000x128_S128x128_S100000x128_1_0_0_1_n_n.lhsIdx i q 1).val = (q ⟨0, Nat.one_pos⟩).val :=
  dot_S100000x128_S128x128_S100000x128_1_0_0_1_n_n.lhsIdx_val_of_single rfl i q

theorem rhs128_0 (i : S100000x128.Idx) (q : dot_S100000x128_S128x128_S100000x128_1_0_0_1_n_n.contr.Idx) :
    (dot_S100000x128_S128x128_S100000x128_1_0_0_1_n_n.rhsIdx i q 0).val = (q ⟨0, Nat.one_pos⟩).val :=
  dot_S100000x128_S128x128_S100000x128_1_0_0_1_n_n.rhsIdx_val_of_single rfl i q

theorem rhs128_1 (i : S100000x128.Idx) (q : dot_S100000x128_S128x128_S100000x128_1_0_0_1_n_n.contr.Idx) :
    (dot_S100000x128_S128x128_S100000x128_1_0_0_1_n_n.rhsIdx i q 1).val = (i 1).val := by
  unfold DotDims.rhsIdx
  rw [dif_neg (show ¬(1 : Fin S128x128.rank) ∈ dot_S100000x128_S128x128_S100000x128_1_0_0_1_n_n.rhsBatch from List.not_mem_nil),
    dif_pos (show (1 : Fin S128x128.rank) ∈ dot_S100000x128_S128x128_S100000x128_1_0_0_1_n_n.rhsNonContracting from List.mem_singleton.mpr rfl)]
  rfl

/-- Entry (i, c) of the product is the sum over the 128 contracted positions. -/
theorem dot128_apply (x : A2 100000 128) (w : A2 128 128) (i : Fin 100000) (c : Fin 128) :
    (Host.dotGeneral (F := Ideal) (φ₁ := .f32) (φ₂ := .f32) dot_S100000x128_S128x128_S100000x128_1_0_0_1_n_n none x w) (ix2 i c)
      = ∑ k : Fin 128, x (ix2 i k) * w (ix2 k c) := by
  simp only [Host.dotGeneral]
  rw [Ideal.dotGeneral_apply, ← Equiv.sum_comp (ValueIdx.contrEquiv1 dot_S100000x128_S128x128_S100000x128_1_0_0_1_n_n 128 rfl rfl).symm]
  refine Finset.sum_congr rfl fun k _ => ?_
  have hk := ValueIdx.contrEquiv1_symm_val dot_S100000x128_S128x128_S100000x128_1_0_0_1_n_n 128 rfl rfl k
  have el : dot_S100000x128_S128x128_S100000x128_1_0_0_1_n_n.lhsIdx (ix2 i c) ((ValueIdx.contrEquiv1 dot_S100000x128_S128x128_S100000x128_1_0_0_1_n_n 128 rfl rfl).symm k) = ix2 i k := funext fun a => Fin.ext (by
    match a with
    | ⟨0, _⟩ => exact lhs128_0 _ _
    | ⟨1, _⟩ => exact (lhs128_1 _ _).trans hk)
  have er : dot_S100000x128_S128x128_S100000x128_1_0_0_1_n_n.rhsIdx (ix2 i c) ((ValueIdx.contrEquiv1 dot_S100000x128_S128x128_S100000x128_1_0_0_1_n_n 128 rfl rfl).symm k) = ix2 k c := funext fun a => Fin.ext (by
    match a with
    | ⟨0, _⟩ => exact (rhs128_0 _ _).trans hk
    | ⟨1, _⟩ => exact rhs128_1 _ _)
  rw [el, er]

/-! ### The product of a [100000,128] array with a [128,64] array, read at an entry -/

theorem lhs64_0 (i : S100000x64.Idx) (q : dot_S100000x128_S128x64_S100000x64_1_0_0_1_n_n.contr.Idx) :
    (dot_S100000x128_S128x64_S100000x64_1_0_0_1_n_n.lhsIdx i q 0).val = (i 0).val := by
  unfold DotDims.lhsIdx
  rw [dif_neg (show ¬(0 : Fin S100000x128.rank) ∈ dot_S100000x128_S128x64_S100000x64_1_0_0_1_n_n.lhsBatch from List.not_mem_nil),
    dif_pos (show (0 : Fin S100000x128.rank) ∈ dot_S100000x128_S128x64_S100000x64_1_0_0_1_n_n.lhsNonContracting from List.mem_singleton.mpr rfl)]
  rfl

theorem lhs64_1 (i : S100000x64.Idx) (q : dot_S100000x128_S128x64_S100000x64_1_0_0_1_n_n.contr.Idx) :
    (dot_S100000x128_S128x64_S100000x64_1_0_0_1_n_n.lhsIdx i q 1).val = (q ⟨0, Nat.one_pos⟩).val :=
  dot_S100000x128_S128x64_S100000x64_1_0_0_1_n_n.lhsIdx_val_of_single rfl i q

theorem rhs64_0 (i : S100000x64.Idx) (q : dot_S100000x128_S128x64_S100000x64_1_0_0_1_n_n.contr.Idx) :
    (dot_S100000x128_S128x64_S100000x64_1_0_0_1_n_n.rhsIdx i q 0).val = (q ⟨0, Nat.one_pos⟩).val :=
  dot_S100000x128_S128x64_S100000x64_1_0_0_1_n_n.rhsIdx_val_of_single rfl i q

theorem rhs64_1 (i : S100000x64.Idx) (q : dot_S100000x128_S128x64_S100000x64_1_0_0_1_n_n.contr.Idx) :
    (dot_S100000x128_S128x64_S100000x64_1_0_0_1_n_n.rhsIdx i q 1).val = (i 1).val := by
  unfold DotDims.rhsIdx
  rw [dif_neg (show ¬(1 : Fin S128x64.rank) ∈ dot_S100000x128_S128x64_S100000x64_1_0_0_1_n_n.rhsBatch from List.not_mem_nil),
    dif_pos (show (1 : Fin S128x64.rank) ∈ dot_S100000x128_S128x64_S100000x64_1_0_0_1_n_n.rhsNonContracting from List.mem_singleton.mpr rfl)]
  rfl

/-- Entry (i, c) of the product is the sum over the 128 contracted positions. -/
theorem dot64_apply (x : A2 100000 128) (w : A2 128 64) (i : Fin 100000) (c : Fin 64) :
    (Host.dotGeneral (F := Ideal) (φ₁ := .f32) (φ₂ := .f32) dot_S100000x128_S128x64_S100000x64_1_0_0_1_n_n none x w) (ix2 i c)
      = ∑ k : Fin 128, x (ix2 i k) * w (ix2 k c) := by
  simp only [Host.dotGeneral]
  rw [Ideal.dotGeneral_apply, ← Equiv.sum_comp (ValueIdx.contrEquiv1 dot_S100000x128_S128x64_S100000x64_1_0_0_1_n_n 128 rfl rfl).symm]
  refine Finset.sum_congr rfl fun k _ => ?_
  have hk := ValueIdx.contrEquiv1_symm_val dot_S100000x128_S128x64_S100000x64_1_0_0_1_n_n 128 rfl rfl k
  have el : dot_S100000x128_S128x64_S100000x64_1_0_0_1_n_n.lhsIdx (ix2 i c) ((ValueIdx.contrEquiv1 dot_S100000x128_S128x64_S100000x64_1_0_0_1_n_n 128 rfl rfl).symm k) = ix2 i k := funext fun a => Fin.ext (by
    match a with
    | ⟨0, _⟩ => exact lhs64_0 _ _
    | ⟨1, _⟩ => exact (lhs64_1 _ _).trans hk)
  have er : dot_S100000x128_S128x64_S100000x64_1_0_0_1_n_n.rhsIdx (ix2 i c) ((ValueIdx.contrEquiv1 dot_S100000x128_S128x64_S100000x64_1_0_0_1_n_n 128 rfl rfl).symm k) = ix2 k c := funext fun a => Fin.ext (by
    match a with
    | ⟨0, _⟩ => exact (rhs64_0 _ _).trans hk
    | ⟨1, _⟩ => exact rhs64_1 _ _)
  rw [el, er]

end Cert.ReferenceIdeal.RValue

end
-- ==== Proof.RefLayout.lean ====
/-
  The reference's broadcasts, read at an index. A vector of length C laid along every row of a
  100000 x C array (first made a one-row matrix, then copied down the rows) reads, at (i, c), the vector's
  entry c. A vector of length 100000 laid along every column of a 100000 x C array (first made a
  one-column matrix, then copied across the columns) reads, at (i, c), the vector's entry i. A scalar
  broadcast to any shape reads the scalar.
-/
import proofs.«110434_j36318243455158_2_alg».proof.Proof.Spec
import Idealize.ShloMosaic.Lib.Pipeline.Value
import Idealize.ShloMosaic.Lib.IdealHost

noncomputable section

open Idealize.ShloMosaic Idealize.ShloMosaic.ValueIdx Cert.GNN

namespace Cert.ReferenceIdeal.RValue

/-- A vector as a one-row matrix: entry (0, c) is entry c. -/
theorem oneRow_apply {C : ℕ} {α : Type} (h1 : (⟨1, ![C]⟩ : Shape).BroadcastsInDim ⟨2, ![1, C]⟩ ![1])
    (b : (⟨1, ![C]⟩ : Shape).Idx → α) (r : Fin 1) (c : Fin C) :
    broadcastInDim ⟨2, ![1, C]⟩ ![1] h1 b (ix2 r c) = b (ix1 c) := by
  refine broadcastInDim_apply ![1] h1 b (ix2 r c) (ix1 c) ?_
  intro a
  match a with
  | ⟨0, _⟩ =>
    show c.val = if C = 1 then 0 else c.val
    split_ifs with hn
    · have := c.isLt; omega
    · rfl

/-- A one-row matrix copied down R rows: entry (i, c) is entry (0, c). -/
theorem downRows_apply {R C : ℕ} {α : Type} (h2 : (⟨2, ![1, C]⟩ : Shape).BroadcastsInDim ⟨2, ![R, C]⟩ ![0, 1])
    (y : (⟨2, ![1, C]⟩ : Shape).Idx → α) (i : Fin R) (c : Fin C) :
    broadcastInDim ⟨2, ![R, C]⟩ ![0, 1] h2 y (ix2 i c) = y (ix2 (0 : Fin 1) c) := by
  refine broadcastInDim_apply ![0, 1] h2 y (ix2 i c) (ix2 (0 : Fin 1) c) ?_
  intro a
  match a with
  | ⟨0, _⟩ =>
    show (0 : ℕ) = if (1 : ℕ) = 1 then 0 else _
    simp
  | ⟨1, _⟩ =>
    show c.val = if C = 1 then 0 else c.val
    split_ifs with hn
    · have := c.isLt; omega
    · rfl

/-- A vector laid along every row. -/
theorem alongRows_apply {R C : ℕ} {α : Type} (h1 : (⟨1, ![C]⟩ : Shape).BroadcastsInDim ⟨2, ![1, C]⟩ ![1])
    (h2 : (⟨2, ![1, C]⟩ : Shape).BroadcastsInDim ⟨2, ![R, C]⟩ ![0, 1])
    (b : (⟨1, ![C]⟩ : Shape).Idx → α) (i : Fin R) (c : Fin C) :
    broadcastInDim ⟨2, ![R, C]⟩ ![0, 1] h2 (broadcastInDim ⟨2, ![1, C]⟩ ![1] h1 b) (ix2 i c) = b (ix1 c) :=
  (downRows_apply h2 _ i c).trans (oneRow_apply h1 b 0 c)

/-- A vector as a one-column matrix: entry (i, 0) is entry i. -/
theorem oneCol_apply {R : ℕ} {α : Type} (h1 : (⟨1, ![R]⟩ : Shape).BroadcastsInDim ⟨2, ![R, 1]⟩ ![0])
    (v : (⟨1, ![R]⟩ : Shape).Idx → α) (i : Fin R) (r : Fin 1) :
    broadcastInDim ⟨2, ![R, 1]⟩ ![0] h1 v (ix2 i r) = v (ix1 i) := by
  refine broadcastInDim_apply ![0] h1 v (ix2 i r) (ix1 i) ?_
  intro a
  match a with
  | ⟨0, _⟩ =>
    show i.val = if R = 1 then 0 else i.val
    split_ifs with hn
    · have := i.isLt; omega
    · rfl

/-- A one-column matrix copied across C columns: entry (i, c) is entry (i, 0). -/
theorem acrossCols_apply {R C : ℕ} {α : Type} (h2 : (⟨2, ![R, 1]⟩ : Shape).BroadcastsInDim ⟨2, ![R, C]⟩ ![0, 1])
    (y : (⟨2, ![R, 1]⟩ : Shape).Idx → α) (i : Fin R) (c : Fin C) :
    broadcastInDim ⟨2, ![R, C]⟩ ![0, 1] h2 y (ix2 i c) = y (ix2 i (0 : Fin 1)) := by
  refine broadcastInDim_apply ![0, 1] h2 y (ix2 i c) (ix2 i (0 : Fin 1)) ?_
  intro a
  match a with
  | ⟨0, _⟩ =>
    show i.val = if R = 1 then 0 else i.val
    split_ifs with hn
    · have := i.isLt; omega
    · rfl
  | ⟨1, _⟩ =>
    show (0 : ℕ) = if (1 : ℕ) = 1 then 0 else _
    simp

/-- A vector laid along every column. -/
theorem alongCols_apply {R C : ℕ} {α : Type} (h1 : (⟨1, ![R]⟩ : Shape).BroadcastsInDim ⟨2, ![R, 1]⟩ ![0])
    (h2 : (⟨2, ![R, 1]⟩ : Shape).BroadcastsInDim ⟨2, ![R, C]⟩ ![0, 1])
    (v : (⟨1, ![R]⟩ : Shape).Idx → α) (i : Fin R) (c : Fin C) :
    broadcastInDim ⟨2, ![R, C]⟩ ![0, 1] h2 (broadcastInDim ⟨2, ![R, 1]⟩ ![0] h1 v) (ix2 i c) = v (ix1 i) :=
  (acrossCols_apply h2 _ i c).trans (oneCol_apply h1 v i 0)

end Cert.ReferenceIdeal.RValue

end
-- ==== Proof.RefConv.lean ====
/-
  The convolution of the reference, read at an entry: the two products' sums over the 128 contracted
  positions, added, plus the bias entry of the column (the bias vector laid along every row). This is the
  specification's convolution with the bias written as a one-row matrix.
-/
import proofs.«110434_j36318243455158_2_alg».proof.Proof.RefTerm
import proofs.«110434_j36318243455158_2_alg».proof.Proof.RefDot
import proofs.«110434_j36318243455158_2_alg».proof.Proof.RefLayout

noncomputable section

open scoped BigOperators
open Idealize.ShloMosaic Idealize.ShloMosaic.ValueIdx Cert.GNN

namespace Cert.ReferenceIdeal.RValue

open Cert.ReferenceIdeal.Facts₀ Cert.ReferenceIdeal.Facts

variable [Cert.ReferenceIdeal.Facts]

/-- The hidden layers' convolution is the specification's. -/
theorem convTerm_eq (x a : A2 100000 128) (ws wn : A2 128 128) (b : A1 128) :
    convTerm x a ws wn b = conv x a ws wn (row b) := by
  funext j
  obtain ⟨i, c, rfl⟩ : ∃ (i : Fin 100000) (c : Fin 128), j = ix2 i c := ⟨j 0, j 1, eq_ix2 j⟩
  unfold convTerm
  refine (congrArg₂ (· + ·) (congrArg₂ (· + ·) (dot128_apply x ws i c) (dot128_apply a wn i c))
    (alongRows_apply bcast_S128_S1x128_1 bcast_S1x128_S100000x128_0_1 b i c)).trans ?_
  rfl

/-- The output layer's convolution, into 64 columns, is the specification's. -/
theorem convTerm64_eq (x a : A2 100000 128) (ws wn : A2 128 64) (b : A1 64) :
    convTerm64 x a ws wn b = conv x a ws wn (row b) := by
  funext j
  obtain ⟨i, c, rfl⟩ : ∃ (i : Fin 100000) (c : Fin 64), j = ix2 i c := ⟨j 0, j 1, eq_ix2 j⟩
  unfold convTerm64
  refine (congrArg₂ (· + ·) (congrArg₂ (· + ·) (dot64_apply x ws i c) (dot64_apply a wn i c))
    (alongRows_apply bcast_S64_S1x64_1 bcast_S1x64_S100000x64_0_1 b i c)).trans ?_
  rfl

end Cert.ReferenceIdeal.RValue

end
-- ==== Proof.RefSums.lean ====
/-
  The reference's reductions, read at an index. A column sum of a 100000 x 128 array: the initial value
  plus the sum over the 100000 rows. A row sum of a 100000 x 64 array: the initial value plus the sum over
  the 64 columns. A row maximum: the fold of max over the 64 columns from the initial value. At the
  extended reals the host's float sum is the exact sum, and max is commutative and associative, so the
  order in which the host visits the elements does not matter.
-/
import proofs.«110434_j36318243455158_2_alg».proof.ReferenceIdeal
import proofs.«110434_j36318243455158_2_alg».proof.Proof.Spec
import Idealize.ShloMosaic.PureOps.Ideal.Laws
import Idealize.ShloMosaic.Lib.IdealHost

noncomputable section

open scoped BigOperators
open Idealize.ShloMosaic Idealize.ShloMosaic.ValueIdx Cert.GNN

namespace Cert.ReferenceIdeal.RValue

/-- Column c of the sum over the rows. -/
theorem colSum_apply (h : A2 100000 128) (init : S_.Idx → EReal) (hr : S100000x128.ReducesTo [0] S128)
    (hu : 0 < S_.numel) (c : Fin 128) :
    (Host.reduceAdd (F := Ideal) (φ := .f32) h init hr hu) (ix1 c)
      = init (Shape.Idx.first hu) + ∑ i : Fin 100000, h (ix2 i c) := by
  simp only [Host.reduceAdd, Ideal.hostReduceAdd_def]
  rw [Ideal.hostReduceAdd_single hr (by decide)]
  refine congrArg (_ + ·) (Finset.sum_congr rfl fun k _ => ?_)
  exact congrArg h (funext fun a => Fin.ext (by match a with | ⟨0, _⟩ => rfl | ⟨1, _⟩ => rfl))

/-- Row i of the sum over the columns. -/
theorem rowSum_apply (h : A2 100000 64) (init : S_.Idx → EReal) (hr : S100000x64.ReducesTo [1] S100000)
    (hu : 0 < S_.numel) (i : Fin 100000) :
    (Host.reduceAdd (F := Ideal) (φ := .f32) h init hr hu) (ix1 i)
      = init (Shape.Idx.first hu) + ∑ c : Fin 64, h (ix2 i c) := by
  simp only [Host.reduceAdd, Ideal.hostReduceAdd_def]
  rw [Ideal.hostReduceAdd_single hr (by decide)]
  refine congrArg (_ + ·) (Finset.sum_congr rfl fun k _ => ?_)
  exact congrArg h (funext fun a => Fin.ext (by match a with | ⟨0, _⟩ => rfl | ⟨1, _⟩ => rfl))

/-- Row i of the maximum over the columns: the fold of max from the initial value. -/
theorem rowMax_apply (h : A2 100000 64) (init : S_.Idx → EReal) (hr : S100000x64.ReducesTo [1] S100000)
    (hu : 0 < S_.numel) (i : Fin 100000) :
    (Host.reduce (FloatOps.maximumf (F := Ideal) (φ := .f32)) h init hr hu) (ix1 i)
      = (Finset.univ : Finset (Fin 64)).fold max (init (Shape.Idx.first hu)) (fun c => h (ix2 i c)) := by
  rw [Host.reduce_eq_fold_single (FloatOps.maximumf (F := Ideal) (φ := .f32)) h init hr (by decide) hu (ix1 i)]
  refine congrArg (fun f => (Finset.univ : Finset (Fin 64)).fold max (init (Shape.Idx.first hu)) f) ?_
  funext c
  exact congrArg h (funext fun a => Fin.ext (by match a with | ⟨0, _⟩ => rfl | ⟨1, _⟩ => rfl))

end Cert.ReferenceIdeal.RValue

end
-- ==== Proof.Consts.lean ====
/-
  The three float words the programs write as constants, read as extended reals:
  the row count is the real number 100000, the variance guard is a positive real,
  and the word from which a row maximum is folded is the bottom element.
-/
import proofs.«110434_j36318243455158_2_alg».proof.Proof.Spec

noncomputable section

open Idealize.ShloMosaic

namespace Cert.GNN

/-- The word 0x47C35000 is 100000: exponent 143, fraction 4411392, (2^23 + 4411392) * 2^(143 - 150). -/
theorem nN_eq : nN = ((100000 : ℝ) : EReal) := by
  unfold nN
  simp [Ideal.ofBits, Ideal.ieee, -EReal.coe_mul]
  norm_num

/-- The guard is a positive real number. -/
theorem eps_eq : ∃ e : ℝ, 0 < e ∧ eps = (e : EReal) := by
  unfold eps
  simp [Ideal.ofBits, Ideal.ieee, -EReal.coe_mul]

theorem eps_pos : (0 : EReal) < eps := by
  obtain ⟨e, he, h⟩ := eps_eq
  rw [h]
  exact_mod_cast he

/-- The word 0xFF800000 is minus infinity. -/
theorem negInf_eq : negInf = (⊥ : EReal) := by
  unfold negInf
  simp [Ideal.ofBits, Ideal.ieee]

end Cert.GNN

end
-- ==== Proof.RefNorm.lean ====
/-
  The batch normalisation of the reference, read at an entry, one stage at a time.
  The column mean is the column sum over the row count (the zero word the sum starts from is the number 0).
  The variance function first recomputes that mean as a one-row matrix, takes the deviations from it, sums
  their squares down each column and divides by the row count less a correction; the correction is the
  integer 0 converted, so the divisor is the row count itself, and it is positive, so the selection that
  guards the quotient keeps it and the not-a-number constant of the other branch is never read.
  The normalised entry is ((h - mean) * rsqrt (var + eps)) * gamma + beta, and the layer ends with the
  maximum of that and 0.
-/
import proofs.«110434_j36318243455158_2_alg».proof.Proof.RefTerm
import proofs.«110434_j36318243455158_2_alg».proof.Proof.RefConv
import proofs.«110434_j36318243455158_2_alg».proof.Proof.RefSums
import proofs.«110434_j36318243455158_2_alg».proof.Proof.RefLayout
import proofs.«110434_j36318243455158_2_alg».proof.Proof.Consts

noncomputable section

open scoped BigOperators
open Idealize.ShloMosaic Idealize.ShloMosaic.ValueIdx Cert.GNN

namespace Cert.ReferenceIdeal.RValue

open Cert.ReferenceIdeal.Facts₀ Cert.ReferenceIdeal.Facts

variable [Cert.ReferenceIdeal.Facts]

/-- A column sum started from the zero word is the plain sum. -/
theorem colSum0_apply (h : A2 100000 128) (c : Fin 128) :
    (Host.reduceAdd (F := Ideal) (φ := .f32) h (constant (F := Ideal) S_ .f32 0x00000000#32)
      reducesTo_S100000x128_S128_d0 h_S_) (ix1 c) = ∑ i : Fin 100000, h (ix2 i c) := by
  refine (colSum_apply h _ reducesTo_S100000x128_S128_d0 h_S_ c).trans ?_
  rw [show (constant (F := Ideal) S_ .f32 0x00000000#32) (Shape.Idx.first h_S_) = 0 from Ideal.ofBits_zero_f32, zero_add]

/-- The column mean. -/
theorem meanTerm_apply (h : A2 100000 128) (c : Fin 128) : meanTerm h (ix1 c) = meanR h c := by
  unfold meanTerm
  refine (congrArg₂ Ideal.div (colSum0_apply h c) (broadcastInDim_scalar_apply bcast_S_S128 _ (ix1 c))).trans ?_
  rfl

/-- The variance function's own mean, a one-row matrix. -/
theorem varMeanTerm_apply (h : A2 100000 128) (r : Fin 1) (c : Fin 128) : varMeanTerm h (ix2 r c) = meanR h c := by
  unfold varMeanTerm
  refine (congrArg₂ Ideal.div ((oneRow_apply bcast_S128_S1x128_1 _ r c).trans (colSum0_apply h c))
    (broadcastInDim_scalar_apply bcast_S_S1x128 _ (ix2 r c))).trans ?_
  rfl

/-- The deviation from the column mean. -/
theorem varDevTerm_apply (h : A2 100000 128) (i : Fin 100000) (c : Fin 128) :
    varDevTerm h (ix2 i c) = h (ix2 i c) - meanR h c := by
  unfold varDevTerm
  exact congrArg (fun t => h (ix2 i c) - t)
    ((downRows_apply bcast_S1x128_S100000x128_0_1 _ i c).trans (varMeanTerm_apply h 0 c))

/-- The column sum of the squared deviations. -/
theorem varSumTerm_apply (h : A2 100000 128) (c : Fin 128) :
    varSumTerm h (ix1 c) = ∑ i : Fin 100000, (h (ix2 i c) - meanR h c) * (h (ix2 i c) - meanR h c) := by
  unfold varSumTerm
  refine (colSum0_apply _ c).trans ?_
  refine Finset.sum_congr rfl fun i _ => ?_
  exact congrArg₂ (· * ·) (varDevTerm_apply h i c) (varDevTerm_apply h i c)

/-- The divisor is the row count: the correction subtracted from it is the integer 0 converted. -/
theorem varCountTerm_apply (j : S_.Idx) : varCountTerm j = nN := by
  unfold varCountTerm
  show Ideal.ofBits .f32 0x47C35000#32 - (((0#32 : BitVec 32).toInt : ℝ) : EReal) = nN
  have h0 : ((0#32 : BitVec 32).toInt : ℝ) = 0 := by simp
  rw [h0, EReal.coe_zero, sub_zero]
  rfl

/-- The row count is positive, so the guard of the quotient is true. -/
theorem varGuard_apply (j : S_.Idx) :
    (cmpf (F := Ideal) (φ := .f32) .ogt varCountTerm (constant (F := Ideal) S_ .f32 0x00000000#32)) j = 1#1 := by
  show Ideal.cmp .ogt (varCountTerm j) (Ideal.ofBits .f32 0x00000000#32) = 1#1
  rw [varCountTerm_apply, Ideal.ofBits_zero_f32, nN_eq]
  have hpos : (0 : EReal) < ((100000 : ℝ) : EReal) := by exact_mod_cast (by norm_num : (0 : ℝ) < 100000)
  simp [Ideal.cmp, hpos]

/-- A selection whose condition is a broadcast scalar equal to 1 returns its first branch. -/
theorem select_scalar_one {α : Type} (hb : S_.BroadcastsInDim S128 ![]) (p : S_.Idx → BitVec 1) (a b : S128.Idx → α)
    (j : S128.Idx) (hp : p ix0 = 1#1) : select (broadcastInDim S128 ![] hb p) a b j = a j := by
  show Scalar.select (broadcastInDim S128 ![] hb p j) (a j) (b j) = a j
  rw [broadcastInDim_scalar_apply, hp]
  exact select_one _ _

/-- The column variance. -/
theorem varTerm_apply (h : A2 100000 128) (c : Fin 128) : varTerm h (ix1 c) = varR h c := by
  unfold varTerm
  refine (select_scalar_one bcast_S_S128 _ _ _ (ix1 c) (varGuard_apply ix0)).trans ?_
  refine (congrArg₂ Ideal.div (varSumTerm_apply h c)
    ((broadcastInDim_scalar_apply bcast_S_S128 _ (ix1 c)).trans (varCountTerm_apply ix0))).trans ?_
  rfl

/-- The normalised entry. -/
theorem bnTerm_apply (h : A2 100000 128) (g be : A1 128) (i : Fin 100000) (c : Fin 128) :
    bnTerm h g be (ix2 i c)
      = ((h (ix2 i c) - meanR h c) * Ideal.rsqrt (varR h c + eps)) * g (ix1 c) + be (ix1 c) := by
  unfold bnTerm
  refine congrArg₂ (· + ·) (congrArg₂ (· * ·) (congrArg₂ (· * ·) (congrArg (fun t => h (ix2 i c) - t) ?_) ?_) ?_) ?_
  · exact (alongRows_apply bcast_S128_S1x128_1 bcast_S1x128_S100000x128_0_1 _ i c).trans (meanTerm_apply h c)
  · refine (alongRows_apply bcast_S128_S1x128_1 bcast_S1x128_S100000x128_0_1 _ i c).trans ?_
    exact congrArg Ideal.rsqrt (congrArg₂ (· + ·) (varTerm_apply h c) (broadcastInDim_scalar_apply bcast_S_S128 _ (ix1 c)))
  · exact alongRows_apply bcast_S128_S1x128_1 bcast_S1x128_S100000x128_0_1 g i c
  · exact alongRows_apply bcast_S128_S1x128_1 bcast_S1x128_S100000x128_0_1 be i c

/-- The maximum with zero. -/
theorem reluTerm_apply (y : A2 100000 128) (j : S100000x128.Idx) : reluTerm y j = max (y j) 0 := by
  unfold reluTerm
  refine (congrArg (fun t => max (y j) t) ((broadcastInDim_scalar_apply bcast_S_S100000x128 _ j).trans ?_))
  exact Ideal.ofBits_zero_f32

/-- Normalisation and relu together are the specification's textbook arrangement. -/
theorem relu_bn_eq (h : A2 100000 128) (g be : A1 128) : reluTerm (bnTerm h g be) = bnR h g be := by
  funext j
  obtain ⟨i, c, rfl⟩ : ∃ (i : Fin 100000) (c : Fin 128), j = ix2 i c := ⟨j 0, j 1, eq_ix2 j⟩
  rw [reluTerm_apply, bnTerm_apply]
  rfl

/-- A hidden layer of the reference is the specification's layer over the program's aggregation. -/
theorem layerTerm_eq (ei : (⟨S2x1600000, .i32⟩ : BufTy).Contents (Elt Ideal)) (x : A2 100000 128) (ws wn : A2 128 128)
    (b g be : A1 128) : layerTerm ei x ws wn b g be = layerR (aggR ei) x ws wn b g be := by
  unfold layerTerm layerR
  rw [convTerm_eq, relu_bn_eq]

end Cert.ReferenceIdeal.RValue

end
-- ==== Proof.RefRead.lean ====
/-
  The output layer of the reference, read at an entry, one stage at a time.
  The row maximum is folded from the minus-infinity word and then taken once more against that word; the
  fold already dominates the word it started from, so the second maximum changes nothing. The shifted
  entry is the entry less its row maximum; the row sum of the exponentials starts from the zero word,
  which is the number 0; the result is the shifted entry less the logarithm of that sum: the
  specification's row-wise log-softmax. The whole network is then two hidden layers and this output
  layer, each over the program's own aggregation.
-/
import proofs.«110434_j36318243455158_2_alg».proof.Proof.RefTerm
import proofs.«110434_j36318243455158_2_alg».proof.Proof.RefConv
import proofs.«110434_j36318243455158_2_alg».proof.Proof.RefNorm
import proofs.«110434_j36318243455158_2_alg».proof.Proof.RefSums
import proofs.«110434_j36318243455158_2_alg».proof.Proof.RefLayout

noncomputable section

open scoped BigOperators
open Idealize.ShloMosaic Idealize.ShloMosaic.ValueIdx Cert.GNN

namespace Cert.ReferenceIdeal.RValue

open Cert.ReferenceIdeal.Facts₀ Cert.ReferenceIdeal.Facts

variable [Cert.ReferenceIdeal.Facts]

/-- The row maximum. -/
theorem lsmMaxTerm_apply (h : A2 100000 64) (i : Fin 100000) :
    lsmMaxTerm h (ix1 i) = rowMax (fun c' => h (ix2 i c')) := by
  unfold lsmMaxTerm
  rw [maximumf_apply, broadcastInDim_scalar_apply, rowMax_apply]
  exact max_eq_right ((Finset.le_fold_max _).mpr (Or.inl le_rfl))

/-- The entry less its row maximum. -/
theorem lsmShiftTerm_apply (h : A2 100000 64) (i : Fin 100000) (c : Fin 64) :
    lsmShiftTerm h (ix2 i c) = h (ix2 i c) - rowMax (fun c' => h (ix2 i c')) := by
  unfold lsmShiftTerm
  exact congrArg (fun t => h (ix2 i c) - t)
    ((alongCols_apply bcast_S100000_S100000x1_0 bcast_S100000x1_S100000x64_0_1 _ i c).trans (lsmMaxTerm_apply h i))

/-- The row sum of the exponentials of the shifted row. -/
theorem lsmSumTerm_apply (h : A2 100000 64) (i : Fin 100000) :
    lsmSumTerm h (ix1 i) = ∑ c : Fin 64, Ideal.exp (h (ix2 i c) - rowMax (fun c' => h (ix2 i c'))) := by
  unfold lsmSumTerm
  refine (rowSum_apply _ _ reducesTo_S100000x64_S100000_d1 h_S_ i).trans ?_
  rw [show (constant (F := Ideal) S_ .f32 0x00000000#32) (Shape.Idx.first h_S_) = 0 from Ideal.ofBits_zero_f32, zero_add]
  refine Finset.sum_congr rfl fun c _ => ?_
  exact congrArg Ideal.exp (lsmShiftTerm_apply h i c)

/-- The host's logarithm at an index. -/
theorem hostLog_apply {s : Shape} (x : FVec Ideal s .f32) (j : s.Idx) :
    Host.log (F := Ideal) (φ := .f32) x j = Ideal.log (x j) := rfl

/-- The reference's log-softmax is the specification's. -/
theorem lsmTerm_eq (h : A2 100000 64) : lsmTerm h = lsm h := by
  funext j
  obtain ⟨i, c, rfl⟩ : ∃ (i : Fin 100000) (c : Fin 64), j = ix2 i c := ⟨j 0, j 1, eq_ix2 j⟩
  unfold lsmTerm
  rw [subf_apply, acrossCols_apply, hostLog_apply, oneCol_apply, lsmSumTerm_apply, lsmShiftTerm_apply]
  rfl

/-- The output layer of the reference is the specification's convolution followed by its log-softmax. -/
theorem finalTerm_eq (ei : (⟨S2x1600000, .i32⟩ : BufTy).Contents (Elt Ideal)) (x : A2 100000 128) (ws wn : A2 128 64)
    (b : A1 64) : finalTerm ei x ws wn b = lsm (conv x (aggR ei x) ws wn (row b)) := by
  unfold finalTerm
  rw [convTerm64_eq, lsmTerm_eq]

/-- The reference's result is the specification's network in the textbook arrangement, over the program's
    own aggregation. -/
theorem res_eq (a0 : A2 100000 128) (a1 : (⟨S2x1600000, .i32⟩ : BufTy).Contents (Elt Ideal))
    (a2 a3 : A2 128 128) (a4 a5 a6 : A1 128) (a7 a8 : A2 128 128) (a9 a10 a11 : A1 128)
    (a12 a13 : A2 128 64) (a14 : A1 64) :
    res a0 a1 a2 a3 a4 a5 a6 a7 a8 a9 a10 a11 a12 a13 a14
      = outR (aggR a1) a0 a2 a3 a4 a5 a6 a7 a8 a9 a10 a11 a12 a13 a14 := by
  unfold res outR
  rw [finalTerm_eq, layerTerm_eq, layerTerm_eq]

end Cert.ReferenceIdeal.RValue

end
-- ==== Proof.RealArr.lean ====
/-
  Real arrays: an array of extended reals all of whose entries are real numbers; and the coercion of a finite sum of reals.
-/
import Mathlib.Data.EReal.Operations
import Mathlib.Algebra.BigOperators.Group.Finset.Basic

noncomputable section

open scoped BigOperators

namespace Cert.GNN

/-- An array all of whose entries are real numbers. -/
def IsReal {ι : Type} (a : ι → EReal) : Prop := ∃ f : ι → ℝ, ∀ j, a j = (f j : EReal)

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- An entry that is neither infinity is a real number. -/
theorem isReal_of_ne {ι : Type} (a : ι → EReal) (h : ∀ j, a j ≠ ⊤ ∧ a j ≠ ⊥) : IsReal a :=
  ⟨fun j => (a j).toReal, fun j => (EReal.coe_toReal (h j).1 (h j).2).symm⟩

end Cert.GNN

end
-- ==== Proof.Law.lean ====
/-
  The two arrangements of the batch normalisation agree on finite data, and so do the two arrangements of the network.

  For a column of real numbers f₀ … f_{n-1} (n = 100000) with mean μ = Σ f / n:
    Σ (f - μ)² / n = Σ f² / n - μ²   and this is ≥ 0,
  so the tiled arrangement's guarded variance max (E[f²] - E[f]², 0) is the textbook variance; the tiles' partial sums
  added up are the whole column's sum (a sum over 20 × 5000 pairs re-indexed over 100000 rows: no finiteness needed);
  and for reals  x·(γ·r) + (β - μ·(γ·r)) = ((x - μ)·r)·γ + β.  On the extended reals these laws fail at the infinities
  (∞ - ∞), which is why every array is first shown to hold real numbers: a convolution of real arrays is real, and a
  normalised real column is real because var + ε > 0 makes the reciprocal square root a real number.
-/
import proofs.«110434_j36318243455158_2_alg».proof.Proof.Spec
import proofs.«110434_j36318243455158_2_alg».proof.Proof.RealArr
import Mathlib.Analysis.SpecialFunctions.Pow.Real

noncomputable section

open scoped BigOperators
open Idealize.ShloMosaic Idealize.ShloMosaic.ValueIdx

namespace Cert.GNN

/-! ## The tiles' partial sums added up are the column's sum -/

/-- Row `5000 t + r` is the row the pair `(t, r)` names under the usual bijection of 20 × 5000 pairs with 100000 rows. -/
def rowEquiv : Fin 20 × Fin 5000 ≃ Fin 100000 := finProdFinEquiv.trans (finCongr (by norm_num))

theorem rowEquiv_apply (t : Fin 20) (r : Fin 5000) : rowEquiv (t, r) = rowOf t r := by
  apply Fin.ext
  simp [rowEquiv, rowOf, finProdFinEquiv]
  omega

theorem sum_tiles {M : Type} [AddCommMonoid M] (F : Fin 100000 → M) :
    ∑ t : Fin 20, ∑ r : Fin 5000, F (rowOf t r) = ∑ i : Fin 100000, F i := by
  rw [← Fintype.sum_prod_type' (f := fun t r => F (rowOf t r))]
  exact Fintype.sum_equiv rowEquiv _ _ (fun x => by rw [← rowEquiv_apply])

theorem colK_tileSum (h : A2 100000 128) (c : Fin 128) : colK (tileSum h) c = ∑ i : Fin 100000, h (ix2 i c) :=
  sum_tiles (fun i => h (ix2 i c))

theorem colK_tileSumSq (h : A2 100000 128) (c : Fin 128) :
    colK (tileSumSq h) c = ∑ i : Fin 100000, h (ix2 i c) * h (ix2 i c) :=
  sum_tiles (fun i => h (ix2 i c) * h (ix2 i c))

theorem meanK_tileSum (h : A2 100000 128) (c : Fin 128) : meanK (tileSum h) c = meanR h c := by
  unfold meanK meanR; rw [colK_tileSum]

end Cert.GNN

/-! ## The variance of a real column, in both arrangements -/

namespace Cert.GNN

/-- The mean of a real column of 100000 entries. -/
def μr (f : Fin 100000 → ℝ) : ℝ := (∑ i, f i) * (1 / 100000)
/-- Its variance in the textbook arrangement. -/
def vr (f : Fin 100000 → ℝ) : ℝ := (∑ i, (f i - μr f) * (f i - μr f)) * (1 / 100000)

theorem vr_nonneg (f : Fin 100000 → ℝ) : 0 ≤ vr f :=
  mul_nonneg (Finset.sum_nonneg fun i _ => mul_self_nonneg _) (by norm_num)

/-- `Σ (f - μ)² / n = Σ f² / n - μ²`. -/
theorem vr_eq (f : Fin 100000 → ℝ) : vr f = (∑ i, f i * f i) * (1 / 100000) - μr f * μr f := by
  have e : ∀ i, (f i - μr f) * (f i - μr f) = f i * f i - 2 * μr f * f i + μr f * μr f := fun i => by ring
  unfold vr
  simp only [e, Finset.sum_add_distrib, Finset.sum_sub_distrib, ← Finset.mul_sum, Finset.sum_const, Finset.card_univ,
    Fintype.card_fin, nsmul_eq_mul]
  have hs : (∑ i, f i) = 100000 * μr f := by unfold μr; ring
  rw [hs]; push_cast; ring

theorem max_var (f : Fin 100000 → ℝ) : max ((∑ i, f i * f i) * (1 / 100000) - μr f * μr f) 0 = vr f := by
  rw [← vr_eq]; exact max_eq_left (vr_nonneg f)

end Cert.GNN

/-! ## The statistics of a real array, read as real numbers -/

namespace Cert.GNN

/-- Column `c` of a real array. -/
def col (hr : (⟨2, ![100000, 128]⟩ : Shape).Idx → ℝ) (c : Fin 128) : Fin 100000 → ℝ := fun i => hr (ix2 i c)

theorem div_nN (hn : nN = ((100000 : ℝ) : EReal)) (x : ℝ) : Ideal.div (x : EReal) nN = ((x * (1 / 100000) : ℝ) : EReal) := by
  rw [hn, Ideal.div_coe (by norm_num : (100000 : ℝ) ≠ 0), ← EReal.coe_mul]

theorem meanR_coe (hn : nN = ((100000 : ℝ) : EReal)) (hr : (⟨2, ![100000, 128]⟩ : Shape).Idx → ℝ) (c : Fin 128) :
    meanR (fun j => (hr j : EReal)) c = (μr (col hr c) : EReal) := by
  unfold meanR μr col
  rw [← coe_sum, div_nN hn]

theorem varR_coe (hn : nN = ((100000 : ℝ) : EReal)) (hr : (⟨2, ![100000, 128]⟩ : Shape).Idx → ℝ) (c : Fin 128) :
    varR (fun j => (hr j : EReal)) c = (vr (col hr c) : EReal) := by
  unfold varR
  rw [meanR_coe hn]
  simp only [← EReal.coe_sub, ← EReal.coe_mul]
  rw [← coe_sum, div_nN hn]
  rfl

theorem coe_max_zero (a : ℝ) : max (a : EReal) 0 = ((max a 0 : ℝ) : EReal) := by
  rw [EReal.coe_strictMono.monotone.map_max, EReal.coe_zero]

theorem varK_coe (hn : nN = ((100000 : ℝ) : EReal)) (hr : (⟨2, ![100000, 128]⟩ : Shape).Idx → ℝ) (c : Fin 128) :
    varK (tileSum (fun j => (hr j : EReal))) (tileSumSq (fun j => (hr j : EReal))) c = (vr (col hr c) : EReal) := by
  unfold varK
  rw [meanK_tileSum, colK_tileSumSq, meanR_coe hn]
  simp only [← EReal.coe_mul]
  rw [← coe_sum, div_nN hn, ← EReal.coe_sub, coe_max_zero]
  exact congrArg _ (max_var (col hr c))

/-- The reciprocal square root of a positive real is a real number. -/
theorem rsqrt_coe {r : ℝ} (h : 0 < r) : Ideal.rsqrt (r : EReal) = (((Real.sqrt r)⁻¹ : ℝ) : EReal) := by
  show (if r < 0 then (⊥ : EReal) else if r = 0 then ⊤ else (((Real.sqrt r)⁻¹ : ℝ) : EReal)) = _
  rw [if_neg (not_lt.mpr h.le), if_neg h.ne']

theorem scaleK_apply (s q : A3 20 1 128) (g : A1 128) (c : Fin 128) :
    scaleK s q g (ix2 0 c) = g (ix1 c) * Ideal.rsqrt (varK s q c + eps) := rfl
theorem shiftK_apply (s q : A3 20 1 128) (g be : A1 128) (c : Fin 128) :
    shiftK s q g be (ix2 0 c) = be (ix1 c) - meanK s c * scaleK s q g (ix2 0 c) := rfl
theorem bnrelu_apply (h : A2 100000 128) (sc sh : A2 1 128) (i : Fin 100000) (c : Fin 128) :
    bnrelu h sc sh (ix2 i c) = max (h (ix2 i c) * sc (ix2 0 c) + sh (ix2 0 c)) 0 := rfl
theorem bnR_apply (h : A2 100000 128) (g be : A1 128) (i : Fin 100000) (c : Fin 128) :
    bnR h g be (ix2 i c)
      = max (((h (ix2 i c) - meanR h c) * Ideal.rsqrt (varR h c + eps)) * g (ix1 c) + be (ix1 c)) 0 := rfl

/-- On a real array, with real γ and β, the tiled arrangement of the normalisation is the textbook one. -/
theorem bn_eq (hn : nN = ((100000 : ℝ) : EReal)) (he : ∃ e : ℝ, 0 < e ∧ eps = (e : EReal))
    (h : A2 100000 128) (g be : A1 128) (hh : IsReal h) (hg : IsReal g) (hb : IsReal be) :
    bnrelu h (scaleK (tileSum h) (tileSumSq h) g) (shiftK (tileSum h) (tileSumSq h) g be) = bnR h g be := by
  obtain ⟨hr, hh⟩ := hh; obtain ⟨gr, hg⟩ := hg; obtain ⟨br, hb⟩ := hb; obtain ⟨e, epos, he⟩ := he
  obtain rfl : h = fun j => (hr j : EReal) := funext hh
  funext j
  obtain ⟨i, c, rfl⟩ : ∃ (i : Fin 100000) (c : Fin 128), j = ix2 i c := ⟨j 0, j 1, eq_ix2 j⟩
  rw [bnrelu_apply, bnR_apply, shiftK_apply, scaleK_apply, meanK_tileSum, varK_coe hn, meanR_coe hn, varR_coe hn, he,
    hg, hb]
  have hpos : 0 < vr (col hr c) + e := add_pos_of_nonneg_of_pos (vr_nonneg _) epos
  rw [← EReal.coe_add, rsqrt_coe hpos]
  simp only [← EReal.coe_mul, ← EReal.coe_sub, ← EReal.coe_add]
  congr 2
  ring

/-- … and the result is again a real array. -/
theorem bnR_isReal (hn : nN = ((100000 : ℝ) : EReal)) (he : ∃ e : ℝ, 0 < e ∧ eps = (e : EReal))
    (h : A2 100000 128) (g be : A1 128) (hh : IsReal h) (hg : IsReal g) (hb : IsReal be) : IsReal (bnR h g be) := by
  obtain ⟨hr, hh⟩ := hh; obtain ⟨gr, hg⟩ := hg; obtain ⟨br, hb⟩ := hb; obtain ⟨e, epos, he⟩ := he
  obtain rfl : h = fun j => (hr j : EReal) := funext hh
  refine ⟨fun j => max (((hr j - μr (col hr (j 1))) * (Real.sqrt (vr (col hr (j 1)) + e))⁻¹) * gr (ix1 (j 1)) + br (ix1 (j 1))) 0, fun j => ?_⟩
  obtain ⟨i, c, rfl⟩ : ∃ (i : Fin 100000) (c : Fin 128), j = ix2 i c := ⟨j 0, j 1, eq_ix2 j⟩
  rw [bnR_apply, meanR_coe hn, varR_coe hn, he, hg, hb]
  have hpos : 0 < vr (col hr c) + e := add_pos_of_nonneg_of_pos (vr_nonneg _) epos
  rw [← EReal.coe_add, rsqrt_coe hpos]
  simp only [← EReal.coe_mul, ← EReal.coe_sub, ← EReal.coe_add]
  rw [coe_max_zero]

end Cert.GNN

/-! ## Real arrays through a convolution and a layer; the two networks -/

namespace Cert.GNN

theorem row_isReal {C : ℕ} (b : A1 C) (hb : IsReal b) : IsReal (row b) := by
  obtain ⟨br, hb⟩ := hb
  exact ⟨fun j => br (ix1 (j 1)), fun j => hb _⟩

/-- A convolution of real arrays is a real array: finite sums of products of reals. -/
theorem conv_isReal {C : ℕ} (x a : A2 100000 128) (ws wn : A2 128 C) (b : A2 1 C) (hx : IsReal x) (ha : IsReal a)
    (hws : IsReal ws) (hwn : IsReal wn) (hb : IsReal b) : IsReal (conv x a ws wn b) := by
  obtain ⟨xr, hx⟩ := hx; obtain ⟨ar, ha⟩ := ha; obtain ⟨wsr, hws⟩ := hws; obtain ⟨wnr, hwn⟩ := hwn
  obtain ⟨br, hb⟩ := hb
  refine ⟨fun j => ((∑ k : Fin 128, xr (ix2 (j 0) k) * wsr (ix2 k (j 1)))
    + (∑ k : Fin 128, ar (ix2 (j 0) k) * wnr (ix2 k (j 1)))) + br (ix2 0 (j 1)), fun j => ?_⟩
  unfold conv convAt
  simp only [hx, ha, hws, hwn, hb, ← EReal.coe_mul]
  rw [← coe_sum, ← coe_sum, ← EReal.coe_add, ← EReal.coe_add]

variable (hn : nN = ((100000 : ℝ) : EReal)) (he : ∃ e : ℝ, 0 < e ∧ eps = (e : EReal))
include hn he

/-- A layer on real data: the tiled arrangement is the textbook one. -/
theorem layer_eq (ag : A2 100000 128 → A2 100000 128) (x : A2 100000 128) (ws wn : A2 128 128) (b g be : A1 128)
    (hx : IsReal x) (hax : IsReal (ag x)) (hws : IsReal ws) (hwn : IsReal wn) (hb : IsReal b) (hg : IsReal g)
    (hbe : IsReal be) : layerK ag x ws wn b g be = layerR ag x ws wn b g be := by
  unfold layerK layerR
  exact bn_eq hn he _ g be (conv_isReal x (ag x) ws wn (row b) hx hax hws hwn (row_isReal b hb)) hg hbe

/-- … and its result is real. -/
theorem layerR_isReal (ag : A2 100000 128 → A2 100000 128) (x : A2 100000 128) (ws wn : A2 128 128) (b g be : A1 128)
    (hx : IsReal x) (hax : IsReal (ag x)) (hws : IsReal ws) (hwn : IsReal wn) (hb : IsReal b) (hg : IsReal g)
    (hbe : IsReal be) : IsReal (layerR ag x ws wn b g be) := by
  unfold layerR
  exact bnR_isReal hn he _ g be (conv_isReal x (ag x) ws wn (row b) hx hax hws hwn (row_isReal b hb)) hg hbe

/-- The whole network: on real arguments, with an aggregation that keeps real arrays real, the tiled arrangement computes
    what the textbook arrangement computes. The last layer is the same expression of the second layer's result on both
    sides. -/
theorem out_eq (ag : A2 100000 128 → A2 100000 128) (hag : ∀ h, IsReal h → IsReal (ag h)) (x : A2 100000 128)
    (w0s w0n : A2 128 128) (b0 g0 be0 : A1 128) (w1s w1n : A2 128 128) (b1 g1 be1 : A1 128)
    (w2s w2n : A2 128 64) (b2 : A1 64)
    (hx : IsReal x) (h0s : IsReal w0s) (h0n : IsReal w0n) (hb0 : IsReal b0) (hg0 : IsReal g0) (hbe0 : IsReal be0)
    (h1s : IsReal w1s) (h1n : IsReal w1n) (hb1 : IsReal b1) (hg1 : IsReal g1) (hbe1 : IsReal be1) :
    outK ag x w0s w0n b0 g0 be0 w1s w1n b1 g1 be1 w2s w2n b2
      = outR ag x w0s w0n b0 g0 be0 w1s w1n b1 g1 be1 w2s w2n b2 := by
  have e0 := layer_eq hn he ag x w0s w0n b0 g0 be0 hx (hag x hx) h0s h0n hb0 hg0 hbe0
  have r0 := layerR_isReal hn he ag x w0s w0n b0 g0 be0 hx (hag x hx) h0s h0n hb0 hg0 hbe0
  have e1 := layer_eq hn he ag _ w1s w1n b1 g1 be1 r0 (hag _ r0) h1s h1n hb1 hg1 hbe1
  unfold outK outR
  rw [e0, e1]

end Cert.GNN

end
-- ==== Proof.AggLaw.lean ====
/-
  What the mean aggregation needs from the extended reals, with no program in sight.

  * Scaling by the reciprocal is dividing: for d = max (y, 1) — which is never zero — x · (1 / d) = x / d on every
    extended real x, since both sides are x · d⁻¹.
  * Real arrays stay real: a gather only moves entries; a scatter-add into a real array adds finitely many real entries
    to each element; a quotient of a real by a real d ≥ 1 is real.
-/
import Idealize.ShloMosaic.PureOps.Ideal
import Idealize.ShloMosaic.PureOps.ShapeOps
import proofs.«110434_j36318243455158_2_alg».proof.Proof.RealArr

noncomputable section

open scoped BigOperators
open Idealize.ShloMosaic

namespace Cert.GNN

/-- The f32 word of one. -/
theorem one_eq : Ideal.ofBits .f32 0x3F800000#32 = (1 : EReal) := by
  simp [Ideal.ofBits, Ideal.ieee, -EReal.coe_mul]
  norm_num

theorem max_one_ne_zero (y : EReal) : max y 1 ≠ 0 :=
  ne_of_gt (lt_of_lt_of_le zero_lt_one (le_max_right y 1))

/-- `x · (1 / max (y, 1)) = x / max (y, 1)`. -/
theorem mul_div_one (x y : EReal) : x * Ideal.div 1 (max y 1) = Ideal.div x (max y 1) := by
  unfold Ideal.div
  rw [if_neg (max_one_ne_zero y), if_neg (max_one_ne_zero y), one_mul]

/-- A real divided by `max (y, 1)` for a real `y` is real. -/
theorem div_max_one_coe (x y : ℝ) : Ideal.div (x : EReal) (max (y : EReal) 1) = ((x * (1 / max y 1) : ℝ) : EReal) := by
  have h : max (y : EReal) 1 = ((max y 1 : ℝ) : EReal) := by
    rw [EReal.coe_strictMono.monotone.map_max, EReal.coe_one]
  rw [h, Ideal.div_coe (ne_of_gt (lt_of_lt_of_le zero_lt_one (le_max_right y 1))), ← EReal.coe_mul]

theorem gather_isReal {s si t : Shape} {w : ℕ} (d : GatherDims s si t) (x : s.Idx → EReal) (idx : IVec si w)
    (hx : IsReal x) : IsReal (Host.gather d x idx) := by
  obtain ⟨xr, hx⟩ := hx
  exact ⟨fun j => xr (d.operandIdx j idx), fun j => hx _⟩

theorem scatterAdd_isReal {s si su : Shape} {w : ℕ} (d : ScatterDims s si su) (x : s.Idx → EReal) (idx : IVec si w)
    (upd : su.Idx → EReal) (hx : IsReal x) (hu : IsReal upd) : IsReal (Ideal.hostScatterAdd d x idx upd) := by
  obtain ⟨xr, hx⟩ := hx; obtain ⟨ur, hu⟩ := hu
  refine ⟨fun i => xr i + ∑ j ∈ Finset.univ.filter (fun j => d.resultIdx? j idx = some i), ur j, fun i => ?_⟩
  unfold Ideal.hostScatterAdd
  simp only [hx, hu]
  rw [← coe_sum, ← EReal.coe_add]

end Cert.GNN

end
-- ==== Proof.AggBridge.lean ====
/-
  The two programs' neighbour aggregations are one function, and it keeps real arrays real.

  Both gather the source rows and scatter-add them at the destinations with the same index arrays, built by the same
  operations from the edge list; one then multiplies row i by 1 / max (deg i, 1) (kept as a column and spread along the
  row), the other divides row i by max (deg i, 1) (spread along the row): the same number, because max (·, 1) is never zero.
  On a real array the gathered rows are real, each scattered sum adds finitely many of them to zero, the in-degree is a finite
  sum of ones, and a real divided by a real that is at least one is real.
-/
import proofs.«110434_j36318243455158_2_alg».proof.Proof.AggK
import proofs.«110434_j36318243455158_2_alg».proof.Proof.AggR
import proofs.«110434_j36318243455158_2_alg».proof.Proof.AggLaw
import Idealize.ShloMosaic.Lib.Pipeline.Value
import Idealize.ShloMosaic.Lib.IdealHost
import Idealize.ShloMosaic.Lib.ValueIdx
import Idealize.ShloMosaic.PureOps.Ideal.Laws

noncomputable section

open scoped BigOperators
open Idealize.ShloMosaic Idealize.ShloMosaic.ValueIdx

namespace Cert.Proof.AggBridge

variable {α : Type}

/-- A vector `[a]` placed as a column `[a, 1]` reads, at `(p, 0)`, the vector at `p`. -/
theorem bcast_a_a1_apply (v : (⟨1, ![100000]⟩ : Shape).Idx → α)
    (h : (⟨1, ![100000]⟩ : Shape).BroadcastsInDim ⟨2, ![100000, 1]⟩ ![0]) (p : Fin 100000) :
    broadcastInDim ⟨2, ![100000, 1]⟩ ![0] h v (ix2 p (0 : Fin 1)) = v (ix1 p) := by
  refine broadcastInDim_apply _ h v _ (ix1 p) fun ax => ?_
  match ax with
  | ⟨0, _⟩ => rfl

/-- A column `[a, 1]` spread along the rows of `[a, 128]` reads, at `(p, c)`, the column at row `p`. -/
theorem bcast_a1_ab_apply (v : (⟨2, ![100000, 1]⟩ : Shape).Idx → α)
    (h : (⟨2, ![100000, 1]⟩ : Shape).BroadcastsInDim ⟨2, ![100000, 128]⟩ ![0, 1]) (p : Fin 100000) (c : Fin 128) :
    broadcastInDim ⟨2, ![100000, 128]⟩ ![0, 1] h v (ix2 p c) = v (ix2 p (0 : Fin 1)) := by
  refine broadcastInDim_apply _ h v _ (ix2 p (0 : Fin 1)) fun ax => ?_
  match ax with
  | ⟨0, _⟩ => rfl
  | ⟨1, _⟩ => rfl

/-- A vector `[a]` cast to a column `[a, 1]` reads, at `(p, 0)`, the vector at `p`. -/
theorem cast_a_a1_apply (x : (⟨1, ![100000]⟩ : Shape).Idx → α)
    (h : (⟨1, ![100000]⟩ : Shape).ShapeCasts ⟨2, ![100000, 1]⟩) (p : Fin 100000) :
    shapeCast ⟨2, ![100000, 1]⟩ x h (ix2 p (0 : Fin 1)) = x (ix1 p) :=
  shapeCast_apply x h _ _ (by
    rw [Shape.rowMajor_val_two, Shape.rowMajor_val_one]
    show p.val = p.val * 1 + 0
    omega)

/-! ## The two aggregations -/

open Cert.KernelIdeal.KValue Cert.ReferenceIdeal.RValue Cert.GNN

variable [Cert.KernelIdeal.Facts₀] [Cert.ReferenceIdeal.Facts]

/-- The edge list. -/
abbrev EI : Type := (⟨(⟨2, ![2, 1600000]⟩ : Shape), .i32⟩ : BufTy).Contents (Elt Ideal)

/-- The in-degrees are the same array in both programs. -/
theorem deg_eq (ei : EI) : deg ei = degR ei := rfl

/-- The scattered sums of gathered rows are the same array in both programs. -/
theorem sum_eq (ei : EI) (h : A2 100000 128) :
    (Host.scatterAdd (F := Ideal) (φ := .f32) Cert.KernelIdeal.scatter_S100000x128_S1600000x1_S1600000x128_1_0_0_1
      (broadcastInDim Cert.KernelIdeal.S100000x128 ![] Cert.KernelIdeal.Facts₀.bcast_S_S100000x128
        (constant (F := Ideal) Cert.KernelIdeal.S_ .f32 0x00000000#32))
      (dstB ei) (Host.gather Cert.KernelIdeal.gather_S100000x128_S1600000x1_S1600000x128_1_0_n_n_0_1_1128 h (srcB ei)))
      = sumR ei h := rfl

/-- The splat of the word of one reads one. -/
theorem ones_apply (h : (⟨0, ![]⟩ : Shape).BroadcastsInDim ⟨1, ![100000]⟩ ![]) (p : Fin 100000) :
    broadcastInDim ⟨1, ![100000]⟩ ![] h (constant (F := Ideal) ⟨0, ![]⟩ .f32 0x3F800000#32) (ix1 p) = (1 : EReal) := by
  rw [broadcastInDim_scalar_apply, constant_apply, one_eq]

/-- The kernel program's scale of row `p`: `1 / max (deg p, 1)`. -/
theorem dinv_apply (ei : EI) (p : Fin 100000) (c : Fin 128) :
    broadcastInDim Cert.KernelIdeal.S100000x128 ![0, 1] Cert.KernelIdeal.Facts₀.bcast_S100000x1_S100000x128_0_1 (dinv ei) (ix2 p c)
      = Ideal.div 1 (max (degR ei (ix1 p)) 1) := by
  rw [bcast_a1_ab_apply]
  unfold dinv
  rw [cast_a_a1_apply]
  rw [hostDivf_apply, maximumf_apply, ones_apply, deg_eq]

/-- The reference's divisor of row `p`: `max (deg p, 1)`. -/
theorem denR_apply (ei : EI) (p : Fin 100000) (c : Fin 128) : denR ei (ix2 p c) = max (degR ei (ix1 p)) 1 := by
  unfold denR
  rw [bcast_a1_ab_apply, bcast_a_a1_apply]
  rw [maximumf_apply, ones_apply]

/-- Scaling row `p` by `1 / max (deg p, 1)` is dividing it by `max (deg p, 1)`: the two programs aggregate alike. -/
theorem agg_eq (ei : EI) (h : A2 100000 128) : aggK ei h = aggR ei h := by
  funext j
  obtain ⟨p, c, rfl⟩ : ∃ (p : Fin 100000) (c : Fin 128), j = ix2 p c := ⟨j 0, j 1, eq_ix2 j⟩
  unfold aggK aggR
  rw [mulf_apply, dinv_apply, sum_eq, hostDivf_apply, denR_apply, mul_div_one]

/-! ## Real arrays stay real -/

/-- The splat of a word that denotes a real number is a real array. -/
theorem splat_isReal {T : Shape} (h : (⟨0, ![]⟩ : Shape).BroadcastsInDim T ![]) (b : BitVec 32) (r : ℝ)
    (hb : Ideal.ofBits .f32 b = (r : EReal)) :
    IsReal (broadcastInDim T ![] h (constant (F := Ideal) ⟨0, ![]⟩ .f32 b)) :=
  ⟨fun _ => r, fun j => by rw [broadcastInDim_scalar_apply, constant_apply, hb]⟩

theorem zero_word : Ideal.ofBits .f32 0x00000000#32 = ((0 : ℝ) : EReal) := by rw [Ideal.ofBits_zero_f32]; rfl
theorem one_word : Ideal.ofBits .f32 0x3F800000#32 = ((1 : ℝ) : EReal) := by rw [one_eq]; rfl

/-- The in-degrees are real numbers: finitely many ones added to zero. -/
theorem degR_isReal (ei : EI) : IsReal (degR ei) := by
  unfold degR
  exact scatterAdd_isReal _ _ _ _ (splat_isReal _ _ 0 zero_word) (splat_isReal _ _ 1 one_word)

/-- The aggregation of a real array is a real array. -/
theorem aggR_isReal (ei : EI) (h : A2 100000 128) (hh : IsReal h) : IsReal (aggR ei h) := by
  have hs : IsReal (sumR ei h) := by
    unfold sumR
    exact scatterAdd_isReal _ _ _ _ (splat_isReal _ _ 0 zero_word) (gather_isReal _ _ _ hh)
  obtain ⟨sr, hs⟩ := hs
  obtain ⟨dr, hd⟩ := degR_isReal ei
  refine ⟨fun j => sr j * (1 / max (dr (ix1 (j 0))) 1), fun j => ?_⟩
  obtain ⟨p, c, rfl⟩ : ∃ (p : Fin 100000) (c : Fin 128), j = ix2 p c := ⟨j 0, j 1, eq_ix2 j⟩
  unfold aggR
  rw [hostDivf_apply, denR_apply, hs, hd, div_max_one_coe]

end Cert.Proof.AggBridge

end
-- ==== Proof.PreFinite.lean ====
/-
  From the precondition "every float argument is finite" to "every float argument array holds real numbers".

  The precondition tests each float array x in the same way: take |x| entry by entry, compare it (strictly below)
  with the splat of the f32 word of +infinity, and fold the resulting bits by "and" over the whole array, starting
  from the true bit; the fourteen answers are then chained by "and" (the integer argument is not tested).
  At the ideal instance a float is an extended real, |x| is max x (-x), and the word 0x7F800000 denotes +infinity
  (top). So if the chain is 1, each fold is 1, hence every bit is 1, i.e. max x (-x) < top at every index, which
  rules out both x = top and x = bot: every entry is a real number.
-/
import proofs.«110434_j36318243455158_2_alg».proof.Pre_finite_inputs
import proofs.«110434_j36318243455158_2_alg».proof.Proof.RealArr
import Idealize.ShloMosaic.Lib.ReduceAll
import Idealize.ShloMosaic.PureOps.Ideal

noncomputable section

namespace Cert.Proof.PreFinite

open Idealize.ShloMosaic

/-- The rank-0 shape has exactly one index. -/
instance : Subsingleton Cert.Pre_finite_inputs.S_.Idx := ⟨fun a b => funext fun d => d.elim0⟩

/-- The f32 word 0x7F800000 denotes +infinity. -/
theorem inf_word : Ideal.ofBits .f32 0x7F800000#32 = (⊤ : EReal) := by simp [Ideal.ofBits, Ideal.ieee]

/-- An extended real whose absolute value max x (-x) compares strictly below the word of +infinity is
    neither infinity. -/
theorem ne_of_abs_lt (x : EReal)
    (h : Ideal.cmp .olt (max x (-x)) (Ideal.ofBits .f32 0x7F800000#32) = 1#1) : x ≠ ⊤ ∧ x ≠ ⊥ := by
  rw [inf_word] at h
  unfold Ideal.cmp at h
  induction x using EReal.rec with
  | bot => simp at h
  | coe r => exact ⟨EReal.coe_ne_top r, EReal.coe_ne_bot r⟩
  | top => simp at h

/-- The test of one array: if the "and" over all entries of the bits |x| < +infinity is 1 (at the one index of the
    scalar result), then x is an array of real numbers. Stated for any shape S that the scalar broadcasts into
    and that reduces to the scalar. -/
theorem isReal_of_all {S : Shape} {axes : List (Fin S.rank)} (x : FVec Ideal S .f32)
    (hb : Cert.Pre_finite_inputs.S_.BroadcastsInDim S (![] : Fin 0 → Fin S.rank))
    (hr : S.ReducesTo axes Cert.Pre_finite_inputs.S_) (hu : 0 < Cert.Pre_finite_inputs.S_.numel)
    (j0 : Cert.Pre_finite_inputs.S_.Idx)
    (h : Host.reduce IntOp.andi
          (cmpf .olt (Host.absf x)
            (broadcastInDim S ![] hb (constant (F := Ideal) Cert.Pre_finite_inputs.S_ .f32 0x7F800000#32)))
          (constantI Cert.Pre_finite_inputs.S_ 1 1#1) hr hu j0 = 1#1) :
    Cert.GNN.IsReal x := by
  refine Cert.GNN.isReal_of_ne x (fun j => ?_)
  have e := Host.reduce_andi_all _ _ hr hu j0 h j
  exact ne_of_abs_lt (x j) e

open Cert.Pre_finite_inputs in
/-- The precondition, decoded: each of the fourteen float arguments is an array of real numbers. -/
theorem isReal_of_pre [Cert.Pre_finite_inputs.Facts]
    (a0 : FVec Ideal Cert.Pre_finite_inputs.S100000x128 .f32) (a1 : IVec Cert.Pre_finite_inputs.S2x1600000 32)
    (a2 a3 : FVec Ideal Cert.Pre_finite_inputs.S128x128 .f32) (a4 a5 a6 : FVec Ideal Cert.Pre_finite_inputs.S128 .f32)
    (a7 a8 : FVec Ideal Cert.Pre_finite_inputs.S128x128 .f32) (a9 a10 a11 : FVec Ideal Cert.Pre_finite_inputs.S128 .f32)
    (a12 a13 : FVec Ideal Cert.Pre_finite_inputs.S128x64 .f32) (a14 : FVec Ideal Cert.Pre_finite_inputs.S64 .f32)
    (h : Cert.Pre_finite_inputs.fn (F := Ideal) a0 a1 a2 a3 a4 a5 a6 a7 a8 a9 a10 a11 a12 a13 a14 = fun _ => 1#1) :
    Cert.GNN.IsReal a0 ∧ Cert.GNN.IsReal a2 ∧ Cert.GNN.IsReal a3 ∧ Cert.GNN.IsReal a4 ∧ Cert.GNN.IsReal a5
      ∧ Cert.GNN.IsReal a6 ∧ Cert.GNN.IsReal a7 ∧ Cert.GNN.IsReal a8 ∧ Cert.GNN.IsReal a9 ∧ Cert.GNN.IsReal a10
      ∧ Cert.GNN.IsReal a11 ∧ Cert.GNN.IsReal a12 ∧ Cert.GNN.IsReal a13 ∧ Cert.GNN.IsReal a14 := by
  have e := congrFun h (fun d => d.elim0)
  dsimp only [Cert.Pre_finite_inputs.fn, Cert.Pre_finite_inputs.fn_part1, Cert.Pre_finite_inputs.fn_part2,
    Cert.Pre_finite_inputs.fn_part3, Cert.Pre_finite_inputs.fn_part4, andi] at e
  simp only [IntOp.andi_eq_one] at e
  obtain ⟨⟨⟨⟨⟨⟨⟨⟨⟨⟨⟨⟨⟨h0, h2⟩, h3⟩, h4⟩, h5⟩, h6⟩, h7⟩, h8⟩, h9⟩, h10⟩, h11⟩, h12⟩, h13⟩, h14⟩ := e
  exact ⟨isReal_of_all a0 _ _ _ _ h0, isReal_of_all a2 _ _ _ _ h2, isReal_of_all a3 _ _ _ _ h3,
    isReal_of_all a4 _ _ _ _ h4, isReal_of_all a5 _ _ _ _ h5, isReal_of_all a6 _ _ _ _ h6,
    isReal_of_all a7 _ _ _ _ h7, isReal_of_all a8 _ _ _ _ h8, isReal_of_all a9 _ _ _ _ h9,
    isReal_of_all a10 _ _ _ _ h10, isReal_of_all a11 _ _ _ _ h11, isReal_of_all a12 _ _ _ _ h12,
    isReal_of_all a13 _ _ _ _ h13, isReal_of_all a14 _ _ _ _ h14⟩

end Cert.Proof.PreFinite

end
-- ==== Proof.Assemble.lean ====
/-
  The two runs joined. The idealized kernel ends with its result at the tiled arrangement of the network applied to the
  argument arrays; the idealized reference ends with its result at the textbook arrangement; under the precondition every
  float argument is a real array, the two programs' aggregations are one function that keeps real arrays real, and on real
  data the two arrangements agree: so, from memories that agree on the arguments, the two results are equal.
-/
import proofs.«110434_j36318243455158_2_alg».proof.Defs
import proofs.«110434_j36318243455158_2_alg».proof.Proof.Gen.KernelIdeal
import proofs.«110434_j36318243455158_2_alg».proof.Proof.Gen.ReferenceIdeal
import proofs.«110434_j36318243455158_2_alg».proof.Proof.Gen.Pre_finite_inputs
import proofs.«110434_j36318243455158_2_alg».proof.Proof.Law
import proofs.«110434_j36318243455158_2_alg».proof.Proof.Consts
import proofs.«110434_j36318243455158_2_alg».proof.Proof.AggBridge
import proofs.«110434_j36318243455158_2_alg».proof.Proof.PreFinite
import proofs.«110434_j36318243455158_2_alg».proof.Proof.RefTerm

noncomputable section

namespace Cert.Proof.Assemble

open Idealize.ShloMosaic Idealize.SL.Sem Cert.GNN
open Cert.KernelIdeal.KValue Cert.ReferenceIdeal.RValue

/-- The algebraic claim, from the kernel's run with its result named, the reference's run with its result named, and the
    reading of the reference's term. -/
theorem algebraic
    (runK : ∀ (m : (ℓ : Loc Cert.KernelIdeal.nD Cert.KernelIdeal.τ Cert.KernelIdeal.sig) → Buf (Elt Ideal) ℓ) (ρ : Dev Cert.KernelIdeal.nD → PrngReg),
      θ_run (Cert.KernelIdeal.defs (F := Ideal)) (onTc (τ := Cert.KernelIdeal.τ) (Cert.KernelIdeal.main (F := Ideal))) ⟨m, fun _ => 0, ρ⟩
        (fun r => ∀ c : Dev Cert.KernelIdeal.nD,
          r.2.mem ((c.tc : Thread Cert.KernelIdeal.nD Cert.KernelIdeal.τ).loc Cert.KernelIdeal.main_v94)
            = outK (aggK (m ((c.tc : Thread Cert.KernelIdeal.nD Cert.KernelIdeal.τ).loc Cert.KernelIdeal.main_arg1))) (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)))
    (runR : ∀ (m : (ℓ : Loc Cert.ReferenceIdeal.nD Cert.ReferenceIdeal.τ Cert.ReferenceIdeal.sig) → Buf (Elt Ideal) ℓ) (ρ : Dev Cert.ReferenceIdeal.nD → PrngReg),
      θ_run (Cert.ReferenceIdeal.defs (F := Ideal)) (onTc (τ := Cert.ReferenceIdeal.τ) (Cert.ReferenceIdeal.main (F := Ideal))) ⟨m, fun _ => 0, ρ⟩
        (fun r => ∀ c : Dev Cert.ReferenceIdeal.nD,
          r.2.mem ((c.tc : Thread Cert.ReferenceIdeal.nD Cert.ReferenceIdeal.τ).loc Cert.ReferenceIdeal.main_v119)
            = res (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)))
    (hres : ∀ a0 a1 a2 a3 a4 a5 a6 a7 a8 a9 a10 a11 a12 a13 a14,
      res a0 a1 a2 a3 a4 a5 a6 a7 a8 a9 a10 a11 a12 a13 a14 = outR (aggR a1) a0 a2 a3 a4 a5 a6 a7 a8 a9 a10 a11 a12 a13 a14) :
    Cert.algebraic_KernelIdeal_ReferenceIdeal := by
  intro m ρ m' ρ' hpre hagree
  refine ⟨fun c => outK (aggK (m ((c.tc : Thread Cert.KernelIdeal.nD Cert.KernelIdeal.τ).loc Cert.KernelIdeal.main_arg1))) (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)), runK m ρ, ?_⟩
  refine (θ_run (Cert.ReferenceIdeal.defs (F := Ideal)) _ _).mono (fun r h c => ⟨(h c).1.trans ?_, (h c).2⟩) (runR m' ρ')
  obtain ⟨e0, e1, e2, e3, e4, e5, e6, e7, e8, e9, e10, e11, e12, e13, e14⟩ := hagree c
  obtain ⟨f0, f2, f3, f4, f5, f6, f7, f8, f9, f10, f11, f12, f13, f14⟩ :=
    Cert.Proof.PreFinite.isReal_of_pre _ _ _ _ _ _ _ _ _ _ _ _ _ _ _ (hpre c)
  rw [hres, e0, e1, e2, e3, e4, e5, e6, e7, e8, e9, e10, e11, e12, e13, e14]
  beta_reduce
  have hag : aggK (m ((c.tc : Thread Cert.KernelIdeal.nD Cert.KernelIdeal.τ).loc Cert.KernelIdeal.main_arg1)) = aggR (m ((c.tc : Thread Cert.KernelIdeal.nD Cert.KernelIdeal.τ).loc Cert.KernelIdeal.main_arg1)) := funext (Cert.Proof.AggBridge.agg_eq _)
  rw [hag]
  exact (out_eq nN_eq eps_eq _ (fun h hh => Cert.Proof.AggBridge.aggR_isReal _ h hh) _ _ _ _ _ _ _ _ _ _ _ _ _ _
    f0 f2 f3 f4 f5 f6 f7 f8 f9 f10 f11).symm

end Cert.Proof.Assemble

end
-- ==== Proof.lean ====
/-
  The certificate of a three-layer graph network against its textbook form.

  Both programs compute, for 100000 nodes with 128 features and 1600000 directed edges: two hidden layers, each
  `relu (batchnorm (x·W_self + mean_in(x)·W_neigh + b))` with the batch statistics taken over all the rows, then an
  output layer `log_softmax (x·W_self + mean_in(x)·W_neigh + b)` into 64 columns, where `mean_in(x)` is the mean of
  a node's in-neighbours' rows (the sum scattered along the edges, divided by the in-degree clamped at one).
  The kernel works on 20 tiles of 5000 rows: a tile's convolution together with its partial column sums of the
  values and of their squares; the host combines the partial sums into mean and variance (E[h²] − E[h]²); a second
  pass normalises and applies relu. The reference takes mean and variance over the whole 100000 rows at once.

  The three frames: the two kernel programs' are the generated frames; the reference's is its run with the result
  dropped. The idealization's ledger is empty. The algebraic claim joins the kernel's run (its result the tiled
  arrangement of the network) and the reference's run (its result the textbook arrangement) by the law that, on
  real data, a sum over 20×5000 tiles is the sum over the rows and E[h²] − E[h]² is the variance; the precondition
  makes every float argument a real array and both aggregations keep real arrays real.
-/
import proofs.«110434_j36318243455158_2_alg».proof.Defs
import proofs.«110434_j36318243455158_2_alg».proof.Proof.Gen.Kernel
import proofs.«110434_j36318243455158_2_alg».proof.Proof.Gen.Kernel.Skeleton
import proofs.«110434_j36318243455158_2_alg».proof.Proof.Gen.Kernel.Launch
import proofs.«110434_j36318243455158_2_alg».proof.Proof.Gen.Kernel.Points
import proofs.«110434_j36318243455158_2_alg».proof.Proof.Gen.Kernel.Frame
import proofs.«110434_j36318243455158_2_alg».proof.Proof.Gen.KernelIdeal
import proofs.«110434_j36318243455158_2_alg».proof.Proof.Gen.KernelIdeal.Skeleton
import proofs.«110434_j36318243455158_2_alg».proof.Proof.Gen.KernelIdeal.Launch
import proofs.«110434_j36318243455158_2_alg».proof.Proof.Gen.KernelIdeal.Points
import proofs.«110434_j36318243455158_2_alg».proof.Proof.Gen.KernelIdeal.Frame
import proofs.«110434_j36318243455158_2_alg».proof.Proof.Gen.ReferenceIdeal
import proofs.«110434_j36318243455158_2_alg».proof.Proof.Gen.Pre_finite_inputs
import proofs.«110434_j36318243455158_2_alg».proof.Proof.KChain
import proofs.«110434_j36318243455158_2_alg».proof.Proof.RefRun
import proofs.«110434_j36318243455158_2_alg».proof.Proof.RefRead
import proofs.«110434_j36318243455158_2_alg».proof.Proof.Assemble
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.RValue.run m ρ),
  trivial,
  Cert.Proof.Assemble.algebraic (fun m ρ => Cert.KernelIdeal.KValue.run m ρ) (fun m ρ => Cert.ReferenceIdeal.RValue.run m ρ) Cert.ReferenceIdeal.RValue.res_eq⟩

end Cert.Proof

end
